-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x56x56 : Shape := ⟨4, ![32, 64, 56, 56]⟩
abbrev S128x64x3x3 : Shape := ⟨4, ![128, 64, 3, 3]⟩
abbrev S128 : Shape := ⟨1, ![128]⟩
abbrev S128x128x3x3 : Shape := ⟨4, ![128, 128, 3, 3]⟩
abbrev S128x64x1x1 : Shape := ⟨4, ![128, 64, 1, 1]⟩
abbrev S_ : Shape := ⟨0, ![]⟩

class Facts : Prop where
  bcast_S_S32x64x56x56 : S_.BroadcastsInDim S32x64x56x56 (![] : Fin 0 → Fin S32x64x56x56.rank)
  reducesTo_S32x64x56x56_S_d0_1_2_3 : S32x64x56x56.ReducesTo [0, 1, 2, 3] S_
  h_S_ : 0 < S_.numel
  bcast_S_S128x64x3x3 : S_.BroadcastsInDim S128x64x3x3 (![] : Fin 0 → Fin S128x64x3x3.rank)
  reducesTo_S128x64x3x3_S_d0_1_2_3 : S128x64x3x3.ReducesTo [0, 1, 2, 3] S_
  bcast_S_S128 : S_.BroadcastsInDim S128 (![] : Fin 0 → Fin S128.rank)
  reducesTo_S128_S_d0 : S128.ReducesTo [0] S_
  bcast_S_S128x128x3x3 : S_.BroadcastsInDim S128x128x3x3 (![] : Fin 0 → Fin S128x128x3x3.rank)
  reducesTo_S128x128x3x3_S_d0_1_2_3 : S128x128x3x3.ReducesTo [0, 1, 2, 3] S_
  bcast_S_S128x64x1x1 : S_.BroadcastsInDim S128x64x1x1 (![] : Fin 0 → Fin S128x64x1x1.rank)
  reducesTo_S128x64x1x1_S_d0_1_2_3 : S128x64x1x1.ReducesTo [0, 1, 2, 3] S_

variable [Facts]

def fn_part4 {F : FTy → Type} [FloatOps F] (main_arg14 : FVec F S128 .f32) (main_arg15 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg11 : FVec F S128x64x1x1 .f32) (main_arg12 : FVec F S128 .f32) (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64x1x1 .f32 := Host.absf main_arg11
  let main_cst_20 : FVec F S_ .f32 := constant S_ .f32 0x7F800000#32
  let main_v55 : FVec F S128x64x1x1 .f32 := broadcastInDim S128x64x1x1 ![] bcast_S_S128x64x1x1 main_cst_20
  let main_v56 : IVec S128x64x1x1 1 := cmpf .olt main_v54 main_v55
  let main_c_21 : IVec S_ 1 := constantI S_ 1 1#1
  let main_v57 : IVec S_ 1 := (fun x v => Host.reduce IntOp.andi x v reducesTo_S128x64x1x1_S_d0_1_2_3 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_v63 main_v67

def fn_part2 {F : FTy → Type} [FloatOps F] (main_arg7 : FVec F S128 .f32) (main_arg8 : FVec F S128 .f32) (main_arg9 : FVec F S128 .f32) (main_arg10 : FVec F S128 .f32) (main_arg11 : FVec F S128x64x1x1 .f32) (main_arg12 : FVec F S128 .f32) (main_arg13 : FVec F S128 .f32) (main_arg14 : FVec F S128 .f32) (main_arg15 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_v48 main_v49 main_v50

def fn_part1 {F : FTy → Type} [FloatOps F] (main_arg4 : FVec F S128 .f32) (main_arg5 : FVec F S128 .f32) (main_arg6 : FVec F S128x128x3x3 .f32) (main_arg7 : FVec F S128 .f32) (main_arg8 : FVec F S128 .f32) (main_arg9 : FVec F S128 .f32) (main_arg10 : FVec F S128 .f32) (main_arg11 : FVec F S128x64x1x1 .f32) (main_arg12 : FVec F S128 .f32) (main_arg13 : FVec F S128 .f32) (main_arg14 : FVec F S128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128x3x3 .f32 := Host.absf main_arg6
  let main_cst_10 : FVec F S_ .f32 := constant S_ .f32 0x7F800000#32
  let main_v30 : FVec F S128x128x3x3 .f32 := broadcastInDim S128x128x3x3 ![] bcast_S_S128x128x3x3 main_cst_10
  let main_v31 : IVec S128x128x3x3 1 := cmpf .olt main_v29 main_v30
  let main_c_11 : IVec S_ 1 := constantI S_ 1 1#1
  let main_v32 : IVec S_ 1 := (fun x v => Host.reduce IntOp.andi x v reducesTo_S128x128x3x3_S_d0_1_2_3 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S32x64x56x56 .f32) (main_arg1 : FVec F S128x64x3x3 .f32) (main_arg2 : FVec F S128 .f32) (main_arg3 : FVec F S128 .f32) (main_arg4 : FVec F S128 .f32) (main_arg5 : FVec F S128 .f32) (main_arg6 : FVec F S128x128x3x3 .f32) (main_arg7 : FVec F S128 .f32) (main_arg8 : FVec F S128 .f32) (main_arg9 : FVec F S128 .f32) (main_arg10 : FVec F S128 .f32) (main_arg11 : FVec F S128x64x1x1 .f32) (main_arg12 : FVec F S128 .f32) (main_arg13 : FVec F S128 .f32) (main_arg14 : FVec F S128 .f32) (main_arg15 : FVec F S128 .f32) : IVec S_ 1 :=
  let main_v0 : FVec F S32x64x56x56 .f32 := Host.absf main_arg0
  let main_cst : FVec F S_ .f32 := constant S_ .f32 0x7F800000#32
  let main_v1 : FVec F S32x64x56x56 .f32 := broadcastInDim S32x64x56x56 ![] bcast_S_S32x64x56x56 main_cst
  let main_v2 : IVec S32x64x56x56 1 := cmpf .olt main_v0 main_v1
  let main_c : IVec S_ 1 := constantI S_ 1 1#1
  let main_v3 : IVec S_ 1 := (fun x v => Host.reduce IntOp.andi x v reducesTo_S32x64x56x56_S_d0_1_2_3 h_S_) main_v2 main_c
  let main_v4 : FVec F S128x64x3x3 .f32 := Host.absf main_arg1
  let main_cst_0 : FVec F S_ .f32 := constant S_ .f32 0x7F800000#32
  let main_v5 : FVec F S128x64x3x3 .f32 := broadcastInDim S128x64x3x3 ![] bcast_S_S128x64x3x3 main_cst_0
  let main_v6 : IVec S128x64x3x3 1 := cmpf .olt main_v4 main_v5
  let main_c_1 : IVec S_ 1 := constantI S_ 1 1#1
  let main_v7 : IVec S_ 1 := (fun x v => Host.reduce IntOp.andi x v reducesTo_S128x64x3x3_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S32x64x56x56 : Shape := ⟨4, ![32, 64, 56, 56]⟩
abbrev S128x64x3x3 : Shape := ⟨4, ![128, 64, 3, 3]⟩
abbrev S128 : Shape := ⟨1, ![128]⟩
abbrev S128x128x3x3 : Shape := ⟨4, ![128, 128, 3, 3]⟩
abbrev S128x64x1x1 : Shape := ⟨4, ![128, 64, 1, 1]⟩
abbrev S32x56x56x64 : Shape := ⟨4, ![32, 56, 56, 64]⟩
abbrev S32x3136x64 : Shape := ⟨3, ![32, 3136, 64]⟩
abbrev S_ : Shape := ⟨0, ![]⟩
abbrev S1x128 : Shape := ⟨2, ![1, 128]⟩
abbrev S8x128 : Shape := ⟨2, ![8, 128]⟩
abbrev S3x64x3x128 : Shape := ⟨4, ![3, 64, 3, 128]⟩
abbrev S192x384 : Shape := ⟨2, ![192, 384]⟩
abbrev S192x128 : Shape := ⟨2, ![192, 128]⟩
abbrev S128x64 : Shape := ⟨2, ![128, 64]⟩
abbrev S64x128 : Shape := ⟨2, ![64, 128]⟩
abbrev S1 : Shape := ⟨1, ![1]⟩
abbrev S192x512 : Shape := ⟨2, ![192, 512]⟩
abbrev S3x128x3x128 : Shape := ⟨4, ![3, 128, 3, 128]⟩
abbrev S384x384 : Shape := ⟨2, ![384, 384]⟩
abbrev S32x56x56x128 : Shape := ⟨4, ![32, 56, 56, 128]⟩
abbrev S2x3136x64 : Shape := ⟨3, ![2, 3136, 64]⟩
abbrev S2x56x56x128 : Shape := ⟨4, ![2, 56, 56, 128]⟩
abbrev S116x64x128 : Shape := ⟨3, ![116, 64, 128]⟩
abbrev S116x64x64 : Shape := ⟨3, ![116, 64, 64]⟩
abbrev S1x64x64 : Shape := ⟨3, ![1, 64, 64]⟩
abbrev S56x1x64 : Shape := ⟨3, ![56, 1, 64]⟩
abbrev S56x2x64 : Shape := ⟨3, ![56, 2, 64]⟩
abbrev S56x7x64 : Shape := ⟨3, ![56, 7, 64]⟩
abbrev S56x8x64 : Shape := ⟨3, ![56, 8, 64]⟩
abbrev S1x3136x64 : Shape := ⟨3, ![1, 3136, 64]⟩
abbrev S3136x64 : Shape := ⟨2, ![3136, 64]⟩
abbrev S56x56x64 : Shape := ⟨3, ![56, 56, 64]⟩
abbrev S56x58x64 : Shape := ⟨3, ![56, 58, 64]⟩
abbrev S7424x64 : Shape := ⟨2, ![7424, 64]⟩
abbrev S3712x64 : Shape := ⟨2, ![3712, 64]⟩
abbrev S3584x64 : Shape := ⟨2, ![3584, 64]⟩
abbrev S3584x192 : Shape := ⟨2, ![3584, 192]⟩
abbrev S7168x192 : Shape := ⟨2, ![7168, 192]⟩
abbrev S192x256 : Shape := ⟨2, ![192, 256]⟩
abbrev S7168x256 : Shape := ⟨2, ![7168, 256]⟩
abbrev S112x64x256 : Shape := ⟨3, ![112, 64, 256]⟩
abbrev S112x56x128 : Shape := ⟨3, ![112, 56, 128]⟩
abbrev S1x1x128 : Shape := ⟨3, ![1, 1, 128]⟩
abbrev S1x64x128 : Shape := ⟨3, ![1, 64, 128]⟩
abbrev S56x1x128 : Shape := ⟨3, ![56, 1, 128]⟩
abbrev S56x2x128 : Shape := ⟨3, ![56, 2, 128]⟩
abbrev S56x7x128 : Shape := ⟨3, ![56, 7, 128]⟩
abbrev S56x8x128 : Shape := ⟨3, ![56, 8, 128]⟩
abbrev S56x56x128 : Shape := ⟨3, ![56, 56, 128]⟩
abbrev S56x58x128 : Shape := ⟨3, ![56, 58, 128]⟩
abbrev S7424x128 : Shape := ⟨2, ![7424, 128]⟩
abbrev S3712x128 : Shape := ⟨2, ![3712, 128]⟩
abbrev S3584x128 : Shape := ⟨2, ![3584, 128]⟩
abbrev S3584x384 : Shape := ⟨2, ![3584, 384]⟩
abbrev S7168x384 : Shape := ⟨2, ![7168, 384]⟩
abbrev S384x256 : Shape := ⟨2, ![384, 256]⟩
abbrev S384x128 : Shape := ⟨2, ![384, 128]⟩
abbrev S7168x128 : Shape := ⟨2, ![7168, 128]⟩
abbrev S112x64x128 : Shape := ⟨3, ![112, 64, 128]⟩
abbrev S32x128x56x56 : Shape := ⟨4, ![32, 128, 56, 56]⟩

abbrev nBuf : Space → Nat
  | .hbm => 67
  | .vmem => 9
  | .smem => 0
  | _ => 0

abbrev bufTy : (tb : Table) → Fin (tcTables nBuf tb) → BufTy
  | .hbm, ⟨0, _⟩ => ⟨S32x64x56x56, .f32⟩
  | .hbm, ⟨1, _⟩ => ⟨S128x64x3x3, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128x3x3, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x64x1x1, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S32x56x56x64, .f32⟩
  | .hbm, ⟨17, _⟩ => ⟨S32x56x56x64, .bf16⟩
  | .hbm, ⟨18, _⟩ => ⟨S32x3136x64, .bf16⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S8x128, .f32⟩
  | .hbm, ⟨51, _⟩ => ⟨S3x64x3x128, .f32⟩
  | .hbm, ⟨52, _⟩ => ⟨S192x384, .f32⟩
  | .hbm, ⟨53, _⟩ => ⟨S_, .f32⟩
  | .hbm, ⟨54, _⟩ => ⟨S192x128, .f32⟩
  | .hbm, ⟨55, _⟩ => ⟨S128x64, .f32⟩
  | .hbm, ⟨56, _⟩ => ⟨S64x128, .f32⟩
  | .hbm, ⟨57, _⟩ => ⟨S_, .i32⟩
  | .hbm, ⟨58, _⟩ => ⟨S1, .i32⟩
  | .hbm, ⟨59, _⟩ => ⟨S192x128, .f32⟩
  | .hbm, ⟨60, _⟩ => ⟨S192x512, .f32⟩
  | .hbm, ⟨61, _⟩ => ⟨S192x512, .bf16⟩
  | .hbm, ⟨62, _⟩ => ⟨S3x128x3x128, .f32⟩
  | .hbm, ⟨63, _⟩ => ⟨S384x384, .f32⟩
  | .hbm, ⟨64, _⟩ => ⟨S384x384, .bf16⟩
  | .hbm, ⟨65, _⟩ => ⟨S32x56x56x128, .f32⟩
  | .hbm, ⟨66, _⟩ => ⟨S32x128x56x56, .f32⟩
  | .local _ .vmem, ⟨0, _⟩ => ⟨S2x3136x64, .bf16⟩
  | .local _ .vmem, ⟨1, _⟩ => ⟨S2x3136x64, .bf16⟩
  | .local _ .vmem, ⟨2, _⟩ => ⟨S192x512, .bf16⟩
  | .local _ .vmem, ⟨3, _⟩ => ⟨S384x384, .bf16⟩
  | .local _ .vmem, ⟨4, _⟩ => ⟨S8x128, .f32⟩
  | .local _ .vmem, ⟨5, _⟩ => ⟨S2x56x56x128, .f32⟩
  | .local _ .vmem, ⟨6, _⟩ => ⟨S2x56x56x128, .f32⟩
  | .local _ .vmem, ⟨7, _⟩ => ⟨S116x64x128, .bf16⟩
  | .local _ .vmem, ⟨8, _⟩ => ⟨S116x64x64, .bf16⟩
  | _, _ => ⟨S32x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_3 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x3136x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x56x56x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S32x64x56x56_S32x56x56x64_0_2_3_1 : S32x64x56x56.Transposes [0, 2, 3, 1] S32x56x56x64
  bitsLt_bf16_f32 : FTy.bits .bf16 < FTy.bits .f32
  shapeCasts_S32x56x56x64_S32x3136x64 : S32x56x56x64.ShapeCasts S32x3136x64
  bcast_S_S128 : S_.BroadcastsInDim S128 (![] : Fin 0 → Fin S128.rank)
  bcast_S128_S1x128_1 : S128.BroadcastsInDim S1x128 (![1] : Fin 1 → Fin S1x128.rank)
  concatenates_S1x128_S1x128_S1x128_S1x128_S1x128_S1x128_S1x128_S1x128_S8x128_d0 : Shape.Concatenates [S1x128, S1x128, S1x128, S1x128, S1x128, S1x128, S1x128, S1x128] S8x128 0
  transposes_S128x64x3x3_S3x64x3x128_2_1_3_0 : S128x64x3x3.Transposes [2, 1, 3, 0] S3x64x3x128
  shapeCasts_S3x64x3x128_S192x384 : S3x64x3x128.ShapeCasts S192x384
  bcast_S_S192x128 : S_.BroadcastsInDim S192x128 (![] : Fin 0 → Fin S192x128.rank)
  shapeCasts_S128x64x1x1_S128x64 : S128x64x1x1.ShapeCasts S128x64
  transposes_S128x64_S64x128_1_0 : S128x64.Transposes [1, 0] S64x128
  bcast_S_S1 : S_.BroadcastsInDim S1 (![] : Fin 0 → Fin S1.rank)
  concatenates_S192x384_S192x128_S192x512_d1 : Shape.Concatenates [S192x384, S192x128] S192x512 1
  transposes_S128x128x3x3_S3x128x3x128_2_1_3_0 : S128x128x3x3.Transposes [2, 1, 3, 0] S3x128x3x128
  shapeCasts_S3x128x3x128_S384x384 : S3x128x3x128.ShapeCasts S384x384
  inb_S116x64x64_S1x64x64_0_0_0 : ∀ a, (![0, 0, 0] : Fin 3 → Nat) a + S1x64x64.size a ≤ S116x64x64.size a
  h_S1x64x64 : 0 < S1x64x64.numel
  shapeCasts_S1x64x64_S1x64x64 : S1x64x64.ShapeCasts S1x64x64
  packedbf16_S116x64x64_S1x64x64_0_0_0 : (Rect.unit (s := S116x64x64) ![0, 0, 0] S1x64x64.size inb_S116x64x64_S1x64x64_0_0_0).PackedRows (EltTy.packing .bf16)
  inb_S116x64x64_S1x64x64_57_0_0 : ∀ a, (![57, 0, 0] : Fin 3 → Nat) a + S1x64x64.size a ≤ S116x64x64.size a
  packedbf16_S116x64x64_S1x64x64_57_0_0 : (Rect.unit (s := S116x64x64) ![57, 0, 0] S1x64x64.size inb_S116x64x64_S1x64x64_57_0_0).PackedRows (EltTy.packing .bf16)
  inb_S116x64x64_S56x1x64_1_0_0 : ∀ a, (![1, 0, 0] : Fin 3 → Nat) a + S56x1x64.size a ≤ S116x64x64.size a
  h_S56x1x64 : 0 < S56x1x64.numel
  shapeCasts_S56x1x64_S56x1x64 : S56x1x64.ShapeCasts S56x1x64
  inb_S116x64x64_S56x2x64_1_0_0 : ∀ a, (![1, 0, 0] : Fin 3 → Nat) a + S56x2x64.size a ≤ S116x64x64.size a
  h_S56x2x64 : 0 < S56x2x64.numel
  slices_S56x2x64_S56x1x64_0_0_0 : S56x2x64.Slices ![0, 0, 0] S56x1x64
  packedbf16_S116x64x64_S56x2x64_1_0_0 : (Rect.unit (s := S116x64x64) ![1, 0, 0] S56x2x64.size inb_S116x64x64_S56x2x64_1_0_0).PackedRows (EltTy.packing .bf16)
  inb_S116x64x64_S56x7x64_1_57_0 : ∀ a, (![1, 57, 0] : Fin 3 → Nat) a + S56x7x64.size a ≤ S116x64x64.size a
  h_S56x7x64 : 0 < S56x7x64.numel
  shapeCasts_S56x7x64_S56x7x64 : S56x7x64.ShapeCasts S56x7x64
  inb_S116x64x64_S56x8x64_1_56_0 : ∀ a, (![1, 56, 0] : Fin 3 → Nat) a + S56x8x64.size a ≤ S116x64x64.size a
  h_S56x8x64 : 0 < S56x8x64.numel
  slices_S56x8x64_S56x7x64_0_1_0 : S56x8x64.Slices ![0, 1, 0] S56x7x64
  packedbf16_S116x64x64_S56x8x64_1_56_0 : (Rect.unit (s := S116x64x64) ![1, 56, 0] S56x8x64.size inb_S116x64x64_S56x8x64_1_56_0).PackedRows (EltTy.packing .bf16)
  inb_S2x3136x64_S1x3136x64_0_0_0 : ∀ a, (![0, 0, 0] : Fin 3 → Nat) a + S1x3136x64.size a ≤ S2x3136x64.size a
  h_S1x3136x64 : 0 < S1x3136x64.numel
  shapeCasts_S1x3136x64_S3136x64 : S1x3136x64.ShapeCasts S3136x64
  shapeCasts_S3136x64_S56x56x64 : S3136x64.ShapeCasts S56x56x64
  inb_S116x64x64_S56x56x64_1_1_0 : ∀ a, (![1, 1, 0] : Fin 3 → Nat) a + S56x56x64.size a ≤ S116x64x64.size a
  h_S56x56x64 : 0 < S56x56x64.numel
  shapeCasts_S56x56x64_S56x56x64 : S56x56x64.ShapeCasts S56x56x64
  inb_S116x64x64_S56x58x64_1_0_0 : ∀ a, (![1, 0, 0] : Fin 3 → Nat) a + S56x58x64.size a ≤ S116x64x64.size a
  h_S56x58x64 : 0 < S56x58x64.numel
  slices_S56x58x64_S56x56x64_0_1_0 : S56x58x64.Slices ![0, 1, 0] S56x56x64
  packedbf16_S116x64x64_S56x58x64_1_0_0 : (Rect.unit (s := S116x64x64) ![1, 0, 0] S56x58x64.size inb_S116x64x64_S56x58x64_1_0_0).PackedRows (EltTy.packing .bf16)
  inb_S116x64x64_S1x64x64_58_0_0 : ∀ a, (![58, 0, 0] : Fin 3 → Nat) a + S1x64x64.size a ≤ S116x64x64.size a
  packedbf16_S116x64x64_S1x64x64_58_0_0 : (Rect.unit (s := S116x64x64) ![58, 0, 0] S1x64x64.size inb_S116x64x64_S1x64x64_58_0_0).PackedRows (EltTy.packing .bf16)
  inb_S116x64x64_S1x64x64_115_0_0 : ∀ a, (![115, 0, 0] : Fin 3 → Nat) a + S1x64x64.size a ≤ S116x64x64.size a
  packedbf16_S116x64x64_S1x64x64_115_0_0 : (Rect.unit (s := S116x64x64) ![115, 0, 0] S1x64x64.size inb_S116x64x64_S1x64x64_115_0_0).PackedRows (EltTy.packing .bf16)
  inb_S116x64x64_S56x1x64_59_0_0 : ∀ a, (![59, 0, 0] : Fin 3 → Nat) a + S56x1x64.size a ≤ S116x64x64.size a
  inb_S116x64x64_S56x2x64_59_0_0 : ∀ a, (![59, 0, 0] : Fin 3 → Nat) a + S56x2x64.size a ≤ S116x64x64.size a
  packedbf16_S116x64x64_S56x2x64_59_0_0 : (Rect.unit (s := S116x64x64) ![59, 0, 0] S56x2x64.size inb_S116x64x64_S56x2x64_59_0_0).PackedRows (EltTy.packing .bf16)
  inb_S116x64x64_S56x7x64_59_57_0 : ∀ a, (![59, 57, 0] : Fin 3 → Nat) a + S56x7x64.size a ≤ S116x64x64.size a
  inb_S116x64x64_S56x8x64_59_56_0 : ∀ a, (![59, 56, 0] : Fin 3 → Nat) a + S56x8x64.size a ≤ S116x64x64.size a
  packedbf16_S116x64x64_S56x8x64_59_56_0 : (Rect.unit (s := S116x64x64) ![59, 56, 0] S56x8x64.size inb_S116x64x64_S56x8x64_59_56_0).PackedRows (EltTy.packing .bf16)
  inb_S2x3136x64_S1x3136x64_1_0_0 : ∀ a, (![1, 0, 0] : Fin 3 → Nat) a + S1x3136x64.size a ≤ S2x3136x64.size a
  inb_S116x64x64_S56x56x64_59_1_0 : ∀ a, (![59, 1, 0] : Fin 3 → Nat) a + S56x56x64.size a ≤ S116x64x64.size a
  inb_S116x64x64_S56x58x64_59_0_0 : ∀ a, (![59, 0, 0] : Fin 3 → Nat) a + S56x58x64.size a ≤ S116x64x64.size a
  packedbf16_S116x64x64_S56x58x64_59_0_0 : (Rect.unit (s := S116x64x64) ![59, 0, 0] S56x58x64.size inb_S116x64x64_S56x58x64_59_0_0).PackedRows (EltTy.packing .bf16)
  inb_S116x64x64_S116x64x64_0_0_0 : ∀ a, (![0, 0, 0] : Fin 3 → Nat) a + S116x64x64.size a ≤ S116x64x64.size a
  h_S116x64x64 : 0 < S116x64x64.numel
  shapeCasts_S116x64x64_S7424x64 : S116x64x64.ShapeCasts S7424x64
  slices_S7424x64_o0_0_S3712x64 : S7424x64.Slices ![0, 0] S3712x64
  slices_S3712x64_o0_0_S3584x64 : S3712x64.Slices ![0, 0] S3584x64
  slices_S3712x64_o64_0_S3584x64 : S3712x64.Slices ![64, 0] S3584x64
  slices_S3712x64_o128_0_S3584x64 : S3712x64.Slices ![128, 0] S3584x64
  concatenates_S3584x64_S3584x64_S3584x64_S3584x192_d1 : Shape.Concatenates [S3584x64, S3584x64, S3584x64] S3584x192 1
  slices_S7424x64_o3712_0_S3712x64 : S7424x64.Slices ![3712, 0] S3712x64
  concatenates_S3584x192_S3584x192_S7168x192_d0 : Shape.Concatenates [S3584x192, S3584x192] S7168x192 0
  inb_S192x512_S192x256_0_0 : ∀ a, (![0, 0] : Fin 2 → Nat) a + S192x256.size a ≤ S192x512.size a
  h_S192x256 : 0 < S192x256.numel
  shapeCasts_S192x256_S192x256 : S192x256.ShapeCasts S192x256
  shapeCasts_S7168x256_S112x64x256 : S7168x256.ShapeCasts S112x64x256
  slices_S112x64x256_o0_0_0_S112x56x128 : S112x64x256.Slices ![0, 0, 0] S112x56x128
  slices_S112x64x256_o0_1_128_S112x56x128 : S112x64x256.Slices ![0, 1, 128] S112x56x128
  inb_S192x512_S192x256_0_256 : ∀ a, (![0, 256] : Fin 2 → Nat) a + S192x256.size a ≤ S192x512.size a
  slices_S112x64x256_o0_2_0_S112x56x128 : S112x64x256.Slices ![0, 2, 0] S112x56x128
  inb_S8x128_S1x128_0_0 : ∀ a, (![0, 0] : Fin 2 → Nat) a + S1x128.size a ≤ S8x128.size a
  h_S1x128 : 0 < S1x128.numel
  shapeCasts_S1x128_S1x128 : S1x128.ShapeCasts S1x128
  shapeCasts_S1x128_S1x1x128 : S1x128.ShapeCasts S1x1x128
  inb_S8x128_S1x128_1_0 : ∀ a, (![1, 0] : Fin 2 → Nat) a + S1x128.size a ≤ S8x128.size a
  broadcasts_S1x1x128_S112x56x128 : S1x1x128.Broadcasts S112x56x128
  inb_S116x64x128_S1x64x128_0_0_0 : ∀ a, (![0, 0, 0] : Fin 3 → Nat) a + S1x64x128.size a ≤ S116x64x128.size a
  h_S1x64x128 : 0 < S1x64x128.numel
  shapeCasts_S1x64x128_S1x64x128 : S1x64x128.ShapeCasts S1x64x128
  packedbf16_S116x64x128_S1x64x128_0_0_0 : (Rect.unit (s := S116x64x128) ![0, 0, 0] S1x64x128.size inb_S116x64x128_S1x64x128_0_0_0).PackedRows (EltTy.packing .bf16)
  inb_S116x64x128_S1x64x128_57_0_0 : ∀ a, (![57, 0, 0] : Fin 3 → Nat) a + S1x64x128.size a ≤ S116x64x128.size a
  packedbf16_S116x64x128_S1x64x128_57_0_0 : (Rect.unit (s := S116x64x128) ![57, 0, 0] S1x64x128.size inb_S116x64x128_S1x64x128_57_0_0).PackedRows (EltTy.packing .bf16)
  inb_S116x64x128_S56x1x128_1_0_0 : ∀ a, (![1, 0, 0] : Fin 3 → Nat) a + S56x1x128.size a ≤ S116x64x128.size a
  h_S56x1x128 : 0 < S56x1x128.numel
  shapeCasts_S56x1x128_S56x1x128 : S56x1x128.ShapeCasts S56x1x128
  inb_S116x64x128_S56x2x128_1_0_0 : ∀ a, (![1, 0, 0] : Fin 3 → Nat) a + S56x2x128.size a ≤ S116x64x128.size a
  h_S56x2x128 : 0 < S56x2x128.numel
  slices_S56x2x128_S56x1x128_0_0_0 : S56x2x128.Slices ![0, 0, 0] S56x1x128
  packedbf16_S116x64x128_S56x2x128_1_0_0 : (Rect.unit (s := S116x64x128) ![1, 0, 0] S56x2x128.size inb_S116x64x128_S56x2x128_1_0_0).PackedRows (EltTy.packing .bf16)
  inb_S116x64x128_S56x7x128_1_57_0 : ∀ a, (![1, 57, 0] : Fin 3 → Nat) a + S56x7x128.size a ≤ S116x64x128.size a
  h_S56x7x128 : 0 < S56x7x128.numel
  shapeCasts_S56x7x128_S56x7x128 : S56x7x128.ShapeCasts S56x7x128
  inb_S116x64x128_S56x8x128_1_56_0 : ∀ a, (![1, 56, 0] : Fin 3 → Nat) a + S56x8x128.size a ≤ S116x64x128.size a
  h_S56x8x128 : 0 < S56x8x128.numel
  slices_S56x8x128_S56x7x128_0_1_0 : S56x8x128.Slices ![0, 1, 0] S56x7x128
  packedbf16_S116x64x128_S56x8x128_1_56_0 : (Rect.unit (s := S116x64x128) ![1, 56, 0] S56x8x128.size inb_S116x64x128_S56x8x128_1_56_0).PackedRows (EltTy.packing .bf16)
  slices_S112x56x128_o0_0_0_S56x56x128 : S112x56x128.Slices ![0, 0, 0] S56x56x128
  inb_S116x64x128_S56x56x128_1_1_0 : ∀ a, (![1, 1, 0] : Fin 3 → Nat) a + S56x56x128.size a ≤ S116x64x128.size a
  h_S56x56x128 : 0 < S56x56x128.numel
  shapeCasts_S56x56x128_S56x56x128 : S56x56x128.ShapeCasts S56x56x128
  inb_S116x64x128_S56x58x128_1_0_0 : ∀ a, (![1, 0, 0] : Fin 3 → Nat) a + S56x58x128.size a ≤ S116x64x128.size a
  h_S56x58x128 : 0 < S56x58x128.numel
  slices_S56x58x128_S56x56x128_0_1_0 : S56x58x128.Slices ![0, 1, 0] S56x56x128
  packedbf16_S116x64x128_S56x58x128_1_0_0 : (Rect.unit (s := S116x64x128) ![1, 0, 0] S56x58x128.size inb_S116x64x128_S56x58x128_1_0_0).PackedRows (EltTy.packing .bf16)
  inb_S116x64x128_S1x64x128_58_0_0 : ∀ a, (![58, 0, 0] : Fin 3 → Nat) a + S1x64x128.size a ≤ S116x64x128.size a
  packedbf16_S116x64x128_S1x64x128_58_0_0 : (Rect.unit (s := S116x64x128) ![58, 0, 0] S1x64x128.size inb_S116x64x128_S1x64x128_58_0_0).PackedRows (EltTy.packing .bf16)
  inb_S116x64x128_S1x64x128_115_0_0 : ∀ a, (![115, 0, 0] : Fin 3 → Nat) a + S1x64x128.size a ≤ S116x64x128.size a
  packedbf16_S116x64x128_S1x64x128_115_0_0 : (Rect.unit (s := S116x64x128) ![115, 0, 0] S1x64x128.size inb_S116x64x128_S1x64x128_115_0_0).PackedRows (EltTy.packing .bf16)
  inb_S116x64x128_S56x1x128_59_0_0 : ∀ a, (![59, 0, 0] : Fin 3 → Nat) a + S56x1x128.size a ≤ S116x64x128.size a
  inb_S116x64x128_S56x2x128_59_0_0 : ∀ a, (![59, 0, 0] : Fin 3 → Nat) a + S56x2x128.size a ≤ S116x64x128.size a
  packedbf16_S116x64x128_S56x2x128_59_0_0 : (Rect.unit (s := S116x64x128) ![59, 0, 0] S56x2x128.size inb_S116x64x128_S56x2x128_59_0_0).PackedRows (EltTy.packing .bf16)
  inb_S116x64x128_S56x7x128_59_57_0 : ∀ a, (![59, 57, 0] : Fin 3 → Nat) a + S56x7x128.size a ≤ S116x64x128.size a
  inb_S116x64x128_S56x8x128_59_56_0 : ∀ a, (![59, 56, 0] : Fin 3 → Nat) a + S56x8x128.size a ≤ S116x64x128.size a
  packedbf16_S116x64x128_S56x8x128_59_56_0 : (Rect.unit (s := S116x64x128) ![59, 56, 0] S56x8x128.size inb_S116x64x128_S56x8x128_59_56_0).PackedRows (EltTy.packing .bf16)
  slices_S112x56x128_o56_0_0_S56x56x128 : S112x56x128.Slices ![56, 0, 0] S56x56x128
  inb_S116x64x128_S56x56x128_59_1_0 : ∀ a, (![59, 1, 0] : Fin 3 → Nat) a + S56x56x128.size a ≤ S116x64x128.size a
  inb_S116x64x128_S56x58x128_59_0_0 : ∀ a, (![59, 0, 0] : Fin 3 → Nat) a + S56x58x128.size a ≤ S116x64x128.size a
  packedbf16_S116x64x128_S56x58x128_59_0_0 : (Rect.unit (s := S116x64x128) ![59, 0, 0] S56x58x128.size inb_S116x64x128_S56x58x128_59_0_0).PackedRows (EltTy.packing .bf16)
  inb_S116x64x128_S116x64x128_0_0_0 : ∀ a, (![0, 0, 0] : Fin 3 → Nat) a + S116x64x128.size a ≤ S116x64x128.size a
  h_S116x64x128 : 0 < S116x64x128.numel
  shapeCasts_S116x64x128_S7424x128 : S116x64x128.ShapeCasts S7424x128
  slices_S7424x128_o0_0_S3712x128 : S7424x128.Slices ![0, 0] S3712x128
  slices_S3712x128_o0_0_S3584x128 : S3712x128.Slices ![0, 0] S3584x128
  slices_S3712x128_o64_0_S3584x128 : S3712x128.Slices ![64, 0] S3584x128
  slices_S3712x128_o128_0_S3584x128 : S3712x128.Slices ![128, 0] S3584x128
  concatenates_S3584x128_S3584x128_S3584x128_S3584x384_d1 : Shape.Concatenates [S3584x128, S3584x128, S3584x128] S3584x384 1
  slices_S7424x128_o3712_0_S3712x128 : S7424x128.Slices ![3712, 0] S3712x128
  concatenates_S3584x384_S3584x384_S7168x384_d0 : Shape.Concatenates [S3584x384, S3584x384] S7168x384 0
  inb_S384x384_S384x256_0_0 : ∀ a, (![0, 0] : Fin 2 → Nat) a + S384x256.size a ≤ S384x384.size a
  h_S384x256 : 0 < S384x256.numel
  shapeCasts_S384x256_S384x256 : S384x256.ShapeCasts S384x256
  inb_S384x384_S384x128_0_256 : ∀ a, (![0, 256] : Fin 2 → Nat) a + S384x128.size a ≤ S384x384.size a
  h_S384x128 : 0 < S384x128.numel
  shapeCasts_S384x128_S384x128 : S384x128.ShapeCasts S384x128
  shapeCasts_S7168x128_S112x64x128 : S7168x128.ShapeCasts S112x64x128
  slices_S112x64x128_o0_2_0_S112x56x128 : S112x64x128.Slices ![0, 2, 0] S112x56x128
  inb_S8x128_S1x128_2_0 : ∀ a, (![2, 0] : Fin 2 → Nat) a + S1x128.size a ≤ S8x128.size a
  inb_S8x128_S1x128_3_0 : ∀ a, (![3, 0] : Fin 2 → Nat) a + S1x128.size a ≤ S8x128.size a
  inb_S8x128_S1x128_4_0 : ∀ a, (![4, 0] : Fin 2 → Nat) a + S1x128.size a ≤ S8x128.size a
  inb_S8x128_S1x128_5_0 : ∀ a, (![5, 0] : Fin 2 → Nat) a + S1x128.size a ≤ S8x128.size a
  shapeCasts_S112x56x128_S2x56x56x128 : S112x56x128.ShapeCasts S2x56x56x128
  inb_S2x56x56x128_S2x56x56x128_0_0_0_0 : ∀ a, (![0, 0, 0, 0] : Fin 4 → Nat) a + S2x56x56x128.size a ≤ S2x56x56x128.size a
  h_S2x56x56x128 : 0 < S2x56x56x128.numel
  transposes_S32x56x56x128_S32x128x56x56_0_3_1_2 : S32x56x56x128.Transposes [0, 3, 1, 2] S32x128x56x56
  scatter_S192x128_S1_S64x128_01_n_0_0_wf : ScatterDims.WF S192x128 S1 S64x128 [0, 1] [] [0] 0
  dot_S7168x192_S192x256_S7168x256_1_0_0_1_n_n_wf : DotDims.WF S7168x192 S192x256 S7168x256 [1] [0] [0] [1] [] []
  dot_S7168x384_S384x256_S7168x256_1_0_0_1_n_n_wf : DotDims.WF S7168x384 S384x256 S7168x256 [1] [0] [0] [1] [] []
  dot_S7168x384_S384x128_S7168x128_1_0_0_1_n_n_wf : DotDims.WF S7168x384 S384x128 S7168x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x3136x64.size a ≤ S32x3136x64.size a
  hwx0_0 : ∀ i : grid0.Coords, EltTy.bits .bf16 = 32 ∨ (Rect.block (s := S32x3136x64) S2x3136x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x512.size a ≤ S192x512.size a
  hwx0_1 : ∀ i : grid0.Coords, EltTy.bits .bf16 = 32 ∨ (Rect.block (s := S192x512) S192x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x384.size a ≤ S384x384.size a
  hwx0_2 : ∀ i : grid0.Coords, EltTy.bits .bf16 = 32 ∨ (Rect.block (s := S384x384) S384x384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x56x56x128.size a ≤ S32x56x56x128.size a
  hwx0_4 : ∀ i : grid0.Coords, EltTy.bits .f32 = 32 ∨ (Rect.block (s := S32x56x56x128) S2x56x56x128.size (cc0_transform_4 i) (hinb0_4 i)).WholeWords (EltTy.packing .f32)

variable [Facts₀]

def scatter_S192x128_S1_S64x128_01_n_0_0 : ScatterDims S192x128 S1 S64x128 where
  updateWindowDims := [0, 1]
  insertedWindowDims := []
  scatterDimsToOperandDims := [0]
  indexVectorDim := 0
  wf := scatter_S192x128_S1_S64x128_01_n_0_0_wf
def dot_S7168x192_S192x256_S7168x256_1_0_0_1_n_n : DotDims S7168x192 S192x256 S7168x256 where
  lhsContracting := [1]
  rhsContracting := [0]
  lhsNonContracting := [0]
  rhsNonContracting := [1]
  lhsBatch := []
  rhsBatch := []
  wf := dot_S7168x192_S192x256_S7168x256_1_0_0_1_n_n_wf
def dot_S7168x384_S384x256_S7168x256_1_0_0_1_n_n : DotDims S7168x384 S384x256 S7168x256 where
  lhsContracting := [1]
  rhsContracting := [0]
  lhsNonContracting := [0]
  rhsNonContracting := [1]
  lhsBatch := []
  rhsBatch := []
  wf := dot_S7168x384_S384x256_S7168x256_1_0_0_1_n_n_wf
def dot_S7168x384_S384x128_S7168x128_1_0_0_1_n_n : DotDims S7168x384 S384x128 S7168x128 where
  lhsContracting := [1]
  rhsContracting := [0]
  lhsNonContracting := [0]
  rhsNonContracting := [1]
  lhsBatch := []
  rhsBatch := []
  wf := dot_S7168x384_S384x128_S7168x128_1_0_0_1_n_n_wf

abbrev win0_0 : Pipeline.Window sig grid0 :=
  Pipeline.Window.ofSpec (Memref.whole main_v2) S2x3136x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S384x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S2x56x56x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x64x56x56 : Shape := ⟨4, ![32, 64, 56, 56]⟩
abbrev S128x64x3x3 : Shape := ⟨4, ![128, 64, 3, 3]⟩
abbrev S128 : Shape := ⟨1, ![128]⟩
abbrev S128x128x3x3 : Shape := ⟨4, ![128, 128, 3, 3]⟩
abbrev S128x64x1x1 : Shape := ⟨4, ![128, 64, 1, 1]⟩
abbrev S32x56x56x64 : Shape := ⟨4, ![32, 56, 56, 64]⟩
abbrev S100352x64 : Shape := ⟨2, ![100352, 64]⟩
abbrev S_ : Shape := ⟨0, ![]⟩
abbrev S1x128 : Shape := ⟨2, ![1, 128]⟩
abbrev S1x1x64x128 : Shape := ⟨4, ![1, 1, 64, 128]⟩
abbrev S64x128 : Shape := ⟨2, ![64, 128]⟩
abbrev S100352x128 : Shape := ⟨2, ![100352, 128]⟩
abbrev S512x64 : Shape := ⟨2, ![512, 64]⟩
abbrev S512x128 : Shape := ⟨2, ![512, 128]⟩
abbrev S32x58x58x64 : Shape := ⟨4, ![32, 58, 58, 64]⟩
abbrev S100352x576 : Shape := ⟨2, ![100352, 576]⟩
abbrev S3x3x64x128 : Shape := ⟨4, ![3, 3, 64, 128]⟩
abbrev S576x128 : Shape := ⟨2, ![576, 128]⟩
abbrev S512x576 : Shape := ⟨2, ![512, 576]⟩
abbrev S32x56x56x128 : Shape := ⟨4, ![32, 56, 56, 128]⟩
abbrev S32x58x58x128 : Shape := ⟨4, ![32, 58, 58, 128]⟩
abbrev S100352x1152 : Shape := ⟨2, ![100352, 1152]⟩
abbrev S3x3x128x128 : Shape := ⟨4, ![3, 3, 128, 128]⟩
abbrev S1152x128 : Shape := ⟨2, ![1152, 128]⟩
abbrev S512x1152 : Shape := ⟨2, ![512, 1152]⟩
abbrev S32x128x56x56 : Shape := ⟨4, ![32, 128, 56, 56]⟩

abbrev nBuf : Space → Nat
  | .hbm => 106
  | .vmem => 23
  | .smem => 0
  | _ => 0

abbrev bufTy : (tb : Table) → Fin (tcTables nBuf tb) → BufTy
  | .hbm, ⟨0, _⟩ => ⟨S32x64x56x56, .f32⟩
  | .hbm, ⟨1, _⟩ => ⟨S128x64x3x3, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128x3x3, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x64x1x1, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S32x56x56x64, .f32⟩
  | .hbm, ⟨17, _⟩ => ⟨S100352x64, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S1x128, .f32⟩
  | .hbm, ⟨26, _⟩ => ⟨S1x128, .f32⟩
  | .hbm, ⟨27, _⟩ => ⟨S1x1x64x128, .f32⟩
  | .hbm, ⟨28, _⟩ => ⟨S64x128, .f32⟩
  | .hbm, ⟨29, _⟩ => ⟨S100352x64, .bf16⟩
  | .hbm, ⟨30, _⟩ => ⟨S64x128, .bf16⟩
  | .hbm, ⟨31, _⟩ => ⟨S100352x128, .f32⟩
  | .hbm, ⟨32, _⟩ => ⟨S_, .i32⟩
  | .hbm, ⟨33, _⟩ => ⟨S_, .f32⟩
  | .hbm, ⟨34, _⟩ => ⟨S32x58x58x64, .f32⟩
  | .hbm, ⟨35, _⟩ => ⟨S32x56x56x64, .f32⟩
  | .hbm, ⟨36, _⟩ => ⟨S100352x64, .f32⟩
  | .hbm, ⟨37, _⟩ => ⟨S32x56x56x64, .f32⟩
  | .hbm, ⟨38, _⟩ => ⟨S100352x64, .f32⟩
  | .hbm, ⟨39, _⟩ => ⟨S32x56x56x64, .f32⟩
  | .hbm, ⟨40, _⟩ => ⟨S100352x64, .f32⟩
  | .hbm, ⟨41, _⟩ => ⟨S32x56x56x64, .f32⟩
  | .hbm, ⟨42, _⟩ => ⟨S100352x64, .f32⟩
  | .hbm, ⟨43, _⟩ => ⟨S32x56x56x64, .f32⟩
  | .hbm, ⟨44, _⟩ => ⟨S100352x64, .f32⟩
  | .hbm, ⟨45, _⟩ => ⟨S32x56x56x64, .f32⟩
  | .hbm, ⟨46, _⟩ => ⟨S100352x64, .f32⟩
  | .hbm, ⟨47, _⟩ => ⟨S32x56x56x64, .f32⟩
  | .hbm, ⟨48, _⟩ => ⟨S100352x64, .f32⟩
  | .hbm, ⟨49, _⟩ => ⟨S32x56x56x64, .f32⟩
  | .hbm, ⟨50, _⟩ => ⟨S100352x64, .f32⟩
  | .hbm, ⟨51, _⟩ => ⟨S32x56x56x64, .f32⟩
  | .hbm, ⟨52, _⟩ => ⟨S100352x64, .f32⟩
  | .hbm, ⟨53, _⟩ => ⟨S100352x576, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S1x128, .f32⟩
  | .hbm, ⟨62, _⟩ => ⟨S1x128, .f32⟩
  | .hbm, ⟨63, _⟩ => ⟨S3x3x64x128, .f32⟩
  | .hbm, ⟨64, _⟩ => ⟨S576x128, .f32⟩
  | .hbm, ⟨65, _⟩ => ⟨S100352x576, .bf16⟩
  | .hbm, ⟨66, _⟩ => ⟨S576x128, .bf16⟩
  | .hbm, ⟨67, _⟩ => ⟨S100352x128, .bf16⟩
  | .hbm, ⟨68, _⟩ => ⟨S32x56x56x128, .bf16⟩
  | .hbm, ⟨69, _⟩ => ⟨S_, .i32⟩
  | .hbm, ⟨70, _⟩ => ⟨S_, .bf16⟩
  | .hbm, ⟨71, _⟩ => ⟨S32x58x58x128, .bf16⟩
  | .hbm, ⟨72, _⟩ => ⟨S32x56x56x128, .bf16⟩
  | .hbm, ⟨73, _⟩ => ⟨S100352x128, .bf16⟩
  | .hbm, ⟨74, _⟩ => ⟨S32x56x56x128, .bf16⟩
  | .hbm, ⟨75, _⟩ => ⟨S100352x128, .bf16⟩
  | .hbm, ⟨76, _⟩ => ⟨S32x56x56x128, .bf16⟩
  | .hbm, ⟨77, _⟩ => ⟨S100352x128, .bf16⟩
  | .hbm, ⟨78, _⟩ => ⟨S32x56x56x128, .bf16⟩
  | .hbm, ⟨79, _⟩ => ⟨S100352x128, .bf16⟩
  | .hbm, ⟨80, _⟩ => ⟨S32x56x56x128, .bf16⟩
  | .hbm, ⟨81, _⟩ => ⟨S100352x128, .bf16⟩
  | .hbm, ⟨82, _⟩ => ⟨S32x56x56x128, .bf16⟩
  | .hbm, ⟨83, _⟩ => ⟨S100352x128, .bf16⟩
  | .hbm, ⟨84, _⟩ => ⟨S32x56x56x128, .bf16⟩
  | .hbm, ⟨85, _⟩ => ⟨S100352x128, .bf16⟩
  | .hbm, ⟨86, _⟩ => ⟨S32x56x56x128, .bf16⟩
  | .hbm, ⟨87, _⟩ => ⟨S100352x128, .bf16⟩
  | .hbm, ⟨88, _⟩ => ⟨S32x56x56x128, .bf16⟩
  | .hbm, ⟨89, _⟩ => ⟨S100352x128, .bf16⟩
  | .hbm, ⟨90, _⟩ => ⟨S100352x1152, .bf16⟩
  | .hbm, ⟨91, _⟩ => ⟨S_, .f32⟩
  | .hbm, ⟨92, _⟩ => ⟨S128, .f32⟩
  | .hbm, ⟨93, _⟩ => ⟨S128, .f32⟩
  | .hbm, ⟨94, _⟩ => ⟨S128, .f32⟩
  | .hbm, ⟨95, _⟩ => ⟨S128, .f32⟩
  | .hbm, ⟨96, _⟩ => ⟨S128, .f32⟩
  | .hbm, ⟨97, _⟩ => ⟨S128, .f32⟩
  | .hbm, ⟨98, _⟩ => ⟨S1x128, .f32⟩
  | .hbm, ⟨99, _⟩ => ⟨S1x128, .f32⟩
  | .hbm, ⟨100, _⟩ => ⟨S3x3x128x128, .f32⟩
  | .hbm, ⟨101, _⟩ => ⟨S1152x128, .f32⟩
  | .hbm, ⟨102, _⟩ => ⟨S1152x128, .bf16⟩
  | .hbm, ⟨103, _⟩ => ⟨S100352x128, .f32⟩
  | .hbm, ⟨104, _⟩ => ⟨S32x56x56x128, .f32⟩
  | .hbm, ⟨105, _⟩ => ⟨S32x128x56x56, .f32⟩
  | .local _ .vmem, ⟨0, _⟩ => ⟨S512x64, .bf16⟩
  | .local _ .vmem, ⟨1, _⟩ => ⟨S512x64, .bf16⟩
  | .local _ .vmem, ⟨2, _⟩ => ⟨S64x128, .bf16⟩
  | .local _ .vmem, ⟨3, _⟩ => ⟨S1x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x576, .bf16⟩
  | .local _ .vmem, ⟨8, _⟩ => ⟨S512x576, .bf16⟩
  | .local _ .vmem, ⟨9, _⟩ => ⟨S576x128, .bf16⟩
  | .local _ .vmem, ⟨10, _⟩ => ⟨S1x128, .f32⟩
  | .local _ .vmem, ⟨11, _⟩ => ⟨S1x128, .f32⟩
  | .local _ .vmem, ⟨12, _⟩ => ⟨S512x128, .bf16⟩
  | .local _ .vmem, ⟨13, _⟩ => ⟨S512x128, .bf16⟩
  | .local _ .vmem, ⟨14, _⟩ => ⟨S512x1152, .bf16⟩
  | .local _ .vmem, ⟨15, _⟩ => ⟨S512x1152, .bf16⟩
  | .local _ .vmem, ⟨16, _⟩ => ⟨S1152x128, .bf16⟩
  | .local _ .vmem, ⟨17, _⟩ => ⟨S1x128, .f32⟩
  | .local _ .vmem, ⟨18, _⟩ => ⟨S1x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | _, _ => ⟨S32x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_call0_v0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_1 : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_2 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc2_sem5_0 : DmaSem sig := 21
abbrev cc2_sem5_1 : DmaSem sig := 22

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![196], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x576 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S576x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![196], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1152 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1152x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  transposes_S32x64x56x56_S32x56x56x64_0_2_3_1 : S32x64x56x56.Transposes [0, 2, 3, 1] S32x56x56x64
  shapeCasts_S32x56x56x64_S100352x64 : S32x56x56x64.ShapeCasts S100352x64
  bcast_S_S128 : S_.BroadcastsInDim S128 (![] : Fin 0 → Fin S128.rank)
  bcast_S128_S1x128_1 : S128.BroadcastsInDim S1x128 (![1] : Fin 1 → Fin S1x128.rank)
  transposes_S128x64x1x1_S1x1x64x128_2_3_1_0 : S128x64x1x1.Transposes [2, 3, 1, 0] S1x1x64x128
  shapeCasts_S1x1x64x128_S64x128 : S1x1x64x128.ShapeCasts S64x128
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  pads_S32x56x56x64_S32x58x58x64_000_110_110_000 : S32x56x56x64.Pads (![0, 1, 1, 0] : Fin 4 → Nat) ![0, 1, 1, 0] ![0, 0, 0, 0] S32x58x58x64
  h_S_ : 0 < S_.numel
  slices_S32x58x58x64_S32x56x56x64_0_0_0_0 : S32x58x58x64.Slices ![0, 0, 0, 0] S32x56x56x64
  slices_S32x58x58x64_S32x56x56x64_0_0_1_0 : S32x58x58x64.Slices ![0, 0, 1, 0] S32x56x56x64
  slices_S32x58x58x64_S32x56x56x64_0_0_2_0 : S32x58x58x64.Slices ![0, 0, 2, 0] S32x56x56x64
  slices_S32x58x58x64_S32x56x56x64_0_1_0_0 : S32x58x58x64.Slices ![0, 1, 0, 0] S32x56x56x64
  slices_S32x58x58x64_S32x56x56x64_0_1_1_0 : S32x58x58x64.Slices ![0, 1, 1, 0] S32x56x56x64
  slices_S32x58x58x64_S32x56x56x64_0_1_2_0 : S32x58x58x64.Slices ![0, 1, 2, 0] S32x56x56x64
  slices_S32x58x58x64_S32x56x56x64_0_2_0_0 : S32x58x58x64.Slices ![0, 2, 0, 0] S32x56x56x64
  slices_S32x58x58x64_S32x56x56x64_0_2_1_0 : S32x58x58x64.Slices ![0, 2, 1, 0] S32x56x56x64
  slices_S32x58x58x64_S32x56x56x64_0_2_2_0 : S32x58x58x64.Slices ![0, 2, 2, 0] S32x56x56x64
  concatenates_S100352x64_S100352x64_S100352x64_S100352x64_S100352x64_S100352x64_S100352x64_S100352x64_S100352x64_S100352x576_d1 : Shape.Concatenates [S100352x64, S100352x64, S100352x64, S100352x64, S100352x64, S100352x64, S100352x64, S100352x64, S100352x64] S100352x576 1
  transposes_S128x64x3x3_S3x3x64x128_2_3_1_0 : S128x64x3x3.Transposes [2, 3, 1, 0] S3x3x64x128
  shapeCasts_S3x3x64x128_S576x128 : S3x3x64x128.ShapeCasts S576x128
  inb_S512x576_S512x576_0_0 : ∀ a, (![0, 0] : Fin 2 → Nat) a + S512x576.size a ≤ S512x576.size a
  h_S512x576 : 0 < S512x576.numel
  shapeCasts_S512x576_S512x576 : S512x576.ShapeCasts S512x576
  inb_S576x128_S576x128_0_0 : ∀ a, (![0, 0] : Fin 2 → Nat) a + S576x128.size a ≤ S576x128.size a
  h_S576x128 : 0 < S576x128.numel
  shapeCasts_S576x128_S576x128 : S576x128.ShapeCasts S576x128
  packedbf16_S512x128_S512x128_0_0 : (Rect.unit (s := S512x128) ![0, 0] S512x128.size inb_S512x128_S512x128_0_0).PackedRows (EltTy.packing .bf16)
  shapeCasts_S100352x128_S32x56x56x128 : S100352x128.ShapeCasts S32x56x56x128
  pads_S32x56x56x128_S32x58x58x128_000_110_110_000 : S32x56x56x128.Pads (![0, 1, 1, 0] : Fin 4 → Nat) ![0, 1, 1, 0] ![0, 0, 0, 0] S32x58x58x128
  slices_S32x58x58x128_S32x56x56x128_0_0_0_0 : S32x58x58x128.Slices ![0, 0, 0, 0] S32x56x56x128
  shapeCasts_S32x56x56x128_S100352x128 : S32x56x56x128.ShapeCasts S100352x128
  slices_S32x58x58x128_S32x56x56x128_0_0_1_0 : S32x58x58x128.Slices ![0, 0, 1, 0] S32x56x56x128
  slices_S32x58x58x128_S32x56x56x128_0_0_2_0 : S32x58x58x128.Slices ![0, 0, 2, 0] S32x56x56x128
  slices_S32x58x58x128_S32x56x56x128_0_1_0_0 : S32x58x58x128.Slices ![0, 1, 0, 0] S32x56x56x128
  slices_S32x58x58x128_S32x56x56x128_0_1_1_0 : S32x58x58x128.Slices ![0, 1, 1, 0] S32x56x56x128
  slices_S32x58x58x128_S32x56x56x128_0_1_2_0 : S32x58x58x128.Slices ![0, 1, 2, 0] S32x56x56x128
  slices_S32x58x58x128_S32x56x56x128_0_2_0_0 : S32x58x58x128.Slices ![0, 2, 0, 0] S32x56x56x128
  slices_S32x58x58x128_S32x56x56x128_0_2_1_0 : S32x58x58x128.Slices ![0, 2, 1, 0] S32x56x56x128
  slices_S32x58x58x128_S32x56x56x128_0_2_2_0 : S32x58x58x128.Slices ![0, 2, 2, 0] S32x56x56x128
  concatenates_S100352x128_S100352x128_S100352x128_S100352x128_S100352x128_S100352x128_S100352x128_S100352x128_S100352x128_S100352x1152_d1 : Shape.Concatenates [S100352x128, S100352x128, S100352x128, S100352x128, S100352x128, S100352x128, S100352x128, S100352x128, S100352x128] S100352x1152 1
  transposes_S128x128x3x3_S3x3x128x128_2_3_1_0 : S128x128x3x3.Transposes [2, 3, 1, 0] S3x3x128x128
  shapeCasts_S3x3x128x128_S1152x128 : S3x3x128x128.ShapeCasts S1152x128
  inb_S512x1152_S512x1152_0_0 : ∀ a, (![0, 0] : Fin 2 → Nat) a + S512x1152.size a ≤ S512x1152.size a
  h_S512x1152 : 0 < S512x1152.numel
  shapeCasts_S512x1152_S512x1152 : S512x1152.ShapeCasts S512x1152
  inb_S1152x128_S1152x128_0_0 : ∀ a, (![0, 0] : Fin 2 → Nat) a + S1152x128.size a ≤ S1152x128.size a
  h_S1152x128 : 0 < S1152x128.numel
  shapeCasts_S1152x128_S1152x128 : S1152x128.ShapeCasts S1152x128
  shapeCasts_S512x128_S512x128 : S512x128.ShapeCasts S512x128
  transposes_S32x56x56x128_S32x128x56x56_0_3_1_2 : S32x56x56x128.Transposes [0, 3, 1, 2] S32x128x56x56
  dot_S512x64_S64x128_S512x128_1_0_0_1_n_n_wf : DotDims.WF S512x64 S64x128 S512x128 [1] [0] [0] [1] [] []
  dot_S512x576_S576x128_S512x128_1_0_0_1_n_n_wf : DotDims.WF S512x576 S576x128 S512x128 [1] [0] [0] [1] [] []
  dot_S512x1152_S1152x128_S512x128_1_0_0_1_n_n_wf : DotDims.WF S512x1152 S1152x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S100352x64.size a
  hwx0_0 : ∀ i : grid0.Coords, EltTy.bits .bf16 = 32 ∨ (Rect.block (s := S100352x64) S512x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .bf16 = 32 ∨ (Rect.block (s := S64x128) S64x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S100352x128.size a
  hwx0_4 : ∀ i : grid0.Coords, EltTy.bits .f32 = 32 ∨ (Rect.block (s := S100352x128) S512x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x576.size a ≤ S100352x576.size a
  hwx1_0 : ∀ i : grid1.Coords, EltTy.bits .bf16 = 32 ∨ (Rect.block (s := S100352x576) S512x576.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S576x128.size a ≤ S576x128.size a
  hwx1_1 : ∀ i : grid1.Coords, EltTy.bits .bf16 = 32 ∨ (Rect.block (s := S576x128) S576x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S100352x128.size a
  hwx1_4 : ∀ i : grid1.Coords, EltTy.bits .bf16 = 32 ∨ (Rect.block (s := S100352x128) S512x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1152.size a ≤ S100352x1152.size a
  hwx2_0 : ∀ i : grid2.Coords, EltTy.bits .bf16 = 32 ∨ (Rect.block (s := S100352x1152) S512x1152.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1152x128.size a ≤ S1152x128.size a
  hwx2_1 : ∀ i : grid2.Coords, EltTy.bits .bf16 = 32 ∨ (Rect.block (s := S1152x128) S1152x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x128.size a ≤ S100352x128.size a
  hwx2_4 : ∀ i : grid2.Coords, EltTy.bits .f32 = 32 ∨ (Rect.block (s := S100352x128) S512x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x128.size a ≤ S100352x128.size a
  hwx2_5 : ∀ i : grid2.Coords, EltTy.bits .f32 = 32 ∨ (Rect.block (s := S100352x128) S512x128.size (cc2_transform_5 i) (hinb2_5 i)).WholeWords (EltTy.packing .f32)

variable [Facts₀]

def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x576_S576x128_S512x128_1_0_0_1_n_n : DotDims S512x576 S576x128 S512x128 where
  lhsContracting := [1]
  rhsContracting := [0]
  lhsNonContracting := [0]
  rhsNonContracting := [1]
  lhsBatch := []
  rhsBatch := []
  wf := dot_S512x576_S576x128_S512x128_1_0_0_1_n_n_wf
def dot_S512x1152_S1152x128_S512x128_1_0_0_1_n_n : DotDims S512x1152 S1152x128 S512x128 where
  lhsContracting := [1]
  rhsContracting := [0]
  lhsNonContracting := [0]
  rhsNonContracting := [1]
  lhsBatch := []
  rhsBatch := []
  wf := dot_S512x1152_S1152x128_S512x128_1_0_0_1_n_n_wf

abbrev win0_0 : Pipeline.Window sig grid0 :=
  Pipeline.Window.ofSpec (Memref.whole main_v12) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v45) S512x576.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S576x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v68) S512x1152.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v79) S1152x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v75) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v76) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S512x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v80) S512x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== Proof.KPointRun.lean ====
/-
  One grid point of the fused residual block, as a separation-logic triple.

  At a point the body is handed four input blocks: two images of the activation x as rows of 64 channels,
  the first convolution's weights with the 1x1 shortcut's weights beside them, the second convolution's
  weights, and the eight rows of folded batch-norm scales and biases; the output block of two images; and
  two scratch buffers it uses as zero-haloed copies of x and of the hidden activation h1. It writes the
  halo and the interior of each scratch before it reads it, so it needs the scratch buffers at no particular
  contents and may leave them at any; it reads every input block and leaves it in place; and it stores the
  output block once, whole. The statement below says exactly that: owning the inputs at their contents, and
  the output and both scratch buffers at anything, the body runs without fault to a state that holds the
  inputs unchanged and the output block and the scratch buffers at something. (What the output block then holds
  is a separate matter: it is read off the stores when the values are wanted, and plays no part in the frame.)
-/
import proofs.«173333_g2000300637041083_pallasbulk_292_30_alg».proof.Proof.Gen.Kernel.Launch
import proofs.«173333_g2000300637041083_pallasbulk_292_30_alg».proof.Proof.Gen.Kernel.Skeleton
import proofs.«173333_g2000300637041083_pallasbulk_292_30_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Block

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at one grid point. Inputs: the two images' block x0, the merged first-layer weights x1, the
    second-layer weights x2, the scale-and-bias rows x3, each owned whole and handed back unchanged. The output
    block and the two scratch buffers are owned at anything before and at something after. Every load lies inside its
    buffer and every store's rectangle inside its own, so no step faults; there is no branch, loop or transfer. -/
theorem pointRun (c : Dev nD) (i : grid0.Coords)
    (arg1 : Memref sig .tc .vmem S2x3136x64 .bf16) (harg1 : arg1.IsWhole)
    (arg2 : Memref sig .tc .vmem S192x512 .bf16) (harg2 : arg2.IsWhole)
    (arg3 : Memref sig .tc .vmem S384x384 .bf16) (harg3 : arg3.IsWhole)
    (arg4 : Memref sig .tc .vmem S8x128 .f32) (harg4 : arg4.IsWhole)
    (arg5 : Memref sig .tc .vmem S2x56x56x128 .f32) (harg5 : arg5.IsWhole)
    (arg6 : Memref sig .tc .vmem S116x64x128 .bf16) (harg6 : arg6.IsWhole)
    (arg7 : Memref sig .tc .vmem S116x64x64 .bf16) (harg7 : arg7.IsWhole)
    (x0 : Vec F S2x3136x64 .bf16) (x1 : Vec F S192x512 .bf16) (x2 : Vec F S384x384 .bf16) (x3 : Vec F S8x128 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d)
            ∗ (∃ d, owns (c : Thread nD τ) arg6 fullShare d) ∗ (∃ d, owns (c : Thread nD τ) arg7 fullShare d)) -∗ K ⟨⟩))
      ⊢ wp frame (wpE (defs₀ (F := F)) Variants.none c none) E
          (cc0__block_body i arg1 harg1 arg2 harg2 arg3 harg3 arg4 harg4 arg5 harg5 arg6 harg6 arg7 harg7) K := by
  simp only [cc0__block_body_eq_skeleton]; unfold cc0__block_body_skel
  unfold owns
  iintro ⟨⟨%f0, %hf0, H0⟩, ⟨%f1, %hf1, H1⟩, ⟨%f2, %hf2, H2⟩, ⟨%f3, %hf3, H3⟩, ⟨%d4, %f4, -, H4⟩, ⟨%d6, %f6, -, H6⟩, ⟨%d7, %f7, -, H7⟩, Hk⟩
  obtain rfl := harg1.eq_unread hf0; obtain rfl := harg2.eq_unread hf1
  obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _, _; isplitr
    swap; · iexact H4
    ipureintro; exact rfl
  isplitl [H6]
  · iexists _, _; isplitr
    swap; · iexact H6
    ipureintro; exact rfl
  iexists _, _; isplitr
  swap; · iexact H7
  ipureintro; exact rfl

end Cert.Kernel.Block

end
-- ==== Proof.KFrame.lean ====
/-
  The frame of the fused residual block: the program runs to the end, faults nowhere, and leaves its sixteen
  argument arrays as they were.

  The program is a stretch of host operations (a transpose and a re-layout of x, the three batch-norm foldings,
  the stacking of their scales and biases into eight rows, the re-layout of both weight tensors and the placing of
  the 1x1 shortcut's weights beside the first layer's), then one pipelined region of sixteen grid points, two
  images each, then one host transpose of the result. None of the host operations writes an argument array: each
  writes a fresh result buffer. The region reads four arrays the host stretch made and writes one array of its own,
  none of them an argument. So the arguments are untouched from launch to exit; what has to be shown is that the
  region runs: at every point the pipeline hands the body each input window's block (fetched now or kept from an
  earlier point), the body runs without fault (the module imported here) keeping the inputs and leaving the output
  block at a definite value, and the two scratch buffers, which the body fills before it reads them, are owned at
  arbitrary contents before and after every point.
-/
import proofs.«173333_g2000300637041083_pallasbulk_292_30_alg».proof.Proof.KPointRun

set_option maxRecDepth 16384

noncomputable section

namespace Cert.Kernel.Block

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

theorem flatten_one {α : Type} (l : List α) : List.flatten [l] = l := by simp

/-- Core c's buffers when the region is entered: the launch contents after the host operations before the region. -/
abbrev entry0 (c : Dev nD) : Valuation τ sig (Elt F) := StableHlo.after (List.flatten [hostOps0]) (fun b => m (c, b))
/-- The same, read at a reference of the core's own. -/
abbrev entry (c : Dev nD) (b : Ref sig .tc) : Buf (Elt F) ((c : Thread nD τ).loc b) := entry0 m c (Proc.devRef .tc b)

/-- No host operation allocates. -/
theorem prefix_fresh : (hostOps0 : List (HloOp τ sig (Elt F))).Forall fun op => op.fresh = ∅ := by
  simp only [List.Forall]; repeat' constructor
theorem suffix_fresh : (hostOps1 : List (HloOp τ sig (Elt F))).Forall fun op => op.fresh = ∅ := by
  simp only [List.Forall]; repeat' constructor

/-- The program is the host stretch, the region, and the closing transpose, in that order; so it reduces to the region
    entered at the contents above and continued by the transpose. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-- The closing transpose touches only unscoped buffers of the core, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp suffix_fresh) op hop
/-- and writes none of the region's five arrays (it writes its own result). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- The buffers the host stretch before the region writes: one fresh result per operation. -/
abbrev prefixWrites : List (Ref sig .tc) := [main_v0, main_v1, main_v2, main_cst, main_v3, main_v4, main_v5, main_v6, main_v7, main_v8, main_cst_0, main_v9, main_v10, main_v11, main_v12, main_v13, main_v14, main_cst_1, main_v15, main_v16, main_v17, main_v18, main_v19, main_v20, main_cst_2, main_v21, main_v22, main_v23, main_v24, main_v25, main_v26, main_v27, main_v28, main_v29, main_v30, main_v31, main_v32, main_cst_3, main_v33, main_v34, main_v35, main_c, main_v36, main_v37, main_v38, main_v39, main_v40, main_v41, main_v42]
theorem prefix_writes : (hostOps0 : List (HloOp τ sig (Elt F))).Forall fun op => op.writes ⊆ (prefixWrites.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The closing transpose writes the final result only. -/
theorem suffix_writes : (hostOps1 : List (HloOp τ sig (Elt F))).Forall fun op => op.writes ⊆ (([main_v44] : List (Ref sig .tc)).map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)

/-- A buffer the host stretch does not write is, at the region's entry, as launched. -/
theorem entry_kept (c : Dev nD) (r : Ref sig .tc) (h : r ∉ prefixWrites) : entry m c r = m ((c : Thread nD τ).loc r) := by
  unfold entry entry0
  rw [flatten_one]
  exact StableHlo.after_of_writes_sub hostOps0 _ prefix_writes h

/-- The closing transpose writes no buffer but the final result. -/
theorem tail_writes : ∀ ops ∈ ([hostOps1] : List (List (HloOp τ sig (Elt F)))), ∀ op ∈ ops,
    ∀ b : Ref sig .tc, Proc.devRef .tc b ∈ op.writes → b ∈ ({main_v44} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] at hb
  exact Finset.mem_singleton.mpr (Proc.devRef_injective _ hb)

/-! ## The windows' blocks -/

/-- Window w's block at grid point t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds the window's block of the entry array at every point, whether the
    pipeline fetched it at this point or kept it from an earlier one (the index has not moved since). -/
theorem input_found0 {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds the window's block of the entry array at every point, whether the
    pipeline fetched it at this point or kept it from an earlier one (the index has not moved since). -/
theorem input_found1 {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds the window's block of the entry array at every point, whether the
    pipeline fetched it at this point or kept it from an earlier one (the index has not moved since). -/
theorem input_found2 {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds the window's block of the entry array at every point, whether the
    pipeline fetched it at this point or kept it from an earlier one (the index has not moved since). -/
theorem input_found3 {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The region's proof data -/

/-- Each window's staging buffer in use at point t, as the pipeline passes it to the body, and that it is a whole buffer. -/
abbrev stg0 (t : Fin cfg0.N) : Memref sig .tc .vmem S2x3136x64 .bf16 := win0_0.stage (cfg0.slots t 0)
abbrev stgWhole0 (t : Fin cfg0.N) : (stg0 t).IsWhole := hstage0_0 ((cfg0.slots t 0).cast nbuf0_0)
abbrev stg1 (t : Fin cfg0.N) : Memref sig .tc .vmem S192x512 .bf16 := win0_1.stage (cfg0.slots t 1)
abbrev stgWhole1 (t : Fin cfg0.N) : (stg1 t).IsWhole := hstage0_1 ((cfg0.slots t 1).cast nbuf0_1)
abbrev stg2 (t : Fin cfg0.N) : Memref sig .tc .vmem S384x384 .bf16 := win0_2.stage (cfg0.slots t 2)
abbrev stgWhole2 (t : Fin cfg0.N) : (stg2 t).IsWhole := hstage0_2 ((cfg0.slots t 2).cast nbuf0_2)
abbrev stg3 (t : Fin cfg0.N) : Memref sig .tc .vmem S8x128 .f32 := win0_3.stage (cfg0.slots t 3)
abbrev stgWhole3 (t : Fin cfg0.N) : (stg3 t).IsWhole := hstage0_3 ((cfg0.slots t 3).cast nbuf0_3)
abbrev stg4 (t : Fin cfg0.N) : Memref sig .tc .vmem S2x56x56x128 .f32 := win0_4.stage (cfg0.slots t 4)
abbrev stgWhole4 (t : Fin cfg0.N) : (stg4 t).IsWhole := hstage0_4 ((cfg0.slots t 4).cast nbuf0_4)
/-- The two scratch buffers: the zero-haloed hidden activation and the zero-haloed input. -/
abbrev haloH : Memref sig .tc .vmem S116x64x128 .bf16 := Memref.whole cc0_scratch0
abbrev haloX : Memref sig .tc .vmem S116x64x64 .bf16 := Memref.whole cc0_scratch1

/-- The frame says nothing of what the region writes, so the output window is the one window whose contents the proof data
    does not follow. -/
def outOnly : Fin cfg0.W → Bool := fun w => w.val == 4

/-- On core c: the arrays as the region finds them; after the body at point t each input's buffer still at its block
    (the output's entry is a placeholder nothing reads: that window is not followed); the invariant between points is the
    class's (the scratch buffers at anything, the random generator's register at some state); the core owes no one; full
    shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => fun _ => Classical.arbitrary _
  Φ _ := Pipeline.ΦA spec0 c
  q _ := fullShare
  owed _ := 0

theorem A_eq (c : Dev nD) (w : Fin cfg0.W) : (dats m 0 c).A w = entry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]

theorem before0 (c : Dev nD) (t : Fin cfg0.N) (d) : (dats m 0 c).before 0 t d = blockAt m c 0 t :=
  input_found0 m (dats m 0 c) (A_eq m c 0) (after0 m c) t d
theorem before1 (c : Dev nD) (t : Fin cfg0.N) (d) : (dats m 0 c).before 1 t d = blockAt m c 1 t :=
  input_found1 m (dats m 0 c) (A_eq m c 1) (after1 m c) t d
theorem before2 (c : Dev nD) (t : Fin cfg0.N) (d) : (dats m 0 c).before 2 t d = blockAt m c 2 t :=
  input_found2 m (dats m 0 c) (A_eq m c 2) (after2 m c) t d
theorem before3 (c : Dev nD) (t : Fin cfg0.N) (d) : (dats m 0 c).before 3 t d = blockAt m c 3 t :=
  input_found3 m (dats m 0 c) (A_eq m c 3) (after3 m c) t d

/-- The class's invariant spelled out: each scratch buffer owned whole at some contents, and the generator's register. -/
theorem rest_eq (c : Dev nD) :
    (Pipeline.ΦA spec0 c : sProp 𝕄)
      = iprop(iprop((∃ d, owns (c : Thread nD τ) haloH fullShare d) ∗ (∃ d, owns (c : Thread nD τ) haloX fullShare d)) ∗ (∃ r, prngReg c r)) := by
  unfold Pipeline.ΦA; rw [scopedRest0_eq]; simp only [haloH, haloX, owns_whole]; try rfl

/-! ## The body obligation -/

/-- What the body is called with at point t: the invariant, the inputs' buffers at what the pipeline left there, the
    output's at anything, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- and what it returns: the same with each input's buffer at its block and the output's at something. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

set_option maxHeartbeats 4000000 in
/-- The body at any point: the inputs' staging buffers hold their blocks, the invariant lends the two scratch buffers at
    anything, so the point's run applies; it hands back the inputs as they were, the scratch buffers at something (the
    invariant again) and the output block at something. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3]
  rw [show (dats m 0 c).Φ t.castSucc = Pipeline.ΦA spec0 c from rfl, rest_eq]
  iintro ⟨⟨⟨HS6, HS7⟩, Hg⟩, Ho, ⟨%d0, H0⟩, ⟨%d1, H1⟩, ⟨%d2, H2⟩, ⟨%d3, H3⟩, H4⟩
  iapply (pointRun (F := F) c (grid0.coords t) (stg0 t) (stgWhole0 t) (stg1 t) (stgWhole1 t) (stg2 t) (stgWhole2 t) (stg3 t) (stgWhole3 t)
    (stg4 t) (stgWhole4 t) haloH (Memref.isWhole_whole _) haloX (Memref.isWhole_whole _)
    (blockAt m c 0 t) (blockAt m c 1 t) (blockAt m c 2 t) (blockAt m c 3 t) Set.univ _)
  isplitl [H0]; · iexact H0
  isplitl [H1]; · iexact H1
  isplitl [H2]; · iexact H2
  isplitl [H3]; · iexact H3
  isplitl [H4]; · iexact H4
  isplitl [HS6]; · iexact HS6
  isplitl [HS7]; · iexact HS7
  iintro ⟨H0, H1, H2, H3, H4, HS6, HS7⟩
  isplitl [HS6 HS7 Hg]
  · isplitl [HS6 HS7]
    · isplitl [HS6]; · iexact HS6
      iexact HS7
    iexact Hg
  isplitl [Ho]; · iexact Ho
  isplitl [H0]; · iexact H0
  isplitl [H1]; · iexact H1
  isplitl [H2]; · iexact H2
  isplitl [H3]; · iexact H3
  iexact H4

/-- The library's body obligation at every point, the output window not followed. -/
theorem body_obligation (c : Dev nD) : BodyObligation (dats (F := F) m 0 c) (defs₀ (F := F)) Variants.none () Set.univ outOnly := fun t => by
  rw [bigSep_W0, bigSep_W0]
  exact sound_body m c t

/-! ## The run and the frame -/

set_option backward.isDefEq.respectTransparency.types false in
/-- From any memory with zero counters every weakly fair execution of the program terminates without fault, and at the
    end every unscoped buffer that is neither one of the region's arrays nor the final result holds what it held when
    the region was entered. -/
theorem run_main : θ_run defs (onTc (τ := τ) (main (F := F))) (s₀ m ρ)
    (Pipeline.RDat.FramePostR cfg0 (fun c => (dats m 0 c).toRForget outOnly) ({main_v44} : Finset (Ref sig .tc)) (entry m)) :=
  Pipeline.RDat.θ_run_frame_around_T cfgs (0 : Fin 1) launch0 defs₀ Variants.none (fun c => (dats m 0 c).toRForget outOnly)
    ({main_v44} : Finset (Ref sig .tc)) m ρ main
    (hbody := fun c => (body_obligation m c).toRForget) (hshare := fun c => (dats m 0 c).share_full fun _ => rfl)
    (howed := fun _ _ => rfl) (V₀ := entry0 m) (opss := [hostOps1]) (hsub := tail_sub) (hfresh := tail_fresh) (hkeep := tail_keeps)
    (hT := tail_writes) (hmain := main_around m Variants.none) (hA := A_eq m) (hΦ := fun _ _ => rfl)

/-- The frame, at any float instance: every argument array is an unscoped buffer that is none of the region's arrays and
    not the final result, so it ends at its entry contents, which no host operation before the region wrote: its launch
    contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).2 main_arg0 (Finset.mem_sdiff.mpr ⟨Pipeline.mem_restRefs_of main_arg0 (by decide) (by decide), by decide⟩)).trans (entry_kept m c main_arg0 (by decide)),
      ((h c).2 main_arg1 (Finset.mem_sdiff.mpr ⟨Pipeline.mem_restRefs_of main_arg1 (by decide) (by decide), by decide⟩)).trans (entry_kept m c main_arg1 (by decide)),
      ((h c).2 main_arg2 (Finset.mem_sdiff.mpr ⟨Pipeline.mem_restRefs_of main_arg2 (by decide) (by decide), by decide⟩)).trans (entry_kept m c main_arg2 (by decide)),
      ((h c).2 main_arg3 (Finset.mem_sdiff.mpr ⟨Pipeline.mem_restRefs_of main_arg3 (by decide) (by decide), by decide⟩)).trans (entry_kept m c main_arg3 (by decide)),
      ((h c).2 main_arg4 (Finset.mem_sdiff.mpr ⟨Pipeline.mem_restRefs_of main_arg4 (by decide) (by decide), by decide⟩)).trans (entry_kept m c main_arg4 (by decide)),
      ((h c).2 main_arg5 (Finset.mem_sdiff.mpr ⟨Pipeline.mem_restRefs_of main_arg5 (by decide) (by decide), by decide⟩)).trans (entry_kept m c main_arg5 (by decide)),
      ((h c).2 main_arg6 (Finset.mem_sdiff.mpr ⟨Pipeline.mem_restRefs_of main_arg6 (by decide) (by decide), by decide⟩)).trans (entry_kept m c main_arg6 (by decide)),
      ((h c).2 main_arg7 (Finset.mem_sdiff.mpr ⟨Pipeline.mem_restRefs_of main_arg7 (by decide) (by decide), by decide⟩)).trans (entry_kept m c main_arg7 (by decide)),
      ((h c).2 main_arg8 (Finset.mem_sdiff.mpr ⟨Pipeline.mem_restRefs_of main_arg8 (by decide) (by decide), by decide⟩)).trans (entry_kept m c main_arg8 (by decide)),
      ((h c).2 main_arg9 (Finset.mem_sdiff.mpr ⟨Pipeline.mem_restRefs_of main_arg9 (by decide) (by decide), by decide⟩)).trans (entry_kept m c main_arg9 (by decide)),
      ((h c).2 main_arg10 (Finset.mem_sdiff.mpr ⟨Pipeline.mem_restRefs_of main_arg10 (by decide) (by decide), by decide⟩)).trans (entry_kept m c main_arg10 (by decide)),
      ((h c).2 main_arg11 (Finset.mem_sdiff.mpr ⟨Pipeline.mem_restRefs_of main_arg11 (by decide) (by decide), by decide⟩)).trans (entry_kept m c main_arg11 (by decide)),
      ((h c).2 main_arg12 (Finset.mem_sdiff.mpr ⟨Pipeline.mem_restRefs_of main_arg12 (by decide) (by decide), by decide⟩)).trans (entry_kept m c main_arg12 (by decide)),
      ((h c).2 main_arg13 (Finset.mem_sdiff.mpr ⟨Pipeline.mem_restRefs_of main_arg13 (by decide) (by decide), by decide⟩)).trans (entry_kept m c main_arg13 (by decide)),
      ((h c).2 main_arg14 (Finset.mem_sdiff.mpr ⟨Pipeline.mem_restRefs_of main_arg14 (by decide) (by decide), by decide⟩)).trans (entry_kept m c main_arg14 (by decide)),
      ((h c).2 main_arg15 (Finset.mem_sdiff.mpr ⟨Pipeline.mem_restRefs_of main_arg15 (by decide) (by decide), by decide⟩)).trans (entry_kept m c main_arg15 (by decide))⟩) (run_main m ρ)

end Cert.Kernel.Block

end
-- ==== Proof.KIPointRun.lean ====
/-
  One grid point of the fused residual block, as a separation-logic triple.

  At a point the body is handed four input blocks: two images of the activation x as rows of 64 channels,
  the first convolution's weights with the 1x1 shortcut's weights beside them, the second convolution's
  weights, and the eight rows of folded batch-norm scales and biases; the output block of two images; and
  two scratch buffers it uses as zero-haloed copies of x and of the hidden activation h1. It writes the
  halo and the interior of each scratch before it reads it, so it needs the scratch buffers at no particular
  contents and may leave them at any; it reads every input block and leaves it in place; and it stores the
  output block once, whole. The statement below says exactly that: owning the inputs at their contents, and
  the output and both scratch buffers at anything, the body runs without fault to a state that holds the
  inputs unchanged and the output block and the scratch buffers at something. (What the output block then holds
  is a separate matter: it is read off the stores when the values are wanted, and plays no part in the frame.)
-/
import proofs.«173333_g2000300637041083_pallasbulk_292_30_alg».proof.Proof.Gen.KernelIdeal.Launch
import proofs.«173333_g2000300637041083_pallasbulk_292_30_alg».proof.Proof.Gen.KernelIdeal.Skeleton
import proofs.«173333_g2000300637041083_pallasbulk_292_30_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at one grid point. Inputs: the two images' block x0, the merged first-layer weights x1, the
    second-layer weights x2, the scale-and-bias rows x3, each owned whole and handed back unchanged. The output
    block and the two scratch buffers are owned at anything before and at something after. Every load lies inside its
    buffer and every store's rectangle inside its own, so no step faults; there is no branch, loop or transfer. -/
theorem pointRun (c : Dev nD) (i : grid0.Coords)
    (arg1 : Memref sig .tc .vmem S2x3136x64 .bf16) (harg1 : arg1.IsWhole)
    (arg2 : Memref sig .tc .vmem S192x512 .bf16) (harg2 : arg2.IsWhole)
    (arg3 : Memref sig .tc .vmem S384x384 .bf16) (harg3 : arg3.IsWhole)
    (arg4 : Memref sig .tc .vmem S8x128 .f32) (harg4 : arg4.IsWhole)
    (arg5 : Memref sig .tc .vmem S2x56x56x128 .f32) (harg5 : arg5.IsWhole)
    (arg6 : Memref sig .tc .vmem S116x64x128 .bf16) (harg6 : arg6.IsWhole)
    (arg7 : Memref sig .tc .vmem S116x64x64 .bf16) (harg7 : arg7.IsWhole)
    (x0 : Vec F S2x3136x64 .bf16) (x1 : Vec F S192x512 .bf16) (x2 : Vec F S384x384 .bf16) (x3 : Vec F S8x128 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d)
            ∗ (∃ d, owns (c : Thread nD τ) arg6 fullShare d) ∗ (∃ d, owns (c : Thread nD τ) arg7 fullShare d)) -∗ K ⟨⟩))
      ⊢ wp frame (wpE (defs₀ (F := F)) Variants.none c none) E
          (cc0__block_body i arg1 harg1 arg2 harg2 arg3 harg3 arg4 harg4 arg5 harg5 arg6 harg6 arg7 harg7) K := by
  simp only [cc0__block_body_eq_skeleton]; unfold cc0__block_body_skel
  unfold owns
  iintro ⟨⟨%f0, %hf0, H0⟩, ⟨%f1, %hf1, H1⟩, ⟨%f2, %hf2, H2⟩, ⟨%f3, %hf3, H3⟩, ⟨%d4, %f4, -, H4⟩, ⟨%d6, %f6, -, H6⟩, ⟨%d7, %f7, -, H7⟩, Hk⟩
  obtain rfl := harg1.eq_unread hf0; obtain rfl := harg2.eq_unread hf1
  obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _, _; isplitr
    swap; · iexact H4
    ipureintro; exact rfl
  isplitl [H6]
  · iexists _, _; isplitr
    swap; · iexact H6
    ipureintro; exact rfl
  iexists _, _; isplitr
  swap; · iexact H7
  ipureintro; exact rfl

end Cert.KernelIdeal.Block

end
-- ==== Proof.KIFrame.lean ====
/-
  The frame of the fused residual block: the program runs to the end, faults nowhere, and leaves its sixteen
  argument arrays as they were.

  The program is a stretch of host operations (a transpose and a re-layout of x, the three batch-norm foldings,
  the stacking of their scales and biases into eight rows, the re-layout of both weight tensors and the placing of
  the 1x1 shortcut's weights beside the first layer's), then one pipelined region of sixteen grid points, two
  images each, then one host transpose of the result. None of the host operations writes an argument array: each
  writes a fresh result buffer. The region reads four arrays the host stretch made and writes one array of its own,
  none of them an argument. So the arguments are untouched from launch to exit; what has to be shown is that the
  region runs: at every point the pipeline hands the body each input window's block (fetched now or kept from an
  earlier point), the body runs without fault (the module imported here) keeping the inputs and leaving the output
  block at a definite value, and the two scratch buffers, which the body fills before it reads them, are owned at
  arbitrary contents before and after every point.
-/
import proofs.«173333_g2000300637041083_pallasbulk_292_30_alg».proof.Proof.KIPointRun

set_option maxRecDepth 16384

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

theorem flatten_one {α : Type} (l : List α) : List.flatten [l] = l := by simp

/-- Core c's buffers when the region is entered: the launch contents after the host operations before the region. -/
abbrev entry0 (c : Dev nD) : Valuation τ sig (Elt F) := StableHlo.after (List.flatten [hostOps0]) (fun b => m (c, b))
/-- The same, read at a reference of the core's own. -/
abbrev entry (c : Dev nD) (b : Ref sig .tc) : Buf (Elt F) ((c : Thread nD τ).loc b) := entry0 m c (Proc.devRef .tc b)

/-- No host operation allocates. -/
theorem prefix_fresh : (hostOps0 : List (HloOp τ sig (Elt F))).Forall fun op => op.fresh = ∅ := by
  simp only [List.Forall]; repeat' constructor
theorem suffix_fresh : (hostOps1 : List (HloOp τ sig (Elt F))).Forall fun op => op.fresh = ∅ := by
  simp only [List.Forall]; repeat' constructor

/-- The program is the host stretch, the region, and the closing transpose, in that order; so it reduces to the region
    entered at the contents above and continued by the transpose. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-- The closing transpose touches only unscoped buffers of the core, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp suffix_fresh) op hop
/-- and writes none of the region's five arrays (it writes its own result). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- The buffers the host stretch before the region writes: one fresh result per operation. -/
abbrev prefixWrites : List (Ref sig .tc) := [main_v0, main_v1, main_v2, main_cst, main_v3, main_v4, main_v5, main_v6, main_v7, main_v8, main_cst_0, main_v9, main_v10, main_v11, main_v12, main_v13, main_v14, main_cst_1, main_v15, main_v16, main_v17, main_v18, main_v19, main_v20, main_cst_2, main_v21, main_v22, main_v23, main_v24, main_v25, main_v26, main_v27, main_v28, main_v29, main_v30, main_v31, main_v32, main_cst_3, main_v33, main_v34, main_v35, main_c, main_v36, main_v37, main_v38, main_v39, main_v40, main_v41, main_v42]
theorem prefix_writes : (hostOps0 : List (HloOp τ sig (Elt F))).Forall fun op => op.writes ⊆ (prefixWrites.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The closing transpose writes the final result only. -/
theorem suffix_writes : (hostOps1 : List (HloOp τ sig (Elt F))).Forall fun op => op.writes ⊆ (([main_v44] : List (Ref sig .tc)).map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)

/-- A buffer the host stretch does not write is, at the region's entry, as launched. -/
theorem entry_kept (c : Dev nD) (r : Ref sig .tc) (h : r ∉ prefixWrites) : entry m c r = m ((c : Thread nD τ).loc r) := by
  unfold entry entry0
  rw [flatten_one]
  exact StableHlo.after_of_writes_sub hostOps0 _ prefix_writes h

/-- The closing transpose writes no buffer but the final result. -/
theorem tail_writes : ∀ ops ∈ ([hostOps1] : List (List (HloOp τ sig (Elt F)))), ∀ op ∈ ops,
    ∀ b : Ref sig .tc, Proc.devRef .tc b ∈ op.writes → b ∈ ({main_v44} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] at hb
  exact Finset.mem_singleton.mpr (Proc.devRef_injective _ hb)

/-! ## The windows' blocks -/

/-- Window w's block at grid point t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds the window's block of the entry array at every point, whether the
    pipeline fetched it at this point or kept it from an earlier one (the index has not moved since). -/
theorem input_found0 {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds the window's block of the entry array at every point, whether the
    pipeline fetched it at this point or kept it from an earlier one (the index has not moved since). -/
theorem input_found1 {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds the window's block of the entry array at every point, whether the
    pipeline fetched it at this point or kept it from an earlier one (the index has not moved since). -/
theorem input_found2 {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds the window's block of the entry array at every point, whether the
    pipeline fetched it at this point or kept it from an earlier one (the index has not moved since). -/
theorem input_found3 {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The region's proof data -/

/-- Each window's staging buffer in use at point t, as the pipeline passes it to the body, and that it is a whole buffer. -/
abbrev stg0 (t : Fin cfg0.N) : Memref sig .tc .vmem S2x3136x64 .bf16 := win0_0.stage (cfg0.slots t 0)
abbrev stgWhole0 (t : Fin cfg0.N) : (stg0 t).IsWhole := hstage0_0 ((cfg0.slots t 0).cast nbuf0_0)
abbrev stg1 (t : Fin cfg0.N) : Memref sig .tc .vmem S192x512 .bf16 := win0_1.stage (cfg0.slots t 1)
abbrev stgWhole1 (t : Fin cfg0.N) : (stg1 t).IsWhole := hstage0_1 ((cfg0.slots t 1).cast nbuf0_1)
abbrev stg2 (t : Fin cfg0.N) : Memref sig .tc .vmem S384x384 .bf16 := win0_2.stage (cfg0.slots t 2)
abbrev stgWhole2 (t : Fin cfg0.N) : (stg2 t).IsWhole := hstage0_2 ((cfg0.slots t 2).cast nbuf0_2)
abbrev stg3 (t : Fin cfg0.N) : Memref sig .tc .vmem S8x128 .f32 := win0_3.stage (cfg0.slots t 3)
abbrev stgWhole3 (t : Fin cfg0.N) : (stg3 t).IsWhole := hstage0_3 ((cfg0.slots t 3).cast nbuf0_3)
abbrev stg4 (t : Fin cfg0.N) : Memref sig .tc .vmem S2x56x56x128 .f32 := win0_4.stage (cfg0.slots t 4)
abbrev stgWhole4 (t : Fin cfg0.N) : (stg4 t).IsWhole := hstage0_4 ((cfg0.slots t 4).cast nbuf0_4)
/-- The two scratch buffers: the zero-haloed hidden activation and the zero-haloed input. -/
abbrev haloH : Memref sig .tc .vmem S116x64x128 .bf16 := Memref.whole cc0_scratch0
abbrev haloX : Memref sig .tc .vmem S116x64x64 .bf16 := Memref.whole cc0_scratch1

/-- The frame says nothing of what the region writes, so the output window is the one window whose contents the proof data
    does not follow. -/
def outOnly : Fin cfg0.W → Bool := fun w => w.val == 4

/-- On core c: the arrays as the region finds them; after the body at point t each input's buffer still at its block
    (the output's entry is a placeholder nothing reads: that window is not followed); the invariant between points is the
    class's (the scratch buffers at anything, the random generator's register at some state); the core owes no one; full
    shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => fun _ => Classical.arbitrary _
  Φ _ := Pipeline.ΦA spec0 c
  q _ := fullShare
  owed _ := 0

theorem A_eq (c : Dev nD) (w : Fin cfg0.W) : (dats m 0 c).A w = entry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]

theorem before0 (c : Dev nD) (t : Fin cfg0.N) (d) : (dats m 0 c).before 0 t d = blockAt m c 0 t :=
  input_found0 m (dats m 0 c) (A_eq m c 0) (after0 m c) t d
theorem before1 (c : Dev nD) (t : Fin cfg0.N) (d) : (dats m 0 c).before 1 t d = blockAt m c 1 t :=
  input_found1 m (dats m 0 c) (A_eq m c 1) (after1 m c) t d
theorem before2 (c : Dev nD) (t : Fin cfg0.N) (d) : (dats m 0 c).before 2 t d = blockAt m c 2 t :=
  input_found2 m (dats m 0 c) (A_eq m c 2) (after2 m c) t d
theorem before3 (c : Dev nD) (t : Fin cfg0.N) (d) : (dats m 0 c).before 3 t d = blockAt m c 3 t :=
  input_found3 m (dats m 0 c) (A_eq m c 3) (after3 m c) t d

/-- The class's invariant spelled out: each scratch buffer owned whole at some contents, and the generator's register. -/
theorem rest_eq (c : Dev nD) :
    (Pipeline.ΦA spec0 c : sProp 𝕄)
      = iprop(iprop((∃ d, owns (c : Thread nD τ) haloH fullShare d) ∗ (∃ d, owns (c : Thread nD τ) haloX fullShare d)) ∗ (∃ r, prngReg c r)) := by
  unfold Pipeline.ΦA; rw [scopedRest0_eq]; simp only [haloH, haloX, owns_whole]; try rfl

/-! ## The body obligation -/

/-- What the body is called with at point t: the invariant, the inputs' buffers at what the pipeline left there, the
    output's at anything, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- and what it returns: the same with each input's buffer at its block and the output's at something. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

set_option maxHeartbeats 4000000 in
/-- The body at any point: the inputs' staging buffers hold their blocks, the invariant lends the two scratch buffers at
    anything, so the point's run applies; it hands back the inputs as they were, the scratch buffers at something (the
    invariant again) and the output block at something. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3]
  rw [show (dats m 0 c).Φ t.castSucc = Pipeline.ΦA spec0 c from rfl, rest_eq]
  iintro ⟨⟨⟨HS6, HS7⟩, Hg⟩, Ho, ⟨%d0, H0⟩, ⟨%d1, H1⟩, ⟨%d2, H2⟩, ⟨%d3, H3⟩, H4⟩
  iapply (pointRun (F := F) c (grid0.coords t) (stg0 t) (stgWhole0 t) (stg1 t) (stgWhole1 t) (stg2 t) (stgWhole2 t) (stg3 t) (stgWhole3 t)
    (stg4 t) (stgWhole4 t) haloH (Memref.isWhole_whole _) haloX (Memref.isWhole_whole _)
    (blockAt m c 0 t) (blockAt m c 1 t) (blockAt m c 2 t) (blockAt m c 3 t) Set.univ _)
  isplitl [H0]; · iexact H0
  isplitl [H1]; · iexact H1
  isplitl [H2]; · iexact H2
  isplitl [H3]; · iexact H3
  isplitl [H4]; · iexact H4
  isplitl [HS6]; · iexact HS6
  isplitl [HS7]; · iexact HS7
  iintro ⟨H0, H1, H2, H3, H4, HS6, HS7⟩
  isplitl [HS6 HS7 Hg]
  · isplitl [HS6 HS7]
    · isplitl [HS6]; · iexact HS6
      iexact HS7
    iexact Hg
  isplitl [Ho]; · iexact Ho
  isplitl [H0]; · iexact H0
  isplitl [H1]; · iexact H1
  isplitl [H2]; · iexact H2
  isplitl [H3]; · iexact H3
  iexact H4

/-- The library's body obligation at every point, the output window not followed. -/
theorem body_obligation (c : Dev nD) : BodyObligation (dats (F := F) m 0 c) (defs₀ (F := F)) Variants.none () Set.univ outOnly := fun t => by
  rw [bigSep_W0, bigSep_W0]
  exact sound_body m c t

/-! ## The run and the frame -/

set_option backward.isDefEq.respectTransparency.types false in
/-- From any memory with zero counters every weakly fair execution of the program terminates without fault, and at the
    end every unscoped buffer that is neither one of the region's arrays nor the final result holds what it held when
    the region was entered. -/
theorem run_main : θ_run defs (onTc (τ := τ) (main (F := F))) (s₀ m ρ)
    (Pipeline.RDat.FramePostR cfg0 (fun c => (dats m 0 c).toRForget outOnly) ({main_v44} : Finset (Ref sig .tc)) (entry m)) :=
  Pipeline.RDat.θ_run_frame_around_T cfgs (0 : Fin 1) launch0 defs₀ Variants.none (fun c => (dats m 0 c).toRForget outOnly)
    ({main_v44} : Finset (Ref sig .tc)) m ρ main
    (hbody := fun c => (body_obligation m c).toRForget) (hshare := fun c => (dats m 0 c).share_full fun _ => rfl)
    (howed := fun _ _ => rfl) (V₀ := entry0 m) (opss := [hostOps1]) (hsub := tail_sub) (hfresh := tail_fresh) (hkeep := tail_keeps)
    (hT := tail_writes) (hmain := main_around m Variants.none) (hA := A_eq m) (hΦ := fun _ _ => rfl)

/-- The frame, at any float instance: every argument array is an unscoped buffer that is none of the region's arrays and
    not the final result, so it ends at its entry contents, which no host operation before the region wrote: its launch
    contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).2 main_arg0 (Finset.mem_sdiff.mpr ⟨Pipeline.mem_restRefs_of main_arg0 (by decide) (by decide), by decide⟩)).trans (entry_kept m c main_arg0 (by decide)),
      ((h c).2 main_arg1 (Finset.mem_sdiff.mpr ⟨Pipeline.mem_restRefs_of main_arg1 (by decide) (by decide), by decide⟩)).trans (entry_kept m c main_arg1 (by decide)),
      ((h c).2 main_arg2 (Finset.mem_sdiff.mpr ⟨Pipeline.mem_restRefs_of main_arg2 (by decide) (by decide), by decide⟩)).trans (entry_kept m c main_arg2 (by decide)),
      ((h c).2 main_arg3 (Finset.mem_sdiff.mpr ⟨Pipeline.mem_restRefs_of main_arg3 (by decide) (by decide), by decide⟩)).trans (entry_kept m c main_arg3 (by decide)),
      ((h c).2 main_arg4 (Finset.mem_sdiff.mpr ⟨Pipeline.mem_restRefs_of main_arg4 (by decide) (by decide), by decide⟩)).trans (entry_kept m c main_arg4 (by decide)),
      ((h c).2 main_arg5 (Finset.mem_sdiff.mpr ⟨Pipeline.mem_restRefs_of main_arg5 (by decide) (by decide), by decide⟩)).trans (entry_kept m c main_arg5 (by decide)),
      ((h c).2 main_arg6 (Finset.mem_sdiff.mpr ⟨Pipeline.mem_restRefs_of main_arg6 (by decide) (by decide), by decide⟩)).trans (entry_kept m c main_arg6 (by decide)),
      ((h c).2 main_arg7 (Finset.mem_sdiff.mpr ⟨Pipeline.mem_restRefs_of main_arg7 (by decide) (by decide), by decide⟩)).trans (entry_kept m c main_arg7 (by decide)),
      ((h c).2 main_arg8 (Finset.mem_sdiff.mpr ⟨Pipeline.mem_restRefs_of main_arg8 (by decide) (by decide), by decide⟩)).trans (entry_kept m c main_arg8 (by decide)),
      ((h c).2 main_arg9 (Finset.mem_sdiff.mpr ⟨Pipeline.mem_restRefs_of main_arg9 (by decide) (by decide), by decide⟩)).trans (entry_kept m c main_arg9 (by decide)),
      ((h c).2 main_arg10 (Finset.mem_sdiff.mpr ⟨Pipeline.mem_restRefs_of main_arg10 (by decide) (by decide), by decide⟩)).trans (entry_kept m c main_arg10 (by decide)),
      ((h c).2 main_arg11 (Finset.mem_sdiff.mpr ⟨Pipeline.mem_restRefs_of main_arg11 (by decide) (by decide), by decide⟩)).trans (entry_kept m c main_arg11 (by decide)),
      ((h c).2 main_arg12 (Finset.mem_sdiff.mpr ⟨Pipeline.mem_restRefs_of main_arg12 (by decide) (by decide), by decide⟩)).trans (entry_kept m c main_arg12 (by decide)),
      ((h c).2 main_arg13 (Finset.mem_sdiff.mpr ⟨Pipeline.mem_restRefs_of main_arg13 (by decide) (by decide), by decide⟩)).trans (entry_kept m c main_arg13 (by decide)),
      ((h c).2 main_arg14 (Finset.mem_sdiff.mpr ⟨Pipeline.mem_restRefs_of main_arg14 (by decide) (by decide), by decide⟩)).trans (entry_kept m c main_arg14 (by decide)),
      ((h c).2 main_arg15 (Finset.mem_sdiff.mpr ⟨Pipeline.mem_restRefs_of main_arg15 (by decide) (by decide), by decide⟩)).trans (entry_kept m c main_arg15 (by decide))⟩) (run_main m ρ)

end Cert.KernelIdeal.Block

end
-- ==== Proof.RefRegion0.lean ====
import proofs.«173333_g2000300637041083_pallasbulk_292_30_alg».proof.Proof.Gen.ReferenceIdeal.Launch
import proofs.«173333_g2000300637041083_pallasbulk_292_30_alg».proof.Proof.Gen.ReferenceIdeal.Skeleton
import proofs.«173333_g2000300637041083_pallasbulk_292_30_alg».proof.Proof.Gen.ReferenceIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The first kernel region (custom_call 0)

A 512×64 block of the activations times the 64×128 weights, each column scaled and shifted, stored as one 512×128
block of the result. Everything is stated at a parameter `V`: what the core's unscoped buffers hold when the region
is entered. Nothing here looks inside the stored value: the frame only needs that the body runs and hands each
buffer back. -/

section Region0

variable (V : (c : Dev nD) → (b : Ref sig .tc) → Buf (Elt F) ((c : Thread nD τ).loc b))

/-- The block of window `w` that grid point `t` works on, read off the window's array as the region finds it. -/
def blk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-! ## An input's buffer holds its block at every point

Windows 1, 2, 3 are fetched once, at the first point, and window 0 at every point; either way the block index of an
unfetched window has not moved since the fetch and the body leaves the block as it found it, so the buffer the body
is handed holds the array's block there. -/

theorem found0_0 {c : Dev nD} (dat : Dat τ (Elt F) Unit ℕ (Pipeline.UD sig nD τ) ℕ cfg0 c)
    (hA : dat.A 0 = V c (Pipeline.arrRef spec0 0)) (hkeep : ∀ t, dat.after 0 t = blk0 V c 0 t)
    (t : Fin cfg0.N) (d) : dat.before 0 t d = blk0 V c 0 t := by
  refine (dat.before_in_eq_fetched 0 rfl (fun _ => rfl) (fun _ _ _ => rfl) (fun s => ?_) t d).trans ?_
  · rw [hkeep]; unfold Dat.blockOf blk0; rw [hA]; try rfl
  · unfold Dat.fetched Dat.blockOf blk0; rw [hA]; try rfl
theorem found0_1 {c : Dev nD} (dat : Dat τ (Elt F) Unit ℕ (Pipeline.UD sig nD τ) ℕ cfg0 c)
    (hA : dat.A 1 = V c (Pipeline.arrRef spec0 1)) (hkeep : ∀ t, dat.after 1 t = blk0 V c 1 t)
    (t : Fin cfg0.N) (d) : dat.before 1 t d = blk0 V c 1 t := by
  refine (dat.before_in_eq_fetched 1 rfl (fun _ => rfl) (fun _ _ _ => rfl) (fun s => ?_) t d).trans ?_
  · rw [hkeep]; unfold Dat.blockOf blk0; rw [hA]; try rfl
  · unfold Dat.fetched Dat.blockOf blk0; rw [hA]; try rfl
theorem found0_2 {c : Dev nD} (dat : Dat τ (Elt F) Unit ℕ (Pipeline.UD sig nD τ) ℕ cfg0 c)
    (hA : dat.A 2 = V c (Pipeline.arrRef spec0 2)) (hkeep : ∀ t, dat.after 2 t = blk0 V c 2 t)
    (t : Fin cfg0.N) (d) : dat.before 2 t d = blk0 V c 2 t := by
  refine (dat.before_in_eq_fetched 2 rfl (fun _ => rfl) (fun _ _ _ => rfl) (fun s => ?_) t d).trans ?_
  · rw [hkeep]; unfold Dat.blockOf blk0; rw [hA]; try rfl
  · unfold Dat.fetched Dat.blockOf blk0; rw [hA]; try rfl
theorem found0_3 {c : Dev nD} (dat : Dat τ (Elt F) Unit ℕ (Pipeline.UD sig nD τ) ℕ cfg0 c)
    (hA : dat.A 3 = V c (Pipeline.arrRef spec0 3)) (hkeep : ∀ t, dat.after 3 t = blk0 V c 3 t)
    (t : Fin cfg0.N) (d) : dat.before 3 t d = blk0 V c 3 t := by
  refine (dat.before_in_eq_fetched 3 rfl (fun _ => rfl) (fun _ _ _ => rfl) (fun s => ?_) t d).trans ?_
  · rw [hkeep]; unfold Dat.blockOf blk0; rw [hA]; try rfl
  · unfold Dat.fetched Dat.blockOf blk0; rw [hA]; try rfl

/-! ## What the body reads and writes -/

/-- The rectangles of the body's four loads of its inputs (each the whole buffer) and of its one store. -/
abbrev rd0_0 : Rect S512x64 := Rect.unit (s := S512x64) ![0, 0] S512x64.size inb_S512x64_S512x64_0_0
abbrev rd0_1 : Rect S64x128 := Rect.unit (s := S64x128) ![0, 0] S64x128.size inb_S64x128_S64x128_0_0
abbrev rd0_2 : Rect S1x128 := Rect.unit (s := S1x128) ![0, 0] S1x128.size inb_S1x128_S1x128_0_0
abbrev box0 : Rect S512x128 := Rect.unit (s := S512x128) ![0, 0] S512x128.size inb_S512x128_S512x128_0_0

/-- What the body leaves in the output window's buffer, from the four input blocks: its single store, of the product
    scaled and shifted, read back as the contents a covering list of writes leaves. -/
def res0 (x0 : Vec F S512x64 .bf16) (x1 : Vec F S64x128 .bf16) (x2 : Vec F S1x128 .f32) (x3 : Vec F S1x128 .f32) :
    Vec F S512x128 .f32 :=
  View.canon [⟨box0, k0_pay1 (View.ld x0 rd0_0) (View.ld x1 rd0_1) (View.ld x2 rd0_2) (View.ld x3 rd0_2)⟩]

/-- The one store covers the output buffer: its rectangle is the whole shape. -/
theorem res0_cover (p : Vec F S512x128 .f32) (y : S512x128.Idx) :
    ∃ pc ∈ ([⟨box0, p⟩] : List (View.Piece (Elt F) S512x128 .f32)), y ∈ pc.1.set :=
  View.cover_of_tiled [⟨box0, p⟩] S512x128.size (by rfl) y

set_option maxHeartbeats 1000000 in
/-- The kernel on whole buffers: with the four inputs at `x0 … x3` and the output buffer at anything, it runs to its
    end leaving the inputs as they were and the output at `res0` of them. The load of the output buffer before the
    store reads whatever is there and is not used. -/
theorem kernel0_run (c : Dev nD) (E : Set ℕ) (i : grid0.Coords)
    (a0 : Memref sig .tc .vmem S512x64 .bf16) (h0 : a0.IsWhole) (a1 : Memref sig .tc .vmem S64x128 .bf16) (h1 : a1.IsWhole)
    (a2 : Memref sig .tc .vmem S1x128 .f32) (h2 : a2.IsWhole) (a3 : Memref sig .tc .vmem S1x128 .f32) (h3 : a3.IsWhole)
    (a4 : Memref sig .tc .vmem S512x128 .f32) (h4 : a4.IsWhole)
    (x0 : Vec F S512x64 .bf16) (x1 : Vec F S64x128 .bf16) (x2 : Vec F S1x128 .f32) (x3 : Vec F S1x128 .f32)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (res0 x0 x1 x2 x3)) -∗ K ⟨⟩))
      ⊢ wp frame (wpE (defs₀ (F := F)) Variants.none c none) E (cc0_conv_bn_kernel i a0 h0 a1 h1 a2 h2 a3 h3 a4 h4) K := by
  simp only [cc0_conv_bn_kernel_eq_skeleton]; unfold cc0_conv_bn_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (res0_cover _)

/-! ## The proof data -/

/-- Pipeline 0's proof data on core `c`: the arrays as the region finds them; after the body each input's buffer still
    at its block and the output's at `res0` of the input blocks; as invariant the scoped buffers no window stages and
    the generator register, which the body does not touch; every share full; nothing owed. -/
def dat0 (c : Dev nD) : Dat τ (Elt F) Unit ℕ (Pipeline.UD sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => res0 (blk0 V c 0 t) (blk0 V c 1 t) (blk0 V c 2 t) (blk0 V c 3 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) : (dat0 V c).after 2 t = blk0 V c 2 t := by dsimp only [dat0]
theorem dat0_after_3 (c : Dev nD) (t : Fin cfg0.N) : (dat0 V c).after 3 t = blk0 V c 3 t := by dsimp only [dat0]
theorem dat0_after_4 (c : Dev nD) (t : Fin cfg0.N) :
    (dat0 V c).after 4 t = res0 (blk0 V c 0 t) (blk0 V c 1 t) (blk0 V c 2 t) (blk0 V c 3 t) := by dsimp only [dat0]

theorem dat0_before_0 (c : Dev nD) (t : Fin cfg0.N) (d) : (dat0 V c).before 0 t d = blk0 V c 0 t :=
  found0_0 V (dat0 V c) (dat0_A V c 0) (dat0_after_0 V c) t d
theorem dat0_before_1 (c : Dev nD) (t : Fin cfg0.N) (d) : (dat0 V c).before 1 t d = blk0 V c 1 t :=
  found0_1 V (dat0 V c) (dat0_A V c 1) (dat0_after_1 V c) t d
theorem dat0_before_2 (c : Dev nD) (t : Fin cfg0.N) (d) : (dat0 V c).before 2 t d = blk0 V c 2 t :=
  found0_2 V (dat0 V c) (dat0_A V c 2) (dat0_after_2 V c) t d
theorem dat0_before_3 (c : Dev nD) (t : Fin cfg0.N) (d) : (dat0 V c).before 3 t d = blk0 V c 3 t :=
  found0_3 V (dat0 V c) (dat0_A V c 3) (dat0_after_3 V c) t d

/-! ## The body obligation -/

/-- What the body is handed at point `t`: the invariant, what the core owes, each window's current buffer. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it hands back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the kernel's run applies; the invariant and what
    the core owes are the same before and after and pass through untouched. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_before_0, dat0_before_1, dat0_before_2, dat0_before_3]
  rw [show (dat0 V c).Φ t.succ = (dat0 V c).Φ t.castSucc from rfl,
    show (dat0 V c).owesAt () t.succ = (dat0 V c).owesAt () t.castSucc from rfl,
    dat0_after_0, dat0_after_1, dat0_after_2, dat0_after_3, dat0_after_4]
  iintro ⟨HΦ, Ho, ⟨%d0, H0⟩, ⟨%d1, H1⟩, ⟨%d2, H2⟩, ⟨%d3, H3⟩, ⟨%d4, H4⟩⟩
  iapply (kernel0_run c Set.univ _ _ _ _ _ _ _ _ _ _ _ (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation for region 0, at every point. -/
theorem body0 (c : Dev nD) : BodyObligation (dat0 (F := F) V c) (defs₀ (F := F)) Variants.none () Set.univ := fun t => by
  rw [bigSep_W0, bigSep_W0]
  exact body0_at V c t

end Region0

end Cert.ReferenceIdeal.Hand

end
-- ==== Proof.RefRegion1.lean ====
import proofs.«173333_g2000300637041083_pallasbulk_292_30_alg».proof.Proof.Gen.ReferenceIdeal.Launch
import proofs.«173333_g2000300637041083_pallasbulk_292_30_alg».proof.Proof.Gen.ReferenceIdeal.Skeleton
import proofs.«173333_g2000300637041083_pallasbulk_292_30_alg».proof.Proof.Gen.ReferenceIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The second kernel region (custom_call 1)

A 512×576 block of the gathered 3×3 patches times the 576×128 weights, each column scaled and shifted, clamped below
at zero and rounded to bf16, stored as one 512×128 block. Stated at a parameter `V`: what the core's unscoped buffers
hold when the region is entered. The stored value is never opened. -/

section Region1

variable (V : (c : Dev nD) → (b : Ref sig .tc) → Buf (Elt F) ((c : Thread nD τ).loc b))

/-- The block of window `w` that grid point `t` works on, read off the window's array as the region finds it. -/
def blk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## An input's buffer holds its block at every point

The patch window is fetched at every point, the weights and the two rows once; an unfetched window's block index has
not moved and the body leaves every input as found, so the buffer the body is handed holds the array's block. -/

theorem found1_0 {c : Dev nD} (dat : Dat τ (Elt F) Unit ℕ (Pipeline.UD sig nD τ) ℕ cfg1 c)
    (hA : dat.A 0 = V c (Pipeline.arrRef spec1 0)) (hkeep : ∀ t, dat.after 0 t = blk1 V c 0 t)
    (t : Fin cfg1.N) (d) : dat.before 0 t d = blk1 V c 0 t := by
  refine (dat.before_in_eq_fetched 0 rfl (fun _ => rfl) (fun _ _ _ => rfl) (fun s => ?_) t d).trans ?_
  · rw [hkeep]; unfold Dat.blockOf blk1; rw [hA]; try rfl
  · unfold Dat.fetched Dat.blockOf blk1; rw [hA]; try rfl
theorem found1_1 {c : Dev nD} (dat : Dat τ (Elt F) Unit ℕ (Pipeline.UD sig nD τ) ℕ cfg1 c)
    (hA : dat.A 1 = V c (Pipeline.arrRef spec1 1)) (hkeep : ∀ t, dat.after 1 t = blk1 V c 1 t)
    (t : Fin cfg1.N) (d) : dat.before 1 t d = blk1 V c 1 t := by
  refine (dat.before_in_eq_fetched 1 rfl (fun _ => rfl) (fun _ _ _ => rfl) (fun s => ?_) t d).trans ?_
  · rw [hkeep]; unfold Dat.blockOf blk1; rw [hA]; try rfl
  · unfold Dat.fetched Dat.blockOf blk1; rw [hA]; try rfl
theorem found1_2 {c : Dev nD} (dat : Dat τ (Elt F) Unit ℕ (Pipeline.UD sig nD τ) ℕ cfg1 c)
    (hA : dat.A 2 = V c (Pipeline.arrRef spec1 2)) (hkeep : ∀ t, dat.after 2 t = blk1 V c 2 t)
    (t : Fin cfg1.N) (d) : dat.before 2 t d = blk1 V c 2 t := by
  refine (dat.before_in_eq_fetched 2 rfl (fun _ => rfl) (fun _ _ _ => rfl) (fun s => ?_) t d).trans ?_
  · rw [hkeep]; unfold Dat.blockOf blk1; rw [hA]; try rfl
  · unfold Dat.fetched Dat.blockOf blk1; rw [hA]; try rfl
theorem found1_3 {c : Dev nD} (dat : Dat τ (Elt F) Unit ℕ (Pipeline.UD sig nD τ) ℕ cfg1 c)
    (hA : dat.A 3 = V c (Pipeline.arrRef spec1 3)) (hkeep : ∀ t, dat.after 3 t = blk1 V c 3 t)
    (t : Fin cfg1.N) (d) : dat.before 3 t d = blk1 V c 3 t := by
  refine (dat.before_in_eq_fetched 3 rfl (fun _ => rfl) (fun _ _ _ => rfl) (fun s => ?_) t d).trans ?_
  · rw [hkeep]; unfold Dat.blockOf blk1; rw [hA]; try rfl
  · unfold Dat.fetched Dat.blockOf blk1; rw [hA]; try rfl

/-! ## What the body reads and writes -/

/-- The rectangles of the body's loads of its inputs (each the whole buffer) and of its one store. -/
abbrev rd1_0 : Rect S512x576 := Rect.unit (s := S512x576) ![0, 0] S512x576.size inb_S512x576_S512x576_0_0
abbrev rd1_1 : Rect S576x128 := Rect.unit (s := S576x128) ![0, 0] S576x128.size inb_S576x128_S576x128_0_0
abbrev rd1_2 : Rect S1x128 := Rect.unit (s := S1x128) ![0, 0] S1x128.size inb_S1x128_S1x128_0_0
abbrev box1 : Rect S512x128 := Rect.unit (s := S512x128) ![0, 0] S512x128.size inb_S512x128_S512x128_0_0

/-- What the body leaves in the output window's buffer, from the four input blocks: its single store, read back as
    the contents a covering list of writes leaves. -/
def res1 (x0 : Vec F S512x576 .bf16) (x1 : Vec F S576x128 .bf16) (x2 : Vec F S1x128 .f32) (x3 : Vec F S1x128 .f32) :
    Vec F S512x128 .bf16 :=
  View.canon [⟨box1, k1_pay1 (View.ld x0 rd1_0) (View.ld x1 rd1_1) (View.ld x2 rd1_2) (View.ld x3 rd1_2)⟩]

/-- The one store covers the output buffer: its rectangle is the whole shape. -/
theorem res1_cover (p : Vec F S512x128 .bf16) (y : S512x128.Idx) :
    ∃ pc ∈ ([⟨box1, p⟩] : List (View.Piece (Elt F) S512x128 .bf16)), y ∈ pc.1.set :=
  View.cover_of_tiled [⟨box1, p⟩] S512x128.size (by rfl) y

set_option maxHeartbeats 1000000 in
/-- The kernel on whole buffers: with the four inputs at `x0 … x3` and the output buffer at anything, it runs to its
    end leaving the inputs as they were and the output at `res1` of them. -/
theorem kernel1_run (c : Dev nD) (E : Set ℕ) (i : grid1.Coords)
    (a0 : Memref sig .tc .vmem S512x576 .bf16) (h0 : a0.IsWhole) (a1 : Memref sig .tc .vmem S576x128 .bf16) (h1 : a1.IsWhole)
    (a2 : Memref sig .tc .vmem S1x128 .f32) (h2 : a2.IsWhole) (a3 : Memref sig .tc .vmem S1x128 .f32) (h3 : a3.IsWhole)
    (a4 : Memref sig .tc .vmem S512x128 .bf16) (h4 : a4.IsWhole)
    (x0 : Vec F S512x576 .bf16) (x1 : Vec F S576x128 .bf16) (x2 : Vec F S1x128 .f32) (x3 : Vec F S1x128 .f32)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (res1 x0 x1 x2 x3)) -∗ K ⟨⟩))
      ⊢ wp frame (wpE (defs₀ (F := F)) Variants.none c none) E (cc1_conv_bn_kernel i a0 h0 a1 h1 a2 h2 a3 h3 a4 h4) K := by
  simp only [cc1_conv_bn_kernel_eq_skeleton]; unfold cc1_conv_bn_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (res1_cover _)

/-! ## The proof data -/

/-- Pipeline 1's proof data on core `c`: the arrays as the region finds them; after the body each input's buffer still
    at its block and the output's at `res1` of the input blocks; as invariant the scoped buffers no window stages and
    the generator register; every share full; nothing owed. -/
def dat1 (c : Dev nD) : Dat τ (Elt F) Unit ℕ (Pipeline.UD sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => res1 (blk1 V c 0 t) (blk1 V c 1 t) (blk1 V c 2 t) (blk1 V c 3 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) : (dat1 V c).after 3 t = blk1 V c 3 t := by dsimp only [dat1]
theorem dat1_after_4 (c : Dev nD) (t : Fin cfg1.N) :
    (dat1 V c).after 4 t = res1 (blk1 V c 0 t) (blk1 V c 1 t) (blk1 V c 2 t) (blk1 V c 3 t) := by dsimp only [dat1]

theorem dat1_before_0 (c : Dev nD) (t : Fin cfg1.N) (d) : (dat1 V c).before 0 t d = blk1 V c 0 t :=
  found1_0 V (dat1 V c) (dat1_A V c 0) (dat1_after_0 V c) t d
theorem dat1_before_1 (c : Dev nD) (t : Fin cfg1.N) (d) : (dat1 V c).before 1 t d = blk1 V c 1 t :=
  found1_1 V (dat1 V c) (dat1_A V c 1) (dat1_after_1 V c) t d
theorem dat1_before_2 (c : Dev nD) (t : Fin cfg1.N) (d) : (dat1 V c).before 2 t d = blk1 V c 2 t :=
  found1_2 V (dat1 V c) (dat1_A V c 2) (dat1_after_2 V c) t d
theorem dat1_before_3 (c : Dev nD) (t : Fin cfg1.N) (d) : (dat1 V c).before 3 t d = blk1 V c 3 t :=
  found1_3 V (dat1 V c) (dat1_A V c 3) (dat1_after_3 V c) t d

/-! ## The body obligation -/

/-- What the body is handed at point `t`: the invariant, what the core owes, each window's current buffer. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it hands back. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the kernel's run applies; the invariant and what
    the core owes pass through untouched. -/
theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_before_0, dat1_before_1, dat1_before_2, dat1_before_3]
  rw [show (dat1 V c).Φ t.succ = (dat1 V c).Φ t.castSucc from rfl,
    show (dat1 V c).owesAt () t.succ = (dat1 V c).owesAt () t.castSucc from rfl,
    dat1_after_0, dat1_after_1, dat1_after_2, dat1_after_3, dat1_after_4]
  iintro ⟨HΦ, Ho, ⟨%d0, H0⟩, ⟨%d1, H1⟩, ⟨%d2, H2⟩, ⟨%d3, H3⟩, ⟨%d4, H4⟩⟩
  iapply (kernel1_run c Set.univ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation for region 1, at every point. -/
theorem body1 (c : Dev nD) : BodyObligation (dat1 (F := F) V c) (defs₀ (F := F)) Variants.none () Set.univ := fun t => by
  rw [bigSep_W1, bigSep_W1]
  exact body1_at V c t

end Region1

end Cert.ReferenceIdeal.Hand

end
-- ==== Proof.RefRegion2.lean ====
import proofs.«173333_g2000300637041083_pallasbulk_292_30_alg».proof.Proof.Gen.ReferenceIdeal.Launch
import proofs.«173333_g2000300637041083_pallasbulk_292_30_alg».proof.Proof.Gen.ReferenceIdeal.Skeleton
import proofs.«173333_g2000300637041083_pallasbulk_292_30_alg».proof.Proof.Gen.ReferenceIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The third kernel region (custom_call 2)

A 512×1152 block of the gathered 3×3 patches times the 1152×128 weights, each column scaled and shifted, the matching
512×128 block of the first region's result added, clamped below at zero, stored as one 512×128 block. Stated at a
parameter `V`: what the core's unscoped buffers hold when the region is entered. The stored value is named (the
closed form of the single store) and never opened. -/

section Region2

variable (V : (c : Dev nD) → (b : Ref sig .tc) → Buf (Elt F) ((c : Thread nD τ).loc b))

/-- The block of window `w` that grid point `t` works on, read off the window's array as the region finds it. -/
def blk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-! ## An input's buffer holds its block at every point

The patch window and the added block are fetched at every point, the weights and the two rows once; an unfetched
window's block index has not moved and the body leaves every input as found, so the buffer the body is handed holds
the array's block. -/

theorem found2_0 {c : Dev nD} (dat : Dat τ (Elt F) Unit ℕ (Pipeline.UD sig nD τ) ℕ cfg2 c)
    (hA : dat.A 0 = V c (Pipeline.arrRef spec2 0)) (hkeep : ∀ t, dat.after 0 t = blk2 V c 0 t)
    (t : Fin cfg2.N) (d) : dat.before 0 t d = blk2 V c 0 t := by
  refine (dat.before_in_eq_fetched 0 rfl (fun _ => rfl) (fun _ _ _ => rfl) (fun s => ?_) t d).trans ?_
  · rw [hkeep]; unfold Dat.blockOf blk2; rw [hA]; try rfl
  · unfold Dat.fetched Dat.blockOf blk2; rw [hA]; try rfl
theorem found2_1 {c : Dev nD} (dat : Dat τ (Elt F) Unit ℕ (Pipeline.UD sig nD τ) ℕ cfg2 c)
    (hA : dat.A 1 = V c (Pipeline.arrRef spec2 1)) (hkeep : ∀ t, dat.after 1 t = blk2 V c 1 t)
    (t : Fin cfg2.N) (d) : dat.before 1 t d = blk2 V c 1 t := by
  refine (dat.before_in_eq_fetched 1 rfl (fun _ => rfl) (fun _ _ _ => rfl) (fun s => ?_) t d).trans ?_
  · rw [hkeep]; unfold Dat.blockOf blk2; rw [hA]; try rfl
  · unfold Dat.fetched Dat.blockOf blk2; rw [hA]; try rfl
theorem found2_2 {c : Dev nD} (dat : Dat τ (Elt F) Unit ℕ (Pipeline.UD sig nD τ) ℕ cfg2 c)
    (hA : dat.A 2 = V c (Pipeline.arrRef spec2 2)) (hkeep : ∀ t, dat.after 2 t = blk2 V c 2 t)
    (t : Fin cfg2.N) (d) : dat.before 2 t d = blk2 V c 2 t := by
  refine (dat.before_in_eq_fetched 2 rfl (fun _ => rfl) (fun _ _ _ => rfl) (fun s => ?_) t d).trans ?_
  · rw [hkeep]; unfold Dat.blockOf blk2; rw [hA]; try rfl
  · unfold Dat.fetched Dat.blockOf blk2; rw [hA]; try rfl
theorem found2_3 {c : Dev nD} (dat : Dat τ (Elt F) Unit ℕ (Pipeline.UD sig nD τ) ℕ cfg2 c)
    (hA : dat.A 3 = V c (Pipeline.arrRef spec2 3)) (hkeep : ∀ t, dat.after 3 t = blk2 V c 3 t)
    (t : Fin cfg2.N) (d) : dat.before 3 t d = blk2 V c 3 t := by
  refine (dat.before_in_eq_fetched 3 rfl (fun _ => rfl) (fun _ _ _ => rfl) (fun s => ?_) t d).trans ?_
  · rw [hkeep]; unfold Dat.blockOf blk2; rw [hA]; try rfl
  · unfold Dat.fetched Dat.blockOf blk2; rw [hA]; try rfl
theorem found2_4 {c : Dev nD} (dat : Dat τ (Elt F) Unit ℕ (Pipeline.UD sig nD τ) ℕ cfg2 c)
    (hA : dat.A 4 = V c (Pipeline.arrRef spec2 4)) (hkeep : ∀ t, dat.after 4 t = blk2 V c 4 t)
    (t : Fin cfg2.N) (d) : dat.before 4 t d = blk2 V c 4 t := by
  refine (dat.before_in_eq_fetched 4 rfl (fun _ => rfl) (fun _ _ _ => rfl) (fun s => ?_) t d).trans ?_
  · rw [hkeep]; unfold Dat.blockOf blk2; rw [hA]; try rfl
  · unfold Dat.fetched Dat.blockOf blk2; rw [hA]; try rfl

/-! ## What the body reads and writes -/

/-- The rectangles of the body's loads of its inputs (each the whole buffer) and of its one store. -/
abbrev rd2_0 : Rect S512x1152 := Rect.unit (s := S512x1152) ![0, 0] S512x1152.size inb_S512x1152_S512x1152_0_0
abbrev rd2_1 : Rect S1152x128 := Rect.unit (s := S1152x128) ![0, 0] S1152x128.size inb_S1152x128_S1152x128_0_0
abbrev rd2_2 : Rect S1x128 := Rect.unit (s := S1x128) ![0, 0] S1x128.size inb_S1x128_S1x128_0_0
abbrev box2 : Rect S512x128 := Rect.unit (s := S512x128) ![0, 0] S512x128.size inb_S512x128_S512x128_0_0

/-- What the body leaves in the output window's buffer, from the five input blocks: its single store, read back as
    the contents a covering list of writes leaves. -/
def res2 (x0 : Vec F S512x1152 .bf16) (x1 : Vec F S1152x128 .bf16) (x2 : Vec F S1x128 .f32) (x3 : Vec F S1x128 .f32)
    (x4 : Vec F S512x128 .f32) : Vec F S512x128 .f32 :=
  View.canon [⟨box2, k2_pay1 (View.ld x0 rd2_0) (View.ld x1 rd2_1) (View.ld x2 rd2_2) (View.ld x3 rd2_2) (View.ld x4 box2)⟩]

/-- The one store covers the output buffer: its rectangle is the whole shape. -/
theorem res2_cover (p : Vec F S512x128 .f32) (y : S512x128.Idx) :
    ∃ pc ∈ ([⟨box2, p⟩] : List (View.Piece (Elt F) S512x128 .f32)), y ∈ pc.1.set :=
  View.cover_of_tiled [⟨box2, p⟩] S512x128.size (by rfl) y

set_option maxHeartbeats 1000000 in
/-- The kernel on whole buffers: with the five inputs at `x0 … x4` and the output buffer at anything, it runs to its
    end leaving the inputs as they were and the output at `res2` of them. -/
theorem kernel2_run (c : Dev nD) (E : Set ℕ) (i : grid2.Coords)
    (a0 : Memref sig .tc .vmem S512x1152 .bf16) (h0 : a0.IsWhole) (a1 : Memref sig .tc .vmem S1152x128 .bf16) (h1 : a1.IsWhole)
    (a2 : Memref sig .tc .vmem S1x128 .f32) (h2 : a2.IsWhole) (a3 : Memref sig .tc .vmem S1x128 .f32) (h3 : a3.IsWhole)
    (a4 : Memref sig .tc .vmem S512x128 .f32) (h4 : a4.IsWhole) (a5 : Memref sig .tc .vmem S512x128 .f32) (h5 : a5.IsWhole)
    (x0 : Vec F S512x1152 .bf16) (x1 : Vec F S1152x128 .bf16) (x2 : Vec F S1x128 .f32) (x3 : Vec F S1x128 .f32)
    (x4 : Vec F S512x128 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4
        ∗ (∃ d, owns (c : Thread nD τ) a5 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4
            ∗ owns (c : Thread nD τ) a5 fullShare (res2 x0 x1 x2 x3 x4)) -∗ K ⟨⟩))
      ⊢ wp frame (wpE (defs₀ (F := F)) Variants.none c none) E
          (cc2_conv_bn_kernel i a0 h0 a1 h1 a2 h2 a3 h3 a4 h4 a5 h5) K := by
  simp only [cc2_conv_bn_kernel_eq_skeleton]; unfold cc2_conv_bn_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (res2_cover _)

/-! ## The proof data -/

/-- Pipeline 2's proof data on core `c`: the arrays as the region finds them; after the body each input's buffer still
    at its block and the output's at `res2` of the input blocks; as invariant the scoped buffers no window stages and
    the generator register; every share full; nothing owed. -/
def dat2 (c : Dev nD) : Dat τ (Elt F) Unit ℕ (Pipeline.UD sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => res2 (blk2 V c 0 t) (blk2 V c 1 t) (blk2 V c 2 t) (blk2 V c 3 t) (blk2 V c 4 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after_0 (c : Dev nD) (t : Fin cfg2.N) : (dat2 V c).after 0 t = blk2 V c 0 t := by dsimp only [dat2]
theorem dat2_after_1 (c : Dev nD) (t : Fin cfg2.N) : (dat2 V c).after 1 t = blk2 V c 1 t := by dsimp only [dat2]
theorem dat2_after_2 (c : Dev nD) (t : Fin cfg2.N) : (dat2 V c).after 2 t = blk2 V c 2 t := by dsimp only [dat2]
theorem dat2_after_3 (c : Dev nD) (t : Fin cfg2.N) : (dat2 V c).after 3 t = blk2 V c 3 t := by dsimp only [dat2]
theorem dat2_after_4 (c : Dev nD) (t : Fin cfg2.N) : (dat2 V c).after 4 t = blk2 V c 4 t := by dsimp only [dat2]
theorem dat2_after_5 (c : Dev nD) (t : Fin cfg2.N) :
    (dat2 V c).after 5 t = res2 (blk2 V c 0 t) (blk2 V c 1 t) (blk2 V c 2 t) (blk2 V c 3 t) (blk2 V c 4 t) := by
  dsimp only [dat2]

theorem dat2_before_0 (c : Dev nD) (t : Fin cfg2.N) (d) : (dat2 V c).before 0 t d = blk2 V c 0 t :=
  found2_0 V (dat2 V c) (dat2_A V c 0) (dat2_after_0 V c) t d
theorem dat2_before_1 (c : Dev nD) (t : Fin cfg2.N) (d) : (dat2 V c).before 1 t d = blk2 V c 1 t :=
  found2_1 V (dat2 V c) (dat2_A V c 1) (dat2_after_1 V c) t d
theorem dat2_before_2 (c : Dev nD) (t : Fin cfg2.N) (d) : (dat2 V c).before 2 t d = blk2 V c 2 t :=
  found2_2 V (dat2 V c) (dat2_A V c 2) (dat2_after_2 V c) t d
theorem dat2_before_3 (c : Dev nD) (t : Fin cfg2.N) (d) : (dat2 V c).before 3 t d = blk2 V c 3 t :=
  found2_3 V (dat2 V c) (dat2_A V c 3) (dat2_after_3 V c) t d
theorem dat2_before_4 (c : Dev nD) (t : Fin cfg2.N) (d) : (dat2 V c).before 4 t d = blk2 V c 4 t :=
  found2_4 V (dat2 V c) (dat2_A V c 4) (dat2_after_4 V c) t d

/-! ## The body obligation -/

/-- What the body is handed at point `t`: the invariant, what the core owes, each window's current buffer. -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What it hands back. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the kernel's run applies; the invariant and what
    the core owes pass through untouched. -/
theorem body2_at (c : Dev nD) (t : Fin cfg2.N) :
    pre2 V c t ⊢ wp frame (wpE (defs₀ (F := F)) Variants.none c none) Set.univ (bodyAt2 t) (fun _ => post2 V c t) := by
  unfold pre2 post2 bodyAt2
  simp only [dat2_before_0, dat2_before_1, dat2_before_2, dat2_before_3, dat2_before_4]
  rw [show (dat2 V c).Φ t.succ = (dat2 V c).Φ t.castSucc from rfl,
    show (dat2 V c).owesAt () t.succ = (dat2 V c).owesAt () t.castSucc from rfl,
    dat2_after_0, dat2_after_1, dat2_after_2, dat2_after_3, dat2_after_4, dat2_after_5]
  iintro ⟨HΦ, Ho, ⟨%d0, H0⟩, ⟨%d1, H1⟩, ⟨%d2, H2⟩, ⟨%d3, H3⟩, ⟨%d4, H4⟩, ⟨%d5, H5⟩⟩
  iapply (kernel2_run c Set.univ _ _ _ _ _ _ _ _ _ _ _ _ _ (blk2 V c 0 t) (blk2 V c 1 t) (blk2 V c 2 t) (blk2 V c 3 t)
    (blk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation for region 2, at every point. -/
theorem body2 (c : Dev nD) : BodyObligation (dat2 (F := F) V c) (defs₀ (F := F)) Variants.none () Set.univ := fun t => by
  rw [bigSep_W2, bigSep_W2]
  exact body2_at V c t

end Region2

end Cert.ReferenceIdeal.Hand

end
-- ==== Proof.RefFrame.lean ====
import proofs.«173333_g2000300637041083_pallasbulk_292_30_alg».proof.Proof.RefRegion0
import proofs.«173333_g2000300637041083_pallasbulk_292_30_alg».proof.Proof.RefRegion1
import proofs.«173333_g2000300637041083_pallasbulk_292_30_alg».proof.Proof.RefRegion2
import proofs.«173333_g2000300637041083_pallasbulk_292_30_alg».proof.Proof.Gen.ReferenceIdeal.Regions
import proofs.«173333_g2000300637041083_pallasbulk_292_30_alg».proof.Proof.Gen.Pre_finite_inputs
import proofs.«173333_g2000300637041083_pallasbulk_292_30_alg».proof.Defs
import Idealize.ShloMosaic.Lib.Pipeline.RegionsLoop
import Idealize.ShloMosaic.Lib.Pipeline.Kit

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The reference program's frame

@main is three kernel regions among stretches of host operations. The host side — the stretches, their chaining, the
launch's first thread state, the arguments read back at the end — is the generated conditional frame
(`Gen.frame_cond`), which asks, per region, for a segment record entered from the thread state before the region
and left at the one after it. This module supplies the three records from the regions' own runs (the sibling
modules), the contents the regions leave, and the rest of the thread state. -/

/-- A statement about each of six windows holds of all of them. -/
theorem six_cases {P : Fin 6 → Prop} (h0 : P 0) (h1 : P 1) (h2 : P 2) (h3 : P 3) (h4 : P 4) (h5 : P 5) : ∀ w, P w
  | ⟨0, _⟩ => h0 | ⟨1, _⟩ => h1 | ⟨2, _⟩ => h2 | ⟨3, _⟩ => h3 | ⟨4, _⟩ => h4 | ⟨5, _⟩ => h5

section Frame

variable (m : (ℓ : Loc nD τ sig) → Buf (Elt F) ℓ)

/-- A core's buffer contents read at the TensorCore's own references: the form the regions' proof data take. -/
abbrev atRefs (W : Dev nD → Valuation τ sig (Elt F)) :
    (c : Dev nD) → (b : Ref sig .tc) → Buf (Elt F) ((c : Thread nD τ).loc b) := fun c b => W c b

/-! ## What the regions leave

Each region changes one unscoped buffer, its result: the pipeline writes the output window's block back at every
point, so the result array ends at the fold of those write-backs over what it held (`Dat.arrAt … N`). The contents
are chosen region by region, each from the buffers as the regions before it left them. -/

/-- What region 0 leaves in its result `main_v14`. -/
def left0 (c : Dev nD) : Buf (Elt F) ((c : Thread nD τ).loc main_v14) :=
  (dat0 (atRefs (V1 m)) c).arrAt 4 cfg0.N

/-- The regions' results with only region 0's chosen (the other entries are not read before region 1). -/
def outsA : Outs (F := F) := fun _ r c => Function.update (V0 m c) main_v14 (left0 m c) r

/-- What region 1 leaves in its result `main_v47`. -/
def left1 (c : Dev nD) : Buf (Elt F) ((c : Thread nD τ).loc main_v47) :=
  (dat1 (atRefs (V5 m (outsA m))) c).arrAt 4 cfg1.N

/-- The regions' results with those of regions 0 and 1 chosen. -/
def outsB : Outs (F := F) := fun J r c =>
  if J = 2 then outsA m J r c else Function.update (V0 m c) main_v47 (left1 m c) r

/-- What region 2 leaves in its result `main_v80`. -/
def left2 (c : Dev nD) : Buf (Elt F) ((c : Thread nD τ).loc main_v80) :=
  (dat2 (atRefs (V9 m (outsB m))) c).arrAt 5 cfg2.N

/-- The three regions' results. -/
def outs : Outs (F := F) := fun J r c =>
  if J = 10 then Function.update (V0 m c) main_v80 (left2 m c) r else outsB m J r c

theorem outsA_2 (c : Dev nD) : outsA m 2 main_v14 c = left0 m c := by
  unfold outsA; exact Function.update_self ..
theorem outsB_2 (c : Dev nD) : outsB m 2 main_v14 c = left0 m c := by
  unfold outsB; rw [if_pos rfl]; exact outsA_2 m c
theorem outsB_6 (c : Dev nD) : outsB m 6 main_v47 c = left1 m c := by
  unfold outsB; rw [if_neg (by decide)]; exact Function.update_self ..
theorem outs_2 (c : Dev nD) : outs m 2 main_v14 c = left0 m c := by
  unfold outs; rw [if_neg (by decide)]; exact outsB_2 m c
theorem outs_6 (c : Dev nD) : outs m 6 main_v47 c = left1 m c := by
  unfold outs; rw [if_neg (by decide)]; exact outsB_6 m c
theorem outs_10 (c : Dev nD) : outs m 10 main_v80 c = left2 m c := by
  unfold outs; rw [if_pos rfl]; exact Function.update_self ..

/-- The buffers before region 1 depend on the regions' results only through region 0's. -/
theorem V5_congr (o o' : Outs (F := F)) (c : Dev nD) (h : o 2 main_v14 c = o' 2 main_v14 c) : V5 m o c = V5 m o' c := by
  unfold V5 V4 V3 V2; rw [h]

/-- The buffers before region 2 depend on them only through those of regions 0 and 1. -/
theorem V9_congr (o o' : Outs (F := F)) (c : Dev nD) (h2 : o 2 main_v14 c = o' 2 main_v14 c)
    (h6 : o 6 main_v47 c = o' 6 main_v47 c) : V9 m o c = V9 m o' c := by
  unfold V9 V8 V7 V6; rw [V5_congr m o o' c h2, h6]

theorem in1_eq : atRefs (V5 m (outs m)) = atRefs (V5 m (outsA m)) :=
  funext fun c => funext fun b =>
    congrFun (V5_congr m (outs m) (outsA m) c ((outs_2 m c).trans (outsA_2 m c).symm)) _
theorem in2_eq : atRefs (V9 m (outs m)) = atRefs (V9 m (outsB m)) :=
  funext fun c => funext fun b =>
    congrFun (V9_congr m (outs m) (outsB m) c ((outs_2 m c).trans (outsB_2 m c).symm)
      ((outs_6 m c).trans (outsB_6 m c).symm)) _

/-! ## The proof data of the three pipelines, each at the contents its region is entered from -/

def pdats : (p : Fin 3) → (c : Dev nD) → Dat τ (Elt F) Unit ℕ (Pipeline.UD sig nD τ) ℕ (cfgs p) c
  | ⟨0, _⟩ => fun c => dat0 (atRefs (V1 m)) c
  | ⟨1, _⟩ => fun c => dat1 (atRefs (V5 m (outs m))) c
  | ⟨2, _⟩ => fun c => dat2 (atRefs (V9 m (outs m))) c

/-- No core owes another anything: no level is assigned. -/
abbrev noPairs : GSem nD τ sig → Finset Unit := fun _ => ∅
abbrev noLevel : GSem nD τ sig → Unit → ℕ := fun _ _ => 0

/-- What a core holds besides its unscoped buffers, the same between any two items of @main: its generator register at
    some state, its unscoped semaphores at zero, and nothing owed. -/
abbrev rest (c : Dev nD) : sProp 𝕄 :=
  iprop((∃ r, prngReg c r) ∗ unscopedSems0 c ∗ ∃ W, owes (c : Thread nD τ) (0 : CellTallies nD τ sig Unit) W)

/-! ## Region 0 as a segment -/

/-- After region 0 its result holds the contents chosen for it. -/
theorem V2_result (c : Dev nD) : V2 m (outs m) c (Proc.devRef .tc main_v14) = left0 m c := by
  unfold V2; rw [Function.update_self]; exact outs_2 m c

/-- At region 0's exit each of its arrays holds what the pipeline leaves: an input what it held at entry (no window
    writes it), the result the fold of its write-backs. -/
theorem exit0 (c : Dev nD) : ∀ w : Fin cfg0.W,
    (dat0 (atRefs (V1 m)) c).arrAt w cfg0.N = atRefs (V2 m (outs m)) c (Pipeline.arrRef spec0 w)
  | ⟨0, _⟩ => ((dat0 (atRefs (V1 m)) c).arrAt_in 0 rfl _).trans
      ((dat0_A _ c 0).trans (V2_of m (outs m) c (Pipeline.arrRef spec0 0) (by decide)).symm)
  | ⟨1, _⟩ => ((dat0 (atRefs (V1 m)) c).arrAt_in 1 rfl _).trans
      ((dat0_A _ c 1).trans (V2_of m (outs m) c (Pipeline.arrRef spec0 1) (by decide)).symm)
  | ⟨2, _⟩ => ((dat0 (atRefs (V1 m)) c).arrAt_in 2 rfl _).trans
      ((dat0_A _ c 2).trans (V2_of m (outs m) c (Pipeline.arrRef spec0 2) (by decide)).symm)
  | ⟨3, _⟩ => ((dat0 (atRefs (V1 m)) c).arrAt_in 3 rfl _).trans
      ((dat0_A _ c 3).trans (V2_of m (outs m) c (Pipeline.arrRef spec0 3) (by decide)).symm)
  | ⟨4, _⟩ => (V2_result m c).symm

/-- and every other buffer what it held at entry. -/
theorem off0 (c : Dev nD) (b : Ref sig .tc) (hb : b ∉ Finset.univ.image (Pipeline.arrRef spec0)) :
    atRefs (V2 m (outs m)) c b = atRefs (V1 m) c b :=
  V2_of m (outs m) c b fun h =>
    hb (Finset.mem_image.mpr ⟨4, Finset.mem_univ _, (List.mem_singleton.mp h).symm⟩)
set_option backward.isDefEq.respectTransparency.types false in
/-- Region 0 over the thread state: entered with every unscoped buffer at `V1`, left with them at `V2`. Its arrays are
    split out of the unscoped buffers at entry and put back, the result at its new contents, at exit; the generator
    register rides in the region's invariant; the unscoped semaphores and the other unscoped buffers go around it;
    nothing is owed before or after. -/
def reg0 : Pipeline.RegionSeg (pcfgs (F := F)) adm (pdats m) () defs₀ Variants.none noPairs noLevel 0 where
  win := launch0.win.to₀
  block_pos := launch0.block_pos
  stage_whole := launch0.stage_whole
  K := PEmpty
  osem k := k.elim
  ho := Pipeline.OwnSemFacts.none _
  hbody c := (body0 (atRefs (V1 m)) c).loose
  hwaits := Pipeline.hwaits_of_owed_zero _ _ _ _ noPairs noLevel 0 fun _ _ => rfl
  pre c := iprop(StableHlo.held (c : Thread nD τ) (Pipeline.ucRefs τ sig) (V1 m c) ∗ rest c)
  post c := iprop(StableHlo.held (c : Thread nD τ) (Pipeline.ucRefs τ sig) (V2 m (outs m) c) ∗ rest c)
  X c := iprop(∃ r, prngReg c r)
  Y c := iprop(∃ r, prngReg c r)
  Z c := iprop(unscopedSems0 c
    ∗ Pipeline.unscopedRest (Ix := Unit) (Name := ℕ) (U := Pipeline.UD sig nD τ) (Lvl := ℕ) spec0 c (atRefs (V1 m) c))
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (V1 m) c) fun _ => rfl
    rw [Pipeline.unscopedBufs_held] at hsplit
    iintro ⟨⟨Hbufs, Hprng, Hsems, Howes⟩, -, -⟩
    ihave Hparts := hsplit $$ Hbufs
    icases Hparts with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hprng]; · iexact Hprng
    isplitl [Hsems]; · iexact Hsems
    iexact Hothers
  hin c := by
    rw [show (pdats m 0 c).Φ 0 = Pipeline.ΦA spec0 c from rfl]; unfold Pipeline.ΦA
    iintro ⟨Hprng, -, Hscoped⟩
    isplitl [Hscoped]; · iexact Hscoped
    iexact Hprng
  hout c := by
    rw [Pipeline.ownSems0_none, show (pdats m 0 c).Φ (Fin.last _) = Pipeline.ΦA spec0 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 0) (pcfgs (F := F)) adm (Ix := Unit) (Name := ℕ)
      (U := Pipeline.UD sig nD τ) (Lvl := ℕ) launch0.win launch0.arr_whole c (pdats m)
      ((pdats m 0 c).share_full fun _ => rfl) (atRefs (V1 m) c) (atRefs (V2 m (outs m)) c)
      ((pdats m 0 c).arrAt · cfg0.N) (exit0 m c) (off0 m c)
    rw [Pipeline.unscopedBufs_held] at hjoin
    iintro ⟨Harrs, Howes, Hprng, Hsems, Hothers⟩
    imodintro
    isplitl [Harrs Hothers]
    · iapply hjoin; isplitl [Harrs] <;> iassumption
    isplitl [Hprng]; · iexact Hprng
    isplitl [Hsems]; · iexact Hsems
    unfold Pipeline.Dat.owesAt Pipeline.owesWithin
    icases Howes with ⟨%W, -, Howes⟩; iexists W; iexact Howes

/-! ## Region 1 as a segment -/

/-- After region 1 its result holds the contents chosen for it. -/
theorem V6_result (c : Dev nD) : V6 m (outs m) c (Proc.devRef .tc main_v47) = left1 m c := by
  unfold V6; rw [Function.update_self]; exact outs_6 m c

/-- At region 1's exit each of its arrays holds what the pipeline leaves. -/
theorem exit1 (c : Dev nD) : ∀ w : Fin cfg1.W,
    (dat1 (atRefs (V5 m (outs m))) c).arrAt w cfg1.N = atRefs (V6 m (outs m)) c (Pipeline.arrRef spec1 w)
  | ⟨0, _⟩ => ((dat1 (atRefs (V5 m (outs m))) c).arrAt_in 0 rfl _).trans
      ((dat1_A _ c 0).trans (V6_of m (outs m) c (Pipeline.arrRef spec1 0) (by decide)).symm)
  | ⟨1, _⟩ => ((dat1 (atRefs (V5 m (outs m))) c).arrAt_in 1 rfl _).trans
      ((dat1_A _ c 1).trans (V6_of m (outs m) c (Pipeline.arrRef spec1 1) (by decide)).symm)
  | ⟨2, _⟩ => ((dat1 (atRefs (V5 m (outs m))) c).arrAt_in 2 rfl _).trans
      ((dat1_A _ c 2).trans (V6_of m (outs m) c (Pipeline.arrRef spec1 2) (by decide)).symm)
  | ⟨3, _⟩ => ((dat1 (atRefs (V5 m (outs m))) c).arrAt_in 3 rfl _).trans
      ((dat1_A _ c 3).trans (V6_of m (outs m) c (Pipeline.arrRef spec1 3) (by decide)).symm)
  | ⟨4, _⟩ => by
    rw [in1_eq]; exact (V6_result m c).symm

/-- and every other buffer what it held at entry. -/
theorem off1 (c : Dev nD) (b : Ref sig .tc) (hb : b ∉ Finset.univ.image (Pipeline.arrRef spec1)) :
    atRefs (V6 m (outs m)) c b = atRefs (V5 m (outs m)) c b :=
  V6_of m (outs m) c b fun h =>
    hb (Finset.mem_image.mpr ⟨4, Finset.mem_univ _, (List.mem_singleton.mp h).symm⟩)

set_option backward.isDefEq.respectTransparency.types false in
/-- Region 1 over the thread state: entered with every unscoped buffer at `V5`, left with them at `V6`; the same
    routing as region 0. -/
def reg1 : Pipeline.RegionSeg (pcfgs (F := F)) adm (pdats m) () defs₀ Variants.none noPairs noLevel 1 where
  win := launch1.win.to₀
  block_pos := launch1.block_pos
  stage_whole := launch1.stage_whole
  K := PEmpty
  osem k := k.elim
  ho := Pipeline.OwnSemFacts.none _
  hbody c := (body1 (atRefs (V5 m (outs m))) c).loose
  hwaits := Pipeline.hwaits_of_owed_zero _ _ _ _ noPairs noLevel 1 fun _ _ => rfl
  pre c := iprop(StableHlo.held (c : Thread nD τ) (Pipeline.ucRefs τ sig) (V5 m (outs m) c) ∗ rest c)
  post c := iprop(StableHlo.held (c : Thread nD τ) (Pipeline.ucRefs τ sig) (V6 m (outs m) c) ∗ rest c)
  X c := iprop(∃ r, prngReg c r)
  Y c := iprop(∃ r, prngReg c r)
  Z c := iprop(unscopedSems0 c
    ∗ Pipeline.unscopedRest (Ix := Unit) (Name := ℕ) (U := Pipeline.UD sig nD τ) (Lvl := ℕ) spec1 c
        (atRefs (V5 m (outs m)) c))
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (V5 m (outs m)) c) fun _ => rfl
    rw [Pipeline.unscopedBufs_held] at hsplit
    iintro ⟨⟨Hbufs, Hprng, Hsems, Howes⟩, -, -⟩
    ihave Hparts := hsplit $$ Hbufs
    icases Hparts with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hprng]; · iexact Hprng
    isplitl [Hsems]; · iexact Hsems
    iexact Hothers
  hin c := by
    rw [show (pdats m 1 c).Φ 0 = Pipeline.ΦA spec1 c from rfl]; unfold Pipeline.ΦA
    iintro ⟨Hprng, -, Hscoped⟩
    isplitl [Hscoped]; · iexact Hscoped
    iexact Hprng
  hout c := by
    rw [Pipeline.ownSems0_none, show (pdats m 1 c).Φ (Fin.last _) = Pipeline.ΦA spec1 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 1) (pcfgs (F := F)) adm (Ix := Unit) (Name := ℕ)
      (U := Pipeline.UD sig nD τ) (Lvl := ℕ) launch1.win launch1.arr_whole c (pdats m)
      ((pdats m 1 c).share_full fun _ => rfl) (atRefs (V5 m (outs m)) c) (atRefs (V6 m (outs m)) c)
      ((pdats m 1 c).arrAt · cfg1.N) (exit1 m c) (off1 m c)
    rw [Pipeline.unscopedBufs_held] at hjoin
    iintro ⟨Harrs, Howes, Hprng, Hsems, Hothers⟩
    imodintro
    isplitl [Harrs Hothers]
    · iapply hjoin; isplitl [Harrs] <;> iassumption
    isplitl [Hprng]; · iexact Hprng
    isplitl [Hsems]; · iexact Hsems
    unfold Pipeline.Dat.owesAt Pipeline.owesWithin
    icases Howes with ⟨%W, -, Howes⟩; iexists W; iexact Howes

/-! ## Region 2 as a segment -/

/-- After region 2 its result holds the contents chosen for it. -/
theorem V10_result (c : Dev nD) : V10 m (outs m) c (Proc.devRef .tc main_v80) = left2 m c := by
  unfold V10; rw [Function.update_self]; exact outs_10 m c

set_option maxHeartbeats 4000000 in
/-- At region 2's exit each of its arrays holds what the pipeline leaves (the fifth input is region 0's result, only
    read here). -/
theorem exit2 (c : Dev nD) : ∀ w : Fin cfg2.W,
    (dat2 (atRefs (V9 m (outs m))) c).arrAt w cfg2.N = atRefs (V10 m (outs m)) c (Pipeline.arrRef spec2 w) :=
  six_cases (P := fun w : Fin cfg2.W =>
      (dat2 (atRefs (V9 m (outs m))) c).arrAt w cfg2.N = atRefs (V10 m (outs m)) c (Pipeline.arrRef spec2 w))
    (((dat2 (atRefs (V9 m (outs m))) c).arrAt_in 0 rfl _).trans
      ((dat2_A _ c 0).trans (V10_of m (outs m) c (Pipeline.arrRef spec2 0) (by decide)).symm))
    (((dat2 (atRefs (V9 m (outs m))) c).arrAt_in 1 rfl _).trans
      ((dat2_A _ c 1).trans (V10_of m (outs m) c (Pipeline.arrRef spec2 1) (by decide)).symm))
    (((dat2 (atRefs (V9 m (outs m))) c).arrAt_in 2 rfl _).trans
      ((dat2_A _ c 2).trans (V10_of m (outs m) c (Pipeline.arrRef spec2 2) (by decide)).symm))
    (((dat2 (atRefs (V9 m (outs m))) c).arrAt_in 3 rfl _).trans
      ((dat2_A _ c 3).trans (V10_of m (outs m) c (Pipeline.arrRef spec2 3) (by decide)).symm))
    (((dat2 (atRefs (V9 m (outs m))) c).arrAt_in 4 rfl _).trans
      ((dat2_A _ c 4).trans (V10_of m (outs m) c (Pipeline.arrRef spec2 4) (by decide)).symm))
    (by rw [in2_eq]; exact (V10_result m c).symm)

/-- and every other buffer what it held at entry. -/
theorem off2 (c : Dev nD) (b : Ref sig .tc) (hb : b ∉ Finset.univ.image (Pipeline.arrRef spec2)) :
    atRefs (V10 m (outs m)) c b = atRefs (V9 m (outs m)) c b :=
  V10_of m (outs m) c b fun h =>
    hb (Finset.mem_image.mpr ⟨5, Finset.mem_univ _, (List.mem_singleton.mp h).symm⟩)

set_option backward.isDefEq.respectTransparency.types false in
/-- Region 2 over the thread state: entered with every unscoped buffer at `V9`, left with them at `V10`; the same
    routing as region 0. -/
def reg2 : Pipeline.RegionSeg (pcfgs (F := F)) adm (pdats m) () defs₀ Variants.none noPairs noLevel 2 where
  win := launch2.win.to₀
  block_pos := launch2.block_pos
  stage_whole := launch2.stage_whole
  K := PEmpty
  osem k := k.elim
  ho := Pipeline.OwnSemFacts.none _
  hbody c := (body2 (atRefs (V9 m (outs m))) c).loose
  hwaits := Pipeline.hwaits_of_owed_zero _ _ _ _ noPairs noLevel 2 fun _ _ => rfl
  pre c := iprop(StableHlo.held (c : Thread nD τ) (Pipeline.ucRefs τ sig) (V9 m (outs m) c) ∗ rest c)
  post c := iprop(StableHlo.held (c : Thread nD τ) (Pipeline.ucRefs τ sig) (V10 m (outs m) c) ∗ rest c)
  X c := iprop(∃ r, prngReg c r)
  Y c := iprop(∃ r, prngReg c r)
  Z c := iprop(unscopedSems0 c
    ∗ Pipeline.unscopedRest (Ix := Unit) (Name := ℕ) (U := Pipeline.UD sig nD τ) (Lvl := ℕ) spec2 c
        (atRefs (V9 m (outs m)) c))
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (V9 m (outs m)) c) fun _ => rfl
    rw [Pipeline.unscopedBufs_held] at hsplit
    iintro ⟨⟨Hbufs, Hprng, Hsems, Howes⟩, -, -⟩
    ihave Hparts := hsplit $$ Hbufs
    icases Hparts with ⟨Harrs, Hothers⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hprng]; · iexact Hprng
    isplitl [Hsems]; · iexact Hsems
    iexact Hothers
  hin c := by
    rw [show (pdats m 2 c).Φ 0 = Pipeline.ΦA spec2 c from rfl]; unfold Pipeline.ΦA
    iintro ⟨Hprng, -, Hscoped⟩
    isplitl [Hscoped]; · iexact Hscoped
    iexact Hprng
  hout c := by
    rw [Pipeline.ownSems0_none, show (pdats m 2 c).Φ (Fin.last _) = Pipeline.ΦA spec2 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 2) (pcfgs (F := F)) adm (Ix := Unit) (Name := ℕ)
      (U := Pipeline.UD sig nD τ) (Lvl := ℕ) launch2.win launch2.arr_whole c (pdats m)
      ((pdats m 2 c).share_full fun _ => rfl) (atRefs (V9 m (outs m)) c) (atRefs (V10 m (outs m)) c)
      ((pdats m 2 c).arrAt · cfg2.N) (exit2 m c) (off2 m c)
    rw [Pipeline.unscopedBufs_held] at hjoin
    iintro ⟨Harrs, Howes, Hprng, Hsems, Hothers⟩
    imodintro
    isplitl [Harrs Hothers]
    · iapply hjoin; isplitl [Harrs] <;> iassumption
    isplitl [Hprng]; · iexact Hprng
    isplitl [Hsems]; · iexact Hsems
    unfold Pipeline.Dat.owesAt Pipeline.owesWithin
    icases Howes with ⟨%W, -, Howes⟩; iexists W; iexact Howes

/-! ## The frame -/

set_option backward.isDefEq.respectTransparency.types false in
/-- At any float instance: from any memory with every counter at zero, every weakly fair execution of @main
    terminates without fault and every final memory holds each argument array as launched. The generated conditional
    frame at: the algebra of the pipeline library's rounds beside (unused) transfer counters, no levels, nothing
    owed at launch, no ghost resources; the three regions' records above; between any two items each core holding,
    besides its unscoped buffers, `rest`. -/
theorem frame_any (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_cond m embL () Variants.none noPairs noLevel (fun _ _ => rfl) ρ (outs m) (pdats m)
    0 (fun _ => iprop(emp))
    (initOf (Pipeline.cells cfgs cellOf_inj) (Pipeline.launchToks cfgs cellOf_inj), 1)
    (by
      iintro Hu
      ihave Hpair := (ownU_pair _ _) $$ Hu
      icases Hpair with ⟨Hrounds, -⟩
      imodintro
      isplitl [Hrounds]; · iexact Hrounds
      iapply (show (BI.emp : sProp 𝕄) ⊢ bigSep Finset.univ (fun _ : Dev nD => (BI.emp : sProp 𝕄)) from by
        rw [BI.bigSep_emp_const])
      iempintro)
    (fun _ c => rest c)
    (by
      refine Pipeline.initEach noPairs noLevel fun c => ?_
      iintro ⟨⟨Hsems, Howes, -, Hprng, -⟩, -⟩
      imodintro
      isplitl [Hprng]; · iexists _; iexact Hprng
      isplitl [Hsems]; · iexact Hsems
      iexists ∅; iexact Howes)
    (fun c => by
      iintro ⟨-, -, Howes⟩
      iexact Howes)
    (reg0 m) (fun _ => .rfl) (fun _ => .rfl)
    (reg1 m) (fun _ => .rfl) (fun _ => .rfl)
    (reg2 m) (fun _ => .rfl) (fun _ => .rfl)

end Frame

/-- The reference program's frame claim, at the ideal instance and the generated witnesses of the stated facts. The
    precondition is not needed: the frame holds from every memory. -/
theorem frame_ri : Cert.frame_ReferenceIdeal (hReferenceIdeal := Cert.ReferenceIdeal.Gen.facts)
    (hPre_finite_inputs := Cert.Pre_finite_inputs.Gen.facts) :=
  fun m ρ _ => frame_any (F := Ideal) m ρ

/-- info: 'Cert.ReferenceIdeal.Hand.frame_ri' depends on axioms: [propext, Classical.choice, Quot.sound] -/
#guard_msgs in #print axioms frame_ri

end Cert.ReferenceIdeal.Hand

end
-- ==== Proof.KIPointRunV.lean ====
/-
  One grid point of the fused residual block, with the stored block named.

  The run of the point (the module imported here) says that the body runs and hands its buffers back. Here the
  same run is stated with what it stores: the output block ends holding the body's last payload, the final
  maximum with zero, applied to the values the body computed on the way: the shortcut product, the two
  shortcut rows, and the second layer's scaled sum, each a function of the four input blocks and of what the
  two scratch buffers held when they were read whole. That the scratch buffers then hold the zero-haloed
  images, whatever they held before the point, is a separate, pure statement about the ten stores into each.
-/
import proofs.«173333_g2000300637041083_pallasbulk_292_30_alg».proof.Proof.KIPointRun
import Idealize.ShloMosaic.Lib.Pipeline.Value

set_option maxRecDepth 16384

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero4 : (![0, 0, 0, 0] : Fin 4 → Nat) = fun _ => 0 := funext fun a => by fin_cases a <;> rfl

/-- What the point stores into the output block: the last payload over the values the run read and computed; f6 and f7
    are what the two scratch buffers held before the point. -/
def pointStore (c : Dev nD)
    (arg1 : Memref sig .tc .vmem S2x3136x64 .bf16) (harg1 : arg1.IsWhole)
    (arg2 : Memref sig .tc .vmem S192x512 .bf16) (harg2 : arg2.IsWhole)
    (arg3 : Memref sig .tc .vmem S384x384 .bf16) (harg3 : arg3.IsWhole)
    (arg4 : Memref sig .tc .vmem S8x128 .f32) (harg4 : arg4.IsWhole)
    (arg6 : Memref sig .tc .vmem S116x64x128 .bf16) (arg7 : Memref sig .tc .vmem S116x64x64 .bf16)
    (x0 : Vec F S2x3136x64 .bf16) (x1 : Vec F S192x512 .bf16) (x2 : Vec F S384x384 .bf16) (x3 : Vec F S8x128 .f32)
    (f6 : arg6.view.ty.Contents (Elt F)) (f7 : arg7.view.ty.Contents (Elt F)) : Vec F S2x56x56x128 .f32 :=
  k0_pay1 (pointRun.sl.r_2 c arg1 harg1 arg2 harg2 arg7 x0 x1 f7) (pointRun.sl.r_5 c arg4 harg4 x3)
    (pointRun.sl.r_6 c arg4 harg4 x3)
    (pointRun.sl.r_7 c arg1 harg1 arg2 harg2 arg3 harg3 arg4 harg4 arg6 arg7 x0 x1 x2 x3 f6 f7)

set_option maxHeartbeats 4000000 in
/-- The body at one grid point, with the scratch buffers' prior contents f6, f7 named: it hands back the inputs
    unchanged, the scratch buffers at something, and the output block holding pointStore. -/
theorem pointRunV (c : Dev nD) (i : grid0.Coords)
    (arg1 : Memref sig .tc .vmem S2x3136x64 .bf16) (harg1 : arg1.IsWhole)
    (arg2 : Memref sig .tc .vmem S192x512 .bf16) (harg2 : arg2.IsWhole)
    (arg3 : Memref sig .tc .vmem S384x384 .bf16) (harg3 : arg3.IsWhole)
    (arg4 : Memref sig .tc .vmem S8x128 .f32) (harg4 : arg4.IsWhole)
    (arg5 : Memref sig .tc .vmem S2x56x56x128 .f32) (harg5 : arg5.IsWhole)
    (arg6 : Memref sig .tc .vmem S116x64x128 .bf16) (harg6 : arg6.IsWhole)
    (arg7 : Memref sig .tc .vmem S116x64x64 .bf16) (harg7 : arg7.IsWhole)
    (x0 : Vec F S2x3136x64 .bf16) (x1 : Vec F S192x512 .bf16) (x2 : Vec F S384x384 .bf16) (x3 : Vec F S8x128 .f32)
    (f6 : arg6.view.ty.Contents (Elt F)) (f7 : arg7.view.ty.Contents (Elt F))
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ iprop(arg6.view.loc (c : Thread nD τ) ↦[arg6.view.set]{fullShare} f6)
        ∗ iprop(arg7.view.loc (c : Thread nD τ) ↦[arg7.view.set]{fullShare} f7)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (pointStore c arg1 harg1 arg2 harg2 arg3 harg3 arg4 harg4 arg6 arg7 x0 x1 x2 x3 f6 f7)
            ∗ (∃ d, owns (c : Thread nD τ) arg6 fullShare d) ∗ (∃ d, owns (c : Thread nD τ) arg7 fullShare d)) -∗ K ⟨⟩))
      ⊢ wp frame (wpE (defs₀ (F := F)) Variants.none c none) E
          (cc0__block_body i arg1 harg1 arg2 harg2 arg3 harg3 arg4 harg4 arg5 harg5 arg6 harg6 arg7 harg7) K := by
  simp only [cc0__block_body_eq_skeleton]; unfold cc0__block_body_skel
  unfold owns
  iintro ⟨⟨%f0, %hf0, H0⟩, ⟨%f1, %hf1, H1⟩, ⟨%f2, %hf2, H2⟩, ⟨%f3, %hf3, H3⟩, ⟨%d4, %f4, -, H4⟩, H6, H7, Hk⟩
  obtain rfl := harg1.eq_unread hf0; obtain rfl := harg2.eq_unread hf1
  obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    rw [View.read_writes_eq_canon _ _ _ (View.cover_of_tiled _ S2x56x56x128.size (by rfl)), View.canon_unit_zero zero4]
    rfl
  isplitl [H6]
  · iexists _, _; isplitr
    swap; · iexact H6
    ipureintro; exact rfl
  iexists _, _; isplitr
  swap; · iexact H7
  ipureintro; exact rfl

end Cert.KernelIdeal.Block

end
-- ==== Proof.KIValueRun.lean ====
/-
  The fused residual block's run with its result named.

  The frame (the module imported here) followed every input window and forgot the output. Here the output is followed
  too. At a grid point the body stores one block, a function of the four input blocks alone: the scratch buffers it
  reads were filled by the same point, halo and interior, before it read them, so what they held earlier does not
  matter. That function is the parameter out below, with the statement hout that the block the run stores
  (pointStore, which mentions the scratch buffers' earlier contents) equals it. Point t handles images 2t and 2t+1,
  and the sixteen points' blocks tile the result array, so the array ends as ONE function of the arrays the region
  reads: at image n, the block function applied to the pair of images n belongs to, read at n's place in the pair.
  The program's result is that array with the channel axis moved back in front of the two spatial ones.
-/
import proofs.«173333_g2000300637041083_pallasbulk_292_30_alg».proof.Proof.KIFrame
import proofs.«173333_g2000300637041083_pallasbulk_292_30_alg».proof.Proof.KIPointRunV
import Idealize.ShloMosaic.Lib.Pipeline.Value
import Idealize.ShloMosaic.PureOps.Ideal
import Idealize.ShloMosaic.Lib.ValueIdx
import Idealize.ShloMosaic.Lib.StableHlo.Run

set_option maxRecDepth 16384

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- Owning a buffer at some contents is holding it, whole, at some raw contents. -/
theorem owns_some_raw {S : Shape} {e : EltTy} (c : Dev nD) (mr : Memref sig .tc .vmem S e) :
    (iprop(∃ d, owns (c : Thread nD τ) mr fullShare d) : sProp 𝕄)
      ⊢ iprop(∃ f : mr.view.ty.Contents (Elt Ideal), mr.view.loc (c : Thread nD τ) ↦[mr.view.set]{fullShare} f) := by
  unfold owns
  iintro ⟨%d, %f, -, H⟩
  iexists f; iexact H

section Run

variable (m : (ℓ : Loc nD τ sig) → Buf (Elt Ideal) ℓ) (ρ : Dev nD → PrngReg)
-- out: the block a point stores, as a function of its four input blocks; hout: the run's stored block is that function
variable (out : Vec Ideal S2x3136x64 .bf16 → Vec Ideal S192x512 .bf16 → Vec Ideal S384x384 .bf16 → Vec Ideal S8x128 .f32 → Vec Ideal S2x56x56x128 .f32)
variable (hout : ∀ (c : Dev nD)
    (arg1 : Memref sig .tc .vmem S2x3136x64 .bf16) (harg1 : arg1.IsWhole)
    (arg2 : Memref sig .tc .vmem S192x512 .bf16) (harg2 : arg2.IsWhole)
    (arg3 : Memref sig .tc .vmem S384x384 .bf16) (harg3 : arg3.IsWhole)
    (arg4 : Memref sig .tc .vmem S8x128 .f32) (harg4 : arg4.IsWhole)
    (arg6 : Memref sig .tc .vmem S116x64x128 .bf16) (arg7 : Memref sig .tc .vmem S116x64x64 .bf16)
    (x0 : Vec Ideal S2x3136x64 .bf16) (x1 : Vec Ideal S192x512 .bf16) (x2 : Vec Ideal S384x384 .bf16) (x3 : Vec Ideal S8x128 .f32)
    (f6 : arg6.view.ty.Contents (Elt Ideal)) (f7 : arg7.view.ty.Contents (Elt Ideal)),
    pointStore (F := Ideal) c arg1 harg1 arg2 harg2 arg3 harg3 arg4 harg4 arg6 arg7 x0 x1 x2 x3 f6 f7 = out x0 x1 x2 x3)

/-- On core c: as the frame's proof data, with the output window followed: after the body at point t its buffer holds
    the block function of the point's four input blocks. -/
def datsV (_ : Fin 1) (c : Dev nD) : Dat τ (Elt Ideal) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => out (blockAt m c 0 t) (blockAt m c 1 t) (blockAt m c 2 t) (blockAt m c 3 t)
  Φ _ := Pipeline.ΦA spec0 c
  q _ := fullShare
  owed _ := 0

theorem A_eqV (c : Dev nD) (w : Fin cfg0.W) : (datsV m out 0 c).A w = entry m c (Pipeline.arrRef spec0 w) := by
  dsimp only [datsV]

theorem afterV0 (c : Dev nD) (t : Fin cfg0.N) : (datsV m out 0 c).after 0 t = blockAt m c 0 t := by dsimp only [datsV]
theorem afterV1 (c : Dev nD) (t : Fin cfg0.N) : (datsV m out 0 c).after 1 t = blockAt m c 1 t := by dsimp only [datsV]
theorem afterV2 (c : Dev nD) (t : Fin cfg0.N) : (datsV m out 0 c).after 2 t = blockAt m c 2 t := by dsimp only [datsV]
theorem afterV3 (c : Dev nD) (t : Fin cfg0.N) : (datsV m out 0 c).after 3 t = blockAt m c 3 t := by dsimp only [datsV]
theorem afterV4 (c : Dev nD) (t : Fin cfg0.N) :
    (datsV m out 0 c).after 4 t = out (blockAt m c 0 t) (blockAt m c 1 t) (blockAt m c 2 t) (blockAt m c 3 t) := by dsimp only [datsV]

theorem beforeV0 (c : Dev nD) (t : Fin cfg0.N) (d) : (datsV m out 0 c).before 0 t d = blockAt m c 0 t :=
  input_found0 m (datsV m out 0 c) (A_eqV m out c 0) (afterV0 m out c) t d
theorem beforeV1 (c : Dev nD) (t : Fin cfg0.N) (d) : (datsV m out 0 c).before 1 t d = blockAt m c 1 t :=
  input_found1 m (datsV m out 0 c) (A_eqV m out c 1) (afterV1 m out c) t d
theorem beforeV2 (c : Dev nD) (t : Fin cfg0.N) (d) : (datsV m out 0 c).before 2 t d = blockAt m c 2 t :=
  input_found2 m (datsV m out 0 c) (A_eqV m out c 2) (afterV2 m out c) t d
theorem beforeV3 (c : Dev nD) (t : Fin cfg0.N) (d) : (datsV m out 0 c).before 3 t d = blockAt m c 3 t :=
  input_found3 m (datsV m out 0 c) (A_eqV m out c 3) (afterV3 m out c) t d

/-- What the body is called with at point t, -/
def bodyPreV (c : Dev nD) (t : Fin cfg0.N) : sProp 𝕄 :=
  iprop((datsV m out 0 c).Φ t.castSucc ∗ (datsV m out 0 c).owesAt () t.castSucc
    ∗ (∃ d, owns (c : Thread nD τ) (st0_0 t) fullShare ((datsV m out 0 c).before 0 t d))
    ∗ (∃ d, owns (c : Thread nD τ) (st0_1 t) fullShare ((datsV m out 0 c).before 1 t d))
    ∗ (∃ d, owns (c : Thread nD τ) (st0_2 t) fullShare ((datsV m out 0 c).before 2 t d))
    ∗ (∃ d, owns (c : Thread nD τ) (st0_3 t) fullShare ((datsV m out 0 c).before 3 t d))
    ∗ (∃ d, owns (c : Thread nD τ) (st0_4 t) fullShare ((datsV m out 0 c).before 4 t d)))

/-- and what it returns. -/
def bodyPostV (c : Dev nD) (t : Fin cfg0.N) : sProp 𝕄 :=
  iprop((datsV m out 0 c).Φ t.succ ∗ (datsV m out 0 c).owesAt () t.succ
    ∗ owns (c : Thread nD τ) (st0_0 t) fullShare ((datsV m out 0 c).after 0 t)
    ∗ owns (c : Thread nD τ) (st0_1 t) fullShare ((datsV m out 0 c).after 1 t)
    ∗ owns (c : Thread nD τ) (st0_2 t) fullShare ((datsV m out 0 c).after 2 t)
    ∗ owns (c : Thread nD τ) (st0_3 t) fullShare ((datsV m out 0 c).after 3 t)
    ∗ owns (c : Thread nD τ) (st0_4 t) fullShare ((datsV m out 0 c).after 4 t))

include hout in
set_option maxHeartbeats 4000000 in
/-- The body at any point, with the stored block named: the point's run hands the output block back holding pointStore of
    whatever the scratch buffers held, which is the block function of the input blocks. -/
theorem sound_bodyV (c : Dev nD) (t : Fin cfg0.N) :
    bodyPreV m out c t ⊢ wp Idealize.ShloMosaic.frame (wpE (defs₀ (F := Ideal)) Variants.none c none) Set.univ (bodyAt0 t) (fun _ => bodyPostV m out c t) := by
  unfold bodyPreV bodyPostV bodyAt0
  simp only [beforeV0, beforeV1, beforeV2, beforeV3]
  rw [show (datsV m out 0 c).Φ t.succ = (datsV m out 0 c).Φ t.castSucc from rfl,
    show (datsV m out 0 c).owesAt () t.succ = (datsV m out 0 c).owesAt () t.castSucc from rfl,
    afterV0, afterV1, afterV2, afterV3, afterV4]
  rw [show (datsV m out 0 c).Φ t.castSucc = Pipeline.ΦA spec0 c from rfl, rest_eq]
  iintro ⟨⟨⟨HS6, HS7⟩, Hg⟩, Ho, ⟨%d0, H0⟩, ⟨%d1, H1⟩, ⟨%d2, H2⟩, ⟨%d3, H3⟩, ⟨%d4, H4⟩⟩
  ihave HS6' := (owns_some_raw c haloH) $$ HS6
  ihave HS7' := (owns_some_raw c haloX) $$ HS7
  icases HS6' with ⟨%f6, HS6⟩
  icases HS7' with ⟨%f7, HS7⟩
  have e := hout c (stg0 t) (stgWhole0 t) (stg1 t) (stgWhole1 t) (stg2 t) (stgWhole2 t) (stg3 t) (stgWhole3 t) haloH haloX
    (blockAt m c 0 t) (blockAt m c 1 t) (blockAt m c 2 t) (blockAt m c 3 t) f6 f7
  rw [← e]
  iapply (pointRunV (F := Ideal) c (grid0.coords t) (stg0 t) (stgWhole0 t) (stg1 t) (stgWhole1 t) (stg2 t) (stgWhole2 t) (stg3 t) (stgWhole3 t)
    (stg4 t) (stgWhole4 t) haloH (Memref.isWhole_whole _) haloX (Memref.isWhole_whole _)
    (blockAt m c 0 t) (blockAt m c 1 t) (blockAt m c 2 t) (blockAt m c 3 t) f6 f7 Set.univ _)
  isplitl [H0]; · iexact H0
  isplitl [H1]; · iexact H1
  isplitl [H2]; · iexact H2
  isplitl [H3]; · iexact H3
  isplitl [H4]; · iexists _; iexact H4
  isplitl [HS6]; · iexact HS6
  isplitl [HS7]; · iexact HS7
  iintro ⟨H0, H1, H2, H3, H4, HS6, HS7⟩
  isplitl [HS6 HS7 Hg]
  · isplitl [HS6 HS7]
    · isplitl [HS6]; · iexact HS6
      iexact HS7
    iexact Hg
  isplitl [Ho]; · iexact Ho
  isplitl [H0]; · iexact H0
  isplitl [H1]; · iexact H1
  isplitl [H2]; · iexact H2
  isplitl [H3]; · iexact H3
  iexact H4

include hout in
/-- The library's body obligation, at every point. -/
theorem body_obligationV (c : Dev nD) : BodyObligation (datsV m out 0 c) (defs₀ (F := Ideal)) Variants.none () Set.univ := fun t => by
  rw [bigSep_W0, bigSep_W0]
  exact sound_bodyV m out hout c t

include hout in
set_option backward.isDefEq.respectTransparency.types false in
/-- The run: at the end the region's arrays hold what the proof data says, and every other unscoped buffer what the closing
    transpose leaves. -/
theorem run_mainV : θ_run defs (onTc (τ := τ) (main (F := Ideal))) (s₀ m ρ)
    (Pipeline.FramePost cfgs (datsV m out) 0 (Pipeline.afterTail₀ cfgs (datsV m out) 0 (entry0 m) [hostOps1])) :=
  Pipeline.θ_run_frame_around cfgs (datsV m out) (0 : Fin 1) launch0 defs₀ Variants.none m ρ main
    (hbody := fun c => (body_obligationV m out hout c).loose) (hshare := fun c => (datsV m out 0 c).share_full fun _ => rfl)
    (howed := fun _ _ => rfl) (V₀ := entry0 m) (opss := [hostOps1]) (hsub := tail_sub) (hfresh := tail_fresh) (hkeep := tail_keeps)
    (hmain := main_around m Variants.none) (hA := A_eqV m out) (hΦ := fun _ _ => rfl)

/-! ## From the sixteen blocks to the result array -/

/-- A buffer that neither host stretch writes and that is none of the region's arrays ends as launched. -/
theorem exit_kept (dats : (p : Fin 1) → (c : Dev nD) → Dat τ (Elt Ideal) Unit ℕ (UR sig nD τ) ℕ (cfgs p) c) (c : Dev nD) (r : Ref sig .tc)
    (h0 : r ∉ prefixWrites) (h1 : r ∉ ([main_v44] : List (Ref sig .tc))) (h2 : ∀ w, Pipeline.arrRef spec0 w ≠ r) :
    Pipeline.afterTail₀ cfgs dats 0 (entry0 m) [hostOps1] c r = m ((c : Thread nD τ).loc r) := by
  unfold Pipeline.afterTail₀
  rw [flatten_one, StableHlo.after_of_writes_sub hostOps1 _ suffix_writes h1, Pipeline.withArrays_of_ne _ c (entry0 m c) _ r h2]
  exact entry_kept m c r h0

/-- The grid point that handles image n: the pair n belongs to. -/
def pointOfImage (i : S32x56x56x128.Idx) : Fin cfg0.N :=
  ⟨(i 0).val / 2, by rw [show cfg0.N = 16 from N_0]; have h : (i 0).val < 32 := (i 0).isLt; omega⟩
/-- Image n's place in its pair's block. -/
def placeInBlock (i : S32x56x56x128.Idx) : S2x56x56x128.Idx :=
  Idealize.ShloMosaic.ValueIdx.ix4 (⟨(i 0).val % 2, Nat.mod_lt _ (by decide)⟩ : Fin 2) (i 1) (i 2) (i 3)

/-- The result array before the closing transpose, as one function: at an index of image n, the block function of the four
    input blocks of n's pair, read at n's place in the pair. -/
def wholeOut (c : Dev nD) : S32x56x56x128.Idx → Elt Ideal .f32 := fun i =>
  out (blockAt m c 0 (pointOfImage i)) (blockAt m c 1 (pointOfImage i)) (blockAt m c 2 (pointOfImage i)) (blockAt m c 3 (pointOfImage i))
    (placeInBlock i)

/-- The output window's block index at point t is (t, 0, 0, 0): decided over the sixteen points. -/
theorem out_index : ∀ t : Fin cfg0.N, win0_4.index t (0 : Fin 4) = t.val ∧ win0_4.index t (1 : Fin 4) = 0
    ∧ win0_4.index t (2 : Fin 4) = 0 ∧ win0_4.index t (3 : Fin 4) = 0 :=
  (by decide +kernel : ∀ t : Fin grid0.N, _)

/-- What point t writes back is block t of wholeOut. -/
theorem flushedV (c : Dev nD) (t : Fin cfg0.N) :
    (datsV m out 0 c).flushed 4 t = ((cfg0.win 4).blk t).view.read (Elt Ideal) (wholeOut m out c) := by
  show (cfg0.win 4).cut (grid0.coords t) ((datsV m out 0 c).after 4 t) = _
  rw [afterV4]
  obtain ⟨e0, e1, e2, e3⟩ := out_index t
  funext j
  show out (blockAt m c 0 t) (blockAt m c 1 t) (blockAt m c 2 t) (blockAt m c 3 t) j = wholeOut m out c (((cfg0.win 4).blk t).view.emb j)
  have hj0 : (j 0).val < 2 := (j 0).isLt
  have hj1 : (j 1).val < 56 := (j 1).isLt
  have hj2 : (j 2).val < 56 := (j 2).isLt
  have hj3 : (j 3).val < 128 := (j 3).isLt
  have c0 : ((((cfg0.win 4).blk t).view.emb j) 0).val = win0_4.index t (0 : Fin 4) * 2 + 1 * (j 0).val := rfl
  have c1 : ((((cfg0.win 4).blk t).view.emb j) 1).val = win0_4.index t (1 : Fin 4) * 56 + 1 * (j 1).val := rfl
  have c2 : ((((cfg0.win 4).blk t).view.emb j) 2).val = win0_4.index t (2 : Fin 4) * 56 + 1 * (j 2).val := rfl
  have c3 : ((((cfg0.win 4).blk t).view.emb j) 3).val = win0_4.index t (3 : Fin 4) * 128 + 1 * (j 3).val := rfl
  have ht : pointOfImage (((cfg0.win 4).blk t).view.emb j) = t := Fin.ext (by
    show ((((cfg0.win 4).blk t).view.emb j) 0).val / 2 = t.val
    rw [c0]; omega)
  have hp : placeInBlock (((cfg0.win 4).blk t).view.emb j) = j := by
    funext a; apply Fin.ext
    match a with
    | ⟨0, _⟩ => show ((((cfg0.win 4).blk t).view.emb j) 0).val % 2 = (j 0).val; rw [c0]; omega
    | ⟨1, _⟩ => show ((((cfg0.win 4).blk t).view.emb j) 1).val = (j 1).val; rw [c1]; omega
    | ⟨2, _⟩ => show ((((cfg0.win 4).blk t).view.emb j) 2).val = (j 2).val; rw [c2]; omega
    | ⟨3, _⟩ => show ((((cfg0.win 4).blk t).view.emb j) 3).val = (j 3).val; rw [c3]; omega
  unfold wholeOut
  rw [ht, hp]

/-- An index of the result array is in point t's block iff each coordinate is in the block's range on its axis. -/
theorem mem_blkV (t : Fin cfg0.N) (i : S32x56x56x128.Idx) :
    i ∈ ((cfg0.win 4).blk t).view.set ↔ ∀ a : Fin 4, win0_4.index t a * S2x56x56x128.size a ≤ (i a).val ∧ (i a).val < win0_4.index t a * S2x56x56x128.size a + S2x56x56x128.size a := by
  show i ∈ ((View.whole main_v43).slice (win0_4.rect t)).set ↔ _
  rw [View.set_slice_whole, Rect.mem_set_unit]
  exact Iff.rfl

/-- Every index of the result array lies in the block of the point that handles its image. -/
theorem coverV (i : S32x56x56x128.Idx) : ∃ t : Fin cfg0.N, (cfg0.win 4).flush t = true ∧ i ∈ ((cfg0.win 4).blk t).view.set := by
  refine ⟨pointOfImage i, flush0_4 _, ?_⟩
  rw [mem_blkV]
  obtain ⟨e0, e1, e2, e3⟩ := out_index (pointOfImage i)
  have ev : (pointOfImage i).val = (i 0).val / 2 := rfl
  have h0 : (i 0).val < 32 := (i 0).isLt
  have h1 : (i 1).val < 56 := (i 1).isLt
  have h2 : (i 2).val < 56 := (i 2).isLt
  have h3 : (i 3).val < 128 := (i 3).isLt
  intro a
  match a with
  | ⟨0, _⟩ => show win0_4.index (pointOfImage i) (0 : Fin 4) * 2 ≤ (i 0).val ∧ (i 0).val < win0_4.index (pointOfImage i) (0 : Fin 4) * 2 + 2; omega
  | ⟨1, _⟩ => show win0_4.index (pointOfImage i) (1 : Fin 4) * 56 ≤ (i 1).val ∧ (i 1).val < win0_4.index (pointOfImage i) (1 : Fin 4) * 56 + 56; omega
  | ⟨2, _⟩ => show win0_4.index (pointOfImage i) (2 : Fin 4) * 56 ≤ (i 2).val ∧ (i 2).val < win0_4.index (pointOfImage i) (2 : Fin 4) * 56 + 56; omega
  | ⟨3, _⟩ => show win0_4.index (pointOfImage i) (3 : Fin 4) * 128 ≤ (i 3).val ∧ (i 3).val < win0_4.index (pointOfImage i) (3 : Fin 4) * 128 + 128; omega

/-- The result array after the run is wholeOut. -/
theorem finalV (c : Dev nD) : (datsV m out 0 c).arrAt 4 cfg0.N = wholeOut m out c :=
  (datsV m out 0 c).arrAt_eq_of_cover 4 (wholeOut m out c) (fun t _ => flushedV m out c t) (coverV)

/-- The program's result: the closing transpose of the result array. -/
theorem tail_result (c : Dev nD) :
    Pipeline.afterTail₀ cfgs (datsV m out) 0 (entry0 m) [hostOps1] c main_v44
      = transpose S32x128x56x56 [0, 3, 1, 2] (wholeOut m out c) transposes_S32x56x56x128_S32x128x56x56_0_3_1_2 := by
  unfold Pipeline.afterTail₀
  show StableHlo.after hostOps1 _ (Proc.devRef .tc main_v44) = _
  after_results
  exact congrArg (fun y => transpose S32x128x56x56 [0, 3, 1, 2] y transposes_S32x56x56x128_S32x128x56x56_0_3_1_2)
    ((Pipeline.withArrays_arr spec0 launch0.win.arr_inj c _ _ 4).trans (finalV m out c))

include hout in
/-- The idealized kernel's run, read: it terminates without fault, its result is the closing transpose of wholeOut, and its
    arguments end as launched. -/
theorem run_value : θ_run defs (onTc (τ := τ) (main (F := Ideal))) ⟨m, fun _ => 0, ρ⟩ (fun r => ∀ c : Dev nD,
      r.2.mem ((c.tc : Thread nD τ).loc main_v44) = transpose S32x128x56x56 [0, 3, 1, 2] (wholeOut m out c) transposes_S32x56x56x128_S32x128x56x56_0_3_1_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).2 main_v44 (Pipeline.mem_restRefs_of main_v44 (by decide) (by decide))).trans (tail_result m out c),
      ((h c).2 main_arg0 (Pipeline.mem_restRefs_of main_arg0 (by decide) (by decide))).trans (exit_kept m (datsV m out) c main_arg0 (by decide) (by decide) (by decide)),
      ((h c).2 main_arg1 (Pipeline.mem_restRefs_of main_arg1 (by decide) (by decide))).trans (exit_kept m (datsV m out) c main_arg1 (by decide) (by decide) (by decide)),
      ((h c).2 main_arg2 (Pipeline.mem_restRefs_of main_arg2 (by decide) (by decide))).trans (exit_kept m (datsV m out) c main_arg2 (by decide) (by decide) (by decide)),
      ((h c).2 main_arg3 (Pipeline.mem_restRefs_of main_arg3 (by decide) (by decide))).trans (exit_kept m (datsV m out) c main_arg3 (by decide) (by decide) (by decide)),
      ((h c).2 main_arg4 (Pipeline.mem_restRefs_of main_arg4 (by decide) (by decide))).trans (exit_kept m (datsV m out) c main_arg4 (by decide) (by decide) (by decide)),
      ((h c).2 main_arg5 (Pipeline.mem_restRefs_of main_arg5 (by decide) (by decide))).trans (exit_kept m (datsV m out) c main_arg5 (by decide) (by decide) (by decide)),
      ((h c).2 main_arg6 (Pipeline.mem_restRefs_of main_arg6 (by decide) (by decide))).trans (exit_kept m (datsV m out) c main_arg6 (by decide) (by decide) (by decide)),
      ((h c).2 main_arg7 (Pipeline.mem_restRefs_of main_arg7 (by decide) (by decide))).trans (exit_kept m (datsV m out) c main_arg7 (by decide) (by decide) (by decide)),
      ((h c).2 main_arg8 (Pipeline.mem_restRefs_of main_arg8 (by decide) (by decide))).trans (exit_kept m (datsV m out) c main_arg8 (by decide) (by decide) (by decide)),
      ((h c).2 main_arg9 (Pipeline.mem_restRefs_of main_arg9 (by decide) (by decide))).trans (exit_kept m (datsV m out) c main_arg9 (by decide) (by decide) (by decide)),
      ((h c).2 main_arg10 (Pipeline.mem_restRefs_of main_arg10 (by decide) (by decide))).trans (exit_kept m (datsV m out) c main_arg10 (by decide) (by decide) (by decide)),
      ((h c).2 main_arg11 (Pipeline.mem_restRefs_of main_arg11 (by decide) (by decide))).trans (exit_kept m (datsV m out) c main_arg11 (by decide) (by decide) (by decide)),
      ((h c).2 main_arg12 (Pipeline.mem_restRefs_of main_arg12 (by decide) (by decide))).trans (exit_kept m (datsV m out) c main_arg12 (by decide) (by decide) (by decide)),
      ((h c).2 main_arg13 (Pipeline.mem_restRefs_of main_arg13 (by decide) (by decide))).trans (exit_kept m (datsV m out) c main_arg13 (by decide) (by decide) (by decide)),
      ((h c).2 main_arg14 (Pipeline.mem_restRefs_of main_arg14 (by decide) (by decide))).trans (exit_kept m (datsV m out) c main_arg14 (by decide) (by decide) (by decide)),
      ((h c).2 main_arg15 (Pipeline.mem_restRefs_of main_arg15 (by decide) (by decide))).trans (exit_kept m (datsV m out) c main_arg15 (by decide) (by decide) (by decide))⟩) (run_mainV m ρ out hout)

end Run

end Cert.KernelIdeal.Block

end
-- ==== Proof.KHostStages.lean ====
/-
  THE HOST STAGES OF THE KERNEL'S PROGRAM READ AT AN INDEX, at the ideal values (every float an extended real).

  Before the region runs, the program computes on the host the four arrays the region's input windows stage, and
  after it one transposition. Each is written here as a PURE function of the argument arrays — the printed host
  operations composed in their order, nothing else — and then read at one index given by explicit coordinates:

  * xRows: the input [32, 64, 56, 56] moved to channels-last, its format changed (the identity on extended
    reals) and its pixels flattened: xRows x (n, h·56 + w, c) = x (n, c, h, w);
  * foldScale, foldBias: a batch normalization folded to a scale g / √(v + ε) and a bias b − μ · scale, elementwise;
  * stack8: eight [128] rows stacked to [8, 128] — row k of the stack is the k-th vector;
  * w1cat: the first convolution's weights [128, 64, 3, 3] laid out [ky·64 + c, kx·128 + o], and beside them, in
    columns 384 … 511, the 1×1 shortcut weights placed in rows 64 … 127 of an otherwise zero [192, 128] block;
  * w2cat: the second convolution's weights [128, 128, 3, 3] laid out [ky·128 + c, kx·128 + o];
  * outNCHW: the region's result [32, 56, 56, 128] moved back to channels-first.
-/
import proofs.«173333_g2000300637041083_pallasbulk_292_30_alg».proof.Proof.Gen.KernelIdeal
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

open scoped BigOperators

namespace Cert.KernelIdeal.HostStages

open Idealize.ShloMosaic Idealize.ShloMosaic.ValueIdx

/-! ## § 1  The input, channels last and pixels flattened -/

/-- The input moved to [32, 56, 56, 64], narrowed, and viewed [32, 3136, 64]. -/
noncomputable def xRows (x : FVec Ideal S32x64x56x56 .f32) : FVec Ideal S32x3136x64 .bf16 :=
  shapeCast S32x3136x64
    (truncf .bf16 (transpose S32x56x56x64 [0, 2, 3, 1] x Gen.transposes_S32x64x56x56_S32x56x56x64_0_2_3_1) Gen.bitsLt_bf16_f32)
    Gen.shapeCasts_S32x56x56x64_S32x3136x64

/-- Image n, pixel h·56 + w, channel c of the flattened input is the input at (n, c, h, w). -/
theorem xRows_apply (x : FVec Ideal S32x64x56x56 .f32) (n : Fin 32) (q : Fin 3136) (c : Fin 64) (h w : Fin 56)
    (hq : q.val = h.val * 56 + w.val) : xRows x (ix3 n q c) = x (ix4 n c h w) := by
  unfold xRows
  refine (shapeCast_apply _ _ (ix3 n q c) (ix4 n h w c) (by
    rw [Shape.rowMajor_val_four, Shape.rowMajor_val_three]
    show ((n.val * 56 + h.val) * 56 + w.val) * 64 + c.val = (n.val * 3136 + q.val) * 64 + c.val
    omega)).trans ?_
  show transpose S32x56x56x64 [0, 2, 3, 1] x Gen.transposes_S32x64x56x56_S32x56x56x64_0_2_3_1 (ix4 n h w c) = _
  exact transpose_apply _ x _ (ix4 n h w c) (ix4 n c h w) fun b => match b with
    | ⟨0, _⟩ => rfl | ⟨1, _⟩ => rfl | ⟨2, _⟩ => rfl | ⟨3, _⟩ => rfl

/-! ## § 2  A folded batch normalization -/

/-- The variance offset ε, the f32 word 0x3727C5AC, as a [128] vector. -/
noncomputable def epsRow : FVec Ideal S128 .f32 :=
  broadcastInDim S128 ![] Gen.bcast_S_S128 (constant (F := Ideal) S_ .f32 0x3727C5AC#32)

/-- The folded scale g / √(v + ε). -/
noncomputable def foldScale (g v : FVec Ideal S128 .f32) : FVec Ideal S128 .f32 :=
  Host.divf g (Host.sqrt (addf v epsRow))

/-- The folded bias b − μ · scale. -/
noncomputable def foldBias (g b mu v : FVec Ideal S128 .f32) : FVec Ideal S128 .f32 :=
  subf b (mulf mu (foldScale g v))

/-- ε at every channel is the extended real its word encodes. -/
theorem epsRow_apply (i : S128.Idx) : epsRow i = Ideal.ofBits .f32 0x3727C5AC#32 := by
  unfold epsRow
  exact broadcastInDim_scalar_apply _ _ i

/-- The folded scale at a channel: g / √(v + ε), with the ideal values' quotient and square root. -/
theorem foldScale_apply (g v : FVec Ideal S128 .f32) (i : S128.Idx) :
    foldScale g v i = Ideal.div (g i) (Ideal.sqrt (v i + Ideal.ofBits .f32 0x3727C5AC#32)) := by
  unfold foldScale
  show Ideal.div (g i) (Ideal.sqrt (v i + epsRow i)) = _
  rw [epsRow_apply]

/-- The folded bias at a channel: b − μ · scale. -/
theorem foldBias_apply (g b mu v : FVec Ideal S128 .f32) (i : S128.Idx) :
    foldBias g b mu v i = b i - mu i * foldScale g v i := rfl

/-! ## § 3  The stacked rows -/

/-- A [128] vector as a [1, 128] row. -/
noncomputable def row (v : FVec Ideal S128 .f32) : FVec Ideal S1x128 .f32 :=
  broadcastInDim S1x128 ![1] Gen.bcast_S128_S1x128_1 v

/-- The zero [128] vector. -/
noncomputable def zeroRow : FVec Ideal S128 .f32 :=
  broadcastInDim S128 ![] Gen.bcast_S_S128 (constant (F := Ideal) S_ .f32 0x00000000#32)

/-- Eight rows stacked. -/
noncomputable def stack8 (v0 v1 v2 v3 v4 v5 v6 v7 : FVec Ideal S128 .f32) : FVec Ideal S8x128 .f32 :=
  concatenate S8x128 0 [⟨S1x128, row v0⟩, ⟨S1x128, row v1⟩, ⟨S1x128, row v2⟩, ⟨S1x128, row v3⟩, ⟨S1x128, row v4⟩,
    ⟨S1x128, row v5⟩, ⟨S1x128, row v6⟩, ⟨S1x128, row v7⟩]
    Gen.concatenates_S1x128_S1x128_S1x128_S1x128_S1x128_S1x128_S1x128_S1x128_S8x128_d0

/-- The scale and bias rows the region stages: the three folded normalizations' scales and biases, then two zero rows. -/
noncomputable def sbRows (s1 b1 s2 b2 ssc bsc : FVec Ideal S128 .f32) : FVec Ideal S8x128 .f32 :=
  stack8 s1 b1 s2 b2 ssc bsc zeroRow zeroRow

/-- A row reads the vector. -/
theorem row_apply (v : FVec Ideal S128 .f32) (u : Fin 1) (o : Fin 128) : row v (ix2 u o) = v (ix1 o) := by
  unfold row
  exact broadcastInDim_apply _ _ v (ix2 u o) (ix1 o) fun a => match a with
    | ⟨0, _⟩ => by show o.val = if (128 : ℕ) = 1 then 0 else o.val; rfl

/-- The zero vector is zero. -/
theorem zeroRow_apply (i : S128.Idx) : zeroRow i = 0 := by
  unfold zeroRow
  refine (broadcastInDim_scalar_apply _ _ i).trans ?_
  exact Ideal.ofBits_zero_f32

/-- Row 0 of the stacked rows. -/
theorem sbRows_row0 (v0 v1 v2 v3 v4 v5 v6 v7 : FVec Ideal S128 .f32) (o : Fin 128) :
    stack8 v0 v1 v2 v3 v4 v5 v6 v7 (ix2 (0 : Fin 8) o) = v0 (ix1 o) := by
  unfold stack8
  refine (concatenate_apply_piece (t := S8x128) 0 [⟨S1x128, row v0⟩, ⟨S1x128, row v1⟩, ⟨S1x128, row v2⟩, ⟨S1x128, row v3⟩, ⟨S1x128, row v4⟩,
      ⟨S1x128, row v5⟩, ⟨S1x128, row v6⟩, ⟨S1x128, row v7⟩] Gen.concatenates_S1x128_S1x128_S1x128_S1x128_S1x128_S1x128_S1x128_S1x128_S8x128_d0
    (ix2 (0 : Fin 8) o) 0 (by simp) S1x128 (row v0) rfl rfl 0 (by simp) (ix2 (0 : Fin 1) o)
    (fun b hb => match b with | ⟨0, _⟩ => absurd rfl hb | ⟨1, _⟩ => rfl) rfl).trans ?_
  exact row_apply v0 (0 : Fin 1) o

/-- Row 1 of the stacked rows. -/
theorem sbRows_row1 (v0 v1 v2 v3 v4 v5 v6 v7 : FVec Ideal S128 .f32) (o : Fin 128) :
    stack8 v0 v1 v2 v3 v4 v5 v6 v7 (ix2 (1 : Fin 8) o) = v1 (ix1 o) := by
  unfold stack8
  refine (concatenate_apply_piece (t := S8x128) 0 [⟨S1x128, row v0⟩, ⟨S1x128, row v1⟩, ⟨S1x128, row v2⟩, ⟨S1x128, row v3⟩, ⟨S1x128, row v4⟩,
      ⟨S1x128, row v5⟩, ⟨S1x128, row v6⟩, ⟨S1x128, row v7⟩] Gen.concatenates_S1x128_S1x128_S1x128_S1x128_S1x128_S1x128_S1x128_S1x128_S8x128_d0
    (ix2 (1 : Fin 8) o) 1 (by simp) S1x128 (row v1) rfl rfl 1 (by simp) (ix2 (0 : Fin 1) o)
    (fun b hb => match b with | ⟨0, _⟩ => absurd rfl hb | ⟨1, _⟩ => rfl) rfl).trans ?_
  exact row_apply v1 (0 : Fin 1) o

/-- Row 2 of the stacked rows. -/
theorem sbRows_row2 (v0 v1 v2 v3 v4 v5 v6 v7 : FVec Ideal S128 .f32) (o : Fin 128) :
    stack8 v0 v1 v2 v3 v4 v5 v6 v7 (ix2 (2 : Fin 8) o) = v2 (ix1 o) := by
  unfold stack8
  refine (concatenate_apply_piece (t := S8x128) 0 [⟨S1x128, row v0⟩, ⟨S1x128, row v1⟩, ⟨S1x128, row v2⟩, ⟨S1x128, row v3⟩, ⟨S1x128, row v4⟩,
      ⟨S1x128, row v5⟩, ⟨S1x128, row v6⟩, ⟨S1x128, row v7⟩] Gen.concatenates_S1x128_S1x128_S1x128_S1x128_S1x128_S1x128_S1x128_S1x128_S8x128_d0
    (ix2 (2 : Fin 8) o) 2 (by simp) S1x128 (row v2) rfl rfl 2 (by simp) (ix2 (0 : Fin 1) o)
    (fun b hb => match b with | ⟨0, _⟩ => absurd rfl hb | ⟨1, _⟩ => rfl) rfl).trans ?_
  exact row_apply v2 (0 : Fin 1) o

/-- Row 3 of the stacked rows. -/
theorem sbRows_row3 (v0 v1 v2 v3 v4 v5 v6 v7 : FVec Ideal S128 .f32) (o : Fin 128) :
    stack8 v0 v1 v2 v3 v4 v5 v6 v7 (ix2 (3 : Fin 8) o) = v3 (ix1 o) := by
  unfold stack8
  refine (concatenate_apply_piece (t := S8x128) 0 [⟨S1x128, row v0⟩, ⟨S1x128, row v1⟩, ⟨S1x128, row v2⟩, ⟨S1x128, row v3⟩, ⟨S1x128, row v4⟩,
      ⟨S1x128, row v5⟩, ⟨S1x128, row v6⟩, ⟨S1x128, row v7⟩] Gen.concatenates_S1x128_S1x128_S1x128_S1x128_S1x128_S1x128_S1x128_S1x128_S8x128_d0
    (ix2 (3 : Fin 8) o) 3 (by simp) S1x128 (row v3) rfl rfl 3 (by simp) (ix2 (0 : Fin 1) o)
    (fun b hb => match b with | ⟨0, _⟩ => absurd rfl hb | ⟨1, _⟩ => rfl) rfl).trans ?_
  exact row_apply v3 (0 : Fin 1) o

/-- Row 4 of the stacked rows. -/
theorem sbRows_row4 (v0 v1 v2 v3 v4 v5 v6 v7 : FVec Ideal S128 .f32) (o : Fin 128) :
    stack8 v0 v1 v2 v3 v4 v5 v6 v7 (ix2 (4 : Fin 8) o) = v4 (ix1 o) := by
  unfold stack8
  refine (concatenate_apply_piece (t := S8x128) 0 [⟨S1x128, row v0⟩, ⟨S1x128, row v1⟩, ⟨S1x128, row v2⟩, ⟨S1x128, row v3⟩, ⟨S1x128, row v4⟩,
      ⟨S1x128, row v5⟩, ⟨S1x128, row v6⟩, ⟨S1x128, row v7⟩] Gen.concatenates_S1x128_S1x128_S1x128_S1x128_S1x128_S1x128_S1x128_S1x128_S8x128_d0
    (ix2 (4 : Fin 8) o) 4 (by simp) S1x128 (row v4) rfl rfl 4 (by simp) (ix2 (0 : Fin 1) o)
    (fun b hb => match b with | ⟨0, _⟩ => absurd rfl hb | ⟨1, _⟩ => rfl) rfl).trans ?_
  exact row_apply v4 (0 : Fin 1) o

/-- Row 5 of the stacked rows. -/
theorem sbRows_row5 (v0 v1 v2 v3 v4 v5 v6 v7 : FVec Ideal S128 .f32) (o : Fin 128) :
    stack8 v0 v1 v2 v3 v4 v5 v6 v7 (ix2 (5 : Fin 8) o) = v5 (ix1 o) := by
  unfold stack8
  refine (concatenate_apply_piece (t := S8x128) 0 [⟨S1x128, row v0⟩, ⟨S1x128, row v1⟩, ⟨S1x128, row v2⟩, ⟨S1x128, row v3⟩, ⟨S1x128, row v4⟩,
      ⟨S1x128, row v5⟩, ⟨S1x128, row v6⟩, ⟨S1x128, row v7⟩] Gen.concatenates_S1x128_S1x128_S1x128_S1x128_S1x128_S1x128_S1x128_S1x128_S8x128_d0
    (ix2 (5 : Fin 8) o) 5 (by simp) S1x128 (row v5) rfl rfl 5 (by simp) (ix2 (0 : Fin 1) o)
    (fun b hb => match b with | ⟨0, _⟩ => absurd rfl hb | ⟨1, _⟩ => rfl) rfl).trans ?_
  exact row_apply v5 (0 : Fin 1) o

/-- Row 6 of the stacked rows. -/
theorem sbRows_row6 (v0 v1 v2 v3 v4 v5 v6 v7 : FVec Ideal S128 .f32) (o : Fin 128) :
    stack8 v0 v1 v2 v3 v4 v5 v6 v7 (ix2 (6 : Fin 8) o) = v6 (ix1 o) := by
  unfold stack8
  refine (concatenate_apply_piece (t := S8x128) 0 [⟨S1x128, row v0⟩, ⟨S1x128, row v1⟩, ⟨S1x128, row v2⟩, ⟨S1x128, row v3⟩, ⟨S1x128, row v4⟩,
      ⟨S1x128, row v5⟩, ⟨S1x128, row v6⟩, ⟨S1x128, row v7⟩] Gen.concatenates_S1x128_S1x128_S1x128_S1x128_S1x128_S1x128_S1x128_S1x128_S8x128_d0
    (ix2 (6 : Fin 8) o) 6 (by simp) S1x128 (row v6) rfl rfl 6 (by simp) (ix2 (0 : Fin 1) o)
    (fun b hb => match b with | ⟨0, _⟩ => absurd rfl hb | ⟨1, _⟩ => rfl) rfl).trans ?_
  exact row_apply v6 (0 : Fin 1) o

/-- Row 7 of the stacked rows. -/
theorem sbRows_row7 (v0 v1 v2 v3 v4 v5 v6 v7 : FVec Ideal S128 .f32) (o : Fin 128) :
    stack8 v0 v1 v2 v3 v4 v5 v6 v7 (ix2 (7 : Fin 8) o) = v7 (ix1 o) := by
  unfold stack8
  refine (concatenate_apply_piece (t := S8x128) 0 [⟨S1x128, row v0⟩, ⟨S1x128, row v1⟩, ⟨S1x128, row v2⟩, ⟨S1x128, row v3⟩, ⟨S1x128, row v4⟩,
      ⟨S1x128, row v5⟩, ⟨S1x128, row v6⟩, ⟨S1x128, row v7⟩] Gen.concatenates_S1x128_S1x128_S1x128_S1x128_S1x128_S1x128_S1x128_S1x128_S8x128_d0
    (ix2 (7 : Fin 8) o) 7 (by simp) S1x128 (row v7) rfl rfl 7 (by simp) (ix2 (0 : Fin 1) o)
    (fun b hb => match b with | ⟨0, _⟩ => absurd rfl hb | ⟨1, _⟩ => rfl) rfl).trans ?_
  exact row_apply v7 (0 : Fin 1) o

/-! ## § 4  The second convolution's weights -/

/-- The weights [o, c, ky, kx] moved to [ky, c, kx, o], viewed [384, 384] and narrowed. -/
noncomputable def w2cat (w2 : FVec Ideal S128x128x3x3 .f32) : FVec Ideal S384x384 .bf16 :=
  truncf .bf16
    (shapeCast S384x384 (transpose S3x128x3x128 [2, 1, 3, 0] w2 Gen.transposes_S128x128x3x3_S3x128x3x128_2_1_3_0)
      Gen.shapeCasts_S3x128x3x128_S384x384)
    Gen.bitsLt_bf16_f32

/-- Row ky·128 + c, column kx·128 + o of the laid-out weights is the weight (o, c, ky, kx). -/
theorem w2cat_apply (w2 : FVec Ideal S128x128x3x3 .f32) (K N : Fin 384) (o c : Fin 128) (ky kx : Fin 3)
    (hK : K.val = ky.val * 128 + c.val) (hN : N.val = kx.val * 128 + o.val) :
    w2cat w2 (ix2 K N) = w2 (ix4 o c ky kx) := by
  unfold w2cat
  show shapeCast S384x384 (transpose S3x128x3x128 [2, 1, 3, 0] w2 Gen.transposes_S128x128x3x3_S3x128x3x128_2_1_3_0)
      Gen.shapeCasts_S3x128x3x128_S384x384 (ix2 K N) = _
  refine (shapeCast_apply _ _ (ix2 K N) (ix4 ky c kx o) (by
    rw [Shape.rowMajor_val_four, Shape.rowMajor_val_two]
    show ((ky.val * 128 + c.val) * 3 + kx.val) * 128 + o.val = K.val * 384 + N.val
    omega)).trans ?_
  exact transpose_apply _ w2 _ (ix4 ky c kx o) (ix4 o c ky kx) fun b => match b with
    | ⟨0, _⟩ => rfl | ⟨1, _⟩ => rfl | ⟨2, _⟩ => rfl | ⟨3, _⟩ => rfl

/-! ## § 5  The result, channels first -/

/-- The region's result moved to [32, 128, 56, 56]. -/
noncomputable def outNCHW (y : FVec Ideal S32x56x56x128 .f32) : FVec Ideal S32x128x56x56 .f32 :=
  transpose S32x128x56x56 [0, 3, 1, 2] y Gen.transposes_S32x56x56x128_S32x128x56x56_0_3_1_2

/-- Image n, channel o, pixel (h, w) of the result is the region's (n, h, w, o). -/
theorem outNCHW_apply (y : FVec Ideal S32x56x56x128 .f32) (n : Fin 32) (o : Fin 128) (h w : Fin 56) :
    outNCHW y (ix4 n o h w) = y (ix4 n h w o) := by
  unfold outNCHW
  exact transpose_apply _ y _ (ix4 n o h w) (ix4 n h w o) fun b => match b with
    | ⟨0, _⟩ => rfl | ⟨1, _⟩ => rfl | ⟨2, _⟩ => rfl | ⟨3, _⟩ => rfl

/-! ## § 6  A scatter of one window read at an index

A scatter writes update elements one after another, each at the operand index its position names (or nowhere when
that falls outside). Read at one index: if no update element lands there the operand's value stays; if exactly one
does — the positions being pairwise distinct — and the body returns the update, the value there is that update
element, whatever the order. -/

section Fold
variable {α β ι : Type}

/-- A left fold of steps that each change at most the one index g names: an index no step names keeps its value. -/
theorem foldl_step_miss (step : (ι → α) → β → ι → α) (g : β → Option ι)
    (hnone : ∀ r n, g n = none → step r n = r)
    (hsome : ∀ r n i, g n = some i → ∀ i', i' ≠ i → step r n i' = r i') :
    ∀ (L : List β) (x : ι → α) (i' : ι), (∀ n ∈ L, g n ≠ some i') → L.foldl step x i' = x i'
  | [], _, _, _ => rfl
  | n :: L, x, i', h => by
    rw [List.foldl_cons, foldl_step_miss step g hnone hsome L (step x n) i' fun m hm => h m (List.mem_cons_of_mem _ hm)]
    have hn := h n List.mem_cons_self
    cases hg : g n with
    | none => rw [hnone x n hg]
    | some i => exact hsome x n i hg i' fun e => hn (by rw [hg, e])

/-- The same fold at an index exactly one step names, when a step writes w n at the index it names: the value there
    is that step's. -/
theorem foldl_step_hit (step : (ι → α) → β → ι → α) (g : β → Option ι) (w : β → α)
    (hnone : ∀ r n, g n = none → step r n = r)
    (hsome : ∀ r n i, g n = some i → ∀ i', i' ≠ i → step r n i' = r i')
    (hhit : ∀ r n i, g n = some i → step r n i = w n) (i' : ι) (n₀ : β) (hg₀ : g n₀ = some i') :
    ∀ (L : List β) (x : ι → α), n₀ ∈ L → (∀ n ∈ L, g n = some i' → n = n₀) → L.Nodup → L.foldl step x i' = w n₀
  | [], _, hmem, _, _ => absurd hmem List.not_mem_nil
  | n :: L, x, hmem, huniq, hnd => by
    rw [List.foldl_cons]
    have hnd' := List.nodup_cons.1 hnd
    by_cases hn : n = n₀
    · subst hn
      rw [foldl_step_miss step g hnone hsome L (step x n) i' fun m hm e =>
        hnd'.1 (huniq m (List.mem_cons_of_mem _ hm) e ▸ hm)]
      exact hhit x n i' hg₀
    · have hmem' : n₀ ∈ L := by
        rcases List.mem_cons.1 hmem with h | h
        · exact absurd h.symm hn
        · exact h
      exact foldl_step_hit step g w hnone hsome hhit i' n₀ hg₀ L (step x n) hmem'
        (fun m hm => huniq m (List.mem_cons_of_mem _ hm)) hnd'.2

end Fold

section ScatterRows

/-- The start of the window on the operand's row axis is the scatter index, 64 (read signed). -/
theorem scat_start0 (j : S64x128.Idx) (idx : IVec S1 32) (hidx : ∀ i, idx i = 64#32) :
    scatter_S192x128_S1_S64x128_01_n_0_0.start j idx 0 = 64 := by
  unfold ScatterDims.start
  rw [dif_pos (show (0 : Fin S192x128.rank) ∈ scatter_S192x128_S1_S64x128_01_n_0_0.scatterDimsToOperandDims by decide), hidx]
  rfl

/-- On the column axis, which the scatter index does not name, the window starts at 0. -/
theorem scat_start1 (j : S64x128.Idx) (idx : IVec S1 32) :
    scatter_S192x128_S1_S64x128_01_n_0_0.start j idx 1 = 0 := by
  unfold ScatterDims.start
  rw [dif_neg (show ¬(1 : Fin S192x128.rank) ∈ scatter_S192x128_S1_S64x128_01_n_0_0.scatterDimsToOperandDims by decide)]

/-- The window coordinate on the row axis is the update's row. -/
theorem scat_window0 (j : S64x128.Idx) : scatter_S192x128_S1_S64x128_01_n_0_0.window j 0 = (j 0).val := by
  unfold ScatterDims.window
  rw [dif_pos (show (0 : Fin S192x128.rank) ∈ scatter_S192x128_S1_S64x128_01_n_0_0.sKept by decide)]
  rfl

/-- The window coordinate on the column axis is the update's column. -/
theorem scat_window1 (j : S64x128.Idx) : scatter_S192x128_S1_S64x128_01_n_0_0.window j 1 = (j 1).val := by
  unfold ScatterDims.window
  rw [dif_pos (show (1 : Fin S192x128.rank) ∈ scatter_S192x128_S1_S64x128_01_n_0_0.sKept by decide)]
  rfl

/-- Update element (a, b) lands at operand index (64 + a, b): always inside the [192, 128] operand. -/
theorem scat_resultIdx (a : Fin 64) (b : Fin 128) (idx : IVec S1 32) (hidx : ∀ i, idx i = 64#32) (r : Fin 192)
    (hr : r.val = 64 + a.val) :
    scatter_S192x128_S1_S64x128_01_n_0_0.resultIdx? (ix2 a b) idx = some (ix2 r b) := by
  have ha := a.isLt
  have hb := b.isLt
  have s0 := scat_start0 (ix2 a b) idx hidx
  have s1 := scat_start1 (ix2 a b) idx
  have w0 : scatter_S192x128_S1_S64x128_01_n_0_0.window (ix2 a b) 0 = a.val := scat_window0 (ix2 a b)
  have w1 : scatter_S192x128_S1_S64x128_01_n_0_0.window (ix2 a b) 1 = b.val := scat_window1 (ix2 a b)
  have h : ∀ d, 0 ≤ scatter_S192x128_S1_S64x128_01_n_0_0.start (ix2 a b) idx d + scatter_S192x128_S1_S64x128_01_n_0_0.window (ix2 a b) d
      ∧ scatter_S192x128_S1_S64x128_01_n_0_0.start (ix2 a b) idx d + scatter_S192x128_S1_S64x128_01_n_0_0.window (ix2 a b) d < S192x128.size d := by
    intro d
    match d with
    | ⟨0, _⟩ =>
      show 0 ≤ scatter_S192x128_S1_S64x128_01_n_0_0.start (ix2 a b) idx 0 + scatter_S192x128_S1_S64x128_01_n_0_0.window (ix2 a b) 0
        ∧ scatter_S192x128_S1_S64x128_01_n_0_0.start (ix2 a b) idx 0 + scatter_S192x128_S1_S64x128_01_n_0_0.window (ix2 a b) 0 < (192 : ℕ)
      rw [s0, w0]; omega
    | ⟨1, _⟩ =>
      show 0 ≤ scatter_S192x128_S1_S64x128_01_n_0_0.start (ix2 a b) idx 1 + scatter_S192x128_S1_S64x128_01_n_0_0.window (ix2 a b) 1
        ∧ scatter_S192x128_S1_S64x128_01_n_0_0.start (ix2 a b) idx 1 + scatter_S192x128_S1_S64x128_01_n_0_0.window (ix2 a b) 1 < (128 : ℕ)
      rw [s1, w1]; omega
  unfold ScatterDims.resultIdx?
  rw [dif_pos h]
  refine congrArg some (funext fun d => Fin.ext ?_)
  match d with
  | ⟨0, _⟩ =>
    show (scatter_S192x128_S1_S64x128_01_n_0_0.start (ix2 a b) idx 0 + scatter_S192x128_S1_S64x128_01_n_0_0.window (ix2 a b) 0).toNat = r.val
    rw [s0, w0]; omega
  | ⟨1, _⟩ =>
    show (scatter_S192x128_S1_S64x128_01_n_0_0.start (ix2 a b) idx 1 + scatter_S192x128_S1_S64x128_01_n_0_0.window (ix2 a b) 1).toNat = b.val
    rw [s1, w1]; omega

end ScatterRows

section ScatterRead
variable {α : Type}

/-- THE SCATTER AT A ROW OF THE WINDOW. With the scatter index 64 and a body that returns the update, the result at
    row 64 + c, column o is the update at (c, o): update element (c, o) is the only one that lands there. -/
theorem scatter_rows_hit (x : S192x128.Idx → α) (idx : IVec S1 32) (hidx : ∀ i, idx i = 64#32) (upd : S64x128.Idx → α)
    (K : Fin 192) (o : Fin 128) (c : Fin 64) (hK : K.val = 64 + c.val) :
    Host.scatter scatter_S192x128_S1_S64x128_01_n_0_0 (fun _ b => b) x idx upd (ix2 K o) = upd (ix2 c o) := by
  unfold Host.scatter
  refine (foldl_step_hit _
    (fun n => scatter_S192x128_S1_S64x128_01_n_0_0.resultIdx? (S64x128.rowMajor.symm n) idx)
    (fun n => upd (S64x128.rowMajor.symm n)) ?hnone ?hsome ?hhit (ix2 K o) (S64x128.rowMajor (ix2 c o)) ?hg0
    (List.finRange S64x128.numel) x (List.mem_finRange _) ?huniq (List.nodup_finRange _)).trans ?_
  case hnone =>
    intro r n h
    dsimp only at h ⊢
    rw [h]
  case hsome =>
    intro r n i h i' hi'
    dsimp only at h ⊢
    rw [h]
    exact if_neg hi'
  case hhit =>
    intro r n i h
    dsimp only at h ⊢
    rw [h]
    exact if_pos rfl
  case hg0 =>
    rw [Equiv.symm_apply_apply]
    exact scat_resultIdx c o idx hidx K hK
  case huniq =>
    intro n _ hn
    obtain ⟨a, b, hj⟩ : ∃ (a : Fin 64) (b : Fin 128), S64x128.rowMajor.symm n = ix2 a b := ⟨_, _, eq_ix2 _⟩
    have ha := a.isLt
    rw [hj, scat_resultIdx a b idx hidx ⟨64 + a.val, by omega⟩ rfl] at hn
    have e := Option.some.inj hn
    have e0 : 64 + a.val = K.val := congrArg (fun i : S192x128.Idx => (i 0).val) e
    have e1 : b.val = o.val := congrArg (fun i : S192x128.Idx => (i 1).val) e
    have hac : a = c := Fin.ext (by omega)
    have hbo : b = o := Fin.ext e1
    rw [hac, hbo] at hj
    exact (Equiv.symm_apply_eq _).1 hj
  · rw [Equiv.symm_apply_apply]

/-- THE SCATTER OUTSIDE THE WINDOW. At a row below 64 or from 128 on no update element lands: the operand's value stays. -/
theorem scatter_rows_miss (x : S192x128.Idx → α) (idx : IVec S1 32) (hidx : ∀ i, idx i = 64#32) (upd : S64x128.Idx → α)
    (K : Fin 192) (o : Fin 128) (hK : K.val < 64 ∨ 128 ≤ K.val) :
    Host.scatter scatter_S192x128_S1_S64x128_01_n_0_0 (fun _ b => b) x idx upd (ix2 K o) = x (ix2 K o) := by
  unfold Host.scatter
  refine foldl_step_miss _
    (fun n => scatter_S192x128_S1_S64x128_01_n_0_0.resultIdx? (S64x128.rowMajor.symm n) idx) ?hnone ?hsome
    (List.finRange S64x128.numel) x (ix2 K o) ?hmiss
  case hnone =>
    intro r n h
    dsimp only at h ⊢
    rw [h]
  case hsome =>
    intro r n i h i' hi'
    dsimp only at h ⊢
    rw [h]
    exact if_neg hi'
  case hmiss =>
    intro n _ hn
    obtain ⟨a, b, hj⟩ : ∃ (a : Fin 64) (b : Fin 128), S64x128.rowMajor.symm n = ix2 a b := ⟨_, _, eq_ix2 _⟩
    have ha := a.isLt
    rw [hj, scat_resultIdx a b idx hidx ⟨64 + a.val, by omega⟩ rfl] at hn
    have e := Option.some.inj hn
    have e0 : 64 + a.val = K.val := congrArg (fun i : S192x128.Idx => (i 0).val) e
    omega

end ScatterRead

/-! ## § 7  The first convolution's weights and the shortcut's, side by side -/

/-- The first convolution's weights [o, c, ky, kx] moved to [ky, c, kx, o] and viewed [192, 384]. -/
noncomputable def w1rows (w1 : FVec Ideal S128x64x3x3 .f32) : FVec Ideal S192x384 .f32 :=
  shapeCast S192x384 (transpose S3x64x3x128 [2, 1, 3, 0] w1 Gen.transposes_S128x64x3x3_S3x64x3x128_2_1_3_0)
    Gen.shapeCasts_S3x64x3x128_S192x384

/-- The zero [192, 128] block the shortcut's weights are written into. -/
noncomputable def zeroBlock : FVec Ideal S192x128 .f32 :=
  broadcastInDim S192x128 ![] Gen.bcast_S_S192x128 (constant (F := Ideal) S_ .f32 0x00000000#32)

/-- The scatter index: the one word 64. -/
def idx64 : IVec S1 32 := broadcastInDim S1 ![] Gen.bcast_S_S1 (constantI S_ 32 64#32)

/-- The shortcut's weights [o, c, 1, 1] viewed [128, 64], transposed to [c, o] and written into rows 64 … 127 of the
    zero block. -/
noncomputable def scBlock (wsc : FVec Ideal S128x64x1x1 .f32) : FVec Ideal S192x128 .f32 :=
  Host.scatter scatter_S192x128_S1_S64x128_01_n_0_0 (fun _ b => b) zeroBlock idx64
    (transpose S64x128 [1, 0] (shapeCast S128x64 wsc Gen.shapeCasts_S128x64x1x1_S128x64) Gen.transposes_S128x64_S64x128_1_0)

/-- The two side by side, [192, 512], narrowed. -/
noncomputable def w1cat (w1 : FVec Ideal S128x64x3x3 .f32) (wsc : FVec Ideal S128x64x1x1 .f32) : FVec Ideal S192x512 .bf16 :=
  truncf .bf16
    (concatenate S192x512 1 [⟨S192x384, w1rows w1⟩, ⟨S192x128, scBlock wsc⟩] Gen.concatenates_S192x384_S192x128_S192x512_d1)
    Gen.bitsLt_bf16_f32

/-- Row ky·64 + c, column kx·128 + o of the laid-out weights is the weight (o, c, ky, kx). -/
theorem w1rows_apply (w1 : FVec Ideal S128x64x3x3 .f32) (K : Fin 192) (N : Fin 384) (o : Fin 128) (c : Fin 64)
    (ky kx : Fin 3) (hK : K.val = ky.val * 64 + c.val) (hN : N.val = kx.val * 128 + o.val) :
    w1rows w1 (ix2 K N) = w1 (ix4 o c ky kx) := by
  unfold w1rows
  refine (shapeCast_apply _ _ (ix2 K N) (ix4 ky c kx o) (by
    rw [Shape.rowMajor_val_four, Shape.rowMajor_val_two]
    show ((ky.val * 64 + c.val) * 3 + kx.val) * 128 + o.val = K.val * 384 + N.val
    omega)).trans ?_
  exact transpose_apply _ w1 _ (ix4 ky c kx o) (ix4 o c ky kx) fun b => match b with
    | ⟨0, _⟩ => rfl | ⟨1, _⟩ => rfl | ⟨2, _⟩ => rfl | ⟨3, _⟩ => rfl

/-- The zero block is zero. -/
theorem zeroBlock_apply (i : S192x128.Idx) : zeroBlock i = 0 := by
  unfold zeroBlock
  exact (broadcastInDim_scalar_apply _ _ i).trans Ideal.ofBits_zero_f32

/-- The scatter index is 64. -/
theorem idx64_apply (i : S1.Idx) : idx64 i = 64#32 := by
  unfold idx64
  exact broadcastInDim_scalar_apply _ _ i

/-- The shortcut block in its middle rows: row 64 + c, column o is the shortcut weight (o, c). -/
theorem scBlock_center (wsc : FVec Ideal S128x64x1x1 .f32) (K : Fin 192) (o : Fin 128) (c : Fin 64)
    (hK : K.val = 64 + c.val) : scBlock wsc (ix2 K o) = wsc (ix4 o c (0 : Fin 1) (0 : Fin 1)) := by
  unfold scBlock
  refine (scatter_rows_hit _ idx64 idx64_apply _ K o c hK).trans ?_
  refine (transpose_ix2_apply _ _ c o).trans ?_
  exact shapeCast_apply wsc _ (ix2 o c) (ix4 o c (0 : Fin 1) (0 : Fin 1)) (by
    rw [Shape.rowMajor_val_four, Shape.rowMajor_val_two]
    show ((o.val * 64 + c.val) * 1 + 0) * 1 + 0 = o.val * 64 + c.val
    omega)

/-- The shortcut block outside its middle rows is zero. -/
theorem scBlock_outer (wsc : FVec Ideal S128x64x1x1 .f32) (K : Fin 192) (o : Fin 128)
    (hK : K.val < 64 ∨ 128 ≤ K.val) : scBlock wsc (ix2 K o) = 0 := by
  unfold scBlock
  exact (scatter_rows_miss _ idx64 idx64_apply _ K o hK).trans (zeroBlock_apply _)

/-- THE FIRST CONVOLUTION'S COLUMNS of the staged weights: row ky·64 + c, column kx·128 + o (kx < 3) is the weight
    (o, c, ky, kx). -/
theorem w1cat_apply_conv (w1 : FVec Ideal S128x64x3x3 .f32) (wsc : FVec Ideal S128x64x1x1 .f32) (K : Fin 192)
    (N : Fin 512) (o : Fin 128) (c : Fin 64) (ky kx : Fin 3) (hK : K.val = ky.val * 64 + c.val)
    (hN : N.val = kx.val * 128 + o.val) : w1cat w1 wsc (ix2 K N) = w1 (ix4 o c ky kx) := by
  have hkx := kx.isLt
  have ho := o.isLt
  unfold w1cat
  show concatenate S192x512 1 [⟨S192x384, w1rows w1⟩, ⟨S192x128, scBlock wsc⟩] Gen.concatenates_S192x384_S192x128_S192x512_d1 (ix2 K N) = _
  refine (concatenate_pair_apply_left 1 (w1rows w1) (scBlock wsc) _ (ix2 K N) rfl (ix2 K ⟨N.val, by omega⟩)
    (fun b => match b with | ⟨0, _⟩ => rfl | ⟨1, _⟩ => rfl)).trans ?_
  exact w1rows_apply w1 K ⟨N.val, by omega⟩ o c ky kx hK hN

/-- THE SHORTCUT'S COLUMNS, middle rows: row 64 + c, column 384 + o is the shortcut weight (o, c). -/
theorem w1cat_apply_sc_center (w1 : FVec Ideal S128x64x3x3 .f32) (wsc : FVec Ideal S128x64x1x1 .f32) (K : Fin 192)
    (N : Fin 512) (o : Fin 128) (c : Fin 64) (hK : K.val = 64 + c.val) (hN : N.val = 384 + o.val) :
    w1cat w1 wsc (ix2 K N) = wsc (ix4 o c (0 : Fin 1) (0 : Fin 1)) := by
  unfold w1cat
  show concatenate S192x512 1 [⟨S192x384, w1rows w1⟩, ⟨S192x128, scBlock wsc⟩] Gen.concatenates_S192x384_S192x128_S192x512_d1 (ix2 K N) = _
  refine (concatenate_pair_apply_right 1 (w1rows w1) (scBlock wsc) _ (ix2 K N) rfl rfl (ix2 K o)
    (fun b hb => match b with | ⟨0, _⟩ => rfl | ⟨1, _⟩ => absurd rfl hb) (by show o.val + 384 = N.val; omega)).trans ?_
  exact scBlock_center wsc K o c hK

/-- THE SHORTCUT'S COLUMNS, outer rows: zero. -/
theorem w1cat_apply_sc_outer (w1 : FVec Ideal S128x64x3x3 .f32) (wsc : FVec Ideal S128x64x1x1 .f32) (K : Fin 192)
    (N : Fin 512) (o : Fin 128) (hK : K.val < 64 ∨ 128 ≤ K.val) (hN : N.val = 384 + o.val) :
    w1cat w1 wsc (ix2 K N) = 0 := by
  unfold w1cat
  show concatenate S192x512 1 [⟨S192x384, w1rows w1⟩, ⟨S192x128, scBlock wsc⟩] Gen.concatenates_S192x384_S192x128_S192x512_d1 (ix2 K N) = _
  refine (concatenate_pair_apply_right 1 (w1rows w1) (scBlock wsc) _ (ix2 K N) rfl rfl (ix2 K o)
    (fun b hb => match b with | ⟨0, _⟩ => rfl | ⟨1, _⟩ => absurd rfl hb) (by show o.val + 384 = N.val; omega)).trans ?_
  exact scBlock_outer wsc K o hK

/-- THE SHORTCUT'S COLUMNS by row tap: row ky·64 + c, column 384 + o is the shortcut weight (o, c) at the middle tap
    ky = 1 and zero at the others. -/
theorem w1cat_apply_sc (w1 : FVec Ideal S128x64x3x3 .f32) (wsc : FVec Ideal S128x64x1x1 .f32) (K : Fin 192)
    (N : Fin 512) (o : Fin 128) (c : Fin 64) (ky : Fin 3) (hK : K.val = ky.val * 64 + c.val) (hN : N.val = 384 + o.val) :
    w1cat w1 wsc (ix2 K N) = if ky = 1 then wsc (ix4 o c (0 : Fin 1) (0 : Fin 1)) else 0 := by
  have hc := c.isLt
  match ky, hK with
  | ⟨0, _⟩, hK =>
    rw [if_neg (fun h => absurd (congrArg Fin.val h) (show ¬(0 : ℕ) = 1 by decide))]
    exact w1cat_apply_sc_outer w1 wsc K N o (by dsimp only at hK; omega) hN
  | ⟨1, _⟩, hK =>
    exact (w1cat_apply_sc_center w1 wsc K N o c (by dsimp only at hK; omega) hN).trans (if_pos (Fin.ext rfl)).symm
  | ⟨2, _⟩, hK =>
    rw [if_neg (fun h => absurd (congrArg Fin.val h) (show ¬(2 : ℕ) = 1 by decide))]
    exact w1cat_apply_sc_outer w1 wsc K N o (by dsimp only at hK; omega) hN

end Cert.KernelIdeal.HostStages
-- ==== Proof.KIEntry.lean ====
/-
  What the fused kernel's region reads: the four arrays the host operations before it make, as functions of the
  arguments. The activation x is moved to rows of channels (image, position, channel); the first layer's weights are laid
  out with row index (row tap, input channel) and column index (column tap, output channel), with a fourth block of
  columns that holds the 1 by 1 shortcut's weights in the rows of the centre row tap and zeros elsewhere; the second
  layer's weights likewise without the fourth block; and the three folded batch normalisations' scales and biases are
  stacked as the first six of eight rows. Each is the composition of the host operations that write it, read off the
  program text.
-/
import proofs.«173333_g2000300637041083_pallasbulk_292_30_alg».proof.Proof.KIFrame
import proofs.«173333_g2000300637041083_pallasbulk_292_30_alg».proof.Proof.KHostStages
import Idealize.ShloMosaic.Lib.StableHlo.Run
import Idealize.ShloMosaic.PureOps.Ideal

set_option maxRecDepth 16384

noncomputable section

namespace Cert.KernelIdeal.Block

open Cert.KernelIdeal Cert.KernelIdeal.Gen Cert.KernelIdeal.HostStages
open Idealize.ShloMosaic Idealize.ShloMosaic.TcCoe Idealize.SL.Sem

variable (m : (ℓ : Loc nD τ sig) → Buf (Elt Ideal) ℓ)

/-- The rows-of-channels copy of x. -/
theorem entry_x (c : Dev nD) : entry m c main_v2 = xRows (m ((c : Thread nD τ).loc main_arg0)) := by
  show StableHlo.after hostOps0 (fun b => m (c, b)) (Proc.devRef .tc main_v2) = _
  after_results
  rfl

set_option maxHeartbeats 4000000 in
/-- The first layer's weights with the shortcut's beside them. -/
theorem entry_w1 (c : Dev nD) :
    entry m c main_v39 = w1cat (m ((c : Thread nD τ).loc main_arg1)) (m ((c : Thread nD τ).loc main_arg11)) := by
  show StableHlo.after hostOps0 (fun b => m (c, b)) (Proc.devRef .tc main_v39) = _
  after_results
  rfl

set_option maxHeartbeats 4000000 in
/-- The second layer's weights. -/
theorem entry_w2 (c : Dev nD) : entry m c main_v42 = w2cat (m ((c : Thread nD τ).loc main_arg6)) := by
  show StableHlo.after hostOps0 (fun b => m (c, b)) (Proc.devRef .tc main_v42) = _
  after_results
  rfl

set_option maxHeartbeats 4000000 in
/-- The eight rows of scales and biases. -/
theorem entry_sb (c : Dev nD) :
    entry m c main_v30 = sbRows
      (foldScale (m ((c : Thread nD τ).loc main_arg2)) (m ((c : Thread nD τ).loc main_arg5)))
      (foldBias (m ((c : Thread nD τ).loc main_arg2)) (m ((c : Thread nD τ).loc main_arg3)) (m ((c : Thread nD τ).loc main_arg4)) (m ((c : Thread nD τ).loc main_arg5)))
      (foldScale (m ((c : Thread nD τ).loc main_arg7)) (m ((c : Thread nD τ).loc main_arg10)))
      (foldBias (m ((c : Thread nD τ).loc main_arg7)) (m ((c : Thread nD τ).loc main_arg8)) (m ((c : Thread nD τ).loc main_arg9)) (m ((c : Thread nD τ).loc main_arg10)))
      (foldScale (m ((c : Thread nD τ).loc main_arg12)) (m ((c : Thread nD τ).loc main_arg15)))
      (foldBias (m ((c : Thread nD τ).loc main_arg12)) (m ((c : Thread nD τ).loc main_arg13)) (m ((c : Thread nD τ).loc main_arg14)) (m ((c : Thread nD τ).loc main_arg15))) := by
  show StableHlo.after hostOps0 (fun b => m (c, b)) (Proc.devRef .tc main_v30) = _
  after_results
  rfl

end Cert.KernelIdeal.Block

end
-- ==== Proof.KIBlocks.lean ====
/-
  The input blocks of a grid point, read off the arrays the region finds.

  Three of the four input windows span their whole array at every point (the two weight arrays and the rows of scales and
  biases): their block is the array. The fourth, the activation in rows of channels, has one block per grid point: the
  pair of images 2t and 2t + 1, all 3136 positions, all 64 channels.
-/
import proofs.«173333_g2000300637041083_pallasbulk_292_30_alg».proof.Proof.KIValueRun
import proofs.«173333_g2000300637041083_pallasbulk_292_30_alg».proof.Proof.KIEntry

set_option maxRecDepth 16384

noncomputable section

namespace Cert.KernelIdeal.Block

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The input windows' block indices at point t: (t, 0, 0) for the activation, the origin for the other three. -/
theorem in_index : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The first layer's weights: the block is the whole array. -/
theorem block1_whole (c : Dev nD) (t : Fin cfg0.N) : blockAt m c 1 t = entry m c main_v39 := by
  obtain ⟨-, -, -, e0, e1, -, -, -, -⟩ := in_index t
  funext y
  show entry m c main_v39 (((cfg0.win 1).blk t).view.emb y) = entry m c main_v39 y
  congr 1
  funext a; apply Fin.ext
  match a with
  | ⟨0, _⟩ => show win0_1.index t (0 : Fin 2) * 192 + 1 * (y 0).val = (y 0).val; omega
  | ⟨1, _⟩ => show win0_1.index t (1 : Fin 2) * 512 + 1 * (y 1).val = (y 1).val; omega

/-- The second layer's weights: the block is the whole array. -/
theorem block2_whole (c : Dev nD) (t : Fin cfg0.N) : blockAt m c 2 t = entry m c main_v42 := by
  obtain ⟨-, -, -, -, -, e0, e1, -, -⟩ := in_index t
  funext y
  show entry m c main_v42 (((cfg0.win 2).blk t).view.emb y) = entry m c main_v42 y
  congr 1
  funext a; apply Fin.ext
  match a with
  | ⟨0, _⟩ => show win0_2.index t (0 : Fin 2) * 384 + 1 * (y 0).val = (y 0).val; omega
  | ⟨1, _⟩ => show win0_2.index t (1 : Fin 2) * 384 + 1 * (y 1).val = (y 1).val; omega

/-- The rows of scales and biases: the block is the whole array. -/
theorem block3_whole (c : Dev nD) (t : Fin cfg0.N) : blockAt m c 3 t = entry m c main_v30 := by
  obtain ⟨-, -, -, -, -, -, -, e0, e1⟩ := in_index t
  funext y
  show entry m c main_v30 (((cfg0.win 3).blk t).view.emb y) = entry m c main_v30 y
  congr 1
  funext a; apply Fin.ext
  match a with
  | ⟨0, _⟩ => show win0_3.index t (0 : Fin 2) * 8 + 1 * (y 0).val = (y 0).val; omega
  | ⟨1, _⟩ => show win0_3.index t (1 : Fin 2) * 128 + 1 * (y 1).val = (y 1).val; omega

/-- The activation's block at point t: image j of the pair is image 2t + j of the array. -/
theorem block0_apply (c : Dev nD) (t : Fin cfg0.N) (j : Fin 2) (q : Fin 3136) (ch : Fin 64) (n : Fin 32) (hn : n.val = 2 * t.val + j.val) :
    blockAt m c 0 t (ix3 j q ch) = entry m c main_v2 (ix3 n q ch) := by
  obtain ⟨e0, e1, e2, -, -, -, -, -, -⟩ := in_index t
  show entry m c main_v2 (((cfg0.win 0).blk t).view.emb (ix3 j q ch)) = entry m c main_v2 (ix3 n q ch)
  congr 1
  funext a; apply Fin.ext
  match a with
  | ⟨0, _⟩ => show win0_0.index t (0 : Fin 3) * 2 + 1 * j.val = n.val; omega
  | ⟨1, _⟩ => show win0_0.index t (1 : Fin 3) * 3136 + 1 * q.val = q.val; omega
  | ⟨2, _⟩ => show win0_0.index t (2 : Fin 3) * 64 + 1 * ch.val = ch.val; omega

end Cert.KernelIdeal.Block

end
-- ==== Proof.LibConvSums.lean ====
/-
  SUMS OVER FLATTENED CONVOLUTION TAPS. Pure mathematics, no program.

  A 3×3 convolution with C input channels at one output position and one output channel is the sum of 9·C
  products, one per tap (ky, kx, c): row offset ky, column offset kx (each in {0, 1, 2}) and input channel c < C.
  Two arrangements of that one sum are joined here.

  * THE PATCH-MATRIX ARRANGEMENT ("im2col"). The taps are laid out along ONE axis of length 9·C, the tap
    (ky, kx, c) at the flat position k = (ky·3 + kx)·C + c, and the convolution is one contraction over k.
    Decoding: ky = k / (3·C), kx = (k / C) % 3, c = k % C.
  * THE THREE-PRODUCT ARRANGEMENT. For each column offset kx there is one contraction over an axis of length
    3·C on which the pair (ky, c) sits at the flat position k' = ky·C + c (decoding: ky = k' / C, c = k' % C);
    the three contractions S 0, S 1, S 2 are then added left to right, (S 0 + S 1) + S 2.

  Both are re-indexings of the triple sum ∑ ky, ∑ kx, ∑ c over Fin 3 × Fin 3 × Fin C, through the bijections
  (ky, kx, c) ↦ (ky·3 + kx)·C + c and (ky, c) ↦ ky·C + c (`tap9Equiv`, `tap3Equiv`); the second arrangement also
  exchanges the sums over ky and kx. Only commutativity and associativity of + are used, so everything is stated
  for an arbitrary commutative additive monoid M — in particular the extended reals, where + is commutative and
  associative although x·(a + b) = x·a + x·b and cancellation fail at ±∞. No finiteness hypothesis appears anywhere.

  Contents.
    § 1  flat positions q·C + c: quotient, remainder, bound (`flat_div`, `flat_mod`, `flat_lt`, …) and a flat
         row index h·Wp + w of an H × Wp grid (`flatRow`).
    § 2  the tap positions `tap9` (in Fin K, K = 9·C) and `tap3` (in Fin K, K = 3·C), their values and decodings.
    § 3  the bijections and the re-indexed sums `sum_tap9`, `sum_tap3`.
    § 4  the two arrangements as the triple sum (`sum_im2col`, `sum_three_taps`) and the join
         (`conv_sum_regroup`, and `conv_sum_regroup_of_taps` for summands given position by position).
    § 5  a contraction against a matrix that vanishes outside the middle block ky = 1 is the contraction over
         that block (`sum_tap3_center`, `sum_mul_center_block`, `sum_mul_center_ite`): how a 1×1 convolution
         rides along a contraction of length 3·C.

  The lengths are taken as a number K with a proof of K = 9 * C (or K = 3 * C), so that a sum over Fin 576,
  Fin (9 * 64) or Fin (3 * 3 * 64) is rewritten alike: supply the equation by `rfl` or 'by norm_num'.
-/
import Idealize.ShloMosaic.PureOps.Ideal
import Idealize.ShloMosaic.PureOps.Ideal.Laws
import Idealize.ShloMosaic.Lib.ValueIdx
import Mathlib.Logic.Equiv.Fin.Basic
import Mathlib.Algebra.BigOperators.Fin
import Mathlib.Data.Fintype.BigOperators

open scoped BigOperators

namespace Cert.ConvSums

/-! ## § 1  Flat positions -/

/-- The quotient of a flat position: (q·C + c) / C = q when c < C. -/
theorem flat_div {q c C : ℕ} (hc : c < C) : (q * C + c) / C = q := by
  have hC : 0 < C := Nat.lt_of_le_of_lt (Nat.zero_le _) hc
  rw [Nat.add_comm, Nat.add_mul_div_right _ _ hC, Nat.div_eq_of_lt hc, Nat.zero_add]

/-- The remainder of a flat position: (q·C + c) % C = c when c < C. -/
theorem flat_mod {q c C : ℕ} (hc : c < C) : (q * C + c) % C = c := by
  rw [Nat.add_comm, Nat.add_mul_mod_self_right, Nat.mod_eq_of_lt hc]

/-- The same quotient with the product written C·q. -/
theorem flat_div' {q c C : ℕ} (hc : c < C) : (C * q + c) / C = q := by
  rw [Nat.mul_comm]; exact flat_div hc

/-- The same remainder with the product written C·q. -/
theorem flat_mod' {q c C : ℕ} (hc : c < C) : (C * q + c) % C = c := by
  rw [Nat.mul_comm]; exact flat_mod hc

/-- A flat position is within the flattened length: q < n and c < C give q·C + c < n·C. -/
theorem flat_lt {q c C n : ℕ} (hq : q < n) (hc : c < C) : q * C + c < n * C :=
  calc q * C + c < q * C + C := Nat.add_lt_add_left hc _
    _ = (q + 1) * C := (Nat.succ_mul q C).symm
    _ ≤ n * C := Nat.mul_le_mul_right C hq

/-- Flat positions determine their two parts: q·C + c = q'·C + c' with c, c' < C forces q = q' and c = c'. -/
theorem flat_inj {q q' c c' C : ℕ} (hc : c < C) (hc' : c' < C) (h : q * C + c = q' * C + c') : q = q' ∧ c = c' := by
  have h1 := congrArg (· / C) h
  have h2 := congrArg (· % C) h
  simp only [flat_div hc, flat_div hc', flat_mod hc, flat_mod hc'] at h1 h2
  exact ⟨h1, h2⟩

/-- The quotient of a flat position whose remainder is a 'Fin C': no side condition left. -/
@[simp] theorem flat_div_fin {C : ℕ} (q : ℕ) (c : Fin C) : (q * C + c.val) / C = q := flat_div c.isLt

/-- The remainder of a flat position whose remainder is a 'Fin C'. -/
@[simp] theorem flat_mod_fin {C : ℕ} (q : ℕ) (c : Fin C) : (q * C + c.val) % C = c.val := flat_mod c.isLt

/-- Every position below n·C is a flat position: k = (k / C)·C + k % C with k / C < n and k % C < C. -/
theorem flat_decomp {k C n : ℕ} (hk : k < n * C) : k / C < n ∧ k % C < C ∧ k = k / C * C + k % C := by
  have hC : 0 < C := by
    rcases Nat.eq_zero_or_pos C with h | h
    · subst h; simp at hk
    · exact h
  refine ⟨Nat.div_lt_of_lt_mul (by rwa [Nat.mul_comm] at hk), Nat.mod_lt _ hC, ?_⟩
  rw [Nat.mul_comm]; exact (Nat.div_add_mod k C).symm

/-- Being in the middle block: k / C = 1 exactly when C ≤ k < 2·C. -/
theorem div_eq_one_iff {k C : ℕ} (hC : 0 < C) : k / C = 1 ↔ C ≤ k ∧ k < 2 * C := by
  rw [Nat.div_eq_iff hC]
  constructor
  · rintro ⟨h1, h2⟩; exact ⟨by omega, by omega⟩
  · rintro ⟨h1, h2⟩; exact ⟨by omega, by omega⟩

/-- The flat row index h·Wp + w of position (h, w) in an H × Wp grid stored row by row (R = H·Wp rows in all). -/
def flatRow {H Wp R : ℕ} (hR : R = H * Wp) (h : Fin H) (w : Fin Wp) : Fin R :=
  ⟨h.val * Wp + w.val, by rw [hR]; exact flat_lt h.isLt w.isLt⟩

/-- Its value, by definition. -/
@[simp] theorem flatRow_val {H Wp R : ℕ} (hR : R = H * Wp) (h : Fin H) (w : Fin Wp) :
    (flatRow hR h w).val = h.val * Wp + w.val := rfl

/-- The grid row of a flat row index: (h·Wp + w) / Wp = h. -/
theorem flatRow_div {H Wp R : ℕ} (hR : R = H * Wp) (h : Fin H) (w : Fin Wp) :
    (flatRow hR h w).val / Wp = h.val := flat_div w.isLt

/-- The grid column of a flat row index: (h·Wp + w) % Wp = w. -/
theorem flatRow_mod {H Wp R : ℕ} (hR : R = H * Wp) (h : Fin H) (w : Fin Wp) :
    (flatRow hR h w).val % Wp = w.val := flat_mod w.isLt

/-- Every flat row index is the index of one grid position. -/
theorem exists_flatRow {H Wp R : ℕ} (hR : R = H * Wp) (r : Fin R) : ∃ h w, r = flatRow hR h w := by
  obtain ⟨h1, h2, h3⟩ := flat_decomp (k := r.val) (C := Wp) (n := H) (by rw [← hR]; exact r.isLt)
  exact ⟨⟨_, h1⟩, ⟨_, h2⟩, Fin.ext h3⟩

/-! ## § 2  Tap positions -/

/-- The position (ky·3 + kx)·C + c of the tap (ky, kx, c) on an axis of length K = 9·C. -/
def tap9 {C K : ℕ} (hK : K = 9 * C) (ky kx : Fin 3) (c : Fin C) : Fin K :=
  ⟨(ky.val * 3 + kx.val) * C + c.val, by
    rw [hK]; exact flat_lt (by have := ky.isLt; have := kx.isLt; omega) c.isLt⟩

/-- The position ky·C + c of the pair (ky, c) on an axis of length K = 3·C. -/
def tap3 {C K : ℕ} (hK : K = 3 * C) (ky : Fin 3) (c : Fin C) : Fin K :=
  ⟨ky.val * C + c.val, by rw [hK]; exact flat_lt ky.isLt c.isLt⟩

/-- The value of a tap position, by definition. -/
@[simp] theorem tap9_val {C K : ℕ} (hK : K = 9 * C) (ky kx : Fin 3) (c : Fin C) :
    (tap9 hK ky kx c).val = (ky.val * 3 + kx.val) * C + c.val := rfl

/-- The value of a pair position, by definition. -/
@[simp] theorem tap3_val {C K : ℕ} (hK : K = 3 * C) (ky : Fin 3) (c : Fin C) :
    (tap3 hK ky c).val = ky.val * C + c.val := rfl

/-- The middle block starts at C: the pair (1, c) sits at C + c. -/
theorem tap3_one_val {C K : ℕ} (hK : K = 3 * C) (c : Fin C) : (tap3 hK 1 c).val = C + c.val := by
  simp [tap3_val]

/-- k = (ky·3 + kx)·C + c ⇒ k / C = ky·3 + kx. -/
theorem tap9_div {C K : ℕ} (hK : K = 9 * C) (ky kx : Fin 3) (c : Fin C) :
    (tap9 hK ky kx c).val / C = ky.val * 3 + kx.val := flat_div c.isLt

/-- k = (ky·3 + kx)·C + c ⇒ k % C = c. -/
theorem tap9_mod {C K : ℕ} (hK : K = 9 * C) (ky kx : Fin 3) (c : Fin C) :
    (tap9 hK ky kx c).val % C = c.val := flat_mod c.isLt

/-- k = (ky·3 + kx)·C + c ⇒ (k / C) / 3 = ky. -/
theorem tap9_div_div {C K : ℕ} (hK : K = 9 * C) (ky kx : Fin 3) (c : Fin C) :
    (tap9 hK ky kx c).val / C / 3 = ky.val := by rw [tap9_div, flat_div kx.isLt]

/-- k = (ky·3 + kx)·C + c ⇒ (k / C) % 3 = kx. -/
theorem tap9_div_mod {C K : ℕ} (hK : K = 9 * C) (ky kx : Fin 3) (c : Fin C) :
    (tap9 hK ky kx c).val / C % 3 = kx.val := by rw [tap9_div, flat_mod kx.isLt]

/-- k = (ky·3 + kx)·C + c ⇒ k / (3·C) = ky. -/
theorem tap9_div_three_mul {C K : ℕ} (hK : K = 9 * C) (ky kx : Fin 3) (c : Fin C) :
    (tap9 hK ky kx c).val / (3 * C) = ky.val := by
  rw [Nat.mul_comm 3 C, ← Nat.div_div_eq_div_mul]; exact tap9_div_div hK ky kx c

/-- k' = ky·C + c ⇒ k' / C = ky. -/
theorem tap3_div {C K : ℕ} (hK : K = 3 * C) (ky : Fin 3) (c : Fin C) :
    (tap3 hK ky c).val / C = ky.val := flat_div c.isLt

/-- k' = ky·C + c ⇒ k' % C = c. -/
theorem tap3_mod {C K : ℕ} (hK : K = 3 * C) (ky : Fin 3) (c : Fin C) :
    (tap3 hK ky c).val % C = c.val := flat_mod c.isLt

/-- A nonempty axis of length 9·C has C > 0. -/
theorem pos_of_fin9 {C K : ℕ} (hK : K = 9 * C) (k : Fin K) : 0 < C := by have := k.isLt; omega

/-- A nonempty axis of length 3·C has C > 0. -/
theorem pos_of_fin3 {C K : ℕ} (hK : K = 3 * C) (k : Fin K) : 0 < C := by have := k.isLt; omega

/-- The row offset of a position on the axis of length 9·C: ky = k / (3·C). -/
def tap9ky {C K : ℕ} (hK : K = 9 * C) (k : Fin K) : Fin 3 :=
  ⟨k.val / (3 * C), Nat.div_lt_of_lt_mul (by have := k.isLt; omega)⟩

/-- The column offset of a position on the axis of length 9·C: kx = (k / C) % 3. -/
def tap9kx {C K : ℕ} (_hK : K = 9 * C) (k : Fin K) : Fin 3 := ⟨k.val / C % 3, Nat.mod_lt _ (by decide)⟩

/-- The channel of a position on the axis of length 9·C: c = k % C. -/
def tap9c {C K : ℕ} (hK : K = 9 * C) (k : Fin K) : Fin C := ⟨k.val % C, Nat.mod_lt _ (pos_of_fin9 hK k)⟩

/-- The row offset of a position on the axis of length 3·C: ky = k' / C. -/
def tap3ky {C K : ℕ} (hK : K = 3 * C) (k : Fin K) : Fin 3 :=
  ⟨k.val / C, Nat.div_lt_of_lt_mul (by have := k.isLt; omega)⟩

/-- The channel of a position on the axis of length 3·C: c = k' % C. -/
def tap3c {C K : ℕ} (hK : K = 3 * C) (k : Fin K) : Fin C := ⟨k.val % C, Nat.mod_lt _ (pos_of_fin3 hK k)⟩

/-- Decoding the position of the tap (ky, kx, c) gives ky back. -/
@[simp] theorem tap9ky_tap9 {C K : ℕ} (hK : K = 9 * C) (ky kx : Fin 3) (c : Fin C) :
    tap9ky hK (tap9 hK ky kx c) = ky := Fin.ext (tap9_div_three_mul hK ky kx c)

/-- Decoding the position of the tap (ky, kx, c) gives kx back. -/
@[simp] theorem tap9kx_tap9 {C K : ℕ} (hK : K = 9 * C) (ky kx : Fin 3) (c : Fin C) :
    tap9kx hK (tap9 hK ky kx c) = kx := Fin.ext (tap9_div_mod hK ky kx c)

/-- Decoding the position of the tap (ky, kx, c) gives c back. -/
@[simp] theorem tap9c_tap9 {C K : ℕ} (hK : K = 9 * C) (ky kx : Fin 3) (c : Fin C) :
    tap9c hK (tap9 hK ky kx c) = c := Fin.ext (tap9_mod hK ky kx c)

/-- Decoding the position of the pair (ky, c) gives ky back. -/
@[simp] theorem tap3ky_tap3 {C K : ℕ} (hK : K = 3 * C) (ky : Fin 3) (c : Fin C) :
    tap3ky hK (tap3 hK ky c) = ky := Fin.ext (tap3_div hK ky c)

/-- Decoding the position of the pair (ky, c) gives c back. -/
@[simp] theorem tap3c_tap3 {C K : ℕ} (hK : K = 3 * C) (ky : Fin 3) (c : Fin C) :
    tap3c hK (tap3 hK ky c) = c := Fin.ext (tap3_mod hK ky c)

/-! ## § 3  The bijections and the re-indexed sums -/

/-- (ky, c) ↦ ky·C + c is a bijection from Fin 3 × Fin C onto the axis of length 3·C: quotient and remainder by C. -/
def tap3Equiv {C K : ℕ} (hK : K = 3 * C) : Fin 3 × Fin C ≃ Fin K :=
  (finProdFinEquiv (m := 3) (n := C)).trans (finCongr hK.symm)

/-- The bijection's value is the pair position. -/
theorem tap3Equiv_apply {C K : ℕ} (hK : K = 3 * C) (ky : Fin 3) (c : Fin C) :
    tap3Equiv hK (ky, c) = tap3 hK ky c := by
  apply Fin.ext
  simp only [tap3Equiv, Equiv.trans_apply, finProdFinEquiv_apply_val, finCongr_apply_coe, tap3_val]
  rw [Nat.mul_comm, Nat.add_comm]

/-- (ky, kx, c) ↦ (ky·3 + kx)·C + c is a bijection from Fin 3 × Fin 3 × Fin C onto the axis of length 9·C: first
    (ky, kx) ↦ ky·3 + kx onto Fin 9, then (q, c) ↦ q·C + c. -/
def tap9Equiv {C K : ℕ} (hK : K = 9 * C) : Fin 3 × Fin 3 × Fin C ≃ Fin K :=
  (Equiv.prodAssoc (Fin 3) (Fin 3) (Fin C)).symm.trans
    (((finProdFinEquiv (m := 3) (n := 3)).prodCongr (Equiv.refl (Fin C))).trans
      ((finProdFinEquiv (m := 3 * 3) (n := C)).trans (finCongr (show 3 * 3 * C = K from hK.symm))))

/-- The bijection's value is the tap position. -/
theorem tap9Equiv_apply {C K : ℕ} (hK : K = 9 * C) (ky kx : Fin 3) (c : Fin C) :
    tap9Equiv hK (ky, kx, c) = tap9 hK ky kx c := by
  apply Fin.ext
  simp only [tap9Equiv, Equiv.trans_apply, Equiv.prodAssoc_symm_apply, Equiv.prodCongr_apply, Prod.map_apply,
    Equiv.refl_apply, finProdFinEquiv_apply_val, finCongr_apply_coe, tap9_val]
  rw [Nat.mul_comm C, Nat.mul_comm 3, Nat.add_comm kx.val, Nat.add_comm c.val]

/-- A sum along the axis of length 3·C is the double sum over row offsets and channels, the summand read at the
    pair positions ky·C + c. -/
theorem sum_tap3 {M : Type*} [AddCommMonoid M] {C K : ℕ} (hK : K = 3 * C) (g : Fin K → M) :
    ∑ k, g k = ∑ ky : Fin 3, ∑ c : Fin C, g (tap3 hK ky c) := by
  rw [← Equiv.sum_comp (tap3Equiv hK) g, Fintype.sum_prod_type]
  simp only [tap3Equiv_apply]

/-- A sum along the axis of length 9·C is the triple sum over row offsets, column offsets and channels, the summand
    read at the tap positions (ky·3 + kx)·C + c. -/
theorem sum_tap9 {M : Type*} [AddCommMonoid M] {C K : ℕ} (hK : K = 9 * C) (g : Fin K → M) :
    ∑ k, g k = ∑ ky : Fin 3, ∑ kx : Fin 3, ∑ c : Fin C, g (tap9 hK ky kx c) := by
  rw [← Equiv.sum_comp (tap9Equiv hK) g, Fintype.sum_prod_type]
  refine Finset.sum_congr rfl fun ky _ => ?_
  rw [Fintype.sum_prod_type]
  simp only [tap9Equiv_apply]

/-! ## § 4  The two arrangements and their join -/

/-- THE PATCH-MATRIX ARRANGEMENT. One sum over k < 9·C of a summand that depends on k through its decoding
    ky = k / (3·C), kx = (k / C) % 3, c = k % C is the triple sum over the taps. -/
theorem sum_im2col {M : Type*} [AddCommMonoid M] {C K : ℕ} (hK : K = 9 * C) (f : Fin 3 → Fin 3 → Fin C → M) :
    ∑ k : Fin K, f (tap9ky hK k) (tap9kx hK k) (tap9c hK k) = ∑ ky : Fin 3, ∑ kx : Fin 3, ∑ c : Fin C, f ky kx c := by
  rw [sum_tap9 hK]
  simp only [tap9ky_tap9, tap9kx_tap9, tap9c_tap9]

/-- One column offset's contraction: the sum over k' < 3·C of a summand that depends on k' through ky = k' / C and
    c = k' % C is the double sum over row offsets and channels. -/
theorem sum_one_tap {M : Type*} [AddCommMonoid M] {C K : ℕ} (hK : K = 3 * C) (f : Fin 3 → Fin C → M) :
    ∑ k : Fin K, f (tap3ky hK k) (tap3c hK k) = ∑ ky : Fin 3, ∑ c : Fin C, f ky c := by
  rw [sum_tap3 hK]
  simp only [tap3ky_tap3, tap3c_tap3]

/-- Three double sums added left to right are the triple sum with the column offset in the MIDDLE: the sums over
    ky and kx are exchanged, and a sum over Fin 3 is its three terms. -/
theorem sum_three_cols {M : Type*} [AddCommMonoid M] {C : ℕ} (f : Fin 3 → Fin 3 → Fin C → M) :
    (∑ ky : Fin 3, ∑ c : Fin C, f ky 0 c) + (∑ ky : Fin 3, ∑ c : Fin C, f ky 1 c) + (∑ ky : Fin 3, ∑ c : Fin C, f ky 2 c)
      = ∑ ky : Fin 3, ∑ kx : Fin 3, ∑ c : Fin C, f ky kx c := by
  exact ((Finset.sum_comm).trans (Fin.sum_univ_three (fun kx => ∑ ky : Fin 3, ∑ c : Fin C, f ky kx c))).symm

/-- THE THREE-PRODUCT ARRANGEMENT. The contractions S kx = ∑ k' < 3·C of the summand at (k' / C, kx, k' % C), added
    as (S 0 + S 1) + S 2, are the triple sum over the taps. -/
theorem sum_three_taps {M : Type*} [AddCommMonoid M] {C K : ℕ} (hK : K = 3 * C) (f : Fin 3 → Fin 3 → Fin C → M) :
    (∑ k : Fin K, f (tap3ky hK k) 0 (tap3c hK k)) + (∑ k : Fin K, f (tap3ky hK k) 1 (tap3c hK k))
        + (∑ k : Fin K, f (tap3ky hK k) 2 (tap3c hK k))
      = ∑ ky : Fin 3, ∑ kx : Fin 3, ∑ c : Fin C, f ky kx c := by
  rw [sum_one_tap hK (fun ky c => f ky 0 c), sum_one_tap hK (fun ky c => f ky 1 c),
    sum_one_tap hK (fun ky c => f ky 2 c)]
  exact sum_three_cols f

/-- THE JOIN. The patch-matrix arrangement equals the three-product arrangement: one contraction of length 9·C
    over the decoded taps is the three contractions of length 3·C, one per column offset, added left to right. Both
    are the same 9·C summands; only the order and grouping of the additions differ, so this holds in every commutative
    additive monoid, the extended reals included, with no finiteness assumption. -/
theorem conv_sum_regroup {M : Type*} [AddCommMonoid M] {C K9 K3 : ℕ} (h9 : K9 = 9 * C) (h3 : K3 = 3 * C)
    (f : Fin 3 → Fin 3 → Fin C → M) :
    ∑ k : Fin K9, f (tap9ky h9 k) (tap9kx h9 k) (tap9c h9 k)
      = (∑ k : Fin K3, f (tap3ky h3 k) 0 (tap3c h3 k)) + (∑ k : Fin K3, f (tap3ky h3 k) 1 (tap3c h3 k))
          + (∑ k : Fin K3, f (tap3ky h3 k) 2 (tap3c h3 k)) := by
  rw [sum_im2col h9 f, sum_three_taps h3 f]

/-- THE JOIN, position by position. The summands need not be given through decoders: if g on the axis of length
    9·C and s kx on the axis of length 3·C agree tap by tap — g at (ky·3 + kx)·C + c is s kx at ky·C + c — then the
    one long sum is the three short ones added left to right. (What each side is at a tap position is then a matter of
    reading it at an index whose value is known: `tap9_val`, `tap3_val`.) -/
theorem conv_sum_regroup_of_taps {M : Type*} [AddCommMonoid M] {C K9 K3 : ℕ} (h9 : K9 = 9 * C) (h3 : K3 = 3 * C)
    (g : Fin K9 → M) (s : Fin 3 → Fin K3 → M)
    (hgs : ∀ ky kx c, g (tap9 h9 ky kx c) = s kx (tap3 h3 ky c)) :
    ∑ k, g k = (∑ k, s 0 k) + (∑ k, s 1 k) + (∑ k, s 2 k) := by
  rw [sum_tap9 h9, sum_tap3 h3, sum_tap3 h3, sum_tap3 h3]
  simp only [hgs]
  exact (sum_three_cols (fun ky kx c => s kx (tap3 h3 ky c))).symm

/-- The same with the triple sum in the middle, for a proof that brings each side to it separately: the long sum
    is the triple sum of a summand F given tap by tap. -/
theorem sum_tap9_of_taps {M : Type*} [AddCommMonoid M] {C K : ℕ} (hK : K = 9 * C) (g : Fin K → M)
    (F : Fin 3 → Fin 3 → Fin C → M) (hg : ∀ ky kx c, g (tap9 hK ky kx c) = F ky kx c) :
    ∑ k, g k = ∑ ky : Fin 3, ∑ kx : Fin 3, ∑ c : Fin C, F ky kx c := by
  rw [sum_tap9 hK]; simp only [hg]

/-- And the three short sums are the triple sum of a summand F given pair by pair. -/
theorem sum_three_of_taps {M : Type*} [AddCommMonoid M] {C K : ℕ} (hK : K = 3 * C) (s : Fin 3 → Fin K → M)
    (F : Fin 3 → Fin 3 → Fin C → M) (hs : ∀ ky kx c, s kx (tap3 hK ky c) = F ky kx c) :
    (∑ k, s 0 k) + (∑ k, s 1 k) + (∑ k, s 2 k) = ∑ ky : Fin 3, ∑ kx : Fin 3, ∑ c : Fin C, F ky kx c := by
  rw [sum_tap3 hK, sum_tap3 hK, sum_tap3 hK]
  simp only [hs]
  exact sum_three_cols F

/-! ## § 5  The middle block -/

/-- A sum along the axis of length 3·C whose summand vanishes outside the middle block (ky ≠ 1) is the sum over
    the middle block: the two outer blocks add zeros. -/
theorem sum_tap3_center {M : Type*} [AddCommMonoid M] {C K : ℕ} (hK : K = 3 * C) (F : Fin K → M)
    (hF : ∀ ky c, ky ≠ 1 → F (tap3 hK ky c) = 0) :
    ∑ k, F k = ∑ c : Fin C, F (tap3 hK 1 c) := by
  rw [sum_tap3 hK, Fin.sum_univ_three,
    Finset.sum_eq_zero (fun c _ => hF 0 c (by decide)), Finset.sum_eq_zero (fun c _ => hF 2 c (by decide)),
    zero_add, add_zero]

/-- A contraction of length 3·C against a factor W that is zero outside the middle block and w there is the
    contraction of length C of the middle block against w: in the extended reals x·0 = 0 for every x, ±∞ included,
    so the outer blocks contribute nothing whatever the other factor is. -/
theorem sum_mul_center_block {C K : ℕ} (hK : K = 3 * C) (a W : Fin K → EReal) (w : Fin C → EReal)
    (hW0 : ∀ ky c, ky ≠ 1 → W (tap3 hK ky c) = 0) (hW1 : ∀ c, W (tap3 hK 1 c) = w c) :
    ∑ k, a k * W k = ∑ c : Fin C, a (tap3 hK 1 c) * w c := by
  rw [sum_tap3_center hK (fun k => a k * W k) (fun ky c h => by rw [hW0 ky c h, mul_zero])]
  exact Finset.sum_congr rfl fun c _ => by rw [hW1 c]

/-- The same with the zero-padded factor written with its condition: ∑ k' < 3·C of a k' · (w (k' % C) if k' / C = 1,
    else 0) is ∑ c < C of a (C + c) · w c. -/
theorem sum_mul_center_ite {C K : ℕ} (hK : K = 3 * C) (a : Fin K → EReal) (w : Fin C → EReal) :
    ∑ k : Fin K, a k * (if k.val / C = 1 then w (tap3c hK k) else 0) = ∑ c : Fin C, a (tap3 hK 1 c) * w c := by
  refine sum_mul_center_block hK a _ w (fun ky c h => ?_) (fun c => ?_)
  · rw [if_neg]
    rw [tap3_div]
    intro h1; exact h (Fin.ext h1)
  · have h1 : (tap3 hK 1 c).val / C = 1 := tap3_div hK 1 c
    rw [if_pos h1, tap3c_tap3]

/-- The same with the middle block described by its bounds, C ≤ k' < 2·C, and the factor read at k' − C. -/
theorem sum_mul_center_range {C K : ℕ} (hK : K = 3 * C) (a : Fin K → EReal) (w : ℕ → EReal) :
    ∑ k : Fin K, a k * (if C ≤ k.val ∧ k.val < 2 * C then w (k.val - C) else 0)
      = ∑ c : Fin C, a (tap3 hK 1 c) * w c.val := by
  refine sum_mul_center_block hK a _ (fun c => w c.val) (fun ky c h => ?_) (fun c => ?_)
  · rw [if_neg]
    intro hh
    have hC : 0 < C := Nat.lt_of_le_of_lt (Nat.zero_le _) c.isLt
    exact h (Fin.ext (by rw [← tap3_div hK ky c]; exact (div_eq_one_iff hC).2 hh))
  · have h1 : (tap3 hK 1 c).val = C + c.val := tap3_one_val hK c
    rw [if_pos ⟨by omega, by have := c.isLt; omega⟩, h1, Nat.add_sub_cancel_left]

end Cert.ConvSums
-- ==== Proof.KPayloads.lean ====
/-
  THE KERNEL'S STORED VALUES READ AT AN INDEX, at the ideal values (every float an extended real).

  The kernel's body computes, per pair of images, a few large vectors from what it loads. Each is read here at ONE
  index, given by explicit coordinates, as plain extended-real arithmetic of the loaded vectors at explicit indices:
  a layout operation (a reshape, a slice, a concatenation, a broadcast) reads its operand at one index, a change of
  float format is the identity, a maximum is the maximum, and a matrix product is its accumulator plus the sum of
  the operands' products over the contraction index. Every index is built from coordinates of literal ranges; where
  a coordinate is an arithmetic expression of others (a flat row (j·56 + h)·64 + wp, a shifted column 128 + o) it is
  a variable of its range with the equation as a hypothesis, so that a caller supplies whichever spelling it has.

  § 1  layout operations at coordinates, for the shapes met here;
  § 2  the patch matrix: the zero-haloed image buffer [116, 64, C] read as [7168, 3·C] — row (j·56 + h)·64 + wp,
       column ky·C + c is the buffer at (j·58 + h + ky, wp, c): the three row taps of a 3×3 convolution side by side;
  § 3  the final value: max(acc + (sc·s + b), 0) reshaped to [2, 56, 56, 128];
  § 4  the three matrix products at an index, as sums over Fin 192 and Fin 384;
  § 5  the first convolution: the three column taps are windows of two products shifted by 0, 1, 2 pixels, added
       left to right, then scale, bias, maximum with zero; the shortcut's product is a fourth window;
  § 6  the small pieces: a weight block loaded as it is, the two images' halves, the scale and bias rows;
  § 7  the second convolution, the same over the buffer of the first one's result (128 channels, Fin 384);
  § 8  the halo pieces (zero) and the interiors of the input buffer.
-/
import proofs.«173333_g2000300637041083_pallasbulk_292_30_alg».proof.Proof.Gen.KernelIdeal.Skeleton
import proofs.«173333_g2000300637041083_pallasbulk_292_30_alg».proof.Proof.LibConvSums
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

open scoped BigOperators

namespace Cert.KernelIdeal.Payloads

open Idealize.ShloMosaic Idealize.ShloMosaic.ValueIdx Cert.ConvSums

/-! ## § 1  Layout operations at coordinates -/

section Layout
variable {α : Type}

/-- Three [R, C] arrays side by side along the columns, read at row q and column ky·C + c: the ky-th array at
    (q, c). Stated per position of the column: the first array. -/
theorem concat3_cols_0 {R C K : ℕ} (x0 x1 x2 : (⟨2, ![R, C]⟩ : Shape).Idx → α)
    (h : Shape.Concatenates [(⟨2, ![R, C]⟩ : Shape), ⟨2, ![R, C]⟩, ⟨2, ![R, C]⟩] ⟨2, ![R, K]⟩ 1)
    (q : Fin R) (k : Fin K) (c : Fin C) (hk : k.val = c.val) :
    concatenate ⟨2, ![R, K]⟩ 1 [⟨⟨2, ![R, C]⟩, x0⟩, ⟨⟨2, ![R, C]⟩, x1⟩, ⟨⟨2, ![R, C]⟩, x2⟩] h (ix2 q k) = x0 (ix2 q c) :=
  concatenate_apply_piece (t := ⟨2, ![R, K]⟩) 1 [⟨⟨2, ![R, C]⟩, x0⟩, ⟨⟨2, ![R, C]⟩, x1⟩, ⟨⟨2, ![R, C]⟩, x2⟩] h (ix2 q k) 0 (by simp) ⟨2, ![R, C]⟩ x0 rfl rfl 0 rfl (ix2 q c)
    (fun b hb => match b with | ⟨0, _⟩ => rfl | ⟨1, _⟩ => absurd rfl hb)
    (by show 0 + c.val = k.val; omega)

/-- The second array: columns C … 2·C − 1. -/
theorem concat3_cols_1 {R C K : ℕ} (x0 x1 x2 : (⟨2, ![R, C]⟩ : Shape).Idx → α)
    (h : Shape.Concatenates [(⟨2, ![R, C]⟩ : Shape), ⟨2, ![R, C]⟩, ⟨2, ![R, C]⟩] ⟨2, ![R, K]⟩ 1)
    (q : Fin R) (k : Fin K) (c : Fin C) (hk : k.val = C + c.val) :
    concatenate ⟨2, ![R, K]⟩ 1 [⟨⟨2, ![R, C]⟩, x0⟩, ⟨⟨2, ![R, C]⟩, x1⟩, ⟨⟨2, ![R, C]⟩, x2⟩] h (ix2 q k) = x1 (ix2 q c) :=
  concatenate_apply_piece (t := ⟨2, ![R, K]⟩) 1 [⟨⟨2, ![R, C]⟩, x0⟩, ⟨⟨2, ![R, C]⟩, x1⟩, ⟨⟨2, ![R, C]⟩, x2⟩] h (ix2 q k) 1 (by simp) ⟨2, ![R, C]⟩ x1 rfl rfl C (by simp) (ix2 q c)
    (fun b hb => match b with | ⟨0, _⟩ => rfl | ⟨1, _⟩ => absurd rfl hb)
    (by show C + c.val = k.val; omega)

/-- The third array: columns 2·C … 3·C − 1. -/
theorem concat3_cols_2 {R C K : ℕ} (x0 x1 x2 : (⟨2, ![R, C]⟩ : Shape).Idx → α)
    (h : Shape.Concatenates [(⟨2, ![R, C]⟩ : Shape), ⟨2, ![R, C]⟩, ⟨2, ![R, C]⟩] ⟨2, ![R, K]⟩ 1)
    (q : Fin R) (k : Fin K) (c : Fin C) (hk : k.val = 2 * C + c.val) :
    concatenate ⟨2, ![R, K]⟩ 1 [⟨⟨2, ![R, C]⟩, x0⟩, ⟨⟨2, ![R, C]⟩, x1⟩, ⟨⟨2, ![R, C]⟩, x2⟩] h (ix2 q k) = x2 (ix2 q c) :=
  concatenate_apply_piece (t := ⟨2, ![R, K]⟩) 1 [⟨⟨2, ![R, C]⟩, x0⟩, ⟨⟨2, ![R, C]⟩, x1⟩, ⟨⟨2, ![R, C]⟩, x2⟩] h (ix2 q k) 2 (by simp) ⟨2, ![R, C]⟩ x2 rfl rfl (2 * C) (by simp; omega) (ix2 q c)
    (fun b hb => match b with | ⟨0, _⟩ => rfl | ⟨1, _⟩ => absurd rfl hb)
    (by show 2 * C + c.val = k.val; omega)

/-- Two [R, K] arrays one above the other, read in the upper one. -/
theorem concat2_rows_0 {R R2 K : ℕ} (x0 x1 : (⟨2, ![R, K]⟩ : Shape).Idx → α)
    (h : Shape.Concatenates [(⟨2, ![R, K]⟩ : Shape), ⟨2, ![R, K]⟩] ⟨2, ![R2, K]⟩ 0)
    (r : Fin R2) (k : Fin K) (q : Fin R) (hr : r.val = q.val) :
    concatenate ⟨2, ![R2, K]⟩ 0 [⟨⟨2, ![R, K]⟩, x0⟩, ⟨⟨2, ![R, K]⟩, x1⟩] h (ix2 r k) = x0 (ix2 q k) :=
  concatenate_pair_apply_left 0 x0 x1 h (ix2 r k) rfl (ix2 q k)
    (fun b => match b with | ⟨0, _⟩ => hr.symm | ⟨1, _⟩ => rfl)

/-- Two [R, K] arrays one above the other, read in the lower one: row R + q is the lower array's row q. -/
theorem concat2_rows_1 {R R2 K : ℕ} (x0 x1 : (⟨2, ![R, K]⟩ : Shape).Idx → α)
    (h : Shape.Concatenates [(⟨2, ![R, K]⟩ : Shape), ⟨2, ![R, K]⟩] ⟨2, ![R2, K]⟩ 0)
    (r : Fin R2) (k : Fin K) (q : Fin R) (hr : r.val = R + q.val) :
    concatenate ⟨2, ![R2, K]⟩ 0 [⟨⟨2, ![R, K]⟩, x0⟩, ⟨⟨2, ![R, K]⟩, x1⟩] h (ix2 r k) = x1 (ix2 q k) :=
  concatenate_pair_apply_right 0 x0 x1 h (ix2 r k) rfl rfl (ix2 q k)
    (fun b hb => match b with | ⟨0, _⟩ => absurd rfl hb | ⟨1, _⟩ => rfl)
    (by show q.val + R = r.val; omega)

/-- An [n0, n1, n2] array viewed as [m, n2] with the first two axes flattened: row a·n1 + b is (a, b). -/
theorem shapeCast_abc_mc_apply {n0 n1 n2 m : ℕ} (x : (⟨3, ![n0, n1, n2]⟩ : Shape).Idx → α)
    (h : (⟨3, ![n0, n1, n2]⟩ : Shape).ShapeCasts ⟨2, ![m, n2]⟩) (r : Fin m) (c : Fin n2) (a : Fin n0) (b : Fin n1)
    (hr : r.val = a.val * n1 + b.val) :
    shapeCast ⟨2, ![m, n2]⟩ x h (ix2 r c) = x (ix3 a b c) :=
  shapeCast_apply x h _ _ (by
    rw [Shape.rowMajor_val_three, Shape.rowMajor_val_two]
    show (a.val * n1 + b.val) * n2 + c.val = r.val * n2 + c.val
    rw [hr])

/-- An [m, n2] array viewed as [n0, n1, n2] with the rows split: (a, b) is row a·n1 + b. -/
theorem shapeCast_mc_abc_apply {n0 n1 n2 m : ℕ} (x : (⟨2, ![m, n2]⟩ : Shape).Idx → α)
    (h : (⟨2, ![m, n2]⟩ : Shape).ShapeCasts ⟨3, ![n0, n1, n2]⟩) (a : Fin n0) (b : Fin n1) (c : Fin n2) (r : Fin m)
    (hr : r.val = a.val * n1 + b.val) :
    shapeCast ⟨3, ![n0, n1, n2]⟩ x h (ix3 a b c) = x (ix2 r c) :=
  shapeCast_apply x h _ _ (by
    rw [Shape.rowMajor_val_three, Shape.rowMajor_val_two]
    show r.val * n2 + c.val = (a.val * n1 + b.val) * n2 + c.val
    rw [hr])

/-- An [m, n1, n2] array viewed as [n0, n0', n1, n2] with the first axis split: (a, a') is a·n0' + a'. -/
theorem shapeCast_mbc_aabc_apply {n0 n0' n1 n2 m : ℕ} (x : (⟨3, ![m, n1, n2]⟩ : Shape).Idx → α)
    (h : (⟨3, ![m, n1, n2]⟩ : Shape).ShapeCasts ⟨4, ![n0, n0', n1, n2]⟩) (a : Fin n0) (a' : Fin n0') (b : Fin n1) (c : Fin n2)
    (p : Fin m) (hp : p.val = a.val * n0' + a'.val) :
    shapeCast ⟨4, ![n0, n0', n1, n2]⟩ x h (ix4 a a' b c) = x (ix3 p b c) :=
  shapeCast_apply x h _ _ (by
    rw [Shape.rowMajor_val_three, Shape.rowMajor_val_four]
    show (p.val * n1 + b.val) * n2 + c.val = ((a.val * n0' + a'.val) * n1 + b.val) * n2 + c.val
    rw [hp])

/-- A [1, 1, n] row broadcast over [a, b, n] reads the row at its last coordinate. -/
theorem broadcastTo_11c_abc_apply {a b n : ℕ} (x : (⟨3, ![1, 1, n]⟩ : Shape).Idx → α)
    (h : (⟨3, ![1, 1, n]⟩ : Shape).Broadcasts ⟨3, ![a, b, n]⟩) (i : Fin a) (j : Fin b) (o : Fin n) (hn : n ≠ 1) :
    broadcastTo ⟨3, ![a, b, n]⟩ x h (ix3 i j o) = x (ix3 (0 : Fin 1) (0 : Fin 1) o) :=
  broadcastTo_apply x h _ _ fun d => match d with
    | ⟨0, _⟩ => by show (0 : ℕ) = if (1 : ℕ) = 1 then 0 else i.val; rfl
    | ⟨1, _⟩ => by show (0 : ℕ) = if (1 : ℕ) = 1 then 0 else j.val; rfl
    | ⟨2, _⟩ => by show o.val = if n = 1 then 0 else o.val; rw [if_neg hn]

/-- A rank-3 slice with unit strides read at (a, b, c): the operand at the offsets further on each axis. -/
theorem slice3_apply {n0 n1 n2 m0 m1 m2 : ℕ} (off : Fin 3 → ℕ) (X : (⟨3, ![n0, n1, n2]⟩ : Shape).Idx → α)
    (h : (⟨3, ![n0, n1, n2]⟩ : Shape).Slices off ⟨3, ![m0, m1, m2]⟩) (a : Fin m0) (b : Fin m1) (c : Fin m2)
    (a' : Fin n0) (b' : Fin n1) (c' : Fin n2) (ha : a'.val = off 0 + a.val) (hb : b'.val = off 1 + b.val)
    (hc : c'.val = off 2 + c.val) :
    extractStridedSlice ⟨3, ![m0, m1, m2]⟩ off X h (ix3 a b c) = X (ix3 a' b' c') :=
  extractStridedSlice_apply off X h (ix3 a b c) (ix3 a' b' c') fun d => match d with
    | ⟨0, _⟩ => ha
    | ⟨1, _⟩ => hb
    | ⟨2, _⟩ => hc

/-- A window of a [7168, N] product viewed as [112, 64, N]: the [112, 56, 128] slice at offsets (0, dw, dn), read at
    (p, w, o), is the product at row p·64 + w + dw and column dn + o — pixel w + dw of image row p. -/
theorem window_apply {N : ℕ} (X : (⟨2, ![7168, N]⟩ : Shape).Idx → α)
    (hc : (⟨2, ![7168, N]⟩ : Shape).ShapeCasts ⟨3, ![112, 64, N]⟩) (dw dn : ℕ)
    (hs : (⟨3, ![112, 64, N]⟩ : Shape).Slices ![0, dw, dn] ⟨3, ![112, 56, 128]⟩)
    (p : Fin 112) (w : Fin 56) (o : Fin 128) (r : Fin 7168) (n : Fin N)
    (hr : r.val = p.val * 64 + w.val + dw) (hn : n.val = dn + o.val) :
    extractStridedSlice ⟨3, ![112, 56, 128]⟩ ![0, dw, dn] (shapeCast ⟨3, ![112, 64, N]⟩ X hc) hs (ix3 p w o) = X (ix2 r n) := by
  have hw : dw + w.val < 64 := by
    have := hs.2 1
    have h56 : w.val < 56 := w.isLt
    change dw + 56 ≤ 64 at this
    omega
  refine (slice3_apply _ _ hs p w o p ⟨dw + w.val, hw⟩ n (Nat.zero_add _).symm rfl hn).trans ?_
  exact shapeCast_mc_abc_apply X hc p ⟨dw + w.val, hw⟩ n r (by show r.val = p.val * 64 + (dw + w.val); omega)

/-- A [1, n] row viewed as [1, 1, n] and broadcast over [a, b, n] reads the row at its last coordinate. -/
theorem row_apply {a b n : ℕ} (x : (⟨2, ![1, n]⟩ : Shape).Idx → α) (h0 : (⟨2, ![1, n]⟩ : Shape).ShapeCasts ⟨2, ![1, n]⟩)
    (h1 : (⟨2, ![1, n]⟩ : Shape).ShapeCasts ⟨3, ![1, 1, n]⟩) (h2 : (⟨3, ![1, 1, n]⟩ : Shape).Broadcasts ⟨3, ![a, b, n]⟩)
    (i : Fin a) (j : Fin b) (o : Fin n) (hn : n ≠ 1) :
    broadcastTo ⟨3, ![a, b, n]⟩ (shapeCast ⟨3, ![1, 1, n]⟩ (shapeCast ⟨2, ![1, n]⟩ x h0) h1) h2 (ix3 i j o)
      = x (ix2 (0 : Fin 1) o) := by
  refine (broadcastTo_11c_abc_apply _ h2 i j o hn).trans ?_
  refine (shapeCast_ab_1ab_apply _ h1 (0 : Fin 1) (0 : Fin 1) o).trans ?_
  rw [shapeCast_self]

end Layout

/-! ## § 2  The patch matrix -/

section Patch
variable {α : Type}

/-- One image's patch rows. Three slices of a [3712, C] array, each 3584 rows long and starting at rows 0, 64 and
    128, side by side: at row q and column ky·C + c this is the array at row q + ky·64 and column c — the pixel one
    image row further down per tap, since an image row is 64 array rows. -/
theorem taps3_apply {C K : ℕ} (v : (⟨2, ![3712, C]⟩ : Shape).Idx → α)
    (h0 : (⟨2, ![3712, C]⟩ : Shape).Slices ![0, 0] ⟨2, ![3584, C]⟩)
    (h1 : (⟨2, ![3712, C]⟩ : Shape).Slices ![64, 0] ⟨2, ![3584, C]⟩)
    (h2 : (⟨2, ![3712, C]⟩ : Shape).Slices ![128, 0] ⟨2, ![3584, C]⟩)
    (hc : Shape.Concatenates [(⟨2, ![3584, C]⟩ : Shape), ⟨2, ![3584, C]⟩, ⟨2, ![3584, C]⟩] ⟨2, ![3584, K]⟩ 1)
    (q : Fin 3584) (k : Fin K) (ky : Fin 3) (c : Fin C) (hk : k.val = ky.val * C + c.val)
    (r : Fin 3712) (hr : r.val = q.val + ky.val * 64) :
    concatenate ⟨2, ![3584, K]⟩ 1
        [⟨⟨2, ![3584, C]⟩, extractStridedSlice ⟨2, ![3584, C]⟩ ![0, 0] v h0⟩,
         ⟨⟨2, ![3584, C]⟩, extractStridedSlice ⟨2, ![3584, C]⟩ ![64, 0] v h1⟩,
         ⟨⟨2, ![3584, C]⟩, extractStridedSlice ⟨2, ![3584, C]⟩ ![128, 0] v h2⟩] hc (ix2 q k)
      = v (ix2 r c) := by
  match ky, hk, hr with
  | ⟨0, _⟩, hk, hr =>
    dsimp only at hk hr
    exact (concat3_cols_0 _ _ _ hc q k c (by omega)).trans (slice2_axis0_apply 0 v h0 q c r (by omega))
  | ⟨1, _⟩, hk, hr =>
    dsimp only at hk hr
    exact (concat3_cols_1 _ _ _ hc q k c (by omega)).trans (slice2_axis0_apply 64 v h1 q c r (by omega))
  | ⟨2, _⟩, hk, hr =>
    dsimp only at hk hr
    exact (concat3_cols_2 _ _ _ hc q k c (by omega)).trans (slice2_axis0_apply 128 v h2 q c r (by omega))

end Patch

/-- THE FIRST CONVOLUTION'S PATCH MATRIX. The zero-haloed input buffer [116, 64, 64] (two images of 58 rows of 64
    pixels of 64 channels) read as the [7168, 192] matrix the products contract: row (j·56 + h)·64 + wp — image j,
    image row h, pixel wp — and column ky·64 + c is the buffer at (j·58 + h + ky, wp, c). -/
theorem k0_pay12_apply (v44 : Vec Ideal S116x64x64 .bf16) (R : Fin 7168) (K : Fin 192)
    (j : Fin 2) (h : Fin 56) (wp : Fin 64) (ky : Fin 3) (c : Fin 64) (a : Fin 116)
    (hR : R.val = (j.val * 56 + h.val) * 64 + wp.val) (hK : K.val = ky.val * 64 + c.val)
    (ha : a.val = j.val * 58 + h.val + ky.val) :
    Gen.k0_pay12 (F := Ideal) v44 (ix2 R K) = v44 (ix3 a wp c) := by
  have hh := h.isLt
  have hw := wp.isLt
  have hky := ky.isLt
  have hq : h.val * 64 + wp.val < 3584 := by omega
  have hr : h.val * 64 + wp.val + ky.val * 64 < 3712 := by omega
  unfold Gen.k0_pay12
  match j, hR, ha with
  | ⟨0, _⟩, hR, ha =>
    dsimp only at hR ha
    have hr' : h.val * 64 + wp.val + ky.val * 64 < 7424 := by omega
    refine (concat2_rows_0 _ _ _ R K ⟨_, hq⟩ (by show R.val = h.val * 64 + wp.val; omega)).trans ?_
    refine (taps3_apply _ _ _ _ _ ⟨_, hq⟩ K ky c hK ⟨_, hr⟩ rfl).trans ?_
    refine (slice2_axis0_apply 0 _ _ ⟨_, hr⟩ c ⟨_, hr'⟩ (Nat.zero_add _).symm).trans ?_
    exact shapeCast_abc_mc_apply v44 _ ⟨_, hr'⟩ c a wp (by show h.val * 64 + wp.val + ky.val * 64 = a.val * 64 + wp.val; omega)
  | ⟨1, _⟩, hR, ha =>
    dsimp only at hR ha
    have hr' : 3712 + (h.val * 64 + wp.val + ky.val * 64) < 7424 := by omega
    refine (concat2_rows_1 _ _ _ R K ⟨_, hq⟩ (by show R.val = 3584 + (h.val * 64 + wp.val); omega)).trans ?_
    refine (taps3_apply _ _ _ _ _ ⟨_, hq⟩ K ky c hK ⟨_, hr⟩ rfl).trans ?_
    refine (slice2_axis0_apply 3712 _ _ ⟨_, hr⟩ c ⟨_, hr'⟩ rfl).trans ?_
    exact shapeCast_abc_mc_apply v44 _ ⟨_, hr'⟩ c a wp (by show 3712 + (h.val * 64 + wp.val + ky.val * 64) = a.val * 64 + wp.val; omega)

/-! ## § 3  The final value -/

/-- THE BLOCK'S RESULT. With acc the second convolution after its scale and bias, sc the shortcut product, s and b
    the shortcut's scale and bias rows: at image j, row h, pixel w, channel o the stored value is
    max(acc + (sc · s + b), 0), the operands read at row p = j·56 + h of their [112, 56, 128] layout. -/
theorem k0_pay1_apply (v70 : FVec Ideal S112x56x128 .f32) (v158 v161 : FVec Ideal S1x1x128 .f32)
    (v165 : FVec Ideal S112x56x128 .f32) (j : Fin 2) (h w : Fin 56) (o : Fin 128) (p : Fin 112)
    (hp : p.val = j.val * 56 + h.val) :
    Gen.k0_pay1 v70 v158 v161 v165 (ix4 j h w o)
      = max (v165 (ix3 p w o) + (v70 (ix3 p w o) * v158 (ix3 (0 : Fin 1) (0 : Fin 1) o) + v161 (ix3 (0 : Fin 1) (0 : Fin 1) o))) 0 := by
  unfold Gen.k0_pay1
  refine (shapeCast_mbc_aabc_apply _ _ j h w o p hp).trans ?_
  have e1 := broadcastTo_11c_abc_apply v158 Gen.broadcasts_S1x1x128_S112x56x128 p w o (by decide)
  have e2 := broadcastTo_11c_abc_apply v161 Gen.broadcasts_S1x1x128_S112x56x128 p w o (by decide)
  show max (v165 (ix3 p w o) + (v70 (ix3 p w o) * broadcastTo S112x56x128 v158 Gen.broadcasts_S1x1x128_S112x56x128 (ix3 p w o)
      + broadcastTo S112x56x128 v161 Gen.broadcasts_S1x1x128_S112x56x128 (ix3 p w o))) (Ideal.ofBits .f32 0x00000000#32) = _
  rw [e1, e2, Ideal.ofBits_zero_f32]

/-! ## § 4  The matrix products at an index

A matrix product [M, K] × [K, N] read at row r and column n is its accumulator there plus the sum over the
contraction index k < K of the left operand at (r, k) times the right operand at (k, n). -/

/-- The first convolution's products [7168, 192] × [192, 256]: the left operand's row is the result's row. -/
theorem mm192x256_lhs0 (i : S7168x256.Idx) (q : dot_S7168x192_S192x256_S7168x256_1_0_0_1_n_n.contr.Idx) : (dot_S7168x192_S192x256_S7168x256_1_0_0_1_n_n.lhsIdx i q 0).val = (i 0).val := by
  unfold DotDims.lhsIdx
  rw [dif_neg (show ¬(0 : Fin S7168x192.rank) ∈ dot_S7168x192_S192x256_S7168x256_1_0_0_1_n_n.lhsBatch by decide),
    dif_pos (show (0 : Fin S7168x192.rank) ∈ dot_S7168x192_S192x256_S7168x256_1_0_0_1_n_n.lhsNonContracting by decide)]
  rfl
/-- The left operand's column is the contraction index. -/
theorem mm192x256_lhs1 (i : S7168x256.Idx) (q : dot_S7168x192_S192x256_S7168x256_1_0_0_1_n_n.contr.Idx) : (dot_S7168x192_S192x256_S7168x256_1_0_0_1_n_n.lhsIdx i q 1).val = (q ⟨0, by decide⟩).val :=
  dot_S7168x192_S192x256_S7168x256_1_0_0_1_n_n.lhsIdx_val_of_single rfl i q
/-- The right operand's row is the contraction index. -/
theorem mm192x256_rhs0 (i : S7168x256.Idx) (q : dot_S7168x192_S192x256_S7168x256_1_0_0_1_n_n.contr.Idx) : (dot_S7168x192_S192x256_S7168x256_1_0_0_1_n_n.rhsIdx i q 0).val = (q ⟨0, by decide⟩).val :=
  dot_S7168x192_S192x256_S7168x256_1_0_0_1_n_n.rhsIdx_val_of_single rfl i q
/-- The right operand's column is the result's column. -/
theorem mm192x256_rhs1 (i : S7168x256.Idx) (q : dot_S7168x192_S192x256_S7168x256_1_0_0_1_n_n.contr.Idx) : (dot_S7168x192_S192x256_S7168x256_1_0_0_1_n_n.rhsIdx i q 1).val = (i 1).val := by
  unfold DotDims.rhsIdx
  rw [dif_neg (show ¬(1 : Fin S192x256.rank) ∈ dot_S7168x192_S192x256_S7168x256_1_0_0_1_n_n.rhsBatch by decide),
    dif_pos (show (1 : Fin S192x256.rank) ∈ dot_S7168x192_S192x256_S7168x256_1_0_0_1_n_n.rhsNonContracting by decide)]
  rfl

/-- The first convolution's products [7168, 192] × [192, 256] at row r and column n: the accumulator there plus ∑ k < 192 of L (r, k) · R (k, n). -/
theorem mm192x256_apply (L : FVec Ideal S7168x192 .bf16) (Rr : FVec Ideal S192x256 .bf16) (acc : FVec Ideal S7168x256 .f32)
    (r : Fin 7168) (n : Fin 256) :
    matmul dot_S7168x192_S192x256_S7168x256_1_0_0_1_n_n none L Rr acc (ix2 r n) = acc (ix2 r n) + ∑ k : Fin 192, L (ix2 r k) * Rr (ix2 k n) := by
  refine (Ideal.matmul_apply dot_S7168x192_S192x256_S7168x256_1_0_0_1_n_n none L Rr acc (ix2 r n)).trans ?_
  refine congrArg (acc (ix2 r n) + ·) ?_
  rw [← Equiv.sum_comp (contrEquiv1 dot_S7168x192_S192x256_S7168x256_1_0_0_1_n_n 192 rfl rfl).symm]
  refine Finset.sum_congr rfl fun k _ => ?_
  have hk := contrEquiv1_symm_val dot_S7168x192_S192x256_S7168x256_1_0_0_1_n_n 192 rfl rfl k
  have el : dot_S7168x192_S192x256_S7168x256_1_0_0_1_n_n.lhsIdx (ix2 r n) ((contrEquiv1 dot_S7168x192_S192x256_S7168x256_1_0_0_1_n_n 192 rfl rfl).symm k) = ix2 r k :=
    funext fun a => Fin.ext (by
      match a with
      | ⟨0, _⟩ => exact mm192x256_lhs0 _ _
      | ⟨1, _⟩ => exact (mm192x256_lhs1 _ _).trans hk)
  have er : dot_S7168x192_S192x256_S7168x256_1_0_0_1_n_n.rhsIdx (ix2 r n) ((contrEquiv1 dot_S7168x192_S192x256_S7168x256_1_0_0_1_n_n 192 rfl rfl).symm k) = ix2 k n :=
    funext fun a => Fin.ext (by
      match a with
      | ⟨0, _⟩ => exact (mm192x256_rhs0 _ _).trans hk
      | ⟨1, _⟩ => exact mm192x256_rhs1 _ _)
  rw [el, er]

/-- The same into the zero accumulator: just the sum. -/
theorem mm192x256_zero_apply (L : FVec Ideal S7168x192 .bf16) (Rr : FVec Ideal S192x256 .bf16) (r : Fin 7168) (n : Fin 256) :
    matmul dot_S7168x192_S192x256_S7168x256_1_0_0_1_n_n none L Rr (constant (F := Ideal) S7168x256 .f32 0x00000000#32) (ix2 r n)
      = ∑ k : Fin 192, L (ix2 r k) * Rr (ix2 k n) := by
  refine (mm192x256_apply L Rr _ r n).trans ?_
  show Ideal.ofBits .f32 0x00000000#32 + _ = _
  rw [Ideal.ofBits_zero_f32, zero_add]

/-- The second convolution's product [7168, 384] × [384, 256]: the left operand's row is the result's row. -/
theorem mm384x256_lhs0 (i : S7168x256.Idx) (q : dot_S7168x384_S384x256_S7168x256_1_0_0_1_n_n.contr.Idx) : (dot_S7168x384_S384x256_S7168x256_1_0_0_1_n_n.lhsIdx i q 0).val = (i 0).val := by
  unfold DotDims.lhsIdx
  rw [dif_neg (show ¬(0 : Fin S7168x384.rank) ∈ dot_S7168x384_S384x256_S7168x256_1_0_0_1_n_n.lhsBatch by decide),
    dif_pos (show (0 : Fin S7168x384.rank) ∈ dot_S7168x384_S384x256_S7168x256_1_0_0_1_n_n.lhsNonContracting by decide)]
  rfl
/-- The left operand's column is the contraction index. -/
theorem mm384x256_lhs1 (i : S7168x256.Idx) (q : dot_S7168x384_S384x256_S7168x256_1_0_0_1_n_n.contr.Idx) : (dot_S7168x384_S384x256_S7168x256_1_0_0_1_n_n.lhsIdx i q 1).val = (q ⟨0, by decide⟩).val :=
  dot_S7168x384_S384x256_S7168x256_1_0_0_1_n_n.lhsIdx_val_of_single rfl i q
/-- The right operand's row is the contraction index. -/
theorem mm384x256_rhs0 (i : S7168x256.Idx) (q : dot_S7168x384_S384x256_S7168x256_1_0_0_1_n_n.contr.Idx) : (dot_S7168x384_S384x256_S7168x256_1_0_0_1_n_n.rhsIdx i q 0).val = (q ⟨0, by decide⟩).val :=
  dot_S7168x384_S384x256_S7168x256_1_0_0_1_n_n.rhsIdx_val_of_single rfl i q
/-- The right operand's column is the result's column. -/
theorem mm384x256_rhs1 (i : S7168x256.Idx) (q : dot_S7168x384_S384x256_S7168x256_1_0_0_1_n_n.contr.Idx) : (dot_S7168x384_S384x256_S7168x256_1_0_0_1_n_n.rhsIdx i q 1).val = (i 1).val := by
  unfold DotDims.rhsIdx
  rw [dif_neg (show ¬(1 : Fin S384x256.rank) ∈ dot_S7168x384_S384x256_S7168x256_1_0_0_1_n_n.rhsBatch by decide),
    dif_pos (show (1 : Fin S384x256.rank) ∈ dot_S7168x384_S384x256_S7168x256_1_0_0_1_n_n.rhsNonContracting by decide)]
  rfl

/-- The second convolution's product [7168, 384] × [384, 256] at row r and column n: the accumulator there plus ∑ k < 384 of L (r, k) · R (k, n). -/
theorem mm384x256_apply (L : FVec Ideal S7168x384 .bf16) (Rr : FVec Ideal S384x256 .bf16) (acc : FVec Ideal S7168x256 .f32)
    (r : Fin 7168) (n : Fin 256) :
    matmul dot_S7168x384_S384x256_S7168x256_1_0_0_1_n_n none L Rr acc (ix2 r n) = acc (ix2 r n) + ∑ k : Fin 384, L (ix2 r k) * Rr (ix2 k n) := by
  refine (Ideal.matmul_apply dot_S7168x384_S384x256_S7168x256_1_0_0_1_n_n none L Rr acc (ix2 r n)).trans ?_
  refine congrArg (acc (ix2 r n) + ·) ?_
  rw [← Equiv.sum_comp (contrEquiv1 dot_S7168x384_S384x256_S7168x256_1_0_0_1_n_n 384 rfl rfl).symm]
  refine Finset.sum_congr rfl fun k _ => ?_
  have hk := contrEquiv1_symm_val dot_S7168x384_S384x256_S7168x256_1_0_0_1_n_n 384 rfl rfl k
  have el : dot_S7168x384_S384x256_S7168x256_1_0_0_1_n_n.lhsIdx (ix2 r n) ((contrEquiv1 dot_S7168x384_S384x256_S7168x256_1_0_0_1_n_n 384 rfl rfl).symm k) = ix2 r k :=
    funext fun a => Fin.ext (by
      match a with
      | ⟨0, _⟩ => exact mm384x256_lhs0 _ _
      | ⟨1, _⟩ => exact (mm384x256_lhs1 _ _).trans hk)
  have er : dot_S7168x384_S384x256_S7168x256_1_0_0_1_n_n.rhsIdx (ix2 r n) ((contrEquiv1 dot_S7168x384_S384x256_S7168x256_1_0_0_1_n_n 384 rfl rfl).symm k) = ix2 k n :=
    funext fun a => Fin.ext (by
      match a with
      | ⟨0, _⟩ => exact (mm384x256_rhs0 _ _).trans hk
      | ⟨1, _⟩ => exact mm384x256_rhs1 _ _)
  rw [el, er]

/-- The same into the zero accumulator: just the sum. -/
theorem mm384x256_zero_apply (L : FVec Ideal S7168x384 .bf16) (Rr : FVec Ideal S384x256 .bf16) (r : Fin 7168) (n : Fin 256) :
    matmul dot_S7168x384_S384x256_S7168x256_1_0_0_1_n_n none L Rr (constant (F := Ideal) S7168x256 .f32 0x00000000#32) (ix2 r n)
      = ∑ k : Fin 384, L (ix2 r k) * Rr (ix2 k n) := by
  refine (mm384x256_apply L Rr _ r n).trans ?_
  show Ideal.ofBits .f32 0x00000000#32 + _ = _
  rw [Ideal.ofBits_zero_f32, zero_add]

/-- The second convolution's product [7168, 384] × [384, 128]: the left operand's row is the result's row. -/
theorem mm384x128_lhs0 (i : S7168x128.Idx) (q : dot_S7168x384_S384x128_S7168x128_1_0_0_1_n_n.contr.Idx) : (dot_S7168x384_S384x128_S7168x128_1_0_0_1_n_n.lhsIdx i q 0).val = (i 0).val := by
  unfold DotDims.lhsIdx
  rw [dif_neg (show ¬(0 : Fin S7168x384.rank) ∈ dot_S7168x384_S384x128_S7168x128_1_0_0_1_n_n.lhsBatch by decide),
    dif_pos (show (0 : Fin S7168x384.rank) ∈ dot_S7168x384_S384x128_S7168x128_1_0_0_1_n_n.lhsNonContracting by decide)]
  rfl
/-- The left operand's column is the contraction index. -/
theorem mm384x128_lhs1 (i : S7168x128.Idx) (q : dot_S7168x384_S384x128_S7168x128_1_0_0_1_n_n.contr.Idx) : (dot_S7168x384_S384x128_S7168x128_1_0_0_1_n_n.lhsIdx i q 1).val = (q ⟨0, by decide⟩).val :=
  dot_S7168x384_S384x128_S7168x128_1_0_0_1_n_n.lhsIdx_val_of_single rfl i q
/-- The right operand's row is the contraction index. -/
theorem mm384x128_rhs0 (i : S7168x128.Idx) (q : dot_S7168x384_S384x128_S7168x128_1_0_0_1_n_n.contr.Idx) : (dot_S7168x384_S384x128_S7168x128_1_0_0_1_n_n.rhsIdx i q 0).val = (q ⟨0, by decide⟩).val :=
  dot_S7168x384_S384x128_S7168x128_1_0_0_1_n_n.rhsIdx_val_of_single rfl i q
/-- The right operand's column is the result's column. -/
theorem mm384x128_rhs1 (i : S7168x128.Idx) (q : dot_S7168x384_S384x128_S7168x128_1_0_0_1_n_n.contr.Idx) : (dot_S7168x384_S384x128_S7168x128_1_0_0_1_n_n.rhsIdx i q 1).val = (i 1).val := by
  unfold DotDims.rhsIdx
  rw [dif_neg (show ¬(1 : Fin S384x128.rank) ∈ dot_S7168x384_S384x128_S7168x128_1_0_0_1_n_n.rhsBatch by decide),
    dif_pos (show (1 : Fin S384x128.rank) ∈ dot_S7168x384_S384x128_S7168x128_1_0_0_1_n_n.rhsNonContracting by decide)]
  rfl

/-- The second convolution's product [7168, 384] × [384, 128] at row r and column n: the accumulator there plus ∑ k < 384 of L (r, k) · R (k, n). -/
theorem mm384x128_apply (L : FVec Ideal S7168x384 .bf16) (Rr : FVec Ideal S384x128 .bf16) (acc : FVec Ideal S7168x128 .f32)
    (r : Fin 7168) (n : Fin 128) :
    matmul dot_S7168x384_S384x128_S7168x128_1_0_0_1_n_n none L Rr acc (ix2 r n) = acc (ix2 r n) + ∑ k : Fin 384, L (ix2 r k) * Rr (ix2 k n) := by
  refine (Ideal.matmul_apply dot_S7168x384_S384x128_S7168x128_1_0_0_1_n_n none L Rr acc (ix2 r n)).trans ?_
  refine congrArg (acc (ix2 r n) + ·) ?_
  rw [← Equiv.sum_comp (contrEquiv1 dot_S7168x384_S384x128_S7168x128_1_0_0_1_n_n 384 rfl rfl).symm]
  refine Finset.sum_congr rfl fun k _ => ?_
  have hk := contrEquiv1_symm_val dot_S7168x384_S384x128_S7168x128_1_0_0_1_n_n 384 rfl rfl k
  have el : dot_S7168x384_S384x128_S7168x128_1_0_0_1_n_n.lhsIdx (ix2 r n) ((contrEquiv1 dot_S7168x384_S384x128_S7168x128_1_0_0_1_n_n 384 rfl rfl).symm k) = ix2 r k :=
    funext fun a => Fin.ext (by
      match a with
      | ⟨0, _⟩ => exact mm384x128_lhs0 _ _
      | ⟨1, _⟩ => exact (mm384x128_lhs1 _ _).trans hk)
  have er : dot_S7168x384_S384x128_S7168x128_1_0_0_1_n_n.rhsIdx (ix2 r n) ((contrEquiv1 dot_S7168x384_S384x128_S7168x128_1_0_0_1_n_n 384 rfl rfl).symm k) = ix2 k n :=
    funext fun a => Fin.ext (by
      match a with
      | ⟨0, _⟩ => exact (mm384x128_rhs0 _ _).trans hk
      | ⟨1, _⟩ => exact mm384x128_rhs1 _ _)
  rw [el, er]

/-- The same into the zero accumulator: just the sum. -/
theorem mm384x128_zero_apply (L : FVec Ideal S7168x384 .bf16) (Rr : FVec Ideal S384x128 .bf16) (r : Fin 7168) (n : Fin 128) :
    matmul dot_S7168x384_S384x128_S7168x128_1_0_0_1_n_n none L Rr (constant (F := Ideal) S7168x128 .f32 0x00000000#32) (ix2 r n)
      = ∑ k : Fin 384, L (ix2 r k) * Rr (ix2 k n) := by
  refine (mm384x128_apply L Rr _ r n).trans ?_
  show Ideal.ofBits .f32 0x00000000#32 + _ = _
  rw [Ideal.ofBits_zero_f32, zero_add]

/-! ## § 5  The first convolution -/

/-- THE SECOND HALF OF THE FIRST CONVOLUTION'S PRODUCT, viewed [112, 64, 256]: at image row p, pixel w, column n it
    is ∑ k < 192 of the patch matrix at (p·64 + w, k) times the weights at (k, n). -/
theorem k0_pay14_apply (v56 : FVec Ideal S7168x192 .bf16) (v64 : Vec Ideal S192x256 .bf16) (p : Fin 112) (w : Fin 64)
    (n : Fin 256) (r : Fin 7168) (hr : r.val = p.val * 64 + w.val) :
    Gen.k0_pay14 v56 v64 (ix3 p w n) = ∑ k : Fin 192, v56 (ix2 r k) * v64 (ix2 k n) := by
  unfold Gen.k0_pay14
  refine (shapeCast_mc_abc_apply _ _ p w n r hr).trans ?_
  refine (mm192x256_zero_apply _ _ r n).trans ?_
  rw [shapeCast_self]

/-- THE SHORTCUT'S PRODUCT: columns 128 … 255 of that product at pixel w + 1 — at (p, w, o) it is ∑ k < 192 of the
    patch matrix at (p·64 + w + 1, k) times the weights at (k, 128 + o). -/
theorem k0_pay15_apply (v56 : FVec Ideal S7168x192 .bf16) (v64 : Vec Ideal S192x256 .bf16) (p : Fin 112) (w : Fin 56)
    (o : Fin 128) (r : Fin 7168) (n : Fin 256) (hr : r.val = p.val * 64 + w.val + 1) (hn : n.val = 128 + o.val) :
    Gen.k0_pay15 v56 v64 (ix3 p w o) = ∑ k : Fin 192, v56 (ix2 r k) * v64 (ix2 k n) := by
  have hw := w.isLt
  unfold Gen.k0_pay15
  refine (slice3_apply _ _ _ p w o p ⟨1 + w.val, by omega⟩ n (Nat.zero_add _).symm rfl hn).trans ?_
  exact k0_pay14_apply v56 v64 p ⟨1 + w.val, by omega⟩ n r (by show r.val = p.val * 64 + (1 + w.val); omega)

/-- THE FIRST CONVOLUTION AFTER ITS SCALE, BIAS AND RELU. At image row p, pixel w, channel o: with S kx the
    contraction ∑ k < 192 of the patch matrix at row p·64 + w + kx against the weight columns of column tap kx
    (o, 128 + o of the first weight half and o of the second), the value is max(((S 0 + S 1) + S 2) · s + b, 0);
    the first two contractions carry the accumulator they were started from. -/
theorem k0_pay16_apply (v56 : FVec Ideal S7168x192 .bf16) (v58 : FVec Ideal S192x256 .bf16)
    (cst_42 : FVec Ideal S7168x256 .f32) (v64 : Vec Ideal S192x256 .bf16) (v71 v74 : Vec Ideal S1x128 .f32)
    (p : Fin 112) (w : Fin 56) (o : Fin 128) (r0 r1 r2 : Fin 7168) (n0 n1 : Fin 256)
    (h0 : r0.val = p.val * 64 + w.val) (h1 : r1.val = p.val * 64 + w.val + 1) (h2 : r2.val = p.val * 64 + w.val + 2)
    (hn0 : n0.val = o.val) (hn1 : n1.val = 128 + o.val) :
    Gen.k0_pay16 v56 v58 cst_42 v64 v71 v74 (ix3 p w o)
      = max ((((cst_42 (ix2 r0 n0) + ∑ k : Fin 192, v56 (ix2 r0 k) * v58 (ix2 k n0))
              + (cst_42 (ix2 r1 n1) + ∑ k : Fin 192, v56 (ix2 r1 k) * v58 (ix2 k n1)))
            + ∑ k : Fin 192, v56 (ix2 r2 k) * v64 (ix2 k n0)) * v71 (ix2 (0 : Fin 1) o) + v74 (ix2 (0 : Fin 1) o)) 0 := by
  have hw := w.isLt
  have eA := (window_apply (matmul dot_S7168x192_S192x256_S7168x256_1_0_0_1_n_n none v56 v58 cst_42)
    Gen.shapeCasts_S7168x256_S112x64x256 0 0 Gen.slices_S112x64x256_o0_0_0_S112x56x128 p w o r0 n0 h0
    (by omega)).trans (mm192x256_apply v56 v58 cst_42 r0 n0)
  have eB := (window_apply (matmul dot_S7168x192_S192x256_S7168x256_1_0_0_1_n_n none v56 v58 cst_42)
    Gen.shapeCasts_S7168x256_S112x64x256 1 128 Gen.slices_S112x64x256_o0_1_128_S112x56x128 p w o r1 n1 h1
    hn1).trans (mm192x256_apply v56 v58 cst_42 r1 n1)
  have eC : extractStridedSlice S112x56x128 ![0, 2, 0] (Gen.k0_pay14 v56 v64) Gen.slices_S112x64x256_o0_2_0_S112x56x128 (ix3 p w o)
      = ∑ k : Fin 192, v56 (ix2 r2 k) * v64 (ix2 k n0) :=
    (slice3_apply _ _ _ p w o p ⟨2 + w.val, by omega⟩ n0 (Nat.zero_add _).symm rfl (by show n0.val = 0 + o.val; omega)).trans
      (k0_pay14_apply v56 v64 p ⟨2 + w.val, by omega⟩ n0 r2 (by show r2.val = p.val * 64 + (2 + w.val); omega))
  have eS := row_apply v71 Gen.shapeCasts_S1x128_S1x128 Gen.shapeCasts_S1x128_S1x1x128 Gen.broadcasts_S1x1x128_S112x56x128
    p w o (by decide)
  have eB' := row_apply v74 Gen.shapeCasts_S1x128_S1x128 Gen.shapeCasts_S1x128_S1x1x128 Gen.broadcasts_S1x1x128_S112x56x128
    p w o (by decide)
  unfold Gen.k0_pay16
  show max (((_ + _) + _) * _ + _) (Ideal.ofBits .f32 0x00000000#32) = _
  rw [Ideal.ofBits_zero_f32]
  exact congrArg (max · 0) (congrArg₂ (· + ·) (congrArg₂ (· * ·) (congrArg₂ (· + ·) (congrArg₂ (· + ·) eA eB) eC) eS) eB')

/-! ## § 6  The small pieces -/

/-- The first weight half is loaded as it is. -/
theorem k0_pay13_eq (v57 : Vec Ideal S192x256 .bf16) : Gen.k0_pay13 v57 = v57 := by
  unfold Gen.k0_pay13
  exact shapeCast_self _ _

/-- The first image's half of the first convolution's result: rows 0 … 55. -/
theorem k0_pay21_apply (v83 : FVec Ideal S112x56x128 .bf16) (h w : Fin 56) (o : Fin 128) (p : Fin 112)
    (hp : p.val = h.val) : Gen.k0_pay21 v83 (ix3 h w o) = v83 (ix3 p w o) := by
  unfold Gen.k0_pay21
  rw [shapeCast_self]
  exact slice3_apply _ _ _ h w o p w o (by show p.val = 0 + h.val; omega) (Nat.zero_add _).symm (Nat.zero_add _).symm

/-- The second image's half: rows 56 … 111. -/
theorem k0_pay26_apply (v83 : FVec Ideal S112x56x128 .bf16) (h w : Fin 56) (o : Fin 128) (p : Fin 112)
    (hp : p.val = 56 + h.val) : Gen.k0_pay26 v83 (ix3 h w o) = v83 (ix3 p w o) := by
  unfold Gen.k0_pay26
  rw [shapeCast_self]
  exact slice3_apply _ _ _ h w o p w o hp (Nat.zero_add _).symm (Nat.zero_add _).symm

/-- The shortcut's scale row, viewed [1, 1, 128]. -/
theorem k0_pay27_apply (v156 : Vec Ideal S1x128 .f32) (u u' : Fin 1) (o : Fin 128) :
    Gen.k0_pay27 v156 (ix3 u u' o) = v156 (ix2 (0 : Fin 1) o) := by
  unfold Gen.k0_pay27
  refine (shapeCast_ab_1ab_apply _ _ u u' o).trans ?_
  rw [shapeCast_self]
  exact congrArg v156 (congrArg (fun x => ix2 x o) (Subsingleton.elim u' 0))

/-- The shortcut's bias row, viewed [1, 1, 128]. -/
theorem k0_pay28_apply (v159 : Vec Ideal S1x128 .f32) (u u' : Fin 1) (o : Fin 128) :
    Gen.k0_pay28 v159 (ix3 u u' o) = v159 (ix2 (0 : Fin 1) o) := by
  unfold Gen.k0_pay28
  refine (shapeCast_ab_1ab_apply _ _ u u' o).trans ?_
  rw [shapeCast_self]
  exact congrArg v159 (congrArg (fun x => ix2 x o) (Subsingleton.elim u' 0))

/-! ## § 7  The second convolution -/

/-- The second convolution's patch matrix: the zero-haloed buffer [116, 64, 128] of the first convolution's result
    read as [7168, 384], built as the first one is — per image the three row-shifted slices side by side. -/
noncomputable def patch2 (v124 : Vec Ideal S116x64x128 .bf16) : FVec Ideal S7168x384 .bf16 :=
  have v125 : FVec Ideal S7424x128 .bf16 := shapeCast S7424x128 v124 Gen.shapeCasts_S116x64x128_S7424x128
  have v126 : FVec Ideal S3712x128 .bf16 := extractStridedSlice S3712x128 ![0, 0] v125 Gen.slices_S7424x128_o0_0_S3712x128
  have v127 : FVec Ideal S3584x128 .bf16 := extractStridedSlice S3584x128 ![0, 0] v126 Gen.slices_S3712x128_o0_0_S3584x128
  have v128 : FVec Ideal S3584x128 .bf16 := extractStridedSlice S3584x128 ![64, 0] v126 Gen.slices_S3712x128_o64_0_S3584x128
  have v129 : FVec Ideal S3584x128 .bf16 := extractStridedSlice S3584x128 ![128, 0] v126 Gen.slices_S3712x128_o128_0_S3584x128
  have v130 : FVec Ideal S3584x384 .bf16 := concatenate S3584x384 1 [⟨S3584x128, v127⟩, ⟨S3584x128, v128⟩, ⟨S3584x128, v129⟩] Gen.concatenates_S3584x128_S3584x128_S3584x128_S3584x384_d1
  have v131 : FVec Ideal S3712x128 .bf16 := extractStridedSlice S3712x128 ![3712, 0] v125 Gen.slices_S7424x128_o3712_0_S3712x128
  have v132 : FVec Ideal S3584x128 .bf16 := extractStridedSlice S3584x128 ![0, 0] v131 Gen.slices_S3712x128_o0_0_S3584x128
  have v133 : FVec Ideal S3584x128 .bf16 := extractStridedSlice S3584x128 ![64, 0] v131 Gen.slices_S3712x128_o64_0_S3584x128
  have v134 : FVec Ideal S3584x128 .bf16 := extractStridedSlice S3584x128 ![128, 0] v131 Gen.slices_S3712x128_o128_0_S3584x128
  have v135 : FVec Ideal S3584x384 .bf16 := concatenate S3584x384 1 [⟨S3584x128, v132⟩, ⟨S3584x128, v133⟩, ⟨S3584x128, v134⟩] Gen.concatenates_S3584x128_S3584x128_S3584x128_S3584x384_d1
  concatenate S7168x384 0 [⟨S3584x384, v130⟩, ⟨S3584x384, v135⟩] Gen.concatenates_S3584x384_S3584x384_S7168x384_d0

/-- THE SECOND CONVOLUTION'S PATCH MATRIX at an index: row (j·56 + h)·64 + wp and column ky·128 + c is the buffer at
    (j·58 + h + ky, wp, c). -/
theorem patch2_apply (v124 : Vec Ideal S116x64x128 .bf16) (R : Fin 7168) (K : Fin 384)
    (j : Fin 2) (h : Fin 56) (wp : Fin 64) (ky : Fin 3) (c : Fin 128) (a : Fin 116)
    (hR : R.val = (j.val * 56 + h.val) * 64 + wp.val) (hK : K.val = ky.val * 128 + c.val)
    (ha : a.val = j.val * 58 + h.val + ky.val) :
    patch2 v124 (ix2 R K) = v124 (ix3 a wp c) := by
  have hh := h.isLt
  have hw := wp.isLt
  have hky := ky.isLt
  have hq : h.val * 64 + wp.val < 3584 := by omega
  have hr : h.val * 64 + wp.val + ky.val * 64 < 3712 := by omega
  unfold patch2
  match j, hR, ha with
  | ⟨0, _⟩, hR, ha =>
    dsimp only at hR ha
    have hr' : h.val * 64 + wp.val + ky.val * 64 < 7424 := by omega
    refine (concat2_rows_0 _ _ _ R K ⟨_, hq⟩ (by show R.val = h.val * 64 + wp.val; omega)).trans ?_
    refine (taps3_apply _ _ _ _ _ ⟨_, hq⟩ K ky c hK ⟨_, hr⟩ rfl).trans ?_
    refine (slice2_axis0_apply 0 _ _ ⟨_, hr⟩ c ⟨_, hr'⟩ (Nat.zero_add _).symm).trans ?_
    exact shapeCast_abc_mc_apply v124 _ ⟨_, hr'⟩ c a wp (by show h.val * 64 + wp.val + ky.val * 64 = a.val * 64 + wp.val; omega)
  | ⟨1, _⟩, hR, ha =>
    dsimp only at hR ha
    have hr' : 3712 + (h.val * 64 + wp.val + ky.val * 64) < 7424 := by omega
    refine (concat2_rows_1 _ _ _ R K ⟨_, hq⟩ (by show R.val = 3584 + (h.val * 64 + wp.val); omega)).trans ?_
    refine (taps3_apply _ _ _ _ _ ⟨_, hq⟩ K ky c hK ⟨_, hr⟩ rfl).trans ?_
    refine (slice2_axis0_apply 3712 _ _ ⟨_, hr⟩ c ⟨_, hr'⟩ rfl).trans ?_
    exact shapeCast_abc_mc_apply v124 _ ⟨_, hr'⟩ c a wp (by show 3712 + (h.val * 64 + wp.val + ky.val * 64) = a.val * 64 + wp.val; omega)

/-- THE SECOND CONVOLUTION AFTER ITS SCALE AND BIAS. At image row p, pixel w, channel o: with S kx the contraction
    ∑ k < 384 of the patch matrix at row p·64 + w + kx against the weight columns of column tap kx (o and 128 + o of
    the first weight block, o of the second), the value is ((S 0 + S 1) + S 2) · s + b. -/
theorem k0_pay29_apply (v124 : Vec Ideal S116x64x128 .bf16) (v137 : Vec Ideal S384x256 .bf16)
    (v144 : Vec Ideal S384x128 .bf16) (v150 v153 : Vec Ideal S1x128 .f32)
    (p : Fin 112) (w : Fin 56) (o : Fin 128) (r0 r1 r2 : Fin 7168) (n0 n1 : Fin 256)
    (h0 : r0.val = p.val * 64 + w.val) (h1 : r1.val = p.val * 64 + w.val + 1) (h2 : r2.val = p.val * 64 + w.val + 2)
    (hn0 : n0.val = o.val) (hn1 : n1.val = 128 + o.val) :
    Gen.k0_pay29 v124 v137 v144 v150 v153 (ix3 p w o)
      = (((∑ k : Fin 384, patch2 v124 (ix2 r0 k) * v137 (ix2 k n0))
            + ∑ k : Fin 384, patch2 v124 (ix2 r1 k) * v137 (ix2 k n1))
          + ∑ k : Fin 384, patch2 v124 (ix2 r2 k) * v144 (ix2 k o)) * v150 (ix2 (0 : Fin 1) o) + v153 (ix2 (0 : Fin 1) o) := by
  have hw := w.isLt
  have e137 : shapeCast S384x256 v137 Gen.shapeCasts_S384x256_S384x256 = v137 := shapeCast_self _ _
  have e144 : shapeCast S384x128 v144 Gen.shapeCasts_S384x128_S384x128 = v144 := shapeCast_self _ _
  have eA := (window_apply (matmul dot_S7168x384_S384x256_S7168x256_1_0_0_1_n_n none (patch2 v124)
      (shapeCast S384x256 v137 Gen.shapeCasts_S384x256_S384x256) (constant (F := Ideal) S7168x256 .f32 0x00000000#32))
    Gen.shapeCasts_S7168x256_S112x64x256 0 0 Gen.slices_S112x64x256_o0_0_0_S112x56x128 p w o r0 n0 h0
    (by omega)).trans ((mm384x256_zero_apply (patch2 v124) _ r0 n0).trans (by rw [e137]))
  have eB := (window_apply (matmul dot_S7168x384_S384x256_S7168x256_1_0_0_1_n_n none (patch2 v124)
      (shapeCast S384x256 v137 Gen.shapeCasts_S384x256_S384x256) (constant (F := Ideal) S7168x256 .f32 0x00000000#32))
    Gen.shapeCasts_S7168x256_S112x64x256 1 128 Gen.slices_S112x64x256_o0_1_128_S112x56x128 p w o r1 n1 h1
    hn1).trans ((mm384x256_zero_apply (patch2 v124) _ r1 n1).trans (by rw [e137]))
  have eC := (window_apply (matmul dot_S7168x384_S384x128_S7168x128_1_0_0_1_n_n none (patch2 v124)
      (shapeCast S384x128 v144 Gen.shapeCasts_S384x128_S384x128) (constant (F := Ideal) S7168x128 .f32 0x00000000#32))
    Gen.shapeCasts_S7168x128_S112x64x128 2 0 Gen.slices_S112x64x128_o0_2_0_S112x56x128 p w o r2 o h2
    (Nat.zero_add _).symm).trans ((mm384x128_zero_apply (patch2 v124) _ r2 o).trans (by rw [e144]))
  have eS := row_apply v150 Gen.shapeCasts_S1x128_S1x128 Gen.shapeCasts_S1x128_S1x1x128 Gen.broadcasts_S1x1x128_S112x56x128
    p w o (by decide)
  have eB' := row_apply v153 Gen.shapeCasts_S1x128_S1x128 Gen.shapeCasts_S1x128_S1x1x128 Gen.broadcasts_S1x1x128_S112x56x128
    p w o (by decide)
  unfold Gen.k0_pay29
  show ((_ + _) + _) * _ + _ = _
  exact congrArg₂ (· + ·) (congrArg₂ (· * ·) (congrArg₂ (· + ·) (congrArg₂ (· + ·) eA eB) eC) eS) eB'

/-! ## § 8  The halo and the interior

The two scratch buffers are written border first: every border piece is the constant zero. The interior of the
input buffer is an image's [3136, 64] pixels viewed [56, 56, 64]. -/

/-- A border piece: zero everywhere. -/
theorem k0_pay2_apply (i : S1x64x64.Idx) : Gen.k0_pay2 (F := Ideal) i = 0 := by
  unfold Gen.k0_pay2
  rw [shapeCast_self]
  exact Ideal.ofBits_zero_bf16

/-- A border piece: zero everywhere. -/
theorem k0_pay3_apply (i : S1x64x64.Idx) : Gen.k0_pay3 (F := Ideal) i = 0 := by
  unfold Gen.k0_pay3
  rw [shapeCast_self]
  exact Ideal.ofBits_zero_bf16

/-- A border piece: zero everywhere. -/
theorem k0_pay4_apply (i : S56x1x64.Idx) : Gen.k0_pay4 (F := Ideal) i = 0 := by
  unfold Gen.k0_pay4
  rw [shapeCast_self]
  exact Ideal.ofBits_zero_bf16

/-- A border piece: zero everywhere. -/
theorem k0_pay5_apply (i : S56x7x64.Idx) : Gen.k0_pay5 (F := Ideal) i = 0 := by
  unfold Gen.k0_pay5
  rw [shapeCast_self]
  exact Ideal.ofBits_zero_bf16

/-- A border piece: zero everywhere. -/
theorem k0_pay7_apply (i : S1x64x64.Idx) : Gen.k0_pay7 (F := Ideal) i = 0 := by
  unfold Gen.k0_pay7
  rw [shapeCast_self]
  exact Ideal.ofBits_zero_bf16

/-- A border piece: zero everywhere. -/
theorem k0_pay9_apply (i : S56x1x64.Idx) : Gen.k0_pay9 (F := Ideal) i = 0 := by
  unfold Gen.k0_pay9
  rw [shapeCast_self]
  exact Ideal.ofBits_zero_bf16

/-- A border piece: zero everywhere. -/
theorem k0_pay10_apply (i : S56x7x64.Idx) : Gen.k0_pay10 (F := Ideal) i = 0 := by
  unfold Gen.k0_pay10
  rw [shapeCast_self]
  exact Ideal.ofBits_zero_bf16

/-- A border piece: zero everywhere. -/
theorem k0_pay17_apply (i : S1x64x128.Idx) : Gen.k0_pay17 (F := Ideal) i = 0 := by
  unfold Gen.k0_pay17
  rw [shapeCast_self]
  exact Ideal.ofBits_zero_bf16

/-- A border piece: zero everywhere. -/
theorem k0_pay18_apply (i : S1x64x128.Idx) : Gen.k0_pay18 (F := Ideal) i = 0 := by
  unfold Gen.k0_pay18
  rw [shapeCast_self]
  exact Ideal.ofBits_zero_bf16

/-- A border piece: zero everywhere. -/
theorem k0_pay19_apply (i : S56x1x128.Idx) : Gen.k0_pay19 (F := Ideal) i = 0 := by
  unfold Gen.k0_pay19
  rw [shapeCast_self]
  exact Ideal.ofBits_zero_bf16

/-- A border piece: zero everywhere. -/
theorem k0_pay20_apply (i : S56x7x128.Idx) : Gen.k0_pay20 (F := Ideal) i = 0 := by
  unfold Gen.k0_pay20
  rw [shapeCast_self]
  exact Ideal.ofBits_zero_bf16

/-- A border piece: zero everywhere. -/
theorem k0_pay22_apply (i : S1x64x128.Idx) : Gen.k0_pay22 (F := Ideal) i = 0 := by
  unfold Gen.k0_pay22
  rw [shapeCast_self]
  exact Ideal.ofBits_zero_bf16

/-- A border piece: zero everywhere. -/
theorem k0_pay23_apply (i : S1x64x128.Idx) : Gen.k0_pay23 (F := Ideal) i = 0 := by
  unfold Gen.k0_pay23
  rw [shapeCast_self]
  exact Ideal.ofBits_zero_bf16

/-- A border piece: zero everywhere. -/
theorem k0_pay24_apply (i : S56x1x128.Idx) : Gen.k0_pay24 (F := Ideal) i = 0 := by
  unfold Gen.k0_pay24
  rw [shapeCast_self]
  exact Ideal.ofBits_zero_bf16

/-- A border piece: zero everywhere. -/
theorem k0_pay25_apply (i : S56x7x128.Idx) : Gen.k0_pay25 (F := Ideal) i = 0 := by
  unfold Gen.k0_pay25
  rw [shapeCast_self]
  exact Ideal.ofBits_zero_bf16

/-- A border piece that broadcasts a given scalar: that scalar everywhere. -/
theorem k0_pay8_apply (cst_21 : Ideal .bf16) (i : S1x64x64.Idx) : Gen.k0_pay8 (F := Ideal) cst_21 i = cst_21 := by
  unfold Gen.k0_pay8
  rw [shapeCast_self]
  rfl

section Interior
variable {α : Type}

/-- A [1, m, c] block viewed [a, b, c] (through [m, c]): (h, w) is pixel h·b + w. -/
theorem image_apply {a b c m : ℕ} (x : (⟨3, ![1, m, c]⟩ : Shape).Idx → α)
    (h0 : (⟨3, ![1, m, c]⟩ : Shape).ShapeCasts ⟨2, ![m, c]⟩) (h1 : (⟨2, ![m, c]⟩ : Shape).ShapeCasts ⟨3, ![a, b, c]⟩)
    (h2 : (⟨3, ![a, b, c]⟩ : Shape).ShapeCasts ⟨3, ![a, b, c]⟩) (h : Fin a) (w : Fin b) (e : Fin c) (q : Fin m)
    (hq : q.val = h.val * b + w.val) :
    shapeCast ⟨3, ![a, b, c]⟩ (shapeCast ⟨3, ![a, b, c]⟩ (shapeCast ⟨2, ![m, c]⟩ x h0) h1) h2 (ix3 h w e)
      = x (ix3 (0 : Fin 1) q e) := by
  rw [shapeCast_self]
  refine (shapeCast_mc_abc_apply _ h1 h w e q hq).trans ?_
  exact shapeCast_1ab_ab_apply x h0 q e

end Interior

/-- The first image's interior: at (h, w, c) the loaded block's pixel h·56 + w, channel c. -/
theorem k0_pay6_apply (v16 : Vec Ideal S1x3136x64 .bf16) (h w : Fin 56) (c : Fin 64) (q : Fin 3136)
    (hq : q.val = h.val * 56 + w.val) : Gen.k0_pay6 v16 (ix3 h w c) = v16 (ix3 (0 : Fin 1) q c) := by
  unfold Gen.k0_pay6
  exact image_apply v16 _ _ _ h w c q hq

/-- The second image's interior, likewise. -/
theorem k0_pay11_apply (v38 : Vec Ideal S1x3136x64 .bf16) (h w : Fin 56) (c : Fin 64) (q : Fin 3136)
    (hq : q.val = h.val * 56 + w.val) : Gen.k0_pay11 v38 (ix3 h w c) = v38 (ix3 (0 : Fin 1) q c) := by
  unfold Gen.k0_pay11
  exact image_apply v38 _ _ _ h w c q hq

end Cert.KernelIdeal.Payloads
-- ==== Proof.KHalo.lean ====
/-
  WHAT A ZERO-HALOED SCRATCH BUFFER HOLDS WHEN IT IS READ WHOLE.

  The body fills each of its two scratch buffers [116, 64, C] — two images of 58 rows of 64 pixels — by ten stores,
  per image: the top and bottom rows (zero), pixel 0 of the 56 rows between (zero), pixels 57 … 63 of those rows
  (zero), and pixels 1 … 56 (the image's interior). A store that does not fill whole storage words is carried out
  as a READ-MODIFY-WRITE of the enclosing box: the box is read back through the earlier stores, the stored part is
  put in place, and the box is written. So the box's other elements are rewritten with what they held: a
  read-modify-write changes the buffer exactly where a plain store of the part would.

  The buffer's contents after the ten stores are read here at one index (a, wp, ch), whatever the buffer held
  before: walking the stores from the last one, a store whose box does not hold the index is passed over; one whose
  stored part holds it gives the value; a read-modify-write whose box holds it but whose part does not hands over to
  the stores before it. The ten parts are pairwise disjoint and cover the buffer, so every index ends at a value:
  the interior of image j at rows 58·j + 1 … 58·j + 56 and pixels 1 … 56, zero everywhere else.

  § 1  one store passed over or hit; an updated box read inside and outside the update;
  § 2  the ten stores as one list over abstract payloads, and its reading region by region;
  § 3  the two scratch buffers of the body: the input images' and the first convolution's result's.
-/
import proofs.«173333_g2000300637041083_pallasbulk_292_30_alg».proof.Proof.KIPointRun
import proofs.«173333_g2000300637041083_pallasbulk_292_30_alg».proof.Proof.KPayloads

namespace Cert.KernelIdeal.Halo

open Idealize.ShloMosaic Idealize.ShloMosaic.ValueIdx

/-! ## § 1  One store at an index -/

section Steps
variable {sig : RefSig} {κ : Kind} {sp : Space} {e : EltTy} {Val : EltTy → Type} {n0 n1 n2 : ℕ}

/-- A store whose box does not hold the index is passed over: the box's rows, pixels or channels miss it. -/
theorem skip3 (v : View sig κ sp (⟨3, ![n0, n1, n2]⟩ : Shape) e) (f : v.ty.Contents Val) (off size : Fin 3 → ℕ)
    (inb : ∀ a, off a + size a ≤ (⟨3, ![n0, n1, n2]⟩ : Shape).size a)
    (w : (Rect.unit (s := (⟨3, ![n0, n1, n2]⟩ : Shape)) off size inb).shape.Idx → Val e) (L : List (View.Piece Val (⟨3, ![n0, n1, n2]⟩ : Shape) e))
    (a : Fin n0) (b : Fin n1) (c : Fin n2)
    (h : a.val < off 0 ∨ off 0 + size 0 ≤ a.val ∨ b.val < off 1 ∨ off 1 + size 1 ≤ b.val ∨ c.val < off 2 ∨ off 2 + size 2 ≤ c.val) :
    v.read Val (v.writes Val f (⟨Rect.unit off size inb, w⟩ :: L)) (ix3 a b c) = v.read Val (v.writes Val f L) (ix3 a b c) := by
  rw [View.writes_cons]
  refine View.read_slice_write_of_not_mem _ _ _ _ ?_
  rw [Rect.map_emb_univ, Rect.mem_set_unit]
  intro hm
  have h0 : off 0 ≤ a.val ∧ a.val < off 0 + size 0 := hm 0
  have h1 : off 1 ≤ b.val ∧ b.val < off 1 + size 1 := hm 1
  have h2 : off 2 ≤ c.val ∧ c.val < off 2 + size 2 := hm 2
  omega

/-- A store whose box holds the index gives its payload at the index's place in the box. -/
theorem hit3 (v : View sig κ sp (⟨3, ![n0, n1, n2]⟩ : Shape) e) (f : v.ty.Contents Val) (off size : Fin 3 → ℕ)
    (inb : ∀ a, off a + size a ≤ (⟨3, ![n0, n1, n2]⟩ : Shape).size a)
    (w : (Rect.unit (s := (⟨3, ![n0, n1, n2]⟩ : Shape)) off size inb).shape.Idx → Val e) (L : List (View.Piece Val (⟨3, ![n0, n1, n2]⟩ : Shape) e))
    (a : Fin n0) (b : Fin n1) (c : Fin n2) (x : (Rect.unit (s := (⟨3, ![n0, n1, n2]⟩ : Shape)) off size inb).shape.Idx)
    (ha : a.val = off 0 + (x 0).val) (hb : b.val = off 1 + (x 1).val) (hc : c.val = off 2 + (x 2).val) :
    v.read Val (v.writes Val f (⟨Rect.unit off size inb, w⟩ :: L)) (ix3 a b c) = w x := by
  have he : (Rect.unit off size inb).emb x = ix3 a b c := funext fun d => Fin.ext (by
    rw [Rect.emb_apply]
    match d with
    | ⟨0, _⟩ => show off 0 + 1 * (x 0).val = a.val; omega
    | ⟨1, _⟩ => show off 1 + 1 * (x 1).val = b.val; omega
    | ⟨2, _⟩ => show off 2 + 1 * (x 2).val = c.val; omega)
  rw [← he]
  exact View.read_writes_cons_emb v f _ w L x

/-- A box read back through a list of stores, at an index of the box: the stores' reading at the index's place in
    the buffer. -/
theorem readBox3 (v : View sig κ sp (⟨3, ![n0, n1, n2]⟩ : Shape) e) (g : v.ty.Contents Val) (off size : Fin 3 → ℕ)
    (inb : ∀ a, off a + size a ≤ (⟨3, ![n0, n1, n2]⟩ : Shape).size a) (x : (Rect.unit (s := (⟨3, ![n0, n1, n2]⟩ : Shape)) off size inb).shape.Idx)
    (a : Fin n0) (b : Fin n1) (c : Fin n2)
    (ha : a.val = off 0 + (x 0).val) (hb : b.val = off 1 + (x 1).val) (hc : c.val = off 2 + (x 2).val) :
    View.readAt Val v (Rect.unit off size inb).toLoadRect g x = v.read Val g (ix3 a b c) := by
  have he : (Rect.unit off size inb).toLoadRect.idx x = ix3 a b c := funext fun d => Fin.ext (by
    rw [LoadRect.idx_apply]
    match d with
    | ⟨0, _⟩ => show off 0 + 1 * (x 0).val = a.val; omega
    | ⟨1, _⟩ => show off 1 + 1 * (x 1).val = b.val; omega
    | ⟨2, _⟩ => show off 2 + 1 * (x 2).val = c.val; omega)
  rw [View.readAt_apply, he]

variable {α : Type} {m0 m1 m2 u0 u1 u2 : ℕ}

/-- An updated box read inside the update: the update at the index less the update's offsets. -/
theorem upd3_in (old : (⟨3, ![m0, m1, m2]⟩ : Shape).Idx → α) (V : (⟨3, ![u0, u1, u2]⟩ : Shape).Idx → α)
    (st : Fin 3 → ℕ) (h : (⟨3, ![m0, m1, m2]⟩ : Shape).Slices st ⟨3, ![u0, u1, u2]⟩)
    (x : (⟨3, ![m0, m1, m2]⟩ : Shape).Idx) (a' : Fin u0) (b' : Fin u1) (c' : Fin u2)
    (ha : (x 0).val = st 0 + a'.val) (hb : (x 1).val = st 1 + b'.val) (hc : (x 2).val = st 2 + c'.val) :
    updateSlice old V st h x = V (ix3 a' b' c') := by
  unfold updateSlice
  have hin : ∀ d : Fin 3, st d ≤ (x d).val ∧ (x d).val < st d + (⟨3, ![u0, u1, u2]⟩ : Shape).size (d.cast h.1.symm) := by
    intro d
    match d with
    | ⟨0, _⟩ => have := a'.isLt; show st 0 ≤ (x 0).val ∧ (x 0).val < st 0 + u0; omega
    | ⟨1, _⟩ => have := b'.isLt; show st 1 ≤ (x 1).val ∧ (x 1).val < st 1 + u1; omega
    | ⟨2, _⟩ => have := c'.isLt; show st 2 ≤ (x 2).val ∧ (x 2).val < st 2 + u2; omega
  rw [dif_pos hin]
  refine congrArg V (funext fun d => Fin.ext ?_)
  match d with
  | ⟨0, _⟩ => show (x 0).val - st 0 = a'.val; omega
  | ⟨1, _⟩ => show (x 1).val - st 1 = b'.val; omega
  | ⟨2, _⟩ => show (x 2).val - st 2 = c'.val; omega

/-- An updated box read outside the update: what the box held. -/
theorem upd3_out (old : (⟨3, ![m0, m1, m2]⟩ : Shape).Idx → α) (V : (⟨3, ![u0, u1, u2]⟩ : Shape).Idx → α)
    (st : Fin 3 → ℕ) (h : (⟨3, ![m0, m1, m2]⟩ : Shape).Slices st ⟨3, ![u0, u1, u2]⟩)
    (x : (⟨3, ![m0, m1, m2]⟩ : Shape).Idx)
    (hout : (x 0).val < st 0 ∨ st 0 + u0 ≤ (x 0).val ∨ (x 1).val < st 1 ∨ st 1 + u1 ≤ (x 1).val
      ∨ (x 2).val < st 2 ∨ st 2 + u2 ≤ (x 2).val) :
    updateSlice old V st h x = old x := by
  unfold updateSlice
  rw [dif_neg]
  intro hin
  have h0 : st 0 ≤ (x 0).val ∧ (x 0).val < st 0 + u0 := hin 0
  have h1 : st 1 ≤ (x 1).val ∧ (x 1).val < st 1 + u1 := hin 1
  have h2 : st 2 ≤ (x 2).val ∧ (x 2).val < st 2 + u2 := hin 2
  omega

end Steps

/-! ## § 2  The ten stores -/

section Core
variable {sig : RefSig} {κ : Kind} {sp : Space} {e : EltTy} {Val : EltTy → Type} {C : ℕ}

/-- The buffer: 116 rows of 64 pixels of C channels. -/
abbrev SBuf (C : ℕ) : Shape := ⟨3, ![116, 64, C]⟩
/-- One row. -/
abbrev SRow (C : ℕ) : Shape := ⟨3, ![1, 64, C]⟩
/-- The box around pixel 0 of 56 rows, and pixel 0 itself. -/
abbrev SA2 (C : ℕ) : Shape := ⟨3, ![56, 2, C]⟩
abbrev SA1 (C : ℕ) : Shape := ⟨3, ![56, 1, C]⟩
/-- The box around pixels 57 … 63 of 56 rows, and those pixels. -/
abbrev SB8 (C : ℕ) : Shape := ⟨3, ![56, 8, C]⟩
abbrev SB7 (C : ℕ) : Shape := ⟨3, ![56, 7, C]⟩
/-- The box around the interior of 56 rows, and the interior. -/
abbrev SI58 (C : ℕ) : Shape := ⟨3, ![56, 58, C]⟩
abbrev SI56 (C : ℕ) : Shape := ⟨3, ![56, 56, C]⟩

/-- The data of the ten stores: the buffer's view and what it held, the boxes' bounds, and the ten payloads. -/
structure HaloData (sig : RefSig) (κ : Kind) (sp : Space) (e : EltTy) (Val : EltTy → Type) (C : ℕ) where
  v : View sig κ sp (SBuf C) e
  f0 : v.ty.Contents Val
  i0 : ∀ a, (![0, 0, 0] : Fin 3 → ℕ) a + (SRow C).size a ≤ (SBuf C).size a
  i57 : ∀ a, (![57, 0, 0] : Fin 3 → ℕ) a + (SRow C).size a ≤ (SBuf C).size a
  i58 : ∀ a, (![58, 0, 0] : Fin 3 → ℕ) a + (SRow C).size a ≤ (SBuf C).size a
  i115 : ∀ a, (![115, 0, 0] : Fin 3 → ℕ) a + (SRow C).size a ≤ (SBuf C).size a
  iA1 : ∀ a, (![1, 0, 0] : Fin 3 → ℕ) a + (SA2 C).size a ≤ (SBuf C).size a
  iB1 : ∀ a, (![1, 56, 0] : Fin 3 → ℕ) a + (SB8 C).size a ≤ (SBuf C).size a
  iI1 : ∀ a, (![1, 0, 0] : Fin 3 → ℕ) a + (SI58 C).size a ≤ (SBuf C).size a
  iA2 : ∀ a, (![59, 0, 0] : Fin 3 → ℕ) a + (SA2 C).size a ≤ (SBuf C).size a
  iB2 : ∀ a, (![59, 56, 0] : Fin 3 → ℕ) a + (SB8 C).size a ≤ (SBuf C).size a
  iI2 : ∀ a, (![59, 0, 0] : Fin 3 → ℕ) a + (SI58 C).size a ≤ (SBuf C).size a
  sA : (SA2 C).Slices ![0, 0, 0] (SA1 C)
  sB : (SB8 C).Slices ![0, 1, 0] (SB7 C)
  sI : (SI58 C).Slices ![0, 1, 0] (SI56 C)
  Z0 : (SRow C).Idx → Val e
  Z57 : (SRow C).Idx → Val e
  Z58 : (SRow C).Idx → Val e
  Z115 : (SRow C).Idx → Val e
  ZA1 : (SA1 C).Idx → Val e
  ZA2 : (SA1 C).Idx → Val e
  ZB1 : (SB7 C).Idx → Val e
  ZB2 : (SB7 C).Idx → Val e
  I1 : (SI56 C).Idx → Val e
  I2 : (SI56 C).Idx → Val e

variable (D : HaloData sig κ sp e Val C)

/-- The first image's border: rows 0 and 57, then pixel 0 and pixels 57 … 63 of rows 1 … 56 as read-modify-writes of
    their boxes over what the buffer held. Last store first. -/
def HaloData.L4 : List (View.Piece Val (SBuf C) e) :=
  [⟨Rect.unit (s := SBuf C) ![1, 56, 0] (SB8 C).size D.iB1,
      updateSlice (View.readAt Val D.v (Rect.unit (s := SBuf C) ![1, 56, 0] (SB8 C).size D.iB1).toLoadRect D.f0) D.ZB1 ![0, 1, 0] D.sB⟩,
    ⟨Rect.unit (s := SBuf C) ![1, 0, 0] (SA2 C).size D.iA1,
      updateSlice (View.readAt Val D.v (Rect.unit (s := SBuf C) ![1, 0, 0] (SA2 C).size D.iA1).toLoadRect D.f0) D.ZA1 ![0, 0, 0] D.sA⟩,
    ⟨Rect.unit (s := SBuf C) ![57, 0, 0] (SRow C).size D.i57, D.Z57⟩,
    ⟨Rect.unit (s := SBuf C) ![0, 0, 0] (SRow C).size D.i0, D.Z0⟩]

/-- Then the first image's interior, a read-modify-write of pixels 0 … 57 through the border's stores; then the
    second image's border likewise. -/
def HaloData.L9 : List (View.Piece Val (SBuf C) e) :=
  ⟨Rect.unit (s := SBuf C) ![59, 56, 0] (SB8 C).size D.iB2,
      updateSlice (View.readAt Val D.v (Rect.unit (s := SBuf C) ![59, 56, 0] (SB8 C).size D.iB2).toLoadRect D.f0) D.ZB2 ![0, 1, 0] D.sB⟩ ::
    ⟨Rect.unit (s := SBuf C) ![59, 0, 0] (SA2 C).size D.iA2,
      updateSlice (View.readAt Val D.v (Rect.unit (s := SBuf C) ![59, 0, 0] (SA2 C).size D.iA2).toLoadRect D.f0) D.ZA2 ![0, 0, 0] D.sA⟩ ::
    ⟨Rect.unit (s := SBuf C) ![115, 0, 0] (SRow C).size D.i115, D.Z115⟩ ::
    ⟨Rect.unit (s := SBuf C) ![58, 0, 0] (SRow C).size D.i58, D.Z58⟩ ::
    ⟨Rect.unit (s := SBuf C) ![1, 0, 0] (SI58 C).size D.iI1,
      updateSlice (View.readAt Val D.v (Rect.unit (s := SBuf C) ![1, 0, 0] (SI58 C).size D.iI1).toLoadRect
        (D.v.writes Val D.f0 D.L4)) D.I1 ![0, 1, 0] D.sI⟩ ::
    D.L4

/-- Then the second image's interior through all the stores before it. -/
def HaloData.L10 : List (View.Piece Val (SBuf C) e) :=
  ⟨Rect.unit (s := SBuf C) ![59, 0, 0] (SI58 C).size D.iI2,
      updateSlice (View.readAt Val D.v (Rect.unit (s := SBuf C) ![59, 0, 0] (SI58 C).size D.iI2).toLoadRect
        (D.v.writes Val D.f0 D.L9)) D.I2 ![0, 1, 0] D.sI⟩ ::
    D.L9

/-! ### The first image's border, read -/

/-- Row 0. -/
theorem L4_row0 (f : D.v.ty.Contents Val) (a : Fin 116) (b : Fin 64) (c : Fin C) (ha : a.val = 0) :
    D.v.read Val (D.v.writes Val f D.L4) (ix3 a b c) = D.Z0 (ix3 (0 : Fin 1) b c) := by
  unfold HaloData.L4
  refine (skip3 _ _ _ _ _ _ _ a b c (Or.inl (by show a.val < 1; omega))).trans ?_
  refine (skip3 _ _ _ _ _ _ _ a b c (Or.inl (by show a.val < 1; omega))).trans ?_
  refine (skip3 _ _ _ _ _ _ _ a b c (Or.inl (by show a.val < 57; omega))).trans ?_
  exact hit3 _ _ _ _ _ _ _ a b c (ix3 (0 : Fin 1) b c) (by show a.val = 0 + 0; omega) (Nat.zero_add _).symm (Nat.zero_add _).symm

/-- Row 57. -/
theorem L4_row57 (f : D.v.ty.Contents Val) (a : Fin 116) (b : Fin 64) (c : Fin C) (ha : a.val = 57) :
    D.v.read Val (D.v.writes Val f D.L4) (ix3 a b c) = D.Z57 (ix3 (0 : Fin 1) b c) := by
  unfold HaloData.L4
  refine (skip3 _ _ _ _ _ _ _ a b c (Or.inr (Or.inl (by show 1 + 56 ≤ a.val; omega)))).trans ?_
  refine (skip3 _ _ _ _ _ _ _ a b c (Or.inr (Or.inl (by show 1 + 56 ≤ a.val; omega)))).trans ?_
  exact hit3 _ _ _ _ _ _ _ a b c (ix3 (0 : Fin 1) b c) (by show a.val = 57 + 0; omega) (Nat.zero_add _).symm (Nat.zero_add _).symm

/-- Pixel 0 of rows 1 … 56. -/
theorem L4_col0 (f : D.v.ty.Contents Val) (a : Fin 116) (b : Fin 64) (c : Fin C) (a' : Fin 56)
    (ha : a.val = 1 + a'.val) (hb : b.val = 0) :
    D.v.read Val (D.v.writes Val f D.L4) (ix3 a b c) = D.ZA1 (ix3 a' (0 : Fin 1) c) := by
  unfold HaloData.L4
  refine (skip3 _ _ _ _ _ _ _ a b c (Or.inr (Or.inr (Or.inl (by show b.val < 56; omega))))).trans ?_
  refine (hit3 _ _ _ _ _ _ _ a b c (ix3 a' (0 : Fin 2) c) ha (by show b.val = 0 + 0; omega) (Nat.zero_add _).symm).trans ?_
  exact upd3_in _ _ _ _ (ix3 a' (0 : Fin 2) c) a' (0 : Fin 1) c (Nat.zero_add _).symm rfl (Nat.zero_add _).symm

/-- Pixels 57 … 63 of rows 1 … 56. -/
theorem L4_colhi (f : D.v.ty.Contents Val) (a : Fin 116) (b : Fin 64) (c : Fin C) (a' : Fin 56) (b' : Fin 7)
    (ha : a.val = 1 + a'.val) (hb : b.val = 57 + b'.val) :
    D.v.read Val (D.v.writes Val f D.L4) (ix3 a b c) = D.ZB1 (ix3 a' b' c) := by
  have hb' := b'.isLt
  unfold HaloData.L4
  refine (hit3 _ _ _ _ _ _ _ a b c (ix3 a' (⟨1 + b'.val, by omega⟩ : Fin 8) c) ha
    (by show b.val = 56 + (1 + b'.val); omega) (Nat.zero_add _).symm).trans ?_
  exact upd3_in _ _ _ _ (ix3 a' (⟨1 + b'.val, by omega⟩ : Fin 8) c) a' b' c (Nat.zero_add _).symm rfl (Nat.zero_add _).symm

/-! ### Through the first image's interior and the second image's border -/

/-- The first image's interior: pixels 1 … 56 of rows 1 … 56. -/
theorem L9_int1 (f : D.v.ty.Contents Val) (a : Fin 116) (b : Fin 64) (c : Fin C) (a' b' : Fin 56)
    (ha : a.val = 1 + a'.val) (hb : b.val = 1 + b'.val) :
    D.v.read Val (D.v.writes Val f D.L9) (ix3 a b c) = D.I1 (ix3 a' b' c) := by
  have ha' := a'.isLt
  have hb' := b'.isLt
  unfold HaloData.L9
  refine (skip3 _ _ _ _ _ _ _ a b c (Or.inl (by show a.val < 59; omega))).trans ?_
  refine (skip3 _ _ _ _ _ _ _ a b c (Or.inl (by show a.val < 59; omega))).trans ?_
  refine (skip3 _ _ _ _ _ _ _ a b c (Or.inl (by show a.val < 115; omega))).trans ?_
  refine (skip3 _ _ _ _ _ _ _ a b c (Or.inl (by show a.val < 58; omega))).trans ?_
  refine (hit3 _ _ _ _ _ _ _ a b c (ix3 a' (⟨1 + b'.val, by omega⟩ : Fin 58) c) ha
    (by show b.val = 0 + (1 + b'.val); omega) (Nat.zero_add _).symm).trans ?_
  exact upd3_in _ _ _ _ (ix3 a' (⟨1 + b'.val, by omega⟩ : Fin 58) c) a' b' c (Nat.zero_add _).symm rfl (Nat.zero_add _).symm

/-- Rows 0 … 57 outside the interior's box are as the first border left them. -/
theorem L9_of_L4 (f : D.v.ty.Contents Val) (a : Fin 116) (b : Fin 64) (c : Fin C)
    (h : a.val = 0 ∨ a.val = 57 ∨ (a.val ≤ 57 ∧ 58 ≤ b.val)) :
    D.v.read Val (D.v.writes Val f D.L9) (ix3 a b c) = D.v.read Val (D.v.writes Val f D.L4) (ix3 a b c) := by
  unfold HaloData.L9
  refine (skip3 _ _ _ _ _ _ _ a b c (Or.inl (by show a.val < 59; omega))).trans ?_
  refine (skip3 _ _ _ _ _ _ _ a b c (Or.inl (by show a.val < 59; omega))).trans ?_
  refine (skip3 _ _ _ _ _ _ _ a b c (Or.inl (by show a.val < 115; omega))).trans ?_
  refine (skip3 _ _ _ _ _ _ _ a b c (Or.inl (by show a.val < 58; omega))).trans ?_
  refine skip3 _ _ _ _ _ _ _ a b c ?_
  show a.val < 1 ∨ 1 + 56 ≤ a.val ∨ b.val < 0 ∨ 0 + 58 ≤ b.val ∨ c.val < 0 ∨ 0 + C ≤ c.val
  omega

/-- Pixels 0 and 57 of rows 1 … 56 lie in the interior's box but not in the interior: the read-modify-write hands
    over to the first border's stores over what the buffer held. -/
theorem L9_box1 (f : D.v.ty.Contents Val) (a : Fin 116) (b : Fin 64) (c : Fin C) (a' : Fin 56)
    (ha : a.val = 1 + a'.val) (hb : b.val = 0 ∨ b.val = 57) :
    D.v.read Val (D.v.writes Val f D.L9) (ix3 a b c) = D.v.read Val (D.v.writes Val D.f0 D.L4) (ix3 a b c) := by
  have ha' := a'.isLt
  have hb58 : b.val < 58 := by omega
  unfold HaloData.L9
  refine (skip3 _ _ _ _ _ _ _ a b c (Or.inl (by show a.val < 59; omega))).trans ?_
  refine (skip3 _ _ _ _ _ _ _ a b c (Or.inl (by show a.val < 59; omega))).trans ?_
  refine (skip3 _ _ _ _ _ _ _ a b c (Or.inl (by show a.val < 115; omega))).trans ?_
  refine (skip3 _ _ _ _ _ _ _ a b c (Or.inl (by show a.val < 58; omega))).trans ?_
  refine (hit3 _ _ _ _ _ _ _ a b c (ix3 a' (⟨b.val, hb58⟩ : Fin 58) c) ha (Nat.zero_add _).symm (Nat.zero_add _).symm).trans ?_
  refine (upd3_out _ _ _ _ (ix3 a' (⟨b.val, hb58⟩ : Fin 58) c) ?_).trans ?_
  · show a'.val < 0 ∨ 0 + 56 ≤ a'.val ∨ b.val < 1 ∨ 1 + 56 ≤ b.val ∨ c.val < 0 ∨ 0 + C ≤ c.val
    omega
  · exact readBox3 _ _ _ _ _ (ix3 a' (⟨b.val, hb58⟩ : Fin 58) c) a b c ha (Nat.zero_add _).symm (Nat.zero_add _).symm

/-- Row 58. -/
theorem L9_row58 (f : D.v.ty.Contents Val) (a : Fin 116) (b : Fin 64) (c : Fin C) (ha : a.val = 58) :
    D.v.read Val (D.v.writes Val f D.L9) (ix3 a b c) = D.Z58 (ix3 (0 : Fin 1) b c) := by
  unfold HaloData.L9
  refine (skip3 _ _ _ _ _ _ _ a b c (Or.inl (by show a.val < 59; omega))).trans ?_
  refine (skip3 _ _ _ _ _ _ _ a b c (Or.inl (by show a.val < 59; omega))).trans ?_
  refine (skip3 _ _ _ _ _ _ _ a b c (Or.inl (by show a.val < 115; omega))).trans ?_
  exact hit3 _ _ _ _ _ _ _ a b c (ix3 (0 : Fin 1) b c) (by show a.val = 58 + 0; omega) (Nat.zero_add _).symm (Nat.zero_add _).symm

/-- Row 115. -/
theorem L9_row115 (f : D.v.ty.Contents Val) (a : Fin 116) (b : Fin 64) (c : Fin C) (ha : a.val = 115) :
    D.v.read Val (D.v.writes Val f D.L9) (ix3 a b c) = D.Z115 (ix3 (0 : Fin 1) b c) := by
  unfold HaloData.L9
  refine (skip3 _ _ _ _ _ _ _ a b c (Or.inr (Or.inl (by show 59 + 56 ≤ a.val; omega)))).trans ?_
  refine (skip3 _ _ _ _ _ _ _ a b c (Or.inr (Or.inl (by show 59 + 56 ≤ a.val; omega)))).trans ?_
  exact hit3 _ _ _ _ _ _ _ a b c (ix3 (0 : Fin 1) b c) (by show a.val = 115 + 0; omega) (Nat.zero_add _).symm (Nat.zero_add _).symm

/-- Pixel 0 of rows 59 … 114. -/
theorem L9_col0 (f : D.v.ty.Contents Val) (a : Fin 116) (b : Fin 64) (c : Fin C) (a' : Fin 56)
    (ha : a.val = 59 + a'.val) (hb : b.val = 0) :
    D.v.read Val (D.v.writes Val f D.L9) (ix3 a b c) = D.ZA2 (ix3 a' (0 : Fin 1) c) := by
  unfold HaloData.L9
  refine (skip3 _ _ _ _ _ _ _ a b c (Or.inr (Or.inr (Or.inl (by show b.val < 56; omega))))).trans ?_
  refine (hit3 _ _ _ _ _ _ _ a b c (ix3 a' (0 : Fin 2) c) ha (by show b.val = 0 + 0; omega) (Nat.zero_add _).symm).trans ?_
  exact upd3_in _ _ _ _ (ix3 a' (0 : Fin 2) c) a' (0 : Fin 1) c (Nat.zero_add _).symm rfl (Nat.zero_add _).symm

/-- Pixels 57 … 63 of rows 59 … 114. -/
theorem L9_colhi (f : D.v.ty.Contents Val) (a : Fin 116) (b : Fin 64) (c : Fin C) (a' : Fin 56) (b' : Fin 7)
    (ha : a.val = 59 + a'.val) (hb : b.val = 57 + b'.val) :
    D.v.read Val (D.v.writes Val f D.L9) (ix3 a b c) = D.ZB2 (ix3 a' b' c) := by
  have hb' := b'.isLt
  unfold HaloData.L9
  refine (hit3 _ _ _ _ _ _ _ a b c (ix3 a' (⟨1 + b'.val, by omega⟩ : Fin 8) c) ha
    (by show b.val = 56 + (1 + b'.val); omega) (Nat.zero_add _).symm).trans ?_
  exact upd3_in _ _ _ _ (ix3 a' (⟨1 + b'.val, by omega⟩ : Fin 8) c) a' b' c (Nat.zero_add _).symm rfl (Nat.zero_add _).symm

/-! ### Through the second image's interior: all ten stores -/

/-- Outside the second interior's box the last store changes nothing. -/
theorem L10_of_L9 (f : D.v.ty.Contents Val) (a : Fin 116) (b : Fin 64) (c : Fin C)
    (h : a.val ≤ 58 ∨ a.val = 115 ∨ 58 ≤ b.val) :
    D.v.read Val (D.v.writes Val f D.L10) (ix3 a b c) = D.v.read Val (D.v.writes Val f D.L9) (ix3 a b c) := by
  unfold HaloData.L10
  refine skip3 _ _ _ _ _ _ _ a b c ?_
  show a.val < 59 ∨ 59 + 56 ≤ a.val ∨ b.val < 0 ∨ 0 + 58 ≤ b.val ∨ c.val < 0 ∨ 0 + C ≤ c.val
  omega

/-- The second image's interior: pixels 1 … 56 of rows 59 … 114. -/
theorem L10_int2 (f : D.v.ty.Contents Val) (a : Fin 116) (b : Fin 64) (c : Fin C) (a' b' : Fin 56)
    (ha : a.val = 59 + a'.val) (hb : b.val = 1 + b'.val) :
    D.v.read Val (D.v.writes Val f D.L10) (ix3 a b c) = D.I2 (ix3 a' b' c) := by
  have hb' := b'.isLt
  unfold HaloData.L10
  refine (hit3 _ _ _ _ _ _ _ a b c (ix3 a' (⟨1 + b'.val, by omega⟩ : Fin 58) c) ha
    (by show b.val = 0 + (1 + b'.val); omega) (Nat.zero_add _).symm).trans ?_
  exact upd3_in _ _ _ _ (ix3 a' (⟨1 + b'.val, by omega⟩ : Fin 58) c) a' b' c (Nat.zero_add _).symm rfl (Nat.zero_add _).symm

/-- Pixels 0 and 57 of rows 59 … 114: in the second interior's box, not in the interior. -/
theorem L10_box2 (f : D.v.ty.Contents Val) (a : Fin 116) (b : Fin 64) (c : Fin C) (a' : Fin 56)
    (ha : a.val = 59 + a'.val) (hb : b.val = 0 ∨ b.val = 57) :
    D.v.read Val (D.v.writes Val f D.L10) (ix3 a b c) = D.v.read Val (D.v.writes Val D.f0 D.L9) (ix3 a b c) := by
  have ha' := a'.isLt
  have hb58 : b.val < 58 := by omega
  unfold HaloData.L10
  refine (hit3 _ _ _ _ _ _ _ a b c (ix3 a' (⟨b.val, hb58⟩ : Fin 58) c) ha (Nat.zero_add _).symm (Nat.zero_add _).symm).trans ?_
  refine (upd3_out _ _ _ _ (ix3 a' (⟨b.val, hb58⟩ : Fin 58) c) ?_).trans ?_
  · show a'.val < 0 ∨ 0 + 56 ≤ a'.val ∨ b.val < 1 ∨ 1 + 56 ≤ b.val ∨ c.val < 0 ∨ 0 + C ≤ c.val
    omega
  · exact readBox3 _ _ _ _ _ (ix3 a' (⟨b.val, hb58⟩ : Fin 58) c) a b c ha (Nat.zero_add _).symm (Nat.zero_add _).symm

/-! ### The buffer after the ten stores, region by region, whatever it held before -/

/-- Image 0's interior. -/
theorem halo_int1 (f : D.v.ty.Contents Val) (a : Fin 116) (b : Fin 64) (c : Fin C) (a' b' : Fin 56)
    (ha : a.val = 1 + a'.val) (hb : b.val = 1 + b'.val) :
    D.v.read Val (D.v.writes Val f D.L10) (ix3 a b c) = D.I1 (ix3 a' b' c) := by
  have := a'.isLt
  exact (L10_of_L9 D f a b c (by omega)).trans (L9_int1 D f a b c a' b' ha hb)

/-- Image 1's interior. -/
theorem halo_int2 (f : D.v.ty.Contents Val) (a : Fin 116) (b : Fin 64) (c : Fin C) (a' b' : Fin 56)
    (ha : a.val = 59 + a'.val) (hb : b.val = 1 + b'.val) :
    D.v.read Val (D.v.writes Val f D.L10) (ix3 a b c) = D.I2 (ix3 a' b' c) := L10_int2 D f a b c a' b' ha hb

/-- Row 0. -/
theorem halo_row0 (f : D.v.ty.Contents Val) (a : Fin 116) (b : Fin 64) (c : Fin C) (ha : a.val = 0) :
    D.v.read Val (D.v.writes Val f D.L10) (ix3 a b c) = D.Z0 (ix3 (0 : Fin 1) b c) :=
  (L10_of_L9 D f a b c (by omega)).trans ((L9_of_L4 D f a b c (by omega)).trans (L4_row0 D f a b c ha))

/-- Row 57. -/
theorem halo_row57 (f : D.v.ty.Contents Val) (a : Fin 116) (b : Fin 64) (c : Fin C) (ha : a.val = 57) :
    D.v.read Val (D.v.writes Val f D.L10) (ix3 a b c) = D.Z57 (ix3 (0 : Fin 1) b c) :=
  (L10_of_L9 D f a b c (by omega)).trans ((L9_of_L4 D f a b c (by omega)).trans (L4_row57 D f a b c ha))

/-- Row 58. -/
theorem halo_row58 (f : D.v.ty.Contents Val) (a : Fin 116) (b : Fin 64) (c : Fin C) (ha : a.val = 58) :
    D.v.read Val (D.v.writes Val f D.L10) (ix3 a b c) = D.Z58 (ix3 (0 : Fin 1) b c) :=
  (L10_of_L9 D f a b c (by omega)).trans (L9_row58 D f a b c ha)

/-- Row 115. -/
theorem halo_row115 (f : D.v.ty.Contents Val) (a : Fin 116) (b : Fin 64) (c : Fin C) (ha : a.val = 115) :
    D.v.read Val (D.v.writes Val f D.L10) (ix3 a b c) = D.Z115 (ix3 (0 : Fin 1) b c) :=
  (L10_of_L9 D f a b c (by omega)).trans (L9_row115 D f a b c ha)

/-- Pixel 0 of image 0's rows. -/
theorem halo_col0_1 (f : D.v.ty.Contents Val) (a : Fin 116) (b : Fin 64) (c : Fin C) (a' : Fin 56)
    (ha : a.val = 1 + a'.val) (hb : b.val = 0) :
    D.v.read Val (D.v.writes Val f D.L10) (ix3 a b c) = D.ZA1 (ix3 a' (0 : Fin 1) c) := by
  have := a'.isLt
  exact (L10_of_L9 D f a b c (by omega)).trans ((L9_box1 D f a b c a' ha (Or.inl hb)).trans (L4_col0 D D.f0 a b c a' ha hb))

/-- Pixels 57 … 63 of image 0's rows. -/
theorem halo_colhi_1 (f : D.v.ty.Contents Val) (a : Fin 116) (b : Fin 64) (c : Fin C) (a' : Fin 56) (b' : Fin 7)
    (ha : a.val = 1 + a'.val) (hb : b.val = 57 + b'.val) :
    D.v.read Val (D.v.writes Val f D.L10) (ix3 a b c) = D.ZB1 (ix3 a' b' c) := by
  have := a'.isLt
  refine (L10_of_L9 D f a b c (by omega)).trans ?_
  by_cases h57 : b.val = 57
  · exact (L9_box1 D f a b c a' ha (Or.inr h57)).trans (L4_colhi D D.f0 a b c a' b' ha hb)
  · exact (L9_of_L4 D f a b c (by omega)).trans (L4_colhi D f a b c a' b' ha hb)

/-- Pixel 0 of image 1's rows. -/
theorem halo_col0_2 (f : D.v.ty.Contents Val) (a : Fin 116) (b : Fin 64) (c : Fin C) (a' : Fin 56)
    (ha : a.val = 59 + a'.val) (hb : b.val = 0) :
    D.v.read Val (D.v.writes Val f D.L10) (ix3 a b c) = D.ZA2 (ix3 a' (0 : Fin 1) c) :=
  (L10_box2 D f a b c a' ha (Or.inl hb)).trans (L9_col0 D D.f0 a b c a' ha hb)

/-- Pixels 57 … 63 of image 1's rows. -/
theorem halo_colhi_2 (f : D.v.ty.Contents Val) (a : Fin 116) (b : Fin 64) (c : Fin C) (a' : Fin 56) (b' : Fin 7)
    (ha : a.val = 59 + a'.val) (hb : b.val = 57 + b'.val) :
    D.v.read Val (D.v.writes Val f D.L10) (ix3 a b c) = D.ZB2 (ix3 a' b' c) := by
  by_cases h57 : b.val = 57
  · exact (L10_box2 D f a b c a' ha (Or.inr h57)).trans (L9_colhi D D.f0 a b c a' b' ha hb)
  · exact (L10_of_L9 D f a b c (by omega)).trans (L9_colhi D f a b c a' b' ha hb)

/-! ### The closed form -/

section Closed
variable {α : Type} {C : ℕ}

/-- A zero-haloed pair of images: image 0's interior at rows 1 … 56, image 1's at rows 59 … 114, pixels 1 … 56 of
    each; z (zero) on the four border rows and on pixels 0 and 57 … 63. -/
def haloFn (I1 I2 : (SI56 C).Idx → α) (z : α) : (SBuf C).Idx → α := fun i =>
  if h1 : (1 ≤ (i 0).val ∧ (i 0).val ≤ 56) ∧ (1 ≤ (i 1).val ∧ (i 1).val ≤ 56) then
    I1 (ix3 ⟨(i 0).val - 1, by omega⟩ ⟨(i 1).val - 1, by omega⟩ ⟨(i 2).val, (i 2).isLt⟩)
  else if h2 : (59 ≤ (i 0).val ∧ (i 0).val ≤ 114) ∧ (1 ≤ (i 1).val ∧ (i 1).val ≤ 56) then
    I2 (ix3 ⟨(i 0).val - 59, by omega⟩ ⟨(i 1).val - 1, by omega⟩ ⟨(i 2).val, (i 2).isLt⟩)
  else z

/-- Inside image 0. -/
theorem haloFn_int1 (I1 I2 : (SI56 C).Idx → α) (z : α) (a : Fin 116) (b : Fin 64) (c : Fin C) (a' b' : Fin 56)
    (ha : a.val = 1 + a'.val) (hb : b.val = 1 + b'.val) : haloFn I1 I2 z (ix3 a b c) = I1 (ix3 a' b' c) := by
  have ha' := a'.isLt
  have hb' := b'.isLt
  have h1 : (1 ≤ (ix3 a b c 0).val ∧ (ix3 a b c 0).val ≤ 56) ∧ (1 ≤ (ix3 a b c 1).val ∧ (ix3 a b c 1).val ≤ 56) := by
    show (1 ≤ a.val ∧ a.val ≤ 56) ∧ (1 ≤ b.val ∧ b.val ≤ 56); omega
  unfold haloFn
  refine (dif_pos h1).trans ?_
  refine congrArg I1 (funext fun d => Fin.ext ?_)
  match d with
  | ⟨0, _⟩ => show a.val - 1 = a'.val; omega
  | ⟨1, _⟩ => show b.val - 1 = b'.val; omega
  | ⟨2, _⟩ => rfl

/-- Inside image 1. -/
theorem haloFn_int2 (I1 I2 : (SI56 C).Idx → α) (z : α) (a : Fin 116) (b : Fin 64) (c : Fin C) (a' b' : Fin 56)
    (ha : a.val = 59 + a'.val) (hb : b.val = 1 + b'.val) : haloFn I1 I2 z (ix3 a b c) = I2 (ix3 a' b' c) := by
  have ha' := a'.isLt
  have hb' := b'.isLt
  have hn1 : ¬((1 ≤ (ix3 a b c 0).val ∧ (ix3 a b c 0).val ≤ 56) ∧ (1 ≤ (ix3 a b c 1).val ∧ (ix3 a b c 1).val ≤ 56)) := by
    show ¬((1 ≤ a.val ∧ a.val ≤ 56) ∧ (1 ≤ b.val ∧ b.val ≤ 56)); omega
  have h2 : (59 ≤ (ix3 a b c 0).val ∧ (ix3 a b c 0).val ≤ 114) ∧ (1 ≤ (ix3 a b c 1).val ∧ (ix3 a b c 1).val ≤ 56) := by
    show (59 ≤ a.val ∧ a.val ≤ 114) ∧ (1 ≤ b.val ∧ b.val ≤ 56); omega
  unfold haloFn
  refine (dif_neg hn1).trans ((dif_pos h2).trans ?_)
  refine congrArg I2 (funext fun d => Fin.ext ?_)
  match d with
  | ⟨0, _⟩ => show a.val - 59 = a'.val; omega
  | ⟨1, _⟩ => show b.val - 1 = b'.val; omega
  | ⟨2, _⟩ => rfl

/-- On the halo. -/
theorem haloFn_border (I1 I2 : (SI56 C).Idx → α) (z : α) (a : Fin 116) (b : Fin 64) (c : Fin C)
    (h : a.val = 0 ∨ a.val = 57 ∨ a.val = 58 ∨ a.val = 115 ∨ b.val = 0 ∨ 57 ≤ b.val) :
    haloFn I1 I2 z (ix3 a b c) = z := by
  have hn1 : ¬((1 ≤ (ix3 a b c 0).val ∧ (ix3 a b c 0).val ≤ 56) ∧ (1 ≤ (ix3 a b c 1).val ∧ (ix3 a b c 1).val ≤ 56)) := by
    show ¬((1 ≤ a.val ∧ a.val ≤ 56) ∧ (1 ≤ b.val ∧ b.val ≤ 56)); omega
  have hn2 : ¬((59 ≤ (ix3 a b c 0).val ∧ (ix3 a b c 0).val ≤ 114) ∧ (1 ≤ (ix3 a b c 1).val ∧ (ix3 a b c 1).val ≤ 56)) := by
    show ¬((59 ≤ a.val ∧ a.val ≤ 114) ∧ (1 ≤ b.val ∧ b.val ≤ 56)); omega
  unfold haloFn
  exact (dif_neg hn1).trans (dif_neg hn2)

end Closed

/-- THE BUFFER AFTER THE TEN STORES, whatever it held before: when every border payload is the constant z, the
    buffer reads the zero-haloed pair of the two interior payloads. The ten stored parts are pairwise disjoint and
    cover the buffer; each index is settled by the one part that holds it. -/
theorem halo_eq (z : Val e) (hZ0 : ∀ i, D.Z0 i = z) (hZ57 : ∀ i, D.Z57 i = z) (hZ58 : ∀ i, D.Z58 i = z)
    (hZ115 : ∀ i, D.Z115 i = z) (hZA1 : ∀ i, D.ZA1 i = z) (hZA2 : ∀ i, D.ZA2 i = z) (hZB1 : ∀ i, D.ZB1 i = z)
    (hZB2 : ∀ i, D.ZB2 i = z) (f : D.v.ty.Contents Val) :
    D.v.read Val (D.v.writes Val f D.L10) = haloFn D.I1 D.I2 z := by
  funext i
  obtain ⟨a, b, c, rfl⟩ : ∃ (a : Fin 116) (b : Fin 64) (c : Fin C), i = ix3 a b c := ⟨i 0, i 1, i 2, eq_ix3 i⟩
  have ha := a.isLt
  have hb := b.isLt
  by_cases hr1 : 1 ≤ a.val ∧ a.val ≤ 56
  · by_cases hb0 : b.val = 0
    · rw [halo_col0_1 D f a b c ⟨a.val - 1, by omega⟩ (by show a.val = 1 + (a.val - 1); omega) hb0, hZA1]
      exact (haloFn_border _ _ z a b c (by omega)).symm
    · by_cases hbI : b.val ≤ 56
      · rw [halo_int1 D f a b c ⟨a.val - 1, by omega⟩ ⟨b.val - 1, by omega⟩ (by show a.val = 1 + (a.val - 1); omega)
          (by show b.val = 1 + (b.val - 1); omega)]
        exact (haloFn_int1 _ _ z a b c _ _ (by show a.val = 1 + (a.val - 1); omega) (by show b.val = 1 + (b.val - 1); omega)).symm
      · rw [halo_colhi_1 D f a b c ⟨a.val - 1, by omega⟩ ⟨b.val - 57, by omega⟩ (by show a.val = 1 + (a.val - 1); omega)
          (by show b.val = 57 + (b.val - 57); omega), hZB1]
        exact (haloFn_border _ _ z a b c (by omega)).symm
  · by_cases hr2 : 59 ≤ a.val ∧ a.val ≤ 114
    · by_cases hb0 : b.val = 0
      · rw [halo_col0_2 D f a b c ⟨a.val - 59, by omega⟩ (by show a.val = 59 + (a.val - 59); omega) hb0, hZA2]
        exact (haloFn_border _ _ z a b c (by omega)).symm
      · by_cases hbI : b.val ≤ 56
        · rw [halo_int2 D f a b c ⟨a.val - 59, by omega⟩ ⟨b.val - 1, by omega⟩ (by show a.val = 59 + (a.val - 59); omega)
            (by show b.val = 1 + (b.val - 1); omega)]
          exact (haloFn_int2 _ _ z a b c _ _ (by show a.val = 59 + (a.val - 59); omega) (by show b.val = 1 + (b.val - 1); omega)).symm
        · rw [halo_colhi_2 D f a b c ⟨a.val - 59, by omega⟩ ⟨b.val - 57, by omega⟩ (by show a.val = 59 + (a.val - 59); omega)
            (by show b.val = 57 + (b.val - 57); omega), hZB2]
          exact (haloFn_border _ _ z a b c (by omega)).symm
    · have hrow : a.val = 0 ∨ a.val = 57 ∨ a.val = 58 ∨ a.val = 115 := by omega
      rcases hrow with h | h | h | h
      · rw [halo_row0 D f a b c h, hZ0]; exact (haloFn_border _ _ z a b c (by omega)).symm
      · rw [halo_row57 D f a b c h, hZ57]; exact (haloFn_border _ _ z a b c (by omega)).symm
      · rw [halo_row58 D f a b c h, hZ58]; exact (haloFn_border _ _ z a b c (by omega)).symm
      · rw [halo_row115 D f a b c h, hZ115]; exact (haloFn_border _ _ z a b c (by omega)).symm

end Core

/-! ## § 3  The body's two scratch buffers -/

section Scratch

open Cert.KernelIdeal Cert.KernelIdeal.Gen Cert.KernelIdeal.Block

/-- The input images' scratch buffer [116, 64, 64]: the stores' data. -/
noncomputable def dataX (arg1 : Memref sig .tc .vmem S2x3136x64 .bf16) (harg1 : arg1.IsWhole)
    (arg7 : Memref sig .tc .vmem S116x64x64 .bf16) (x0 : Vec Ideal S2x3136x64 .bf16)
    (f7 : arg7.view.ty.Contents (Elt Ideal)) : HaloData sig .tc .vmem .bf16 (Elt Ideal) 64 where
  v := arg7.view
  f0 := f7
  i0 := Gen.inb_S116x64x64_S1x64x64_0_0_0
  i57 := Gen.inb_S116x64x64_S1x64x64_57_0_0
  i58 := Gen.inb_S116x64x64_S1x64x64_58_0_0
  i115 := Gen.inb_S116x64x64_S1x64x64_115_0_0
  iA1 := Gen.inb_S116x64x64_S56x2x64_1_0_0
  iB1 := Gen.inb_S116x64x64_S56x8x64_1_56_0
  iI1 := Gen.inb_S116x64x64_S56x58x64_1_0_0
  iA2 := Gen.inb_S116x64x64_S56x2x64_59_0_0
  iB2 := Gen.inb_S116x64x64_S56x8x64_59_56_0
  iI2 := Gen.inb_S116x64x64_S56x58x64_59_0_0
  sA := Gen.slices_S56x2x64_S56x1x64_0_0_0
  sB := Gen.slices_S56x8x64_S56x7x64_0_1_0
  sI := Gen.slices_S56x58x64_S56x56x64_0_1_0
  Z0 := Gen.k0_pay2 (F := Ideal)
  Z57 := Gen.k0_pay3 (F := Ideal)
  Z58 := Gen.k0_pay7 (F := Ideal)
  Z115 := Gen.k0_pay8 (F := Ideal) pointRun.sl.cst_21
  ZA1 := Gen.k0_pay4 (F := Ideal)
  ZA2 := Gen.k0_pay9 (F := Ideal)
  ZB1 := Gen.k0_pay5 (F := Ideal)
  ZB2 := Gen.k0_pay10 (F := Ideal)
  I1 := Gen.k0_pay6 (View.readAt (Elt Ideal) arg1.view
    (Rect.unit (s := S2x3136x64) ![0, 0, 0] S1x3136x64.size Gen.inb_S2x3136x64_S1x3136x64_0_0_0).toLoadRect (harg1.unread x0))
  I2 := Gen.k0_pay11 (View.readAt (Elt Ideal) arg1.view
    (Rect.unit (s := S2x3136x64) ![1, 0, 0] S1x3136x64.size Gen.inb_S2x3136x64_S1x3136x64_1_0_0).toLoadRect (harg1.unread x0))

/-- The body's list of stores into that buffer is the ten stores of § 2 at these data. -/
theorem H7_10_eq (c : Dev nD) (arg1 : Memref sig .tc .vmem S2x3136x64 .bf16) (harg1 : arg1.IsWhole)
    (arg7 : Memref sig .tc .vmem S116x64x64 .bf16) (x0 : Vec Ideal S2x3136x64 .bf16)
    (f7 : arg7.view.ty.Contents (Elt Ideal)) :
    pointRun.sl.H7_10 (F := Ideal) c arg1 harg1 arg7 x0 f7 = (dataX arg1 harg1 arg7 x0 f7).L10 := rfl

/-- A whole-buffer box reads each index at itself. -/
theorem wholeBox_idx {n0 n1 n2 : ℕ} (inb : ∀ a, (![0, 0, 0] : Fin 3 → ℕ) a + (⟨3, ![n0, n1, n2]⟩ : Shape).size a ≤ (⟨3, ![n0, n1, n2]⟩ : Shape).size a)
    (j : (Rect.unit (s := (⟨3, ![n0, n1, n2]⟩ : Shape)) ![0, 0, 0] (⟨3, ![n0, n1, n2]⟩ : Shape).size inb).shape.Idx) :
    (Rect.unit (s := (⟨3, ![n0, n1, n2]⟩ : Shape)) ![0, 0, 0] (⟨3, ![n0, n1, n2]⟩ : Shape).size inb).toLoadRect.idx j = j :=
  funext fun a => Fin.ext (by
    rw [LoadRect.idx_apply]
    match a with
    | ⟨0, _⟩ => show 0 + 1 * (j 0).val = (j 0).val; omega
    | ⟨1, _⟩ => show 0 + 1 * (j 1).val = (j 1).val; omega
    | ⟨2, _⟩ => show 0 + 1 * (j 2).val = (j 2).val; omega)

/-- THE ZERO-HALOED INPUT IMAGES, as a function of the input block alone: image j's pixels [3136, 64] viewed
    [56, 56, 64] at rows 58·j + 1 … 58·j + 56 and pixels 1 … 56, zero elsewhere. -/
noncomputable def haloX (x0 : Vec Ideal S2x3136x64 .bf16) : Vec Ideal S116x64x64 .bf16 :=
  haloFn (C := 64)
    (Gen.k0_pay6 (View.ld x0 (Rect.unit (s := S2x3136x64) ![0, 0, 0] S1x3136x64.size Gen.inb_S2x3136x64_S1x3136x64_0_0_0)))
    (Gen.k0_pay11 (View.ld x0 (Rect.unit (s := S2x3136x64) ![1, 0, 0] S1x3136x64.size Gen.inb_S2x3136x64_S1x3136x64_1_0_0)))
    (0 : EReal)

/-- The input scratch buffer after the body's ten stores reads the zero-haloed input images, over ANY prior contents. -/
theorem scratchX_read (c : Dev nD) (arg1 : Memref sig .tc .vmem S2x3136x64 .bf16) (harg1 : arg1.IsWhole)
    (arg7 : Memref sig .tc .vmem S116x64x64 .bf16) (x0 : Vec Ideal S2x3136x64 .bf16)
    (f7 f : arg7.view.ty.Contents (Elt Ideal)) :
    arg7.view.read (Elt Ideal) (arg7.view.writes (Elt Ideal) f (pointRun.sl.H7_10 (F := Ideal) c arg1 harg1 arg7 x0 f7))
      = haloX x0 := by
  rw [H7_10_eq]
  have hI : ∀ R : Rect S2x3136x64, View.readAt (Elt Ideal) arg1.view R.toLoadRect (harg1.unread x0) = View.ld x0 R :=
    fun R => by rw [View.readAt_eq_ld, harg1.read_unread]
  refine (halo_eq (dataX arg1 harg1 arg7 x0 f7) (0 : EReal) Payloads.k0_pay2_apply Payloads.k0_pay3_apply
    Payloads.k0_pay7_apply (fun i => (Payloads.k0_pay8_apply _ i).trans Ideal.ofBits_zero_bf16) Payloads.k0_pay4_apply
    Payloads.k0_pay9_apply Payloads.k0_pay5_apply Payloads.k0_pay10_apply f).trans ?_
  unfold haloX
  exact congrArg₂ (fun A B => haloFn (C := 64) (Gen.k0_pay6 (F := Ideal) A) (Gen.k0_pay11 (F := Ideal) B) (0 : EReal))
    (hI (Rect.unit (s := S2x3136x64) ![0, 0, 0] S1x3136x64.size Gen.inb_S2x3136x64_S1x3136x64_0_0_0))
    (hI (Rect.unit (s := S2x3136x64) ![1, 0, 0] S1x3136x64.size Gen.inb_S2x3136x64_S1x3136x64_1_0_0))

/-- What the body reads when it loads the input scratch buffer whole: the zero-haloed input images. -/
theorem v44_eq (c : Dev nD) (arg1 : Memref sig .tc .vmem S2x3136x64 .bf16) (harg1 : arg1.IsWhole)
    (arg7 : Memref sig .tc .vmem S116x64x64 .bf16) (x0 : Vec Ideal S2x3136x64 .bf16)
    (f7 : arg7.view.ty.Contents (Elt Ideal)) :
    pointRun.sl.v44 (F := Ideal) c arg1 harg1 arg7 x0 f7 = haloX x0 := by
  funext j
  show arg7.view.read (Elt Ideal) (arg7.view.writes (Elt Ideal) arg7.view.junk (pointRun.sl.H7_10 (F := Ideal) c arg1 harg1 arg7 x0 f7))
    ((Rect.unit (s := S116x64x64) ![0, 0, 0] S116x64x64.size Gen.inb_S116x64x64_S116x64x64_0_0_0).toLoadRect.idx j) = haloX x0 j
  rw [scratchX_read, wholeBox_idx]

/-- The first convolution's result's scratch buffer [116, 64, 128]: the stores' data, the result v83 a variable. -/
noncomputable def dataH (arg6 : Memref sig .tc .vmem S116x64x128 .bf16) (f6 : arg6.view.ty.Contents (Elt Ideal))
    (v83 : FVec Ideal S112x56x128 .bf16) : HaloData sig .tc .vmem .bf16 (Elt Ideal) 128 where
  v := arg6.view
  f0 := f6
  i0 := Gen.inb_S116x64x128_S1x64x128_0_0_0
  i57 := Gen.inb_S116x64x128_S1x64x128_57_0_0
  i58 := Gen.inb_S116x64x128_S1x64x128_58_0_0
  i115 := Gen.inb_S116x64x128_S1x64x128_115_0_0
  iA1 := Gen.inb_S116x64x128_S56x2x128_1_0_0
  iB1 := Gen.inb_S116x64x128_S56x8x128_1_56_0
  iI1 := Gen.inb_S116x64x128_S56x58x128_1_0_0
  iA2 := Gen.inb_S116x64x128_S56x2x128_59_0_0
  iB2 := Gen.inb_S116x64x128_S56x8x128_59_56_0
  iI2 := Gen.inb_S116x64x128_S56x58x128_59_0_0
  sA := Gen.slices_S56x2x128_S56x1x128_0_0_0
  sB := Gen.slices_S56x8x128_S56x7x128_0_1_0
  sI := Gen.slices_S56x58x128_S56x56x128_0_1_0
  Z0 := Gen.k0_pay17 (F := Ideal)
  Z57 := Gen.k0_pay18 (F := Ideal)
  Z58 := Gen.k0_pay22 (F := Ideal)
  Z115 := Gen.k0_pay23 (F := Ideal)
  ZA1 := Gen.k0_pay19 (F := Ideal)
  ZA2 := Gen.k0_pay24 (F := Ideal)
  ZB1 := Gen.k0_pay20 (F := Ideal)
  ZB2 := Gen.k0_pay25 (F := Ideal)
  I1 := Gen.k0_pay21 v83
  I2 := Gen.k0_pay26 v83

/-- The body's list of stores into that buffer is the ten stores of § 2 at these data, v83 the first convolution's
    result as the body computed it. -/
theorem H6_10_eq (c : Dev nD) (arg1 : Memref sig .tc .vmem S2x3136x64 .bf16) (harg1 : arg1.IsWhole)
    (arg2 : Memref sig .tc .vmem S192x512 .bf16) (harg2 : arg2.IsWhole)
    (arg4 : Memref sig .tc .vmem S8x128 .f32) (harg4 : arg4.IsWhole)
    (arg6 : Memref sig .tc .vmem S116x64x128 .bf16) (arg7 : Memref sig .tc .vmem S116x64x64 .bf16)
    (x0 : Vec Ideal S2x3136x64 .bf16) (x1 : Vec Ideal S192x512 .bf16) (x3 : Vec Ideal S8x128 .f32)
    (f6 : arg6.view.ty.Contents (Elt Ideal)) (f7 : arg7.view.ty.Contents (Elt Ideal)) :
    pointRun.sl.H6_10 (F := Ideal) c arg1 harg1 arg2 harg2 arg4 harg4 arg6 arg7 x0 x1 x3 f6 f7
      = (dataH arg6 f6 (pointRun.sl.r_3 (F := Ideal) c arg1 harg1 arg2 harg2 arg4 harg4 arg7 x0 x1 x3 f7)).L10 := rfl

/-- THE ZERO-HALOED FIRST CONVOLUTION'S RESULT: image j's rows j·56 … j·56 + 55 of v83 at rows 58·j + 1 … 58·j + 56
    and pixels 1 … 56, zero elsewhere. -/
noncomputable def haloH (v83 : FVec Ideal S112x56x128 .bf16) : Vec Ideal S116x64x128 .bf16 :=
  haloFn (C := 128) (Gen.k0_pay21 v83) (Gen.k0_pay26 v83) (0 : EReal)

/-- The second scratch buffer after the body's ten stores reads the zero-haloed first convolution's result, over
    ANY prior contents. -/
theorem scratchH_read (c : Dev nD) (arg1 : Memref sig .tc .vmem S2x3136x64 .bf16) (harg1 : arg1.IsWhole)
    (arg2 : Memref sig .tc .vmem S192x512 .bf16) (harg2 : arg2.IsWhole)
    (arg4 : Memref sig .tc .vmem S8x128 .f32) (harg4 : arg4.IsWhole)
    (arg6 : Memref sig .tc .vmem S116x64x128 .bf16) (arg7 : Memref sig .tc .vmem S116x64x64 .bf16)
    (x0 : Vec Ideal S2x3136x64 .bf16) (x1 : Vec Ideal S192x512 .bf16) (x3 : Vec Ideal S8x128 .f32)
    (f6 f : arg6.view.ty.Contents (Elt Ideal)) (f7 : arg7.view.ty.Contents (Elt Ideal)) :
    arg6.view.read (Elt Ideal) (arg6.view.writes (Elt Ideal) f
        (pointRun.sl.H6_10 (F := Ideal) c arg1 harg1 arg2 harg2 arg4 harg4 arg6 arg7 x0 x1 x3 f6 f7))
      = haloH (pointRun.sl.r_3 (F := Ideal) c arg1 harg1 arg2 harg2 arg4 harg4 arg7 x0 x1 x3 f7) := by
  rw [H6_10_eq]
  exact halo_eq (dataH arg6 f6 _) (0 : EReal) Payloads.k0_pay17_apply Payloads.k0_pay18_apply Payloads.k0_pay22_apply
    Payloads.k0_pay23_apply Payloads.k0_pay19_apply Payloads.k0_pay24_apply Payloads.k0_pay20_apply
    Payloads.k0_pay25_apply f

/-- What the body reads when it loads the second scratch buffer whole: the zero-haloed first convolution's result. -/
theorem v124_eq (c : Dev nD) (arg1 : Memref sig .tc .vmem S2x3136x64 .bf16) (harg1 : arg1.IsWhole)
    (arg2 : Memref sig .tc .vmem S192x512 .bf16) (harg2 : arg2.IsWhole)
    (arg4 : Memref sig .tc .vmem S8x128 .f32) (harg4 : arg4.IsWhole)
    (arg6 : Memref sig .tc .vmem S116x64x128 .bf16) (arg7 : Memref sig .tc .vmem S116x64x64 .bf16)
    (x0 : Vec Ideal S2x3136x64 .bf16) (x1 : Vec Ideal S192x512 .bf16) (x3 : Vec Ideal S8x128 .f32)
    (f6 : arg6.view.ty.Contents (Elt Ideal)) (f7 : arg7.view.ty.Contents (Elt Ideal)) :
    pointRun.sl.v124 (F := Ideal) c arg1 harg1 arg2 harg2 arg4 harg4 arg6 arg7 x0 x1 x3 f6 f7
      = haloH (pointRun.sl.r_3 (F := Ideal) c arg1 harg1 arg2 harg2 arg4 harg4 arg7 x0 x1 x3 f7) := by
  funext j
  show arg6.view.read (Elt Ideal) (arg6.view.writes (Elt Ideal) arg6.view.junk
      (pointRun.sl.H6_10 (F := Ideal) c arg1 harg1 arg2 harg2 arg4 harg4 arg6 arg7 x0 x1 x3 f6 f7))
    ((Rect.unit (s := S116x64x128) ![0, 0, 0] S116x64x128.size Gen.inb_S116x64x128_S116x64x128_0_0_0).toLoadRect.idx j) = _
  rw [scratchH_read, wholeBox_idx]

end Scratch

end Cert.KernelIdeal.Halo
-- ==== Proof.KBlockOut.lean ====
/-
  WHAT ONE GRID POINT STORES, as a function of its four input blocks alone.

  The body's stored block is its last payload over the values it computed on the way; two of those are whole loads
  of the scratch buffers, which read the zero-haloed input images and the zero-haloed first convolution's result
  whatever the buffers held before. With those two readings put in, the stored block is a function `blockOut` of the
  two images' block x0, the staged weights x1 and x2, and the scale-and-bias rows x3.
-/
import proofs.«173333_g2000300637041083_pallasbulk_292_30_alg».proof.Proof.KIPointRunV
import proofs.«173333_g2000300637041083_pallasbulk_292_30_alg».proof.Proof.KHalo
import proofs.«173333_g2000300637041083_pallasbulk_292_30_alg».proof.Proof.KPayloads

open scoped BigOperators

namespace Cert.KernelIdeal.BlockOut

open Idealize.ShloMosaic Idealize.ShloMosaic.ValueIdx
open Cert.KernelIdeal Cert.KernelIdeal.Gen Cert.KernelIdeal.Block Cert.KernelIdeal.Halo

/-! ## § 1  The stored block -/

/-- The first convolution's patch matrix of a block of two images. -/
noncomputable def patchX (x0 : Vec Ideal S2x3136x64 .bf16) : FVec Ideal S7168x192 .bf16 := Gen.k0_pay12 (haloX x0)

/-- The second half [192, 256] of the staged first weights: the third column tap and the shortcut. -/
noncomputable def w1b (x1 : Vec Ideal S192x512 .bf16) : Vec Ideal S192x256 .bf16 :=
  View.ld x1 (Rect.unit (s := S192x512) ![0, 256] S192x256.size Gen.inb_S192x512_S192x256_0_256)

/-- The first half [192, 256]: the first two column taps. -/
noncomputable def w1a (x1 : Vec Ideal S192x512 .bf16) : Vec Ideal S192x256 .bf16 :=
  View.ld x1 (Rect.unit (s := S192x512) ![0, 0] S192x256.size Gen.inb_S192x512_S192x256_0_0)

/-- Row k of the scale-and-bias rows. -/
noncomputable def sbRow (x3 : Vec Ideal S8x128 .f32) (k : ℕ) (inb : ∀ a, (![k, 0] : Fin 2 → ℕ) a + S1x128.size a ≤ S8x128.size a) :
    Vec Ideal S1x128 .f32 := View.ld x3 (Rect.unit (s := S8x128) ![k, 0] S1x128.size inb)

/-- The first convolution's result after scale, bias and maximum with zero, [112, 56, 128]. -/
noncomputable def h1Of (x0 : Vec Ideal S2x3136x64 .bf16) (x1 : Vec Ideal S192x512 .bf16) (x3 : Vec Ideal S8x128 .f32) :
    FVec Ideal S112x56x128 .bf16 :=
  Gen.k0_pay16 (patchX x0) (Gen.k0_pay13 (w1a x1)) (constant (F := Ideal) S7168x256 .f32 0x00000000#32) (w1b x1)
    (sbRow x3 0 Gen.inb_S8x128_S1x128_0_0) (sbRow x3 1 Gen.inb_S8x128_S1x128_1_0)

/-- THE BLOCK ONE GRID POINT STORES. -/
noncomputable def blockOut (x0 : Vec Ideal S2x3136x64 .bf16) (x1 : Vec Ideal S192x512 .bf16) (x2 : Vec Ideal S384x384 .bf16)
    (x3 : Vec Ideal S8x128 .f32) : Vec Ideal S2x56x56x128 .f32 :=
  Gen.k0_pay1 (Gen.k0_pay15 (patchX x0) (w1b x1)) (Gen.k0_pay27 (sbRow x3 4 Gen.inb_S8x128_S1x128_4_0))
    (Gen.k0_pay28 (sbRow x3 5 Gen.inb_S8x128_S1x128_5_0))
    (Gen.k0_pay29 (haloH (h1Of x0 x1 x3))
      (View.ld x2 (Rect.unit (s := S384x384) ![0, 0] S384x256.size Gen.inb_S384x384_S384x256_0_0))
      (View.ld x2 (Rect.unit (s := S384x384) ![0, 256] S384x128.size Gen.inb_S384x384_S384x128_0_256))
      (sbRow x3 2 Gen.inb_S8x128_S1x128_2_0) (sbRow x3 3 Gen.inb_S8x128_S1x128_3_0))

/-- What the point stores is `blockOut` of its input blocks, whatever the two scratch buffers held before. -/
theorem pointStore_eq (c : Dev nD)
    (arg1 : Memref sig .tc .vmem S2x3136x64 .bf16) (harg1 : arg1.IsWhole)
    (arg2 : Memref sig .tc .vmem S192x512 .bf16) (harg2 : arg2.IsWhole)
    (arg3 : Memref sig .tc .vmem S384x384 .bf16) (harg3 : arg3.IsWhole)
    (arg4 : Memref sig .tc .vmem S8x128 .f32) (harg4 : arg4.IsWhole)
    (arg6 : Memref sig .tc .vmem S116x64x128 .bf16) (arg7 : Memref sig .tc .vmem S116x64x64 .bf16)
    (x0 : Vec Ideal S2x3136x64 .bf16) (x1 : Vec Ideal S192x512 .bf16) (x2 : Vec Ideal S384x384 .bf16) (x3 : Vec Ideal S8x128 .f32)
    (f6 : arg6.view.ty.Contents (Elt Ideal)) (f7 : arg7.view.ty.Contents (Elt Ideal)) :
    pointStore (F := Ideal) c arg1 harg1 arg2 harg2 arg3 harg3 arg4 harg4 arg6 arg7 x0 x1 x2 x3 f6 f7 = blockOut x0 x1 x2 x3 := by
  unfold pointStore pointRun.sl.r_2 pointRun.sl.r_5 pointRun.sl.r_6 pointRun.sl.r_7
  rw [v124_eq]
  unfold pointRun.sl.r_3 pointRun.sl.r pointRun.sl.r_1
  rw [v44_eq]
  simp only [View.readAt_eq_ld, Memref.IsWhole.read_unread]
  rfl

end Cert.KernelIdeal.BlockOut
-- ==== Proof.Spec.lean ====
/-
  The residual block, as mathematics on the extended reals.

  For an activation x (image n, channel c, row a, column b), a 3 by 3 convolution with zero padding 1 reads, at output
  position (h, w) and tap (ky, kx), the padded activation at row h + ky and column w + kx: the activation itself at
  (h + ky - 1, w + kx - 1) when that lies in the image, and zero on the border. The convolution is the sum over the nine
  taps and the input channels of that value times the weight of (output channel, input channel, tap). A folded batch
  normalisation multiplies by s = g / sqrt(v + eps) and adds b - mu * s. The block is

      hidden = max(conv3(x, w1) * s1 + bias1, 0)
      result = max((conv3(hidden, w2) * s2 + bias2) + ((sum over c of x * wsc) * ssc + bias_sc), 0)

  with the additions and products grouped exactly as written (the extended reals are not distributive at infinities, so
  the grouping is part of the statement; sums over finite index sets may be taken in any order).
-/
import Mathlib
import Idealize.ShloMosaic.PureOps.Ideal
import Idealize.ShloMosaic.Lib.ValueIdx

noncomputable section

open scoped BigOperators

namespace Cert.ResBlock

open Idealize.ShloMosaic Idealize.ShloMosaic.ValueIdx

/-- The shapes of the arguments. -/
abbrev Sx : Shape := ⟨4, ![32, 64, 56, 56]⟩
abbrev Sw1 : Shape := ⟨4, ![128, 64, 3, 3]⟩
abbrev Sw2 : Shape := ⟨4, ![128, 128, 3, 3]⟩
abbrev Swsc : Shape := ⟨4, ![128, 64, 1, 1]⟩
abbrev Sv : Shape := ⟨1, ![128]⟩

/-- The batch-norm epsilon, as the float word both programs carry (its value is never needed). -/
abbrev eps : Ideal .f32 := Ideal.ofBits .f32 0x3727C5AC#32

/-- The folded scale g / sqrt(v + eps) at channel o, -/
def scale (g v : FVec Ideal Sv .f32) (o : Fin 128) : Ideal .f32 := Ideal.div (g (ix1 o)) (Ideal.sqrt (v (ix1 o) + eps))
/-- and the folded bias b - mu * scale. -/
def bias (g b mu v : FVec Ideal Sv .f32) (o : Fin 128) : Ideal .f32 := b (ix1 o) - mu (ix1 o) * scale g v o

/-- A 56 by 56 map with C channels read through a zero border of width 1: position (a, b) of the padded map. -/
def padAt {C : ℕ} (X : Fin 56 → Fin 56 → Fin C → Ideal .f32) (a b : ℕ) (c : Fin C) : Ideal .f32 :=
  if h : (1 ≤ a ∧ a ≤ 56) ∧ (1 ≤ b ∧ b ≤ 56) then X ⟨a - 1, by omega⟩ ⟨b - 1, by omega⟩ c else 0

/-- The 3 by 3 convolution with zero padding 1 at output position (h, w): taps (ky, kx), input channels c. -/
def conv3 {C : ℕ} (X : Fin 56 → Fin 56 → Fin C → Ideal .f32) (Wt : Fin 3 → Fin 3 → Fin C → Ideal .f32) (h w : Fin 56) : Ideal .f32 :=
  ∑ ky : Fin 3, ∑ kx : Fin 3, ∑ c : Fin C, padAt X (h.val + ky.val) (w.val + kx.val) c * Wt ky kx c

section Block

variable (x : FVec Ideal Sx .f32) (w1 : FVec Ideal Sw1 .f32) (g1 b1 m1 v1 : FVec Ideal Sv .f32)
  (w2 : FVec Ideal Sw2 .f32) (g2 b2 m2 v2 : FVec Ideal Sv .f32)
  (wsc : FVec Ideal Swsc .f32) (gsc bsc msc vsc : FVec Ideal Sv .f32)

/-- The hidden activation: first convolution, batch norm, rectifier. -/
def hidden (n : Fin 32) (h w : Fin 56) (o : Fin 128) : Ideal .f32 :=
  max (conv3 (fun a b c => x (ix4 n c a b)) (fun ky kx c => w1 (ix4 o c ky kx)) h w * scale g1 v1 o + bias g1 b1 m1 v1 o) 0

/-- The shortcut: the 1 by 1 convolution and its batch norm. -/
def shortcut (n : Fin 32) (h w : Fin 56) (o : Fin 128) : Ideal .f32 :=
  (∑ c : Fin 64, x (ix4 n c h w) * wsc (ix4 o c 0 0)) * scale gsc vsc o + bias gsc bsc msc vsc o

/-- The block's result at image n, channel o, position (h, w). -/
def result (n : Fin 32) (o : Fin 128) (h w : Fin 56) : Ideal .f32 :=
  max ((conv3 (fun a b c => hidden x w1 g1 b1 m1 v1 n a b c) (fun ky kx c => w2 (ix4 o c ky kx)) h w * scale g2 v2 o + bias g2 b2 m2 v2 o)
    + shortcut x wsc gsc bsc msc vsc n h w o) 0

end Block

end Cert.ResBlock

end
-- ==== Proof.KBlockSpec.lean ====
/-
  THE STORED BLOCK IS THE RESIDUAL BLOCK. What one grid point stores, read at image j of its pair, row h, pixel w
  and channel o, is the residual block's result at image n = 2·t + j of the batch — when the point's input blocks
  are the staged arrays' blocks: the channels-last input, the laid-out weights, the stacked scale and bias rows.

  The steps. A load through a box reads the array at the box's offsets further on. The zero-haloed buffers read
  at row 58·j + u and pixel v are the 56 × 56 maps read through a zero border of width 1 at (u, v). A patch matrix
  at row (j·56 + h)·64 + w' and column ky·C + c is therefore the padded map at (h + ky, w'). Each convolution is three
  contractions of length 3·C against the laid-out weights' columns of one column tap, added left to right: the same
  9·C products as the sum over the taps (ky, kx, c), regrouped — only the order of additions differs, so no
  finiteness is needed. The shortcut's contraction of length 192 meets weights that vanish outside the middle row
  tap, so it is the contraction over the 64 channels at the pixel itself. Products and the outer additions are
  grouped on both sides alike.
-/
import proofs.«173333_g2000300637041083_pallasbulk_292_30_alg».proof.Proof.KBlockOut
import proofs.«173333_g2000300637041083_pallasbulk_292_30_alg».proof.Proof.KHostStages
import proofs.«173333_g2000300637041083_pallasbulk_292_30_alg».proof.Proof.Spec
import proofs.«173333_g2000300637041083_pallasbulk_292_30_alg».proof.Proof.LibConvSums

open scoped BigOperators

namespace Cert.KernelIdeal.BlockSpec

open Idealize.ShloMosaic Idealize.ShloMosaic.ValueIdx
open Cert.KernelIdeal Cert.KernelIdeal.Halo Cert.KernelIdeal.BlockOut Cert.ConvSums Cert.ResBlock

/-! ## § 1  Loads at an index -/

section Loads
variable {e' : EltTy}

/-- A load through a box of a rank-2 array reads the array at the box's offsets further on. -/
theorem ld2_apply {n0 n1 : ℕ} (X : (⟨2, ![n0, n1]⟩ : Shape).Idx → Elt Ideal e') (off size : Fin 2 → ℕ)
    (inb : ∀ a, off a + size a ≤ (⟨2, ![n0, n1]⟩ : Shape).size a)
    (x : (Rect.unit (s := (⟨2, ![n0, n1]⟩ : Shape)) off size inb).shape.Idx) (a : Fin n0) (b : Fin n1)
    (ha : a.val = off 0 + (x 0).val) (hb : b.val = off 1 + (x 1).val) :
    View.ld X (Rect.unit (s := (⟨2, ![n0, n1]⟩ : Shape)) off size inb) x = X (ix2 a b) := by
  show X ((Rect.unit (s := (⟨2, ![n0, n1]⟩ : Shape)) off size inb).toLoadRect.idx x) = _
  refine congrArg X (funext fun d => Fin.ext ?_)
  rw [LoadRect.idx_apply]
  match d with
  | ⟨0, _⟩ => show off 0 + 1 * (x 0).val = a.val; omega
  | ⟨1, _⟩ => show off 1 + 1 * (x 1).val = b.val; omega

/-- The same at rank 3. -/
theorem ld3_apply {n0 n1 n2 : ℕ} (X : (⟨3, ![n0, n1, n2]⟩ : Shape).Idx → Elt Ideal e') (off size : Fin 3 → ℕ)
    (inb : ∀ a, off a + size a ≤ (⟨3, ![n0, n1, n2]⟩ : Shape).size a)
    (x : (Rect.unit (s := (⟨3, ![n0, n1, n2]⟩ : Shape)) off size inb).shape.Idx) (a : Fin n0) (b : Fin n1) (c : Fin n2)
    (ha : a.val = off 0 + (x 0).val) (hb : b.val = off 1 + (x 1).val) (hc : c.val = off 2 + (x 2).val) :
    View.ld X (Rect.unit (s := (⟨3, ![n0, n1, n2]⟩ : Shape)) off size inb) x = X (ix3 a b c) := by
  show X ((Rect.unit (s := (⟨3, ![n0, n1, n2]⟩ : Shape)) off size inb).toLoadRect.idx x) = _
  refine congrArg X (funext fun d => Fin.ext ?_)
  rw [LoadRect.idx_apply]
  match d with
  | ⟨0, _⟩ => show off 0 + 1 * (x 0).val = a.val; omega
  | ⟨1, _⟩ => show off 1 + 1 * (x 1).val = b.val; omega
  | ⟨2, _⟩ => show off 2 + 1 * (x 2).val = c.val; omega

end Loads

/-- Row k of the scale-and-bias rows at channel o. -/
theorem sbRow_apply (x3 : Vec Ideal S8x128 .f32) (k : ℕ) (inb : ∀ a, (![k, 0] : Fin 2 → ℕ) a + S1x128.size a ≤ S8x128.size a)
    (u : Fin 1) (o : Fin 128) (r : Fin 8) (hr : r.val = k) : sbRow x3 k inb (ix2 u o) = x3 (ix2 r o) := by
  unfold sbRow
  exact ld2_apply x3 _ _ _ (ix2 u o) r o (by show r.val = k + u.val; omega) (Nat.zero_add _).symm

/-- The first half of the staged first weights. -/
theorem w1a_apply (x1 : Vec Ideal S192x512 .bf16) (k : Fin 192) (n : Fin 256) (N : Fin 512) (hN : N.val = n.val) :
    w1a x1 (ix2 k n) = x1 (ix2 k N) := by
  unfold w1a
  exact ld2_apply x1 _ _ _ (ix2 k n) k N (Nat.zero_add _).symm (by show N.val = 0 + n.val; omega)

/-- The second half of the staged first weights: columns 256 … 511. -/
theorem w1b_apply (x1 : Vec Ideal S192x512 .bf16) (k : Fin 192) (n : Fin 256) (N : Fin 512) (hN : N.val = 256 + n.val) :
    w1b x1 (ix2 k n) = x1 (ix2 k N) := by
  unfold w1b
  exact ld2_apply x1 _ _ _ (ix2 k n) k N (Nat.zero_add _).symm hN

/-! ## § 2  The padded maps -/

section Pad
variable {C : ℕ}

/-- A zero-haloed pair of maps read at row 58·j + u and pixel v is map j read through a zero border at (u, v). -/
theorem haloFn_pad (I1 I2 : (SI56 C).Idx → EReal) (Y : Fin 56 → Fin 56 → Fin C → EReal) (j : Fin 2)
    (hY : ∀ (a' b' : Fin 56) (c : Fin C), (if j.val = 0 then I1 else I2) (ix3 a' b' c) = Y a' b' c)
    (A : Fin 116) (B : Fin 64) (c : Fin C) (u v : ℕ) (hA : A.val = 58 * j.val + u) (hu : u ≤ 57) (hB : B.val = v) :
    haloFn I1 I2 (0 : EReal) (ix3 A B c) = padAt Y u v c := by
  have hj := j.isLt
  have hBlt := B.isLt
  unfold padAt
  by_cases hin : (1 ≤ u ∧ u ≤ 56) ∧ (1 ≤ v ∧ v ≤ 56)
  · rw [dif_pos hin]
    by_cases hj0 : j.val = 0
    · have e := hY ⟨u - 1, by omega⟩ ⟨v - 1, by omega⟩ c
      rw [if_pos hj0] at e
      rw [← e]
      exact haloFn_int1 I1 I2 0 A B c ⟨u - 1, by omega⟩ ⟨v - 1, by omega⟩ (by show A.val = 1 + (u - 1); omega)
        (by show B.val = 1 + (v - 1); omega)
    · have e := hY ⟨u - 1, by omega⟩ ⟨v - 1, by omega⟩ c
      rw [if_neg hj0] at e
      rw [← e]
      exact haloFn_int2 I1 I2 0 A B c ⟨u - 1, by omega⟩ ⟨v - 1, by omega⟩ (by show A.val = 59 + (u - 1); omega)
        (by show B.val = 1 + (v - 1); omega)
  · rw [dif_neg hin]
    exact haloFn_border I1 I2 0 A B c (by omega)

end Pad

/-! ## § 3  The staged arrays' blocks -/

section Block
variable (x : FVec Ideal Sx .f32) (w1 : FVec Ideal Sw1 .f32) (g1 b1 m1 v1 : FVec Ideal Sv .f32)
  (w2 : FVec Ideal Sw2 .f32) (g2 b2 m2 v2 : FVec Ideal Sv .f32)
  (wsc : FVec Ideal Swsc .f32) (gsc bsc msc vsc : FVec Ideal Sv .f32)

/-- The stacked scale and bias rows of the three folded normalizations. -/
noncomputable abbrev SBk : FVec Ideal S8x128 .f32 :=
  HostStages.sbRows (HostStages.foldScale g1 v1) (HostStages.foldBias g1 b1 m1 v1) (HostStages.foldScale g2 v2)
    (HostStages.foldBias g2 b2 m2 v2) (HostStages.foldScale gsc vsc) (HostStages.foldBias gsc bsc msc vsc)

/-- A folded scale is the residual block's. -/
theorem foldScale_eq (g v : FVec Ideal Sv .f32) (o : Fin 128) : HostStages.foldScale g v (ix1 o) = scale g v o :=
  HostStages.foldScale_apply g v (ix1 o)

/-- A folded bias is the residual block's. -/
theorem foldBias_eq (g b mu v : FVec Ideal Sv .f32) (o : Fin 128) : HostStages.foldBias g b mu v (ix1 o) = bias g b mu v o := by
  rw [HostStages.foldBias_apply, foldScale_eq]
  rfl

theorem SB_row0 (o : Fin 128) : SBk g1 b1 m1 v1 g2 b2 m2 v2 gsc bsc msc vsc (ix2 (0 : Fin 8) o) = scale g1 v1 o :=
  (HostStages.sbRows_row0 _ _ _ _ _ _ _ _ o).trans (foldScale_eq g1 v1 o)
theorem SB_row1 (o : Fin 128) : SBk g1 b1 m1 v1 g2 b2 m2 v2 gsc bsc msc vsc (ix2 (1 : Fin 8) o) = bias g1 b1 m1 v1 o :=
  (HostStages.sbRows_row1 _ _ _ _ _ _ _ _ o).trans (foldBias_eq g1 b1 m1 v1 o)
theorem SB_row2 (o : Fin 128) : SBk g1 b1 m1 v1 g2 b2 m2 v2 gsc bsc msc vsc (ix2 (2 : Fin 8) o) = scale g2 v2 o :=
  (HostStages.sbRows_row2 _ _ _ _ _ _ _ _ o).trans (foldScale_eq g2 v2 o)
theorem SB_row3 (o : Fin 128) : SBk g1 b1 m1 v1 g2 b2 m2 v2 gsc bsc msc vsc (ix2 (3 : Fin 8) o) = bias g2 b2 m2 v2 o :=
  (HostStages.sbRows_row3 _ _ _ _ _ _ _ _ o).trans (foldBias_eq g2 b2 m2 v2 o)
theorem SB_row4 (o : Fin 128) : SBk g1 b1 m1 v1 g2 b2 m2 v2 gsc bsc msc vsc (ix2 (4 : Fin 8) o) = scale gsc vsc o :=
  (HostStages.sbRows_row4 _ _ _ _ _ _ _ _ o).trans (foldScale_eq gsc vsc o)
theorem SB_row5 (o : Fin 128) : SBk g1 b1 m1 v1 g2 b2 m2 v2 gsc bsc msc vsc (ix2 (5 : Fin 8) o) = bias gsc bsc msc vsc o :=
  (HostStages.sbRows_row5 _ _ _ _ _ _ _ _ o).trans (foldBias_eq gsc bsc msc vsc o)

variable (x0 : Vec Ideal S2x3136x64 .bf16) (nOf : Fin 2 → Fin 32)
  (hx0 : ∀ (j : Fin 2) (q : Fin 3136) (c : Fin 64), x0 (ix3 j q c) = HostStages.xRows x (ix3 (nOf j) q c))

include hx0 in
/-- Image j of the block, viewed [56, 56, 64], is image n of the input. -/
theorem img_apply (j : Fin 2) (a' b' : Fin 56) (c : Fin 64) :
    (if j.val = 0 then
        Gen.k0_pay6 (F := Ideal) (View.ld x0 (Rect.unit (s := S2x3136x64) ![0, 0, 0] S1x3136x64.size Gen.inb_S2x3136x64_S1x3136x64_0_0_0))
      else
        Gen.k0_pay11 (F := Ideal) (View.ld x0 (Rect.unit (s := S2x3136x64) ![1, 0, 0] S1x3136x64.size Gen.inb_S2x3136x64_S1x3136x64_1_0_0)))
      (ix3 a' b' c) = x (ix4 (nOf j) c a' b') := by
  have ha := a'.isLt
  have hb := b'.isLt
  have hq : a'.val * 56 + b'.val < 3136 := by omega
  by_cases hj0 : j.val = 0
  · rw [if_pos hj0]
    have hj : j = 0 := Fin.ext hj0
    refine (Payloads.k0_pay6_apply _ a' b' c ⟨_, hq⟩ rfl).trans ?_
    refine (ld3_apply x0 _ _ _ (ix3 (0 : Fin 1) (⟨_, hq⟩ : Fin 3136) c) (0 : Fin 2) ⟨_, hq⟩ c rfl (Nat.zero_add _).symm
      (Nat.zero_add _).symm).trans ?_
    rw [← hj, hx0 j]
    exact HostStages.xRows_apply x (nOf j) ⟨_, hq⟩ c a' b' rfl
  · rw [if_neg hj0]
    have hj : j = 1 := Fin.ext (by have := j.isLt; show j.val = 1; omega)
    refine (Payloads.k0_pay11_apply _ a' b' c ⟨_, hq⟩ rfl).trans ?_
    refine (ld3_apply x0 _ _ _ (ix3 (0 : Fin 1) (⟨_, hq⟩ : Fin 3136) c) (1 : Fin 2) ⟨_, hq⟩ c rfl (Nat.zero_add _).symm
      (Nat.zero_add _).symm).trans ?_
    rw [← hj, hx0 j]
    exact HostStages.xRows_apply x (nOf j) ⟨_, hq⟩ c a' b' rfl

include hx0 in
/-- The zero-haloed input images at row 58·j + u, pixel v: the input's image n through a zero border at (u, v). -/
theorem haloX_pad (j : Fin 2) (A : Fin 116) (B : Fin 64) (c : Fin 64) (u v : ℕ) (hA : A.val = 58 * j.val + u) (hu : u ≤ 57)
    (hB : B.val = v) : haloX x0 (ix3 A B c) = padAt (fun a b c => x (ix4 (nOf j) c a b)) u v c := by
  unfold haloX
  exact haloFn_pad _ _ (fun a b c => x (ix4 (nOf j) c a b)) j (img_apply x x0 nOf hx0 j) A B c u v hA hu hB

include hx0 in
/-- The first patch matrix at row (j·56 + h)·64 + w' and column ky·64 + c: the padded input at (h + ky, w'). -/
theorem patchX_tap (j : Fin 2) (h : Fin 56) (w' : Fin 64) (ky : Fin 3) (c : Fin 64) (R : Fin 7168)
    (hR : R.val = (j.val * 56 + h.val) * 64 + w'.val) :
    patchX x0 (ix2 R (tap3 (C := 64) (K := 192) rfl ky c))
      = padAt (fun a b c => x (ix4 (nOf j) c a b)) (h.val + ky.val) w'.val c := by
  have hj := j.isLt
  have hh := h.isLt
  have hky := ky.isLt
  unfold patchX
  refine (Payloads.k0_pay12_apply (haloX x0) R _ j h w' ky c ⟨j.val * 58 + h.val + ky.val, by omega⟩ hR rfl rfl).trans ?_
  exact haloX_pad x x0 nOf hx0 j _ w' c (h.val + ky.val) w'.val (by show j.val * 58 + h.val + ky.val = _; omega) (by omega) rfl

/-! ### The laid-out weights' columns -/

/-- Column tap 0 of the first convolution: the first weight half's column o. -/
theorem W1_tap0 (ky : Fin 3) (c : Fin 64) (o : Fin 128) (n0 : Fin 256) (hn0 : n0.val = o.val) :
    Gen.k0_pay13 (F := Ideal) (w1a (HostStages.w1cat w1 wsc)) (ix2 (tap3 (C := 64) (K := 192) rfl ky c) n0)
      = w1 (ix4 o c ky (0 : Fin 3)) := by
  have ho := o.isLt
  rw [Payloads.k0_pay13_eq]
  refine (w1a_apply _ _ n0 ⟨o.val, by omega⟩ hn0.symm).trans ?_
  exact HostStages.w1cat_apply_conv w1 wsc _ _ o c ky 0 rfl (by show o.val = 0 * 128 + o.val; omega)

/-- Column tap 1: the first weight half's column 128 + o. -/
theorem W1_tap1 (ky : Fin 3) (c : Fin 64) (o : Fin 128) (n1 : Fin 256) (hn1 : n1.val = 128 + o.val) :
    Gen.k0_pay13 (F := Ideal) (w1a (HostStages.w1cat w1 wsc)) (ix2 (tap3 (C := 64) (K := 192) rfl ky c) n1)
      = w1 (ix4 o c ky (1 : Fin 3)) := by
  have ho := o.isLt
  rw [Payloads.k0_pay13_eq]
  refine (w1a_apply _ _ n1 ⟨128 + o.val, by omega⟩ hn1.symm).trans ?_
  exact HostStages.w1cat_apply_conv w1 wsc _ _ o c ky 1 rfl (by show 128 + o.val = 1 * 128 + o.val; omega)

/-- Column tap 2: the second weight half's column o. -/
theorem W1_tap2 (ky : Fin 3) (c : Fin 64) (o : Fin 128) (n0 : Fin 256) (hn0 : n0.val = o.val) :
    w1b (HostStages.w1cat w1 wsc) (ix2 (tap3 (C := 64) (K := 192) rfl ky c) n0) = w1 (ix4 o c ky (2 : Fin 3)) := by
  have ho := o.isLt
  refine (w1b_apply _ _ n0 ⟨256 + o.val, by omega⟩ (by show 256 + o.val = 256 + n0.val; omega)).trans ?_
  exact HostStages.w1cat_apply_conv w1 wsc _ _ o c ky 2 rfl (by show 256 + o.val = 2 * 128 + o.val; omega)

/-- The shortcut's column 128 + o of the second weight half: the shortcut weight at the middle row tap, zero at the
    others. -/
theorem W1_sc (ky : Fin 3) (c : Fin 64) (o : Fin 128) (n1 : Fin 256) (hn1 : n1.val = 128 + o.val) :
    w1b (HostStages.w1cat w1 wsc) (ix2 (tap3 (C := 64) (K := 192) rfl ky c) n1)
      = if ky = 1 then wsc (ix4 o c (0 : Fin 1) (0 : Fin 1)) else 0 := by
  have ho := o.isLt
  refine (w1b_apply _ _ n1 ⟨384 + o.val, by omega⟩ (by show 384 + o.val = 256 + n1.val; omega)).trans ?_
  exact HostStages.w1cat_apply_sc w1 wsc _ _ o c ky rfl rfl

/-! ## § 4  The first convolution is the hidden activation -/

include hx0 in
/-- The first convolution's result after scale, bias and maximum with zero, at row j·56 + h, pixel w, channel o, is the
    residual block's hidden activation of image n at (h, w, o): the three contractions of length 192 are the nine taps'
    sum regrouped. -/
theorem h1Of_apply (j : Fin 2) (h w : Fin 56) (o : Fin 128) (p : Fin 112) (hp : p.val = j.val * 56 + h.val) :
    h1Of x0 (HostStages.w1cat w1 wsc) (SBk g1 b1 m1 v1 g2 b2 m2 v2 gsc bsc msc vsc) (ix3 p w o)
      = hidden x w1 g1 b1 m1 v1 (nOf j) h w o := by
  have hj := j.isLt
  have hh := h.isLt
  have hw := w.isLt
  have ho := o.isLt
  have hr0 : p.val * 64 + w.val + 0 < 7168 := by omega
  have hr1 : p.val * 64 + w.val + 1 < 7168 := by omega
  have hr2 : p.val * 64 + w.val + 2 < 7168 := by omega
  have hn0 : o.val < 256 := by omega
  have hn1 : 128 + o.val < 256 := by omega
  unfold h1Of
  refine (Payloads.k0_pay16_apply _ _ _ _ _ _ p w o ⟨_, hr0⟩ ⟨_, hr1⟩ ⟨_, hr2⟩ ⟨_, hn0⟩ ⟨_, hn1⟩ rfl rfl rfl rfl rfl).trans ?_
  unfold Cert.ResBlock.hidden
  -- the zero accumulator
  have hc : ∀ i, constant (F := Ideal) S7168x256 .f32 0x00000000#32 i = 0 := fun _ => Ideal.ofBits_zero_f32
  rw [hc, hc, zero_add, zero_add]
  -- the scale and bias rows
  rw [sbRow_apply _ 0 _ (0 : Fin 1) o (0 : Fin 8) rfl, sbRow_apply _ 1 _ (0 : Fin 1) o (1 : Fin 8) rfl, SB_row0, SB_row1]
  -- the three contractions are the nine taps
  refine congrArg (fun t => max (t * scale g1 v1 o + bias g1 b1 m1 v1 o) 0) ?_
  unfold conv3
  refine sum_three_of_taps (C := 64) (K := 192) rfl
    (fun kx k => match kx with
      | ⟨0, _⟩ => patchX x0 (ix2 ⟨_, hr0⟩ k) * Gen.k0_pay13 (F := Ideal) (w1a (HostStages.w1cat w1 wsc)) (ix2 k ⟨_, hn0⟩)
      | ⟨1, _⟩ => patchX x0 (ix2 ⟨_, hr1⟩ k) * Gen.k0_pay13 (F := Ideal) (w1a (HostStages.w1cat w1 wsc)) (ix2 k ⟨_, hn1⟩)
      | ⟨2, _⟩ => patchX x0 (ix2 ⟨_, hr2⟩ k) * w1b (HostStages.w1cat w1 wsc) (ix2 k ⟨_, hn0⟩))
    (fun ky kx c => padAt (fun a b c => x (ix4 (nOf j) c a b)) (h.val + ky.val) (w.val + kx.val) c * w1 (ix4 o c ky kx)) ?_
  intro ky kx c
  match kx with
  | ⟨0, _⟩ =>
    show patchX x0 (ix2 ⟨_, hr0⟩ (tap3 rfl ky c)) * Gen.k0_pay13 (F := Ideal) (w1a (HostStages.w1cat w1 wsc)) (ix2 (tap3 rfl ky c) ⟨_, hn0⟩) = _
    rw [patchX_tap x x0 nOf hx0 j h ⟨w.val + 0, by omega⟩ ky c ⟨_, hr0⟩ (by show p.val * 64 + w.val + 0 = (j.val * 56 + h.val) * 64 + (w.val + 0); omega),
      W1_tap0 w1 wsc ky c o ⟨_, hn0⟩ rfl]
    rfl
  | ⟨1, _⟩ =>
    show patchX x0 (ix2 ⟨_, hr1⟩ (tap3 rfl ky c)) * Gen.k0_pay13 (F := Ideal) (w1a (HostStages.w1cat w1 wsc)) (ix2 (tap3 rfl ky c) ⟨_, hn1⟩) = _
    rw [patchX_tap x x0 nOf hx0 j h ⟨w.val + 1, by omega⟩ ky c ⟨_, hr1⟩ (by show p.val * 64 + w.val + 1 = (j.val * 56 + h.val) * 64 + (w.val + 1); omega),
      W1_tap1 w1 wsc ky c o ⟨_, hn1⟩ rfl]
    rfl
  | ⟨2, _⟩ =>
    show patchX x0 (ix2 ⟨_, hr2⟩ (tap3 rfl ky c)) * w1b (HostStages.w1cat w1 wsc) (ix2 (tap3 rfl ky c) ⟨_, hn0⟩) = _
    rw [patchX_tap x x0 nOf hx0 j h ⟨w.val + 2, by omega⟩ ky c ⟨_, hr2⟩ (by show p.val * 64 + w.val + 2 = (j.val * 56 + h.val) * 64 + (w.val + 2); omega),
      W1_tap2 w1 wsc ky c o ⟨_, hn0⟩ rfl]
    rfl

/-! ## § 5  The second convolution, the shortcut, and the block -/

include hx0 in
/-- The zero-haloed first convolution's result at row 58·j + u, pixel v: image n's hidden activation through a zero
    border at (u, v). -/
theorem haloH_pad (j : Fin 2) (A : Fin 116) (B : Fin 64) (c : Fin 128) (u v : ℕ) (hA : A.val = 58 * j.val + u)
    (hu : u ≤ 57) (hB : B.val = v) :
    haloH (h1Of x0 (HostStages.w1cat w1 wsc) (SBk g1 b1 m1 v1 g2 b2 m2 v2 gsc bsc msc vsc)) (ix3 A B c)
      = padAt (fun a b c => Cert.ResBlock.hidden x w1 g1 b1 m1 v1 (nOf j) a b c) u v c := by
  have hj := j.isLt
  unfold haloH
  refine haloFn_pad _ _ (fun a b c => Cert.ResBlock.hidden x w1 g1 b1 m1 v1 (nOf j) a b c) j ?_ A B c u v hA hu hB
  intro a' b' c
  have ha' := a'.isLt
  by_cases hj0 : j.val = 0
  · rw [if_pos hj0]
    refine (Payloads.k0_pay21_apply _ a' b' c ⟨a'.val, by omega⟩ rfl).trans ?_
    exact h1Of_apply x w1 g1 b1 m1 v1 g2 b2 m2 v2 wsc gsc bsc msc vsc x0 nOf hx0 j a' b' c ⟨a'.val, by omega⟩
      (by show a'.val = j.val * 56 + a'.val; omega)
  · rw [if_neg hj0]
    refine (Payloads.k0_pay26_apply _ a' b' c ⟨56 + a'.val, by omega⟩ rfl).trans ?_
    exact h1Of_apply x w1 g1 b1 m1 v1 g2 b2 m2 v2 wsc gsc bsc msc vsc x0 nOf hx0 j a' b' c ⟨56 + a'.val, by omega⟩
      (by show 56 + a'.val = j.val * 56 + a'.val; omega)

include hx0 in
/-- The second patch matrix at row (j·56 + h)·64 + w' and column ky·128 + c: the padded hidden activation at (h + ky, w'). -/
theorem patch2_tap (j : Fin 2) (h : Fin 56) (w' : Fin 64) (ky : Fin 3) (c : Fin 128) (R : Fin 7168)
    (hR : R.val = (j.val * 56 + h.val) * 64 + w'.val) :
    Payloads.patch2 (haloH (h1Of x0 (HostStages.w1cat w1 wsc) (SBk g1 b1 m1 v1 g2 b2 m2 v2 gsc bsc msc vsc)))
        (ix2 R (tap3 (C := 128) (K := 384) rfl ky c))
      = padAt (fun a b c => Cert.ResBlock.hidden x w1 g1 b1 m1 v1 (nOf j) a b c) (h.val + ky.val) w'.val c := by
  have hj := j.isLt
  have hh := h.isLt
  have hky := ky.isLt
  refine (Payloads.patch2_apply _ R _ j h w' ky c ⟨j.val * 58 + h.val + ky.val, by omega⟩ hR rfl rfl).trans ?_
  exact haloH_pad x w1 g1 b1 m1 v1 g2 b2 m2 v2 wsc gsc bsc msc vsc x0 nOf hx0 j _ w' c (h.val + ky.val) w'.val
    (by show j.val * 58 + h.val + ky.val = _; omega) (by omega) rfl

/-- Column tap 0 of the second convolution: column o of the first weight block [384, 256]. -/
theorem W2_tap0 (ky : Fin 3) (c o : Fin 128) (n0 : Fin 256) (hn0 : n0.val = o.val) :
    View.ld (Val := Elt Ideal) (e' := .bf16) (HostStages.w2cat w2)
        (Rect.unit (s := S384x384) ![0, 0] S384x256.size Gen.inb_S384x384_S384x256_0_0)
        (ix2 (tap3 (C := 128) (K := 384) rfl ky c) n0) = w2 (ix4 o c ky (0 : Fin 3)) := by
  have ho := o.isLt
  refine (ld2_apply (e' := .bf16) (HostStages.w2cat w2) _ _ _ (ix2 (tap3 (C := 128) (K := 384) rfl ky c) n0)
    (tap3 (C := 128) (K := 384) rfl ky c) ⟨o.val, by omega⟩ (Nat.zero_add _).symm (by show o.val = 0 + n0.val; omega)).trans ?_
  exact HostStages.w2cat_apply w2 _ _ o c ky 0 rfl (by show o.val = 0 * 128 + o.val; omega)

/-- Column tap 1: column 128 + o of the first weight block. -/
theorem W2_tap1 (ky : Fin 3) (c o : Fin 128) (n1 : Fin 256) (hn1 : n1.val = 128 + o.val) :
    View.ld (Val := Elt Ideal) (e' := .bf16) (HostStages.w2cat w2)
        (Rect.unit (s := S384x384) ![0, 0] S384x256.size Gen.inb_S384x384_S384x256_0_0)
        (ix2 (tap3 (C := 128) (K := 384) rfl ky c) n1) = w2 (ix4 o c ky (1 : Fin 3)) := by
  have ho := o.isLt
  refine (ld2_apply (e' := .bf16) (HostStages.w2cat w2) _ _ _ (ix2 (tap3 (C := 128) (K := 384) rfl ky c) n1)
    (tap3 (C := 128) (K := 384) rfl ky c) ⟨128 + o.val, by omega⟩ (Nat.zero_add _).symm
    (by show 128 + o.val = 0 + n1.val; omega)).trans ?_
  exact HostStages.w2cat_apply w2 _ _ o c ky 1 rfl (by show 128 + o.val = 1 * 128 + o.val; omega)

/-- Column tap 2: column o of the second weight block [384, 128], which starts at column 256. -/
theorem W2_tap2 (ky : Fin 3) (c o : Fin 128) :
    View.ld (Val := Elt Ideal) (e' := .bf16) (HostStages.w2cat w2)
        (Rect.unit (s := S384x384) ![0, 256] S384x128.size Gen.inb_S384x384_S384x128_0_256)
        (ix2 (tap3 (C := 128) (K := 384) rfl ky c) o) = w2 (ix4 o c ky (2 : Fin 3)) := by
  have ho := o.isLt
  refine (ld2_apply (e' := .bf16) (HostStages.w2cat w2) _ _ _ (ix2 (tap3 (C := 128) (K := 384) rfl ky c) o)
    (tap3 (C := 128) (K := 384) rfl ky c) ⟨256 + o.val, by omega⟩ (Nat.zero_add _).symm rfl).trans ?_
  exact HostStages.w2cat_apply w2 _ _ o c ky 2 rfl (by show 256 + o.val = 2 * 128 + o.val; omega)

/-- Inside the border the padded map is the map. -/
theorem padAt_interior {C : ℕ} (X : Fin 56 → Fin 56 → Fin C → Ideal .f32) (a' b' : Fin 56) (c : Fin C) (u v : ℕ)
    (hu : u = a'.val + 1) (hv : v = b'.val + 1) : padAt X u v c = X a' b' c := by
  have ha := a'.isLt
  have hb := b'.isLt
  unfold padAt
  rw [dif_pos (by omega)]
  have e1 : (⟨u - 1, by omega⟩ : Fin 56) = a' := Fin.ext (by show u - 1 = a'.val; omega)
  have e2 : (⟨v - 1, by omega⟩ : Fin 56) = b' := Fin.ext (by show v - 1 = b'.val; omega)
  rw [e1, e2]

include hx0 in
/-- THE STORED BLOCK IS THE RESIDUAL BLOCK'S RESULT: at image j of the point's pair, row h, pixel w, channel o, the
    block the point stores from the staged arrays' blocks is the result at image n, channel o, position (h, w). -/
theorem kernel_block_spec (j : Fin 2) (h w : Fin 56) (o : Fin 128) :
    blockOut x0 (HostStages.w1cat w1 wsc) (HostStages.w2cat w2) (SBk g1 b1 m1 v1 g2 b2 m2 v2 gsc bsc msc vsc) (ix4 j h w o)
      = result x w1 g1 b1 m1 v1 w2 g2 b2 m2 v2 wsc gsc bsc msc vsc (nOf j) o h w := by
  have hj := j.isLt
  have hh := h.isLt
  have hw := w.isLt
  have ho := o.isLt
  have hp : j.val * 56 + h.val < 112 := by omega
  have hr0 : (j.val * 56 + h.val) * 64 + w.val + 0 < 7168 := by omega
  have hr1 : (j.val * 56 + h.val) * 64 + w.val + 1 < 7168 := by omega
  have hr2 : (j.val * 56 + h.val) * 64 + w.val + 2 < 7168 := by omega
  have hn0 : o.val < 256 := by omega
  have hn1 : 128 + o.val < 256 := by omega
  unfold blockOut
  refine (Payloads.k0_pay1_apply _ _ _ _ j h w o ⟨_, hp⟩ rfl).trans ?_
  unfold Cert.ResBlock.result
  refine congrArg (fun t => max t 0) (congrArg₂ (· + ·) ?conv ?sc)
  case conv =>
    refine (Payloads.k0_pay29_apply _ _ _ _ _ ⟨_, hp⟩ w o ⟨_, hr0⟩ ⟨_, hr1⟩ ⟨_, hr2⟩ ⟨_, hn0⟩ ⟨_, hn1⟩ rfl rfl rfl rfl rfl).trans ?_
    rw [sbRow_apply _ 2 _ (0 : Fin 1) o (2 : Fin 8) rfl, sbRow_apply _ 3 _ (0 : Fin 1) o (3 : Fin 8) rfl, SB_row2, SB_row3]
    refine congrArg (fun t => t * scale g2 v2 o + bias g2 b2 m2 v2 o) ?_
    unfold conv3
    refine sum_three_of_taps (C := 128) (K := 384) rfl
      (fun kx k => match kx with
        | ⟨0, _⟩ => Payloads.patch2 (haloH (h1Of x0 (HostStages.w1cat w1 wsc) (SBk g1 b1 m1 v1 g2 b2 m2 v2 gsc bsc msc vsc))) (ix2 ⟨_, hr0⟩ k)
            * View.ld (Val := Elt Ideal) (e' := .bf16) (HostStages.w2cat w2)
                (Rect.unit (s := S384x384) ![0, 0] S384x256.size Gen.inb_S384x384_S384x256_0_0) (ix2 k ⟨_, hn0⟩)
        | ⟨1, _⟩ => Payloads.patch2 (haloH (h1Of x0 (HostStages.w1cat w1 wsc) (SBk g1 b1 m1 v1 g2 b2 m2 v2 gsc bsc msc vsc))) (ix2 ⟨_, hr1⟩ k)
            * View.ld (Val := Elt Ideal) (e' := .bf16) (HostStages.w2cat w2)
                (Rect.unit (s := S384x384) ![0, 0] S384x256.size Gen.inb_S384x384_S384x256_0_0) (ix2 k ⟨_, hn1⟩)
        | ⟨2, _⟩ => Payloads.patch2 (haloH (h1Of x0 (HostStages.w1cat w1 wsc) (SBk g1 b1 m1 v1 g2 b2 m2 v2 gsc bsc msc vsc))) (ix2 ⟨_, hr2⟩ k)
            * View.ld (Val := Elt Ideal) (e' := .bf16) (HostStages.w2cat w2)
                (Rect.unit (s := S384x384) ![0, 256] S384x128.size Gen.inb_S384x384_S384x128_0_256) (ix2 k o))
      (fun ky kx c => padAt (fun a b c => Cert.ResBlock.hidden x w1 g1 b1 m1 v1 (nOf j) a b c) (h.val + ky.val) (w.val + kx.val) c
        * w2 (ix4 o c ky kx)) ?_
    intro ky kx c
    match kx with
    | ⟨0, _⟩ =>
      show Payloads.patch2 (haloH (h1Of x0 (HostStages.w1cat w1 wsc) (SBk g1 b1 m1 v1 g2 b2 m2 v2 gsc bsc msc vsc))) (ix2 ⟨_, hr0⟩ (tap3 rfl ky c))
        * View.ld (Val := Elt Ideal) (e' := .bf16) (HostStages.w2cat w2)
          (Rect.unit (s := S384x384) ![0, 0] S384x256.size Gen.inb_S384x384_S384x256_0_0) (ix2 (tap3 rfl ky c) ⟨_, hn0⟩) = _
      rw [patch2_tap x w1 g1 b1 m1 v1 g2 b2 m2 v2 wsc gsc bsc msc vsc x0 nOf hx0 j h ⟨w.val + 0, by omega⟩ ky c ⟨_, hr0⟩
          (by show (j.val * 56 + h.val) * 64 + w.val + 0 = (j.val * 56 + h.val) * 64 + (w.val + 0); omega),
        W2_tap0 w2 ky c o ⟨_, hn0⟩ rfl]
      rfl
    | ⟨1, _⟩ =>
      show Payloads.patch2 (haloH (h1Of x0 (HostStages.w1cat w1 wsc) (SBk g1 b1 m1 v1 g2 b2 m2 v2 gsc bsc msc vsc))) (ix2 ⟨_, hr1⟩ (tap3 rfl ky c))
        * View.ld (Val := Elt Ideal) (e' := .bf16) (HostStages.w2cat w2)
          (Rect.unit (s := S384x384) ![0, 0] S384x256.size Gen.inb_S384x384_S384x256_0_0) (ix2 (tap3 rfl ky c) ⟨_, hn1⟩) = _
      rw [patch2_tap x w1 g1 b1 m1 v1 g2 b2 m2 v2 wsc gsc bsc msc vsc x0 nOf hx0 j h ⟨w.val + 1, by omega⟩ ky c ⟨_, hr1⟩
          (by show (j.val * 56 + h.val) * 64 + w.val + 1 = (j.val * 56 + h.val) * 64 + (w.val + 1); omega),
        W2_tap1 w2 ky c o ⟨_, hn1⟩ rfl]
      rfl
    | ⟨2, _⟩ =>
      show Payloads.patch2 (haloH (h1Of x0 (HostStages.w1cat w1 wsc) (SBk g1 b1 m1 v1 g2 b2 m2 v2 gsc bsc msc vsc))) (ix2 ⟨_, hr2⟩ (tap3 rfl ky c))
        * View.ld (Val := Elt Ideal) (e' := .bf16) (HostStages.w2cat w2)
          (Rect.unit (s := S384x384) ![0, 256] S384x128.size Gen.inb_S384x384_S384x128_0_256) (ix2 (tap3 rfl ky c) o) = _
      rw [patch2_tap x w1 g1 b1 m1 v1 g2 b2 m2 v2 wsc gsc bsc msc vsc x0 nOf hx0 j h ⟨w.val + 2, by omega⟩ ky c ⟨_, hr2⟩
          (by show (j.val * 56 + h.val) * 64 + w.val + 2 = (j.val * 56 + h.val) * 64 + (w.val + 2); omega),
        W2_tap2 w2 ky c o]
      rfl
  case sc =>
    unfold Cert.ResBlock.shortcut
    refine congrArg₂ (· + ·) (congrArg₂ (· * ·) ?_ ?_) ?_
    · -- the contraction of length 192 against the zero-padded shortcut weights
      refine (Payloads.k0_pay15_apply _ _ ⟨_, hp⟩ w o ⟨_, hr1⟩ ⟨_, hn1⟩ rfl rfl).trans ?_
      refine (sum_mul_center_block (C := 64) (K := 192) rfl _ _ (fun c => wsc (ix4 o c (0 : Fin 1) (0 : Fin 1)))
        (fun ky c hky => ?_) (fun c => ?_)).trans ?_
      · rw [W1_sc w1 wsc ky c o ⟨_, hn1⟩ rfl, if_neg hky]
      · rw [W1_sc w1 wsc 1 c o ⟨_, hn1⟩ rfl, if_pos rfl]
      · refine Finset.sum_congr rfl fun c _ => ?_
        rw [patchX_tap x x0 nOf hx0 j h ⟨w.val + 1, by omega⟩ 1 c ⟨_, hr1⟩
          (by show (j.val * 56 + h.val) * 64 + w.val + 1 = (j.val * 56 + h.val) * 64 + (w.val + 1); omega)]
        exact congrArg (· * wsc (ix4 o c (0 : Fin 1) (0 : Fin 1))) (padAt_interior (fun a b c => x (ix4 (nOf j) c a b)) h w c _ _ rfl rfl)
    · exact (Payloads.k0_pay27_apply _ (0 : Fin 1) (0 : Fin 1) o).trans
        ((sbRow_apply _ 4 _ (0 : Fin 1) o (4 : Fin 8) rfl).trans (SB_row4 g1 b1 m1 v1 g2 b2 m2 v2 gsc bsc msc vsc o))
    · exact (Payloads.k0_pay28_apply _ (0 : Fin 1) (0 : Fin 1) o).trans
        ((sbRow_apply _ 5 _ (0 : Fin 1) o (5 : Fin 8) rfl).trans (SB_row5 g1 b1 m1 v1 g2 b2 m2 v2 gsc bsc msc vsc o))

end Block

end Cert.KernelIdeal.BlockSpec
-- ==== Proof.RefValueRun.lean ====
import proofs.«173333_g2000300637041083_pallasbulk_292_30_alg».proof.Proof.RefFrame

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The reference program's run, every unscoped buffer read at the end

The same launch as the frame's — @main as the generated segment list over the three regions' records — but with the
last thread state read in full: every final memory holds EVERY unscoped buffer at the last valuation `V11`, so the
result `main_v82` can be named beside the arguments. -/

/-- The launch element: the pipeline library's initial rounds state, beside a unit for the unused counters. It yields
    the library's element and no further ghost resource. -/
theorem launch_elt :
    (ownU ((initOf (Pipeline.cells cfgs cellOf_inj) (Pipeline.launchToks cfgs cellOf_inj), 1) : Pipeline.UD sig nD τ) : sProp 𝕄)
      ⊢ |={Set.univ}=> iprop(BI.own ((embL : Emb _ 𝕄) (initOf (Pipeline.cells cfgs cellOf_inj) (Pipeline.launchToks cfgs cellOf_inj)))
          ∗ bigSep Finset.univ fun _ : Dev nD => (BI.emp : sProp 𝕄)) := by
  iintro Hu
  ihave Hpair := (ownU_pair _ _) $$ Hu
  icases Hpair with ⟨Hrounds, -⟩
  imodintro
  isplitl [Hrounds]; · iexact Hrounds
  iapply (show (BI.emp : sProp 𝕄) ⊢ bigSep Finset.univ (fun _ : Dev nD => (BI.emp : sProp 𝕄)) from by
    rw [BI.bigSep_emp_const])
  iempintro

/-- What rides beside the buffers ends owing nothing. -/
theorem rest_owes (c : Dev nD) :
    (rest c : sProp 𝕄) ⊢ iprop(∃ W, owes (c : Thread nD τ) (0 : CellTallies nD τ sig Unit) W) := by
  iintro ⟨-, -, Howes⟩
  iexact Howes

/-- An unscoped TensorCore reference is among the unscoped buffers. -/
theorem uc_mem (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

section Run

variable (m : (ℓ : Loc nD τ sig) → Buf (Elt F) ℓ)

set_option backward.isDefEq.respectTransparency.types false in
/-- From any memory with every counter at zero, every weakly fair execution of @main terminates without fault, and
    every final memory holds each unscoped buffer of each core at the last valuation: the launch over @main's eleven
    segments — the eight host stretches' generated segments and the three regions' records —, every thread state
    between two of them the unscoped buffers at the generated valuation beside `rest`; at the end the buffers are read
    against the final state one and all. Any property `Q` of the final memory that follows from those readings holds. -/
theorem run_all (ρ : Dev nD → PrngReg) {Q : PUnit × MemSt nD τ sig (Elt F) → Prop}
    (hQ : ∀ s : MemSt nD τ sig (Elt F),
      (∀ c : Dev nD, ∀ b ∈ Pipeline.ucRefs τ sig, s.mem ((c : Thread nD τ).1, b) = V11 m (outs m) c b) → Q (⟨⟩, s)) :
    θ_run defs (onTc (τ := τ) (main (F := F))) ⟨m, fun _ => 0, ρ⟩ Q := by
  refine Pipeline.θ_run_regions_kit_dev (pcfgs (F := F)) adm (pdats m) () cellOf_inj embL defs₀ Variants.none noPairs noLevel
    m ρ main
    (segs m (outs m) Variants.none noPairs noLevel (fun _ c => rest c) () (pdats m) (reg0 m) (reg1 m) (reg2 m))
    (fun c Q => by
      rewrite [main_chain c, Pipeline.Seg.run_eq_chain,
        show (segs m (outs m) Variants.none noPairs noLevel (fun _ c => rest c) () (pdats m) (reg0 m) (reg1 m) (reg2 m) c).map
            Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()),
          StableHlo.seq hostOps3 ] from rfl]
      exact .rfl)
    (fun c => by simp only [segs, Pipeline.Seg.pipes_host, Pipeline.Seg.pipes_region, Pipeline.Seg.pipes_nil]; decide)
    0 (fun _ _ => rfl) (fun _ => iprop(emp))
    (initOf (Pipeline.cells cfgs cellOf_inj) (Pipeline.launchToks cfgs cellOf_inj), 1) launch_elt
    (T₀ := fun c => iprop(StableHlo.held (c : Thread nD τ) (Pipeline.ucRefs τ sig) (V0 m c) ∗ rest c))
    (Tₙ := fun c => StableHlo.held (c : Thread nD τ) (Pipeline.ucRefs τ sig) (V11 m (outs m) c))
    (hch := fun c => ⟨.rfl, .rfl, .rfl, .rfl, .rfl, .rfl, .rfl, .rfl, .rfl, .rfl, .rfl, sep_mono .rfl (rest_owes c)⟩)
    (hinit := ?_)
    (QY := fun c s => ∀ b ∈ Pipeline.ucRefs τ sig, s.mem ((c : Thread nD τ).1, b) = V11 m (outs m) c b)
    (hfin := fun c s' => ?_) (hQ := hQ)
  · -- the launch, core by core: the unscoped buffers are held at the launch valuation, the rest is what is dealt
    refine Pipeline.initEach noPairs noLevel fun c => ?_
    rw [show unscopedBufs c (fun b => m ((c : Thread nD τ).loc b))
        = StableHlo.held (c : Thread nD τ) (Pipeline.ucRefs τ sig) (V0 m c) from Pipeline.unscopedBufs_held c (V0 m c)]
    iintro ⟨⟨Hbufs, Hsems, Howes, -, Hprng, -⟩, -⟩
    imodintro
    isplitl [Hbufs]; · iexact Hbufs
    isplitl [Hprng]; · iexists _; iexact Hprng
    isplitl [Hsems]; · iexact Hsems
    iexists ∅; iexact Howes
  · -- the end: each buffer held is what the final memory holds there
    iintro ⟨Hbufs, HSI⟩
    unfold StableHlo.held
    imodintro
    iapply (pointsTo_read_all (Pipeline.ucRefs τ sig) (fun b => ((c : Thread nD τ).1, b)) (V11 m (outs m) c) s')
    isplitl [Hbufs] <;> iassumption

/-- The run with the result named: every final memory holds the result `main_v82` at the last valuation and each
    argument as launched (no item of @main writes an argument). -/
theorem run_value (ρ : Dev nD → PrngReg) :
    θ_run defs (onTc (τ := τ) (main (F := F))) ⟨m, fun _ => 0, ρ⟩ (fun r => ∀ c : Dev nD,
      r.2.mem ((c.tc : Thread nD τ).loc main_v82) = V11 m (outs m) c main_v82
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_all m ρ fun s h c => ⟨h c _ (uc_mem main_v82 (by decide)),
    (h c _ (uc_mem main_arg0 (by decide))).trans (V11_main_arg0 m (outs m) c),
    (h c _ (uc_mem main_arg1 (by decide))).trans (V11_main_arg1 m (outs m) c),
    (h c _ (uc_mem main_arg2 (by decide))).trans (V11_main_arg2 m (outs m) c),
    (h c _ (uc_mem main_arg3 (by decide))).trans (V11_main_arg3 m (outs m) c),
    (h c _ (uc_mem main_arg4 (by decide))).trans (V11_main_arg4 m (outs m) c),
    (h c _ (uc_mem main_arg5 (by decide))).trans (V11_main_arg5 m (outs m) c),
    (h c _ (uc_mem main_arg6 (by decide))).trans (V11_main_arg6 m (outs m) c),
    (h c _ (uc_mem main_arg7 (by decide))).trans (V11_main_arg7 m (outs m) c),
    (h c _ (uc_mem main_arg8 (by decide))).trans (V11_main_arg8 m (outs m) c),
    (h c _ (uc_mem main_arg9 (by decide))).trans (V11_main_arg9 m (outs m) c),
    (h c _ (uc_mem main_arg10 (by decide))).trans (V11_main_arg10 m (outs m) c),
    (h c _ (uc_mem main_arg11 (by decide))).trans (V11_main_arg11 m (outs m) c),
    (h c _ (uc_mem main_arg12 (by decide))).trans (V11_main_arg12 m (outs m) c),
    (h c _ (uc_mem main_arg13 (by decide))).trans (V11_main_arg13 m (outs m) c),
    (h c _ (uc_mem main_arg14 (by decide))).trans (V11_main_arg14 m (outs m) c),
    (h c _ (uc_mem main_arg15 (by decide))).trans (V11_main_arg15 m (outs m) c)⟩

end Run

end Cert.ReferenceIdeal.Hand

end
-- ==== Proof.RefPay.lean ====
import proofs.«173333_g2000300637041083_pallasbulk_292_30_alg».proof.Proof.Gen.ReferenceIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.ReferenceIdeal.Hand

open Cert.ReferenceIdeal Cert.ReferenceIdeal.Gen
open Idealize.ShloMosaic Idealize.ShloMosaic.ValueIdx

/-! # The three kernels' stored values at an index, at the ideal values

Each kernel stores one 512×128 block: the matrix product of its first two inputs, each column scaled by the third
input's entry and shifted by the fourth's; the second kernel then clamps below at zero (its rounding to bf16 is the
identity at the ideal values); the third adds its fifth input first, then clamps. The three products differ only in
the length of the sum (64, 576, 1152). -/

/-! ## The product [512, 64] × [64, 128] at an index -/

/-- The left operand is read at the result's row … -/
theorem mmA_lhs0 (i : S512x128.Idx) (q : dot_S512x64_S64x128_S512x128_1_0_0_1_n_n.contr.Idx) : (dot_S512x64_S64x128_S512x128_1_0_0_1_n_n.lhsIdx i q 0).val = (i 0).val := by
  unfold DotDims.lhsIdx
  rw [dif_neg (show ¬(0 : Fin S512x64.rank) ∈ dot_S512x64_S64x128_S512x128_1_0_0_1_n_n.lhsBatch by decide),
    dif_pos (show (0 : Fin S512x64.rank) ∈ dot_S512x64_S64x128_S512x128_1_0_0_1_n_n.lhsNonContracting by decide)]
  rfl
/-- … and the summation index; -/
theorem mmA_lhs1 (i : S512x128.Idx) (q : dot_S512x64_S64x128_S512x128_1_0_0_1_n_n.contr.Idx) : (dot_S512x64_S64x128_S512x128_1_0_0_1_n_n.lhsIdx i q 1).val = (q ⟨0, by decide⟩).val :=
  dot_S512x64_S64x128_S512x128_1_0_0_1_n_n.lhsIdx_val_of_single rfl i q
/-- the right operand at the summation index … -/
theorem mmA_rhs0 (i : S512x128.Idx) (q : dot_S512x64_S64x128_S512x128_1_0_0_1_n_n.contr.Idx) : (dot_S512x64_S64x128_S512x128_1_0_0_1_n_n.rhsIdx i q 0).val = (q ⟨0, by decide⟩).val :=
  dot_S512x64_S64x128_S512x128_1_0_0_1_n_n.rhsIdx_val_of_single rfl i q
/-- … and the result's column. -/
theorem mmA_rhs1 (i : S512x128.Idx) (q : dot_S512x64_S64x128_S512x128_1_0_0_1_n_n.contr.Idx) : (dot_S512x64_S64x128_S512x128_1_0_0_1_n_n.rhsIdx i q 1).val = (i 1).val := by
  unfold DotDims.rhsIdx
  rw [dif_neg (show ¬(1 : Fin S64x128.rank) ∈ dot_S512x64_S64x128_S512x128_1_0_0_1_n_n.rhsBatch by decide),
    dif_pos (show (1 : Fin S64x128.rank) ∈ dot_S512x64_S64x128_S512x128_1_0_0_1_n_n.rhsNonContracting by decide)]
  rfl

/-- The product into the zero accumulator, at row `r` and column `n`: the sum over `k < 64` of the left operand at
    `(r, k)` times the right operand at `(k, n)`. -/
theorem mmA_apply (L : FVec Ideal S512x64 .bf16) (R : FVec Ideal S64x128 .bf16) (r : Fin 512) (n : Fin 128) :
    matmul dot_S512x64_S64x128_S512x128_1_0_0_1_n_n none L R (constant (F := Ideal) S512x128 .f32 0x00000000#32) (ix2 r n)
      = ∑ k : Fin 64, L (ix2 r k) * R (ix2 k n) := by
  refine (Ideal.matmul_constant_zero_apply dot_S512x64_S64x128_S512x128_1_0_0_1_n_n none L R (ix2 r n)).trans ?_
  rw [← Equiv.sum_comp (contrEquiv1 dot_S512x64_S64x128_S512x128_1_0_0_1_n_n 64 rfl rfl).symm]
  refine Finset.sum_congr rfl fun k _ => ?_
  have hk := contrEquiv1_symm_val dot_S512x64_S64x128_S512x128_1_0_0_1_n_n 64 rfl rfl k
  have el : dot_S512x64_S64x128_S512x128_1_0_0_1_n_n.lhsIdx (ix2 r n) ((contrEquiv1 dot_S512x64_S64x128_S512x128_1_0_0_1_n_n 64 rfl rfl).symm k) = ix2 r k :=
    funext fun a => Fin.ext (by
      match a with
      | ⟨0, _⟩ => exact mmA_lhs0 _ _
      | ⟨1, _⟩ => exact (mmA_lhs1 _ _).trans hk)
  have er : dot_S512x64_S64x128_S512x128_1_0_0_1_n_n.rhsIdx (ix2 r n) ((contrEquiv1 dot_S512x64_S64x128_S512x128_1_0_0_1_n_n 64 rfl rfl).symm k) = ix2 k n :=
    funext fun a => Fin.ext (by
      match a with
      | ⟨0, _⟩ => exact (mmA_rhs0 _ _).trans hk
      | ⟨1, _⟩ => exact mmA_rhs1 _ _)
  rw [el, er]

/-! ## The product [512, 576] × [576, 128] at an index -/

/-- The left operand is read at the result's row … -/
theorem mmB_lhs0 (i : S512x128.Idx) (q : dot_S512x576_S576x128_S512x128_1_0_0_1_n_n.contr.Idx) : (dot_S512x576_S576x128_S512x128_1_0_0_1_n_n.lhsIdx i q 0).val = (i 0).val := by
  unfold DotDims.lhsIdx
  rw [dif_neg (show ¬(0 : Fin S512x576.rank) ∈ dot_S512x576_S576x128_S512x128_1_0_0_1_n_n.lhsBatch by decide),
    dif_pos (show (0 : Fin S512x576.rank) ∈ dot_S512x576_S576x128_S512x128_1_0_0_1_n_n.lhsNonContracting by decide)]
  rfl
/-- … and the summation index; -/
theorem mmB_lhs1 (i : S512x128.Idx) (q : dot_S512x576_S576x128_S512x128_1_0_0_1_n_n.contr.Idx) : (dot_S512x576_S576x128_S512x128_1_0_0_1_n_n.lhsIdx i q 1).val = (q ⟨0, by decide⟩).val :=
  dot_S512x576_S576x128_S512x128_1_0_0_1_n_n.lhsIdx_val_of_single rfl i q
/-- the right operand at the summation index … -/
theorem mmB_rhs0 (i : S512x128.Idx) (q : dot_S512x576_S576x128_S512x128_1_0_0_1_n_n.contr.Idx) : (dot_S512x576_S576x128_S512x128_1_0_0_1_n_n.rhsIdx i q 0).val = (q ⟨0, by decide⟩).val :=
  dot_S512x576_S576x128_S512x128_1_0_0_1_n_n.rhsIdx_val_of_single rfl i q
/-- … and the result's column. -/
theorem mmB_rhs1 (i : S512x128.Idx) (q : dot_S512x576_S576x128_S512x128_1_0_0_1_n_n.contr.Idx) : (dot_S512x576_S576x128_S512x128_1_0_0_1_n_n.rhsIdx i q 1).val = (i 1).val := by
  unfold DotDims.rhsIdx
  rw [dif_neg (show ¬(1 : Fin S576x128.rank) ∈ dot_S512x576_S576x128_S512x128_1_0_0_1_n_n.rhsBatch by decide),
    dif_pos (show (1 : Fin S576x128.rank) ∈ dot_S512x576_S576x128_S512x128_1_0_0_1_n_n.rhsNonContracting by decide)]
  rfl

/-- The product into the zero accumulator, at row `r` and column `n`: the sum over `k < 576` of the left operand at
    `(r, k)` times the right operand at `(k, n)`. -/
theorem mmB_apply (L : FVec Ideal S512x576 .bf16) (R : FVec Ideal S576x128 .bf16) (r : Fin 512) (n : Fin 128) :
    matmul dot_S512x576_S576x128_S512x128_1_0_0_1_n_n none L R (constant (F := Ideal) S512x128 .f32 0x00000000#32) (ix2 r n)
      = ∑ k : Fin 576, L (ix2 r k) * R (ix2 k n) := by
  refine (Ideal.matmul_constant_zero_apply dot_S512x576_S576x128_S512x128_1_0_0_1_n_n none L R (ix2 r n)).trans ?_
  rw [← Equiv.sum_comp (contrEquiv1 dot_S512x576_S576x128_S512x128_1_0_0_1_n_n 576 rfl rfl).symm]
  refine Finset.sum_congr rfl fun k _ => ?_
  have hk := contrEquiv1_symm_val dot_S512x576_S576x128_S512x128_1_0_0_1_n_n 576 rfl rfl k
  have el : dot_S512x576_S576x128_S512x128_1_0_0_1_n_n.lhsIdx (ix2 r n) ((contrEquiv1 dot_S512x576_S576x128_S512x128_1_0_0_1_n_n 576 rfl rfl).symm k) = ix2 r k :=
    funext fun a => Fin.ext (by
      match a with
      | ⟨0, _⟩ => exact mmB_lhs0 _ _
      | ⟨1, _⟩ => exact (mmB_lhs1 _ _).trans hk)
  have er : dot_S512x576_S576x128_S512x128_1_0_0_1_n_n.rhsIdx (ix2 r n) ((contrEquiv1 dot_S512x576_S576x128_S512x128_1_0_0_1_n_n 576 rfl rfl).symm k) = ix2 k n :=
    funext fun a => Fin.ext (by
      match a with
      | ⟨0, _⟩ => exact (mmB_rhs0 _ _).trans hk
      | ⟨1, _⟩ => exact mmB_rhs1 _ _)
  rw [el, er]

/-! ## The product [512, 1152] × [1152, 128] at an index -/

/-- The left operand is read at the result's row … -/
theorem mmC_lhs0 (i : S512x128.Idx) (q : dot_S512x1152_S1152x128_S512x128_1_0_0_1_n_n.contr.Idx) : (dot_S512x1152_S1152x128_S512x128_1_0_0_1_n_n.lhsIdx i q 0).val = (i 0).val := by
  unfold DotDims.lhsIdx
  rw [dif_neg (show ¬(0 : Fin S512x1152.rank) ∈ dot_S512x1152_S1152x128_S512x128_1_0_0_1_n_n.lhsBatch by decide),
    dif_pos (show (0 : Fin S512x1152.rank) ∈ dot_S512x1152_S1152x128_S512x128_1_0_0_1_n_n.lhsNonContracting by decide)]
  rfl
/-- … and the summation index; -/
theorem mmC_lhs1 (i : S512x128.Idx) (q : dot_S512x1152_S1152x128_S512x128_1_0_0_1_n_n.contr.Idx) : (dot_S512x1152_S1152x128_S512x128_1_0_0_1_n_n.lhsIdx i q 1).val = (q ⟨0, by decide⟩).val :=
  dot_S512x1152_S1152x128_S512x128_1_0_0_1_n_n.lhsIdx_val_of_single rfl i q
/-- the right operand at the summation index … -/
theorem mmC_rhs0 (i : S512x128.Idx) (q : dot_S512x1152_S1152x128_S512x128_1_0_0_1_n_n.contr.Idx) : (dot_S512x1152_S1152x128_S512x128_1_0_0_1_n_n.rhsIdx i q 0).val = (q ⟨0, by decide⟩).val :=
  dot_S512x1152_S1152x128_S512x128_1_0_0_1_n_n.rhsIdx_val_of_single rfl i q
/-- … and the result's column. -/
theorem mmC_rhs1 (i : S512x128.Idx) (q : dot_S512x1152_S1152x128_S512x128_1_0_0_1_n_n.contr.Idx) : (dot_S512x1152_S1152x128_S512x128_1_0_0_1_n_n.rhsIdx i q 1).val = (i 1).val := by
  unfold DotDims.rhsIdx
  rw [dif_neg (show ¬(1 : Fin S1152x128.rank) ∈ dot_S512x1152_S1152x128_S512x128_1_0_0_1_n_n.rhsBatch by decide),
    dif_pos (show (1 : Fin S1152x128.rank) ∈ dot_S512x1152_S1152x128_S512x128_1_0_0_1_n_n.rhsNonContracting by decide)]
  rfl

/-- The product into the zero accumulator, at row `r` and column `n`: the sum over `k < 1152` of the left operand at
    `(r, k)` times the right operand at `(k, n)`. -/
theorem mmC_apply (L : FVec Ideal S512x1152 .bf16) (R : FVec Ideal S1152x128 .bf16) (r : Fin 512) (n : Fin 128) :
    matmul dot_S512x1152_S1152x128_S512x128_1_0_0_1_n_n none L R (constant (F := Ideal) S512x128 .f32 0x00000000#32) (ix2 r n)
      = ∑ k : Fin 1152, L (ix2 r k) * R (ix2 k n) := by
  refine (Ideal.matmul_constant_zero_apply dot_S512x1152_S1152x128_S512x128_1_0_0_1_n_n none L R (ix2 r n)).trans ?_
  rw [← Equiv.sum_comp (contrEquiv1 dot_S512x1152_S1152x128_S512x128_1_0_0_1_n_n 1152 rfl rfl).symm]
  refine Finset.sum_congr rfl fun k _ => ?_
  have hk := contrEquiv1_symm_val dot_S512x1152_S1152x128_S512x128_1_0_0_1_n_n 1152 rfl rfl k
  have el : dot_S512x1152_S1152x128_S512x128_1_0_0_1_n_n.lhsIdx (ix2 r n) ((contrEquiv1 dot_S512x1152_S1152x128_S512x128_1_0_0_1_n_n 1152 rfl rfl).symm k) = ix2 r k :=
    funext fun a => Fin.ext (by
      match a with
      | ⟨0, _⟩ => exact mmC_lhs0 _ _
      | ⟨1, _⟩ => exact (mmC_lhs1 _ _).trans hk)
  have er : dot_S512x1152_S1152x128_S512x128_1_0_0_1_n_n.rhsIdx (ix2 r n) ((contrEquiv1 dot_S512x1152_S1152x128_S512x128_1_0_0_1_n_n 1152 rfl rfl).symm k) = ix2 k n :=
    funext fun a => Fin.ext (by
      match a with
      | ⟨0, _⟩ => exact (mmC_rhs0 _ _).trans hk
      | ⟨1, _⟩ => exact mmC_rhs1 _ _)
  rw [el, er]

/-! ## The stored values -/

/-- The first kernel's stored value at row `p`, column `q`: the product, scaled and shifted. -/
theorem k0_pay1_apply (v0 : Vec Ideal S512x64 .bf16) (v2 : Vec Ideal S64x128 .bf16) (v5 v9 : Vec Ideal S1x128 .f32)
    (p : Fin 512) (q : Fin 128) :
    k0_pay1 v0 v2 v5 v9 (ix2 p q)
      = (∑ k : Fin 64, v0 (ix2 p k) * v2 (ix2 k q)) * v5 (ix2 (0 : Fin 1) q) + v9 (ix2 (0 : Fin 1) q) := by
  unfold k0_pay1
  simp only [shapeCast_self]
  show matmul dot_S512x64_S64x128_S512x128_1_0_0_1_n_n none v0 v2 (constant (F := Ideal) S512x128 .f32 0x00000000#32) (ix2 p q)
      * broadcastTo S512x128 v5 broadcasts_S1x128_S512x128 (ix2 p q)
      + broadcastTo S512x128 v9 broadcasts_S1x128_S512x128 (ix2 p q) = _
  rw [mmA_apply, broadcastTo_1b_ab_apply, broadcastTo_1b_ab_apply]

/-- The second kernel's stored value at row `p`, column `q`: the product, scaled and shifted, clamped below at zero. -/
theorem k1_pay1_apply (v0 : Vec Ideal S512x576 .bf16) (v2 : Vec Ideal S576x128 .bf16) (v5 v9 : Vec Ideal S1x128 .f32)
    (p : Fin 512) (q : Fin 128) :
    k1_pay1 v0 v2 v5 v9 (ix2 p q)
      = max ((∑ k : Fin 576, v0 (ix2 p k) * v2 (ix2 k q)) * v5 (ix2 (0 : Fin 1) q) + v9 (ix2 (0 : Fin 1) q)) 0 := by
  unfold k1_pay1
  simp only [shapeCast_self]
  show max (matmul dot_S512x576_S576x128_S512x128_1_0_0_1_n_n none v0 v2 (constant (F := Ideal) S512x128 .f32 0x00000000#32) (ix2 p q)
      * broadcastTo S512x128 v5 broadcasts_S1x128_S512x128 (ix2 p q)
      + broadcastTo S512x128 v9 broadcasts_S1x128_S512x128 (ix2 p q)) (Ideal.ofBits .f32 0x00000000#32) = _
  rw [mmB_apply, broadcastTo_1b_ab_apply, broadcastTo_1b_ab_apply, Ideal.ofBits_zero_f32]

/-- The third kernel's stored value at row `p`, column `q`: the product, scaled and shifted, the fifth input added,
    clamped below at zero. -/
theorem k2_pay1_apply (v0 : Vec Ideal S512x1152 .bf16) (v2 : Vec Ideal S1152x128 .bf16) (v5 v9 : Vec Ideal S1x128 .f32)
    (v13 : Vec Ideal S512x128 .f32) (p : Fin 512) (q : Fin 128) :
    k2_pay1 v0 v2 v5 v9 v13 (ix2 p q)
      = max (((∑ k : Fin 1152, v0 (ix2 p k) * v2 (ix2 k q)) * v5 (ix2 (0 : Fin 1) q) + v9 (ix2 (0 : Fin 1) q))
          + v13 (ix2 p q)) 0 := by
  unfold k2_pay1
  simp only [shapeCast_self]
  show max ((matmul dot_S512x1152_S1152x128_S512x128_1_0_0_1_n_n none v0 v2 (constant (F := Ideal) S512x128 .f32 0x00000000#32) (ix2 p q)
      * broadcastTo S512x128 v5 broadcasts_S1x128_S512x128 (ix2 p q)
      + broadcastTo S512x128 v9 broadcasts_S1x128_S512x128 (ix2 p q)) + v13 (ix2 p q)) (Ideal.ofBits .f32 0x00000000#32) = _
  rw [mmC_apply, broadcastTo_1b_ab_apply, broadcastTo_1b_ab_apply, Ideal.ofBits_zero_f32]

end Cert.ReferenceIdeal.Hand

end
-- ==== Proof.RefClosed0.lean ====
import proofs.«173333_g2000300637041083_pallasbulk_292_30_alg».proof.Proof.RefRegion0
import proofs.«173333_g2000300637041083_pallasbulk_292_30_alg».proof.Proof.RefPay
import Idealize.ShloMosaic.Lib.Pipeline.Value
import Idealize.ShloMosaic.Lib.Tactic

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.ValueIdx Idealize.SL.Sem
open Idealize.ShloMosaic.Pipeline (Dat)

/-! # The first region's result as one function of the arrays it reads

Grid point `t` works on rows `512 t … 512 t + 511` of the activations and of the result; the weights and the two rows
are whole at every point. So the block a point writes back is that block of ONE function of the arrays — at row `r`,
column `o`: the activations' row `r` times the weights' column `o`, scaled and shifted by the rows' entries at `o` — and
the 196 blocks cover the result. -/

theorem zero_off0 : (![0, 0] : Fin 2 → Nat) = fun _ => 0 := funext fun a => by fin_cases a <;> rfl

/-- The printed block-index maps of the five windows, decided over the grid: the activations and the result move with
    the point along the rows; the weights and the two rows stay. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

section Blocks

variable {F : FTy → Type} [FloatOps F]
variable (V : (c : Dev nD) → (b : Ref sig .tc) → Buf (Elt F) ((c : Thread nD τ).loc b))

/-- The activations' block at point `t` is their rows `512 t …`. -/
theorem blk0_0_at (c : Dev nD) (t : Fin cfg0.N) (y : S512x64.Idx) (i : S100352x64.Idx)
    (h0 : (i 0).val = 512 * t.val + (y 0).val) (h1 : (i 1).val = (y 1).val) :
    (blk0 V c 0 t : Vec F S512x64 .bf16) y = (V c main_v12 : S100352x64.Idx → Elt F .bf16) i := by
  obtain ⟨e0, e1, -⟩ := idx0 t
  unfold blk0
  rw [View.read_apply]
  show V c main_v12 _ = V c main_v12 _
  refine congrArg _ (funext fun a => Fin.ext ?_)
  match a with
  | ⟨0, _⟩ => show win0_0.index t 0 * 512 + 1 * (y 0).val = (i 0).val; rw [e0, h0]; omega
  | ⟨1, _⟩ => show win0_0.index t 1 * 64 + 1 * (y 1).val = (i 1).val; rw [e1, h1]; omega

/-- The weights' block is the weights. -/
theorem blk0_1_at (c : Dev nD) (t : Fin cfg0.N) (y i : S64x128.Idx)
    (h0 : (i 0).val = (y 0).val) (h1 : (i 1).val = (y 1).val) :
    (blk0 V c 1 t : Vec F S64x128 .bf16) y = (V c main_v13 : S64x128.Idx → Elt F .bf16) i := by
  obtain ⟨-, -, e0, e1, -⟩ := idx0 t
  unfold blk0
  rw [View.read_apply]
  show V c main_v13 _ = V c main_v13 _
  refine congrArg _ (funext fun a => Fin.ext ?_)
  match a with
  | ⟨0, _⟩ => show win0_1.index t 0 * 64 + 1 * (y 0).val = (i 0).val; rw [e0, h0]; omega
  | ⟨1, _⟩ => show win0_1.index t 1 * 128 + 1 * (y 1).val = (i 1).val; rw [e1, h1]; omega

/-- The scale row's block is the row. -/
theorem blk0_2_at (c : Dev nD) (t : Fin cfg0.N) (y i : S1x128.Idx)
    (h0 : (i 0).val = (y 0).val) (h1 : (i 1).val = (y 1).val) :
    (blk0 V c 2 t : Vec F S1x128 .f32) y = (V c main_v8 : S1x128.Idx → Elt F .f32) i := by
  obtain ⟨-, -, -, -, e0, e1, -⟩ := idx0 t
  unfold blk0
  rw [View.read_apply]
  show V c main_v8 _ = V c main_v8 _
  refine congrArg _ (funext fun a => Fin.ext ?_)
  match a with
  | ⟨0, _⟩ => show win0_2.index t 0 * 1 + 1 * (y 0).val = (i 0).val; rw [e0, h0]; omega
  | ⟨1, _⟩ => show win0_2.index t 1 * 128 + 1 * (y 1).val = (i 1).val; rw [e1, h1]; omega

/-- The shift row's block is the row. -/
theorem blk0_3_at (c : Dev nD) (t : Fin cfg0.N) (y i : S1x128.Idx)
    (h0 : (i 0).val = (y 0).val) (h1 : (i 1).val = (y 1).val) :
    (blk0 V c 3 t : Vec F S1x128 .f32) y = (V c main_v9 : S1x128.Idx → Elt F .f32) i := by
  obtain ⟨-, -, -, -, -, -, e0, e1, -⟩ := idx0 t
  unfold blk0
  rw [View.read_apply]
  show V c main_v9 _ = V c main_v9 _
  refine congrArg _ (funext fun a => Fin.ext ?_)
  match a with
  | ⟨0, _⟩ => show win0_3.index t 0 * 1 + 1 * (y 0).val = (i 0).val; rw [e0, h0]; omega
  | ⟨1, _⟩ => show win0_3.index t 1 * 128 + 1 * (y 1).val = (i 1).val; rw [e1, h1]; omega

end Blocks

/-! ## The closed form -/

/-- The result at row `r`, column `o`, from the arrays the region reads. -/
def conv0 (P : S100352x64.Idx → Ideal .bf16) (W : S64x128.Idx → Ideal .bf16) (s b : S1x128.Idx → Ideal .f32)
    (r : Fin 100352) (o : Fin 128) : Ideal .f32 :=
  (∑ k : Fin 64, P (ix2 r k) * W (ix2 k o)) * s (ix2 (0 : Fin 1) o) + b (ix2 (0 : Fin 1) o)

/-- The same as an array. -/
def conv0A (P : S100352x64.Idx → Ideal .bf16) (W : S64x128.Idx → Ideal .bf16) (s b : S1x128.Idx → Ideal .f32) :
    S100352x128.Idx → Ideal .f32 :=
  fun i => conv0 P W s b (i 0) (i 1)

theorem conv0A_apply (P : S100352x64.Idx → Ideal .bf16) (W : S64x128.Idx → Ideal .bf16) (s b : S1x128.Idx → Ideal .f32)
    (r : Fin 100352) (o : Fin 128) : conv0A P W s b (ix2 r o) = conv0 P W s b r o := rfl

/-- The stored value at `(p, q)` of a block whose inputs are the arrays' entries the closed form reads at row `r`. -/
theorem pay0_at (v0 : Vec Ideal S512x64 .bf16) (v2 : Vec Ideal S64x128 .bf16) (v5 v9 : Vec Ideal S1x128 .f32)
    (P : S100352x64.Idx → Ideal .bf16) (W : S64x128.Idx → Ideal .bf16)
    (s b : S1x128.Idx → Ideal .f32) (p : Fin 512) (q : Fin 128) (r : Fin 100352)
    (h0 : ∀ k : Fin 64, v0 (ix2 p k) = P (ix2 r k)) (h1 : ∀ k : Fin 64, v2 (ix2 k q) = W (ix2 k q))
    (h2 : v5 (ix2 (0 : Fin 1) q) = s (ix2 (0 : Fin 1) q)) (h3 : v9 (ix2 (0 : Fin 1) q) = b (ix2 (0 : Fin 1) q)) :
    k0_pay1 v0 v2 v5 v9 (ix2 p q) = conv0 P W s b r q := by
  rw [k0_pay1_apply, h2, h3]
  unfold conv0
  exact congrArg (fun x => x * s (ix2 (0 : Fin 1) q) + b (ix2 (0 : Fin 1) q))
    (Finset.sum_congr rfl fun k _ => by rw [h0 k, h1 k])

section Closed

variable (V : (c : Dev nD) → (b : Ref sig .tc) → Buf (Elt Ideal) ((c : Thread nD τ).loc b))

/-- What point `t` writes back is block `t` of the closed form over the arrays as the region finds them. -/
theorem flushed0 (c : Dev nD) (t : Fin cfg0.N) :
    (dat0 V c).flushed 4 t = ((cfg0.win 4).blk t).view.read (Elt Ideal)
      (conv0A (V c main_v12) (V c main_v13) (V c main_v8) (V c main_v9)) := by
  show (cfg0.win 4).cut (grid0.coords t) ((dat0 V c).after 4 t) = _
  rw [dat0_after_4]
  unfold res0
  rw [View.canon_unit_zero zero_off0]
  simp only [View.ld_unit_zero (S := S512x64) zero_off0, View.ld_unit_zero (S := S64x128) zero_off0,
    View.ld_unit_zero (S := S1x128) zero_off0]
  funext j
  obtain ⟨p, q, rfl⟩ : ∃ (p : Fin 512) (q : Fin 128), j = ix2 p q := ⟨j 0, j 1, eq_ix2 j⟩
  obtain ⟨-, -, -, -, -, -, -, -, e0, e1⟩ := idx0 t
  have ht : t.val < 196 := lt_of_lt_of_eq t.isLt (show cfg0.N = 196 from N_0)
  have hp : p.val < 512 := p.isLt
  have hr : 512 * t.val + p.val < 100352 := by omega
  have hi : ((cfg0.win 4).blk t).view.emb (ix2 p q) = (ix2 (⟨512 * t.val + p.val, hr⟩ : Fin 100352) q : S100352x128.Idx) :=
    funext fun a => Fin.ext (by
      match a with
      | ⟨0, _⟩ => show win0_4.index t 0 * 512 + 1 * p.val = 512 * t.val + p.val; rw [e0]; omega
      | ⟨1, _⟩ => show win0_4.index t 1 * 128 + 1 * q.val = q.val; rw [e1]; omega)
  refine Eq.trans ?_ (congrArg (conv0A (V c main_v12) (V c main_v13) (V c main_v8) (V c main_v9)) hi).symm
  rw [conv0A_apply]
  show k0_pay1 (blk0 V c 0 t) (blk0 V c 1 t) (blk0 V c 2 t) (blk0 V c 3 t) (ix2 p q) = _
  exact pay0_at (blk0 V c 0 t) (blk0 V c 1 t) (blk0 V c 2 t) (blk0 V c 3 t)
    (V c main_v12) (V c main_v13) (V c main_v8) (V c main_v9) p q ⟨512 * t.val + p.val, hr⟩
    (fun k => blk0_0_at V c t (ix2 p k) (ix2 (⟨512 * t.val + p.val, hr⟩ : Fin 100352) k) rfl rfl)
    (fun k => blk0_1_at V c t (ix2 k q) (ix2 k q) rfl rfl)
    (blk0_2_at V c t (ix2 (0 : Fin 1) q) (ix2 (0 : Fin 1) q) rfl rfl)
    (blk0_3_at V c t (ix2 (0 : Fin 1) q) (ix2 (0 : Fin 1) q) rfl rfl)

/-- An index of the result is in point `t`'s block iff each coordinate is in the block's range on its axis. -/
theorem mem_out0 (t : Fin cfg0.N) (i : S100352x128.Idx) :
    i ∈ ((cfg0.win 4).blk t).view.set ↔ ∀ a : Fin 2, win0_4.index t a * S512x128.size a ≤ (i a).val
      ∧ (i a).val < win0_4.index t a * S512x128.size a + S512x128.size a := by
  show i ∈ ((View.whole main_v14).slice (win0_4.rect t)).set ↔ _
  rw [View.set_slice_whole, Rect.mem_set_unit]
  exact Iff.rfl

/-- Every index of the result is in the block of the point its row falls to: row `r` in point `r / 512`'s. -/
theorem cover0 (i : S100352x128.Idx) :
    ∃ t : Fin cfg0.N, (cfg0.win 4).flush t = true ∧ i ∈ ((cfg0.win 4).blk t).view.set := by
  have h0 : (i 0).val < 100352 := (i 0).isLt
  have h1 : (i 1).val < 128 := (i 1).isLt
  have hN : cfg0.N = 196 := N_0
  refine ⟨⟨(i 0).val / 512, by rw [hN]; omega⟩, flush0_4 _, ?_⟩
  rw [mem_out0]
  obtain ⟨-, -, -, -, -, -, -, -, e0, e1⟩ := idx0 ⟨(i 0).val / 512, by rw [hN]; omega⟩
  intro a
  match a with
  | ⟨0, _⟩ =>
    show win0_4.index _ 0 * 512 ≤ (i 0).val ∧ (i 0).val < win0_4.index _ 0 * 512 + 512
    rw [e0]; show (i 0).val / 512 * 512 ≤ (i 0).val ∧ (i 0).val < (i 0).val / 512 * 512 + 512; omega
  | ⟨1, _⟩ =>
    show win0_4.index _ 1 * 128 ≤ (i 1).val ∧ (i 1).val < win0_4.index _ 1 * 128 + 128
    rw [e1]; omega

/-- So the result array ends holding the closed form of the arrays as the region finds them. -/
theorem closed0 (c : Dev nD) :
    (dat0 V c).arrAt 4 cfg0.N = conv0A (V c main_v12) (V c main_v13) (V c main_v8) (V c main_v9) :=
  (dat0 V c).arrAt_eq_of_cover 4 _ (fun t _ => flushed0 V c t) cover0

end Closed

end Cert.ReferenceIdeal.Hand

end
-- ==== Proof.RefClosed1.lean ====
import proofs.«173333_g2000300637041083_pallasbulk_292_30_alg».proof.Proof.RefRegion1
import proofs.«173333_g2000300637041083_pallasbulk_292_30_alg».proof.Proof.RefPay
import Idealize.ShloMosaic.Lib.Pipeline.Value
import Idealize.ShloMosaic.Lib.Tactic

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.ValueIdx Idealize.SL.Sem
open Idealize.ShloMosaic.Pipeline (Dat)

/-! # The second region's result as one function of the arrays it reads

Grid point `t` works on rows `512 t … 512 t + 511` of the patch matrix and of the result; the weights and the two rows
are whole at every point. So the block a point writes back is that block of ONE function of the arrays — at row `r`,
column `o`: the patches' row `r` times the weights' column `o`, scaled and shifted by the rows' entries at `o`, clamped
below at zero — and the 196 blocks cover the result. -/

theorem zero_off1 : (![0, 0] : Fin 2 → Nat) = fun _ => 0 := funext fun a => by fin_cases a <;> rfl

/-- The printed block-index maps of the five windows, decided over the grid: the patches and the result move with the
    point along the rows; the weights and the two rows stay. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section Blocks

variable {F : FTy → Type} [FloatOps F]
variable (V : (c : Dev nD) → (b : Ref sig .tc) → Buf (Elt F) ((c : Thread nD τ).loc b))

/-- The patches' block at point `t` is rows `512 t …` of the patch matrix. -/
theorem blk1_0_at (c : Dev nD) (t : Fin cfg1.N) (y : S512x576.Idx) (i : S100352x576.Idx)
    (h0 : (i 0).val = 512 * t.val + (y 0).val) (h1 : (i 1).val = (y 1).val) :
    (blk1 V c 0 t : Vec F S512x576 .bf16) y = (V c main_v45 : S100352x576.Idx → Elt F .bf16) i := by
  obtain ⟨e0, e1, -⟩ := idx1 t
  unfold blk1
  rw [View.read_apply]
  show V c main_v45 _ = V c main_v45 _
  refine congrArg _ (funext fun a => Fin.ext ?_)
  match a with
  | ⟨0, _⟩ => show win1_0.index t 0 * 512 + 1 * (y 0).val = (i 0).val; rw [e0, h0]; omega
  | ⟨1, _⟩ => show win1_0.index t 1 * 576 + 1 * (y 1).val = (i 1).val; rw [e1, h1]; omega

/-- The weights' block is the weights. -/
theorem blk1_1_at (c : Dev nD) (t : Fin cfg1.N) (y i : S576x128.Idx)
    (h0 : (i 0).val = (y 0).val) (h1 : (i 1).val = (y 1).val) :
    (blk1 V c 1 t : Vec F S576x128 .bf16) y = (V c main_v46 : S576x128.Idx → Elt F .bf16) i := by
  obtain ⟨-, -, e0, e1, -⟩ := idx1 t
  unfold blk1
  rw [View.read_apply]
  show V c main_v46 _ = V c main_v46 _
  refine congrArg _ (funext fun a => Fin.ext ?_)
  match a with
  | ⟨0, _⟩ => show win1_1.index t 0 * 576 + 1 * (y 0).val = (i 0).val; rw [e0, h0]; omega
  | ⟨1, _⟩ => show win1_1.index t 1 * 128 + 1 * (y 1).val = (i 1).val; rw [e1, h1]; omega

/-- The scale row's block is the row. -/
theorem blk1_2_at (c : Dev nD) (t : Fin cfg1.N) (y i : S1x128.Idx)
    (h0 : (i 0).val = (y 0).val) (h1 : (i 1).val = (y 1).val) :
    (blk1 V c 2 t : Vec F S1x128 .f32) y = (V c main_v41 : S1x128.Idx → Elt F .f32) i := by
  obtain ⟨-, -, -, -, e0, e1, -⟩ := idx1 t
  unfold blk1
  rw [View.read_apply]
  show V c main_v41 _ = V c main_v41 _
  refine congrArg _ (funext fun a => Fin.ext ?_)
  match a with
  | ⟨0, _⟩ => show win1_2.index t 0 * 1 + 1 * (y 0).val = (i 0).val; rw [e0, h0]; omega
  | ⟨1, _⟩ => show win1_2.index t 1 * 128 + 1 * (y 1).val = (i 1).val; rw [e1, h1]; omega

/-- The shift row's block is the row. -/
theorem blk1_3_at (c : Dev nD) (t : Fin cfg1.N) (y i : S1x128.Idx)
    (h0 : (i 0).val = (y 0).val) (h1 : (i 1).val = (y 1).val) :
    (blk1 V c 3 t : Vec F S1x128 .f32) y = (V c main_v42 : S1x128.Idx → Elt F .f32) i := by
  obtain ⟨-, -, -, -, -, -, e0, e1, -⟩ := idx1 t
  unfold blk1
  rw [View.read_apply]
  show V c main_v42 _ = V c main_v42 _
  refine congrArg _ (funext fun a => Fin.ext ?_)
  match a with
  | ⟨0, _⟩ => show win1_3.index t 0 * 1 + 1 * (y 0).val = (i 0).val; rw [e0, h0]; omega
  | ⟨1, _⟩ => show win1_3.index t 1 * 128 + 1 * (y 1).val = (i 1).val; rw [e1, h1]; omega

end Blocks

/-! ## The closed form -/

/-- The result at row `r`, column `o`, from the arrays the region reads. -/
def conv1 (P : S100352x576.Idx → Ideal .bf16) (W : S576x128.Idx → Ideal .bf16) (s b : S1x128.Idx → Ideal .f32)
    (r : Fin 100352) (o : Fin 128) : Ideal .bf16 :=
  max ((∑ k : Fin 576, P (ix2 r k) * W (ix2 k o)) * s (ix2 (0 : Fin 1) o) + b (ix2 (0 : Fin 1) o)) 0

/-- The same as an array. -/
def conv1A (P : S100352x576.Idx → Ideal .bf16) (W : S576x128.Idx → Ideal .bf16) (s b : S1x128.Idx → Ideal .f32) :
    S100352x128.Idx → Ideal .bf16 :=
  fun i => conv1 P W s b (i 0) (i 1)

theorem conv1A_apply (P : S100352x576.Idx → Ideal .bf16) (W : S576x128.Idx → Ideal .bf16) (s b : S1x128.Idx → Ideal .f32)
    (r : Fin 100352) (o : Fin 128) : conv1A P W s b (ix2 r o) = conv1 P W s b r o := rfl

/-- The stored value at `(p, q)` of a block whose inputs are the arrays' entries the closed form reads at row `r`. -/
theorem pay1_at (v0 : Vec Ideal S512x576 .bf16) (v2 : Vec Ideal S576x128 .bf16) (v5 v9 : Vec Ideal S1x128 .f32)
    (P : S100352x576.Idx → Ideal .bf16) (W : S576x128.Idx → Ideal .bf16)
    (s b : S1x128.Idx → Ideal .f32) (p : Fin 512) (q : Fin 128) (r : Fin 100352)
    (h0 : ∀ k : Fin 576, v0 (ix2 p k) = P (ix2 r k)) (h1 : ∀ k : Fin 576, v2 (ix2 k q) = W (ix2 k q))
    (h2 : v5 (ix2 (0 : Fin 1) q) = s (ix2 (0 : Fin 1) q)) (h3 : v9 (ix2 (0 : Fin 1) q) = b (ix2 (0 : Fin 1) q)) :
    k1_pay1 v0 v2 v5 v9 (ix2 p q) = conv1 P W s b r q := by
  rw [k1_pay1_apply, h2, h3]
  unfold conv1
  exact congrArg (fun x => max (x * s (ix2 (0 : Fin 1) q) + b (ix2 (0 : Fin 1) q)) 0)
    (Finset.sum_congr rfl fun k _ => by rw [h0 k, h1 k])

section Closed

variable (V : (c : Dev nD) → (b : Ref sig .tc) → Buf (Elt Ideal) ((c : Thread nD τ).loc b))

/-- What point `t` writes back is block `t` of the closed form over the arrays as the region finds them. -/
theorem flushed1 (c : Dev nD) (t : Fin cfg1.N) :
    (dat1 V c).flushed 4 t = ((cfg1.win 4).blk t).view.read (Elt Ideal)
      (conv1A (V c main_v45) (V c main_v46) (V c main_v41) (V c main_v42)) := by
  show (cfg1.win 4).cut (grid1.coords t) ((dat1 V c).after 4 t) = _
  rw [dat1_after_4]
  unfold res1
  rw [View.canon_unit_zero zero_off1]
  simp only [View.ld_unit_zero (S := S512x576) zero_off1, View.ld_unit_zero (S := S576x128) zero_off1,
    View.ld_unit_zero (S := S1x128) zero_off1]
  funext j
  obtain ⟨p, q, rfl⟩ : ∃ (p : Fin 512) (q : Fin 128), j = ix2 p q := ⟨j 0, j 1, eq_ix2 j⟩
  obtain ⟨-, -, -, -, -, -, -, -, e0, e1⟩ := idx1 t
  have ht : t.val < 196 := lt_of_lt_of_eq t.isLt (show cfg1.N = 196 from N_1)
  have hp : p.val < 512 := p.isLt
  have hr : 512 * t.val + p.val < 100352 := by omega
  have hi : ((cfg1.win 4).blk t).view.emb (ix2 p q) = (ix2 (⟨512 * t.val + p.val, hr⟩ : Fin 100352) q : S100352x128.Idx) :=
    funext fun a => Fin.ext (by
      match a with
      | ⟨0, _⟩ => show win1_4.index t 0 * 512 + 1 * p.val = 512 * t.val + p.val; rw [e0]; omega
      | ⟨1, _⟩ => show win1_4.index t 1 * 128 + 1 * q.val = q.val; rw [e1]; omega)
  refine Eq.trans ?_ (congrArg (conv1A (V c main_v45) (V c main_v46) (V c main_v41) (V c main_v42)) hi).symm
  rw [conv1A_apply]
  show k1_pay1 (blk1 V c 0 t) (blk1 V c 1 t) (blk1 V c 2 t) (blk1 V c 3 t) (ix2 p q) = _
  exact pay1_at (blk1 V c 0 t) (blk1 V c 1 t) (blk1 V c 2 t) (blk1 V c 3 t)
    (V c main_v45) (V c main_v46) (V c main_v41) (V c main_v42) p q ⟨512 * t.val + p.val, hr⟩
    (fun k => blk1_0_at V c t (ix2 p k) (ix2 (⟨512 * t.val + p.val, hr⟩ : Fin 100352) k) rfl rfl)
    (fun k => blk1_1_at V c t (ix2 k q) (ix2 k q) rfl rfl)
    (blk1_2_at V c t (ix2 (0 : Fin 1) q) (ix2 (0 : Fin 1) q) rfl rfl)
    (blk1_3_at V c t (ix2 (0 : Fin 1) q) (ix2 (0 : Fin 1) q) rfl rfl)

/-- An index of the result is in point `t`'s block iff each coordinate is in the block's range on its axis. -/
theorem mem_out1 (t : Fin cfg1.N) (i : S100352x128.Idx) :
    i ∈ ((cfg1.win 4).blk t).view.set ↔ ∀ a : Fin 2, win1_4.index t a * S512x128.size a ≤ (i a).val
      ∧ (i a).val < win1_4.index t a * S512x128.size a + S512x128.size a := by
  show i ∈ ((View.whole main_v47).slice (win1_4.rect t)).set ↔ _
  rw [View.set_slice_whole, Rect.mem_set_unit]
  exact Iff.rfl

/-- Every index of the result is in the block of the point its row falls to: row `r` in point `r / 512`'s. -/
theorem cover1 (i : S100352x128.Idx) :
    ∃ t : Fin cfg1.N, (cfg1.win 4).flush t = true ∧ i ∈ ((cfg1.win 4).blk t).view.set := by
  have h0 : (i 0).val < 100352 := (i 0).isLt
  have h1 : (i 1).val < 128 := (i 1).isLt
  have hN : cfg1.N = 196 := N_1
  refine ⟨⟨(i 0).val / 512, by rw [hN]; omega⟩, flush1_4 _, ?_⟩
  rw [mem_out1]
  obtain ⟨-, -, -, -, -, -, -, -, e0, e1⟩ := idx1 ⟨(i 0).val / 512, by rw [hN]; omega⟩
  intro a
  match a with
  | ⟨0, _⟩ =>
    show win1_4.index _ 0 * 512 ≤ (i 0).val ∧ (i 0).val < win1_4.index _ 0 * 512 + 512
    rw [e0]; show (i 0).val / 512 * 512 ≤ (i 0).val ∧ (i 0).val < (i 0).val / 512 * 512 + 512; omega
  | ⟨1, _⟩ =>
    show win1_4.index _ 1 * 128 ≤ (i 1).val ∧ (i 1).val < win1_4.index _ 1 * 128 + 128
    rw [e1]; omega

/-- So the result array ends holding the closed form of the arrays as the region finds them. -/
theorem closed1 (c : Dev nD) :
    (dat1 V c).arrAt 4 cfg1.N = conv1A (V c main_v45) (V c main_v46) (V c main_v41) (V c main_v42) :=
  (dat1 V c).arrAt_eq_of_cover 4 _ (fun t _ => flushed1 V c t) cover1

end Closed

end Cert.ReferenceIdeal.Hand

end
-- ==== Proof.RefClosed2.lean ====
import proofs.«173333_g2000300637041083_pallasbulk_292_30_alg».proof.Proof.RefRegion2
import proofs.«173333_g2000300637041083_pallasbulk_292_30_alg».proof.Proof.RefPay
import Idealize.ShloMosaic.Lib.Pipeline.Value
import Idealize.ShloMosaic.Lib.Tactic

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.ValueIdx Idealize.SL.Sem
open Idealize.ShloMosaic.Pipeline (Dat)

/-! # The third region's result as one function of the arrays it reads

Grid point `t` works on rows `512 t … 512 t + 511`: of the patch matrix, of the added array and of the result; the
weights and the two rows are whole at every point. So the block a point writes back is that block of ONE function of
the arrays — at row `r`, column `o`: the patches' row `r` times the weights' column `o`, scaled and shifted by the
rows' entries at `o`, the added array's entry added, clamped below at zero — and the 196 blocks cover the result. -/

theorem zero_off2 : (![0, 0] : Fin 2 → Nat) = fun _ => 0 := funext fun a => by fin_cases a <;> rfl

/-- The printed block-index maps of the six windows, decided over the grid: the patches, the added array and the result
    move with the point along the rows; the weights and the two rows stay. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

section Blocks

variable {F : FTy → Type} [FloatOps F]
variable (V : (c : Dev nD) → (b : Ref sig .tc) → Buf (Elt F) ((c : Thread nD τ).loc b))

/-- The patches' block at point `t` is rows `512 t …` of the patch matrix. -/
theorem blk2_0_at (c : Dev nD) (t : Fin cfg2.N) (y : S512x1152.Idx) (i : S100352x1152.Idx)
    (h0 : (i 0).val = 512 * t.val + (y 0).val) (h1 : (i 1).val = (y 1).val) :
    (blk2 V c 0 t : Vec F S512x1152 .bf16) y = (V c main_v68 : S100352x1152.Idx → Elt F .bf16) i := by
  obtain ⟨e0, e1, -⟩ := idx2 t
  unfold blk2
  rw [View.read_apply]
  show V c main_v68 _ = V c main_v68 _
  refine congrArg _ (funext fun a => Fin.ext ?_)
  match a with
  | ⟨0, _⟩ => show win2_0.index t 0 * 512 + 1 * (y 0).val = (i 0).val; rw [e0, h0]; omega
  | ⟨1, _⟩ => show win2_0.index t 1 * 1152 + 1 * (y 1).val = (i 1).val; rw [e1, h1]; omega

/-- The weights' block is the weights. -/
theorem blk2_1_at (c : Dev nD) (t : Fin cfg2.N) (y i : S1152x128.Idx)
    (h0 : (i 0).val = (y 0).val) (h1 : (i 1).val = (y 1).val) :
    (blk2 V c 1 t : Vec F S1152x128 .bf16) y = (V c main_v79 : S1152x128.Idx → Elt F .bf16) i := by
  obtain ⟨-, -, e0, e1, -⟩ := idx2 t
  unfold blk2
  rw [View.read_apply]
  show V c main_v79 _ = V c main_v79 _
  refine congrArg _ (funext fun a => Fin.ext ?_)
  match a with
  | ⟨0, _⟩ => show win2_1.index t 0 * 1152 + 1 * (y 0).val = (i 0).val; rw [e0, h0]; omega
  | ⟨1, _⟩ => show win2_1.index t 1 * 128 + 1 * (y 1).val = (i 1).val; rw [e1, h1]; omega

/-- The scale row's block is the row. -/
theorem blk2_2_at (c : Dev nD) (t : Fin cfg2.N) (y i : S1x128.Idx)
    (h0 : (i 0).val = (y 0).val) (h1 : (i 1).val = (y 1).val) :
    (blk2 V c 2 t : Vec F S1x128 .f32) y = (V c main_v75 : S1x128.Idx → Elt F .f32) i := by
  obtain ⟨-, -, -, -, e0, e1, -⟩ := idx2 t
  unfold blk2
  rw [View.read_apply]
  show V c main_v75 _ = V c main_v75 _
  refine congrArg _ (funext fun a => Fin.ext ?_)
  match a with
  | ⟨0, _⟩ => show win2_2.index t 0 * 1 + 1 * (y 0).val = (i 0).val; rw [e0, h0]; omega
  | ⟨1, _⟩ => show win2_2.index t 1 * 128 + 1 * (y 1).val = (i 1).val; rw [e1, h1]; omega

/-- The shift row's block is the row. -/
theorem blk2_3_at (c : Dev nD) (t : Fin cfg2.N) (y i : S1x128.Idx)
    (h0 : (i 0).val = (y 0).val) (h1 : (i 1).val = (y 1).val) :
    (blk2 V c 3 t : Vec F S1x128 .f32) y = (V c main_v76 : S1x128.Idx → Elt F .f32) i := by
  obtain ⟨-, -, -, -, -, -, e0, e1, -⟩ := idx2 t
  unfold blk2
  rw [View.read_apply]
  show V c main_v76 _ = V c main_v76 _
  refine congrArg _ (funext fun a => Fin.ext ?_)
  match a with
  | ⟨0, _⟩ => show win2_3.index t 0 * 1 + 1 * (y 0).val = (i 0).val; rw [e0, h0]; omega
  | ⟨1, _⟩ => show win2_3.index t 1 * 128 + 1 * (y 1).val = (i 1).val; rw [e1, h1]; omega

/-- The added array's block at point `t` is its rows `512 t …`. -/
theorem blk2_4_at (c : Dev nD) (t : Fin cfg2.N) (y : S512x128.Idx) (i : S100352x128.Idx)
    (h0 : (i 0).val = 512 * t.val + (y 0).val) (h1 : (i 1).val = (y 1).val) :
    (blk2 V c 4 t : Vec F S512x128 .f32) y = (V c main_v14 : S100352x128.Idx → Elt F .f32) i := by
  obtain ⟨-, -, -, -, -, -, -, -, e0, e1, -⟩ := idx2 t
  unfold blk2
  rw [View.read_apply]
  show V c main_v14 _ = V c main_v14 _
  refine congrArg _ (funext fun a => Fin.ext ?_)
  match a with
  | ⟨0, _⟩ => show win2_4.index t 0 * 512 + 1 * (y 0).val = (i 0).val; rw [e0, h0]; omega
  | ⟨1, _⟩ => show win2_4.index t 1 * 128 + 1 * (y 1).val = (i 1).val; rw [e1, h1]; omega

end Blocks

/-! ## The closed form -/

/-- The result at row `r`, column `o`, from the arrays the region reads. -/
def conv2 (P : S100352x1152.Idx → Ideal .bf16) (W : S1152x128.Idx → Ideal .bf16) (s b : S1x128.Idx → Ideal .f32)
    (R : S100352x128.Idx → Ideal .f32) (r : Fin 100352) (o : Fin 128) : Ideal .f32 :=
  max (((∑ k : Fin 1152, P (ix2 r k) * W (ix2 k o)) * s (ix2 (0 : Fin 1) o) + b (ix2 (0 : Fin 1) o)) + R (ix2 r o)) 0

/-- The same as an array. -/
def conv2A (P : S100352x1152.Idx → Ideal .bf16) (W : S1152x128.Idx → Ideal .bf16) (s b : S1x128.Idx → Ideal .f32)
    (R : S100352x128.Idx → Ideal .f32) : S100352x128.Idx → Ideal .f32 :=
  fun i => conv2 P W s b R (i 0) (i 1)

theorem conv2A_apply (P : S100352x1152.Idx → Ideal .bf16) (W : S1152x128.Idx → Ideal .bf16) (s b : S1x128.Idx → Ideal .f32)
    (R : S100352x128.Idx → Ideal .f32) (r : Fin 100352) (o : Fin 128) :
    conv2A P W s b R (ix2 r o) = conv2 P W s b R r o := rfl

/-- The stored value at `(p, q)` of a block whose inputs are the arrays' entries the closed form reads at row `r`. -/
theorem pay2_at (v0 : Vec Ideal S512x1152 .bf16) (v2 : Vec Ideal S1152x128 .bf16) (v5 v9 : Vec Ideal S1x128 .f32)
    (v13 : Vec Ideal S512x128 .f32) (P : S100352x1152.Idx → Ideal .bf16) (W : S1152x128.Idx → Ideal .bf16)
    (s b : S1x128.Idx → Ideal .f32) (R : S100352x128.Idx → Ideal .f32) (p : Fin 512) (q : Fin 128) (r : Fin 100352)
    (h0 : ∀ k : Fin 1152, v0 (ix2 p k) = P (ix2 r k)) (h1 : ∀ k : Fin 1152, v2 (ix2 k q) = W (ix2 k q))
    (h2 : v5 (ix2 (0 : Fin 1) q) = s (ix2 (0 : Fin 1) q)) (h3 : v9 (ix2 (0 : Fin 1) q) = b (ix2 (0 : Fin 1) q))
    (h4 : v13 (ix2 p q) = R (ix2 r q)) :
    k2_pay1 v0 v2 v5 v9 v13 (ix2 p q) = conv2 P W s b R r q := by
  rw [k2_pay1_apply, h2, h3, h4]
  unfold conv2
  exact congrArg (fun x => max ((x * s (ix2 (0 : Fin 1) q) + b (ix2 (0 : Fin 1) q)) + R (ix2 r q)) 0)
    (Finset.sum_congr rfl fun k _ => by rw [h0 k, h1 k])

section Closed

variable (V : (c : Dev nD) → (b : Ref sig .tc) → Buf (Elt Ideal) ((c : Thread nD τ).loc b))

/-- What point `t` writes back is block `t` of the closed form over the arrays as the region finds them. -/
theorem flushed2 (c : Dev nD) (t : Fin cfg2.N) :
    (dat2 V c).flushed 5 t = ((cfg2.win 5).blk t).view.read (Elt Ideal)
      (conv2A (V c main_v68) (V c main_v79) (V c main_v75) (V c main_v76) (V c main_v14)) := by
  show (cfg2.win 5).cut (grid2.coords t) ((dat2 V c).after 5 t) = _
  rw [dat2_after_5]
  unfold res2
  rw [View.canon_unit_zero zero_off2]
  simp only [View.ld_unit_zero (S := S512x1152) zero_off2, View.ld_unit_zero (S := S1152x128) zero_off2,
    View.ld_unit_zero (S := S1x128) zero_off2, View.ld_unit_zero (S := S512x128) zero_off2]
  funext j
  obtain ⟨p, q, rfl⟩ : ∃ (p : Fin 512) (q : Fin 128), j = ix2 p q := ⟨j 0, j 1, eq_ix2 j⟩
  obtain ⟨-, -, -, -, -, -, -, -, -, -, e0, e1⟩ := idx2 t
  have ht : t.val < 196 := lt_of_lt_of_eq t.isLt (show cfg2.N = 196 from N_2)
  have hp : p.val < 512 := p.isLt
  -- the array row this element sits at
  have hr : 512 * t.val + p.val < 100352 := by omega
  have hi : ((cfg2.win 5).blk t).view.emb (ix2 p q) = (ix2 (⟨512 * t.val + p.val, hr⟩ : Fin 100352) q : S100352x128.Idx) :=
    funext fun a => Fin.ext (by
      match a with
      | ⟨0, _⟩ => show win2_5.index t 0 * 512 + 1 * p.val = 512 * t.val + p.val; rw [e0]; omega
      | ⟨1, _⟩ => show win2_5.index t 1 * 128 + 1 * q.val = q.val; rw [e1]; omega)
  refine Eq.trans ?_ (congrArg (conv2A (V c main_v68) (V c main_v79) (V c main_v75) (V c main_v76) (V c main_v14)) hi).symm
  rw [conv2A_apply]
  show k2_pay1 (blk2 V c 0 t) (blk2 V c 1 t) (blk2 V c 2 t) (blk2 V c 3 t) (blk2 V c 4 t) (ix2 p q) = _
  exact pay2_at (blk2 V c 0 t) (blk2 V c 1 t) (blk2 V c 2 t) (blk2 V c 3 t) (blk2 V c 4 t)
    (V c main_v68) (V c main_v79) (V c main_v75) (V c main_v76) (V c main_v14) p q ⟨512 * t.val + p.val, hr⟩
    (fun k => blk2_0_at V c t (ix2 p k) (ix2 (⟨512 * t.val + p.val, hr⟩ : Fin 100352) k) rfl rfl)
    (fun k => blk2_1_at V c t (ix2 k q) (ix2 k q) rfl rfl)
    (blk2_2_at V c t (ix2 (0 : Fin 1) q) (ix2 (0 : Fin 1) q) rfl rfl)
    (blk2_3_at V c t (ix2 (0 : Fin 1) q) (ix2 (0 : Fin 1) q) rfl rfl)
    (blk2_4_at V c t (ix2 p q) (ix2 (⟨512 * t.val + p.val, hr⟩ : Fin 100352) q) rfl rfl)

/-- An index of the result is in point `t`'s block iff each coordinate is in the block's range on its axis. -/
theorem mem_out2 (t : Fin cfg2.N) (i : S100352x128.Idx) :
    i ∈ ((cfg2.win 5).blk t).view.set ↔ ∀ a : Fin 2, win2_5.index t a * S512x128.size a ≤ (i a).val
      ∧ (i a).val < win2_5.index t a * S512x128.size a + S512x128.size a := by
  show i ∈ ((View.whole main_v80).slice (win2_5.rect t)).set ↔ _
  rw [View.set_slice_whole, Rect.mem_set_unit]
  exact Iff.rfl

/-- Every index of the result is in the block of the point its row falls to: row `r` in point `r / 512`'s. -/
theorem cover2 (i : S100352x128.Idx) :
    ∃ t : Fin cfg2.N, (cfg2.win 5).flush t = true ∧ i ∈ ((cfg2.win 5).blk t).view.set := by
  have h0 : (i 0).val < 100352 := (i 0).isLt
  have h1 : (i 1).val < 128 := (i 1).isLt
  have hN : cfg2.N = 196 := N_2
  refine ⟨⟨(i 0).val / 512, by rw [hN]; omega⟩, flush2_5 _, ?_⟩
  rw [mem_out2]
  obtain ⟨-, -, -, -, -, -, -, -, -, -, e0, e1⟩ := idx2 ⟨(i 0).val / 512, by rw [hN]; omega⟩
  intro a
  match a with
  | ⟨0, _⟩ =>
    show win2_5.index _ 0 * 512 ≤ (i 0).val ∧ (i 0).val < win2_5.index _ 0 * 512 + 512
    rw [e0]; show (i 0).val / 512 * 512 ≤ (i 0).val ∧ (i 0).val < (i 0).val / 512 * 512 + 512; omega
  | ⟨1, _⟩ =>
    show win2_5.index _ 1 * 128 ≤ (i 1).val ∧ (i 1).val < win2_5.index _ 1 * 128 + 128
    rw [e1]; omega

/-- So the result array ends holding the closed form of the arrays as the region finds them. -/
theorem closed2 (c : Dev nD) :
    (dat2 V c).arrAt 5 cfg2.N = conv2A (V c main_v68) (V c main_v79) (V c main_v75) (V c main_v76) (V c main_v14) :=
  (dat2 V c).arrAt_eq_of_cover 5 _ (fun t _ => flushed2 V c t) cover2

end Closed

end Cert.ReferenceIdeal.Hand

end
-- ==== Proof.RefResult.lean ====
import proofs.«173333_g2000300637041083_pallasbulk_292_30_alg».proof.Proof.RefFrame
import proofs.«173333_g2000300637041083_pallasbulk_292_30_alg».proof.Proof.RefClosed0
import proofs.«173333_g2000300637041083_pallasbulk_292_30_alg».proof.Proof.RefClosed1
import proofs.«173333_g2000300637041083_pallasbulk_292_30_alg».proof.Proof.RefClosed2
import Idealize.ShloMosaic.Lib.ValueIdx
import Idealize.ShloMosaic.Lib.Tactic
import Idealize.ShloMosaic.Lib.StableHlo.Run

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.ValueIdx Idealize.SL.Sem
open Idealize.ShloMosaic.Pipeline (Dat)

/-! # The reference's result, stage by stage

The result `main_v82` at the end of @main is region 2's result `main_v80` reshaped and its axes permuted; each
region's result is the closed form of the arrays that region is entered with; and region 2's added array is region
0's result, which nothing in between writes. -/

section AnyInstance

variable {F : FTy → Type} [FloatOps F]
variable (m : (ℓ : Loc nD τ sig) → Buf (Elt F) ℓ)

/-- The result `main_v82` at the end: region 2's result, reshaped to [32, 56, 56, 128] and its axes permuted to
    [32, 128, 56, 56] by the last host stretch. -/
theorem V11_result (c : Dev nD) :
    (V11 m (outs m) c main_v82 : S32x128x56x56.Idx → Elt F .f32)
      = transpose S32x128x56x56 [0, 3, 1, 2]
          (shapeCast S32x56x56x128 (left2 m c : S100352x128.Idx → Elt F .f32) shapeCasts_S100352x128_S32x56x56x128)
          transposes_S32x56x56x128_S32x128x56x56_0_3_1_2 := by
  show StableHlo.after hostOps3 (V10 m (outs m) c) (Proc.devRef .tc main_v82) = _
  after_results
  rw [V10_result m c]
  rfl

/-- Region 0's result is still in `main_v14` when region 2 is entered: no host stretch in between writes it, and
    region 1 changes only its own result. -/
theorem V9_v14 (c : Dev nD) : V9 m (outs m) c (Proc.devRef .tc main_v14) = left0 m c :=
  (V9_of m (outs m) c main_v14 (by decide)).trans <| (V8_of m (outs m) c main_v14 (by decide)).trans <|
    (V7_of m (outs m) c main_v14 (by decide)).trans <| (V6_of m (outs m) c main_v14 (by decide)).trans <|
    (V5_of m (outs m) c main_v14 (by decide)).trans <| (V4_of m (outs m) c main_v14 (by decide)).trans <|
    (V3_of m (outs m) c main_v14 (by decide)).trans (V2_result m c)

end AnyInstance

section AtIdeal

variable (m : (ℓ : Loc nD τ sig) → Buf (Elt Ideal) ℓ)

/-- Region 0's result: the closed form of the arrays it is entered with (the buffers after the first host stretch). -/
theorem left0_closed (c : Dev nD) :
    left0 m c = conv0A (atRefs (V1 m) c main_v12) (atRefs (V1 m) c main_v13) (atRefs (V1 m) c main_v8)
      (atRefs (V1 m) c main_v9) := by
  unfold left0
  exact closed0 (atRefs (V1 m)) c

/-- Region 1's result: the closed form of the arrays it is entered with. -/
theorem left1_closed (c : Dev nD) :
    left1 m c = conv1A (atRefs (V5 m (outs m)) c main_v45) (atRefs (V5 m (outs m)) c main_v46)
      (atRefs (V5 m (outs m)) c main_v41) (atRefs (V5 m (outs m)) c main_v42) := by
  unfold left1
  rw [← in1_eq]
  exact closed1 (atRefs (V5 m (outs m))) c

/-- Region 2's result: the closed form of the arrays it is entered with. -/
theorem left2_closed (c : Dev nD) :
    left2 m c = conv2A (atRefs (V9 m (outs m)) c main_v68) (atRefs (V9 m (outs m)) c main_v79)
      (atRefs (V9 m (outs m)) c main_v75) (atRefs (V9 m (outs m)) c main_v76) (atRefs (V9 m (outs m)) c main_v14) := by
  unfold left2
  rw [← in2_eq]
  exact closed2 (atRefs (V9 m (outs m))) c

end AtIdeal

end Cert.ReferenceIdeal.Hand

end
-- ==== Proof.RHostStages.lean ====
/-
  THE HOST STAGES OF THE REFERENCE PROGRAM READ AT AN INDEX, at the ideal values (every float an extended real).

  The reference computes the residual block as three matrix products with a folded batch normalization each:
  the 1×1 shortcut convolution, the first 3×3 convolution and the second 3×3 convolution with the residual added.
  Around the three products the host lays the operands out: the input is moved to channels-last; a 1×1 convolution's
  patch matrix is that array with its pixels flattened; a 3×3 convolution's patch matrix is the zero-padded array cut
  into its nine shifted windows, each flattened, side by side along the columns in the order (ky, kx) = (0, 0),
  (0, 1), …, (2, 2); the weights [o, c, ky, kx] are moved to [ky, kx, c, o] and flattened to [(ky·3 + kx)·C + c, o];
  a batch normalization is folded to a scale g / √(v + ε) and a bias b − μ · scale, each a [1, 128] row.

  Each such array is written here as a PURE function of the argument arrays — the printed host operations composed
  in their order, nothing else — and then read at one index given by explicit coordinates:

  * patches0 x (r, c) = x (n, c, h, w) at r = (n·56 + h)·56 + w;
  * xpad x (n, a, b, c) = x (n, c, a − 1, b − 1) inside 1 ≤ a, b ≤ 56 and 0 on the border;
  * patches1 x (r, (ky·3 + kx)·64 + c) = xpad x (n, h + ky, w + kx, c); patches2 likewise with 128 channels;
  * weights1 w ((ky·3 + kx)·64 + c, o) = w (o, c, ky, kx); weights2 likewise; weights0 w (c, o) = w (o, c, 0, 0);
  * the folded rows in closed form;
  * the result moved back to channels-first: outNCHW y (n, o, h, w) = y ((n·56 + h)·56 + w, o).
-/
import proofs.«173333_g2000300637041083_pallasbulk_292_30_alg».proof.Proof.Gen.ReferenceIdeal
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

open scoped BigOperators

namespace Cert.ReferenceIdeal.HostStages

open Idealize.ShloMosaic Idealize.ShloMosaic.ValueIdx

/-! ## § 0  Layout operations at coordinates -/

section Layout
variable {α : Type}

/-- An [N, H, W, C] array viewed as [M, C] with its first three axes flattened: row (n·H + h)·W + w is (n, h, w). -/
theorem shapeCast_nhwc_mc_apply {N H W C M : ℕ} (x : (⟨4, ![N, H, W, C]⟩ : Shape).Idx → α)
    (hc : (⟨4, ![N, H, W, C]⟩ : Shape).ShapeCasts ⟨2, ![M, C]⟩) (r : Fin M) (c : Fin C) (n : Fin N) (h : Fin H) (w : Fin W)
    (hr : r.val = (n.val * H + h.val) * W + w.val) :
    shapeCast ⟨2, ![M, C]⟩ x hc (ix2 r c) = x (ix4 n h w c) :=
  shapeCast_apply x hc _ _ (by
    rw [Shape.rowMajor_val_four, Shape.rowMajor_val_two]
    show ((n.val * H + h.val) * W + w.val) * C + c.val = r.val * C + c.val
    rw [hr])

/-- An [M, C] array viewed as [N, H, W, C] with its rows split: (n, h, w) is row (n·H + h)·W + w. -/
theorem shapeCast_mc_nhwc_apply {N H W C M : ℕ} (y : (⟨2, ![M, C]⟩ : Shape).Idx → α)
    (hc : (⟨2, ![M, C]⟩ : Shape).ShapeCasts ⟨4, ![N, H, W, C]⟩) (r : Fin M) (c : Fin C) (n : Fin N) (h : Fin H) (w : Fin W)
    (hr : r.val = (n.val * H + h.val) * W + w.val) :
    shapeCast ⟨4, ![N, H, W, C]⟩ y hc (ix4 n h w c) = y (ix2 r c) :=
  shapeCast_apply y hc _ _ (by
    rw [Shape.rowMajor_val_four, Shape.rowMajor_val_two]
    show r.val * C + c.val = ((n.val * H + h.val) * W + w.val) * C + c.val
    rw [hr])

/-- A window of a rank-4 array read at coordinates: each coordinate moved by the window's offset on its axis. -/
theorem slice4_apply {n0 n1 n2 n3 m0 m1 m2 m3 : ℕ} (off : Fin 4 → ℕ) (X : (⟨4, ![n0, n1, n2, n3]⟩ : Shape).Idx → α)
    (hs : (⟨4, ![n0, n1, n2, n3]⟩ : Shape).Slices off ⟨4, ![m0, m1, m2, m3]⟩)
    (a : Fin m0) (b : Fin m1) (c : Fin m2) (d : Fin m3) (a' : Fin n0) (b' : Fin n1) (c' : Fin n2) (d' : Fin n3)
    (h0 : a'.val = off 0 + a.val) (h1 : b'.val = off 1 + b.val) (h2 : c'.val = off 2 + c.val) (h3 : d'.val = off 3 + d.val) :
    extractStridedSlice ⟨4, ![m0, m1, m2, m3]⟩ off X hs (ix4 a b c d) = X (ix4 a' b' c' d') :=
  extractStridedSlice_apply off X hs _ _ fun e => match e with
    | ⟨0, _⟩ => h0 | ⟨1, _⟩ => h1 | ⟨2, _⟩ => h2 | ⟨3, _⟩ => h3

/-- ONE TAP OF A PATCH MATRIX. The window of a padded [N, H₂, W₂, C] array at offsets (0, ky, kx, 0), of the unpadded
    extents [N, H, W, C], with its pixels flattened: row (n·H + h)·W + w, column c is the padded array at
    (n, ky + h, kx + w, c). -/
theorem tap_apply {N H W H2 W2 C M : ℕ} (P : (⟨4, ![N, H2, W2, C]⟩ : Shape).Idx → α) (off : Fin 4 → ℕ)
    (hs : (⟨4, ![N, H2, W2, C]⟩ : Shape).Slices off ⟨4, ![N, H, W, C]⟩)
    (hc : (⟨4, ![N, H, W, C]⟩ : Shape).ShapeCasts ⟨2, ![M, C]⟩) (r : Fin M) (c : Fin C) (n : Fin N) (h : Fin H) (w : Fin W)
    (a : Fin H2) (b : Fin W2) (hr : r.val = (n.val * H + h.val) * W + w.val) (h0 : off 0 = 0) (h3 : off 3 = 0)
    (ha : a.val = off 1 + h.val) (hb : b.val = off 2 + w.val) :
    shapeCast ⟨2, ![M, C]⟩ (extractStridedSlice ⟨4, ![N, H, W, C]⟩ off P hs) hc (ix2 r c) = P (ix4 n a b c) :=
  (shapeCast_nhwc_mc_apply _ hc r c n h w hr).trans
    (slice4_apply off P hs n h w c n a b c (by rw [h0, Nat.zero_add]) ha hb (by rw [h3, Nat.zero_add]))

/-- A rank-4 array padded by one on each side of its two middle axes, read INSIDE: (n, h + 1, w + 1, c) is the
    array at (n, h, w, c). -/
theorem pad_hw_inside {N H W H2 W2 C : ℕ} (x : (⟨4, ![N, H, W, C]⟩ : Shape).Idx → α) {u : Shape} (v : u.Idx → α)
    (hp : (⟨4, ![N, H, W, C]⟩ : Shape).Pads (![0, 1, 1, 0] : Fin 4 → ℕ) ![0, 1, 1, 0] ![0, 0, 0, 0] ⟨4, ![N, H2, W2, C]⟩)
    (hu : 0 < u.numel) (n : Fin N) (a : Fin H2) (b : Fin W2) (c : Fin C) (h : Fin H) (w : Fin W)
    (ha : a.val = h.val + 1) (hb : b.val = w.val + 1) :
    pad ⟨4, ![N, H2, W2, C]⟩ ![0, 1, 1, 0] ![0, 1, 1, 0] ![0, 0, 0, 0] x v hp hu (ix4 n a b c) = x (ix4 n h w c) :=
  pad_apply_of_inside _ _ _ x v hp hu (ix4 n a b c) (ix4 n h w c) fun e => match e with
    | ⟨0, _⟩ => by show n.val = 0 + n.val * (0 + 1); omega
    | ⟨1, _⟩ => by show a.val = 1 + h.val * (0 + 1); omega
    | ⟨2, _⟩ => by show b.val = 1 + w.val * (0 + 1); omega
    | ⟨3, _⟩ => by show c.val = 0 + c.val * (0 + 1); omega

/-- The same read ON THE BORDER of the first padded axis — row 0 or a row past the array's last — is the padding value. -/
theorem pad_hw_border_h {N H W H2 W2 C : ℕ} (x : (⟨4, ![N, H, W, C]⟩ : Shape).Idx → α) {u : Shape} (v : u.Idx → α)
    (hp : (⟨4, ![N, H, W, C]⟩ : Shape).Pads (![0, 1, 1, 0] : Fin 4 → ℕ) ![0, 1, 1, 0] ![0, 0, 0, 0] ⟨4, ![N, H2, W2, C]⟩)
    (hu : 0 < u.numel) (n : Fin N) (a : Fin H2) (b : Fin W2) (c : Fin C) (ha : a.val = 0 ∨ H < a.val) :
    pad ⟨4, ![N, H2, W2, C]⟩ ![0, 1, 1, 0] ![0, 1, 1, 0] ![0, 0, 0, 0] x v hp hu (ix4 n a b c) = v (Shape.Idx.first hu) :=
  pad_apply_of_not_inside _ _ _ x v hp hu (ix4 n a b c) 1 (by
    show ¬(1 ≤ a.val ∧ (a.val - 1) % (0 + 1) = 0 ∧ (a.val - 1) / (0 + 1) < H)
    rintro ⟨h1, -, h3⟩
    rw [Nat.zero_add, Nat.div_one] at h3
    omega)

/-- The same on the border of the second padded axis. -/
theorem pad_hw_border_w {N H W H2 W2 C : ℕ} (x : (⟨4, ![N, H, W, C]⟩ : Shape).Idx → α) {u : Shape} (v : u.Idx → α)
    (hp : (⟨4, ![N, H, W, C]⟩ : Shape).Pads (![0, 1, 1, 0] : Fin 4 → ℕ) ![0, 1, 1, 0] ![0, 0, 0, 0] ⟨4, ![N, H2, W2, C]⟩)
    (hu : 0 < u.numel) (n : Fin N) (a : Fin H2) (b : Fin W2) (c : Fin C) (hb : b.val = 0 ∨ W < b.val) :
    pad ⟨4, ![N, H2, W2, C]⟩ ![0, 1, 1, 0] ![0, 1, 1, 0] ![0, 0, 0, 0] x v hp hu (ix4 n a b c) = v (Shape.Idx.first hu) :=
  pad_apply_of_not_inside _ _ _ x v hp hu (ix4 n a b c) 2 (by
    show ¬(1 ≤ b.val ∧ (b.val - 1) % (0 + 1) = 0 ∧ (b.val - 1) / (0 + 1) < W)
    rintro ⟨h1, -, h3⟩
    rw [Nat.zero_add, Nat.div_one] at h3
    omega)

/-- Nine [R, C] arrays side by side along the columns, read at row q and column t·C + c: the t-th array at (q, c). -/
theorem concat9_cols {R C K : ℕ} (x0 x1 x2 x3 x4 x5 x6 x7 x8 : (⟨2, ![R, C]⟩ : Shape).Idx → α)
    (h : Shape.Concatenates [(⟨2, ![R, C]⟩ : Shape), ⟨2, ![R, C]⟩, ⟨2, ![R, C]⟩, ⟨2, ![R, C]⟩, ⟨2, ![R, C]⟩, ⟨2, ![R, C]⟩, ⟨2, ![R, C]⟩, ⟨2, ![R, C]⟩, ⟨2, ![R, C]⟩] ⟨2, ![R, K]⟩ 1)
    (q : Fin R) (k : Fin K) (t : Fin 9) (c : Fin C) (hk : k.val = t.val * C + c.val) :
    concatenate ⟨2, ![R, K]⟩ 1 [⟨⟨2, ![R, C]⟩, x0⟩, ⟨⟨2, ![R, C]⟩, x1⟩, ⟨⟨2, ![R, C]⟩, x2⟩, ⟨⟨2, ![R, C]⟩, x3⟩, ⟨⟨2, ![R, C]⟩, x4⟩, ⟨⟨2, ![R, C]⟩, x5⟩, ⟨⟨2, ![R, C]⟩, x6⟩, ⟨⟨2, ![R, C]⟩, x7⟩, ⟨⟨2, ![R, C]⟩, x8⟩] h (ix2 q k) = (![x0, x1, x2, x3, x4, x5, x6, x7, x8] t) (ix2 q c) := by
  match t, hk with
  | ⟨0, _⟩, hk =>
    exact concatenate_apply_piece (t := ⟨2, ![R, K]⟩) 1 [⟨⟨2, ![R, C]⟩, x0⟩, ⟨⟨2, ![R, C]⟩, x1⟩, ⟨⟨2, ![R, C]⟩, x2⟩, ⟨⟨2, ![R, C]⟩, x3⟩, ⟨⟨2, ![R, C]⟩, x4⟩, ⟨⟨2, ![R, C]⟩, x5⟩, ⟨⟨2, ![R, C]⟩, x6⟩, ⟨⟨2, ![R, C]⟩, x7⟩, ⟨⟨2, ![R, C]⟩, x8⟩] h (ix2 q k) 0 (by simp) ⟨2, ![R, C]⟩ x0 rfl rfl (0 * C) (by simp <;> omega) (ix2 q c)
      (fun b hb => match b with | ⟨0, _⟩ => rfl | ⟨1, _⟩ => absurd rfl hb)
      (by show 0 * C + c.val = k.val; dsimp only at hk; omega)
  | ⟨1, _⟩, hk =>
    exact concatenate_apply_piece (t := ⟨2, ![R, K]⟩) 1 [⟨⟨2, ![R, C]⟩, x0⟩, ⟨⟨2, ![R, C]⟩, x1⟩, ⟨⟨2, ![R, C]⟩, x2⟩, ⟨⟨2, ![R, C]⟩, x3⟩, ⟨⟨2, ![R, C]⟩, x4⟩, ⟨⟨2, ![R, C]⟩, x5⟩, ⟨⟨2, ![R, C]⟩, x6⟩, ⟨⟨2, ![R, C]⟩, x7⟩, ⟨⟨2, ![R, C]⟩, x8⟩] h (ix2 q k) 1 (by simp) ⟨2, ![R, C]⟩ x1 rfl rfl (1 * C) (by simp <;> omega) (ix2 q c)
      (fun b hb => match b with | ⟨0, _⟩ => rfl | ⟨1, _⟩ => absurd rfl hb)
      (by show 1 * C + c.val = k.val; dsimp only at hk; omega)
  | ⟨2, _⟩, hk =>
    exact concatenate_apply_piece (t := ⟨2, ![R, K]⟩) 1 [⟨⟨2, ![R, C]⟩, x0⟩, ⟨⟨2, ![R, C]⟩, x1⟩, ⟨⟨2, ![R, C]⟩, x2⟩, ⟨⟨2, ![R, C]⟩, x3⟩, ⟨⟨2, ![R, C]⟩, x4⟩, ⟨⟨2, ![R, C]⟩, x5⟩, ⟨⟨2, ![R, C]⟩, x6⟩, ⟨⟨2, ![R, C]⟩, x7⟩, ⟨⟨2, ![R, C]⟩, x8⟩] h (ix2 q k) 2 (by simp) ⟨2, ![R, C]⟩ x2 rfl rfl (2 * C) (by simp <;> omega) (ix2 q c)
      (fun b hb => match b with | ⟨0, _⟩ => rfl | ⟨1, _⟩ => absurd rfl hb)
      (by show 2 * C + c.val = k.val; dsimp only at hk; omega)
  | ⟨3, _⟩, hk =>
    exact concatenate_apply_piece (t := ⟨2, ![R, K]⟩) 1 [⟨⟨2, ![R, C]⟩, x0⟩, ⟨⟨2, ![R, C]⟩, x1⟩, ⟨⟨2, ![R, C]⟩, x2⟩, ⟨⟨2, ![R, C]⟩, x3⟩, ⟨⟨2, ![R, C]⟩, x4⟩, ⟨⟨2, ![R, C]⟩, x5⟩, ⟨⟨2, ![R, C]⟩, x6⟩, ⟨⟨2, ![R, C]⟩, x7⟩, ⟨⟨2, ![R, C]⟩, x8⟩] h (ix2 q k) 3 (by simp) ⟨2, ![R, C]⟩ x3 rfl rfl (3 * C) (by simp <;> omega) (ix2 q c)
      (fun b hb => match b with | ⟨0, _⟩ => rfl | ⟨1, _⟩ => absurd rfl hb)
      (by show 3 * C + c.val = k.val; dsimp only at hk; omega)
  | ⟨4, _⟩, hk =>
    exact concatenate_apply_piece (t := ⟨2, ![R, K]⟩) 1 [⟨⟨2, ![R, C]⟩, x0⟩, ⟨⟨2, ![R, C]⟩, x1⟩, ⟨⟨2, ![R, C]⟩, x2⟩, ⟨⟨2, ![R, C]⟩, x3⟩, ⟨⟨2, ![R, C]⟩, x4⟩, ⟨⟨2, ![R, C]⟩, x5⟩, ⟨⟨2, ![R, C]⟩, x6⟩, ⟨⟨2, ![R, C]⟩, x7⟩, ⟨⟨2, ![R, C]⟩, x8⟩] h (ix2 q k) 4 (by simp) ⟨2, ![R, C]⟩ x4 rfl rfl (4 * C) (by simp <;> omega) (ix2 q c)
      (fun b hb => match b with | ⟨0, _⟩ => rfl | ⟨1, _⟩ => absurd rfl hb)
      (by show 4 * C + c.val = k.val; dsimp only at hk; omega)
  | ⟨5, _⟩, hk =>
    exact concatenate_apply_piece (t := ⟨2, ![R, K]⟩) 1 [⟨⟨2, ![R, C]⟩, x0⟩, ⟨⟨2, ![R, C]⟩, x1⟩, ⟨⟨2, ![R, C]⟩, x2⟩, ⟨⟨2, ![R, C]⟩, x3⟩, ⟨⟨2, ![R, C]⟩, x4⟩, ⟨⟨2, ![R, C]⟩, x5⟩, ⟨⟨2, ![R, C]⟩, x6⟩, ⟨⟨2, ![R, C]⟩, x7⟩, ⟨⟨2, ![R, C]⟩, x8⟩] h (ix2 q k) 5 (by simp) ⟨2, ![R, C]⟩ x5 rfl rfl (5 * C) (by simp <;> omega) (ix2 q c)
      (fun b hb => match b with | ⟨0, _⟩ => rfl | ⟨1, _⟩ => absurd rfl hb)
      (by show 5 * C + c.val = k.val; dsimp only at hk; omega)
  | ⟨6, _⟩, hk =>
    exact concatenate_apply_piece (t := ⟨2, ![R, K]⟩) 1 [⟨⟨2, ![R, C]⟩, x0⟩, ⟨⟨2, ![R, C]⟩, x1⟩, ⟨⟨2, ![R, C]⟩, x2⟩, ⟨⟨2, ![R, C]⟩, x3⟩, ⟨⟨2, ![R, C]⟩, x4⟩, ⟨⟨2, ![R, C]⟩, x5⟩, ⟨⟨2, ![R, C]⟩, x6⟩, ⟨⟨2, ![R, C]⟩, x7⟩, ⟨⟨2, ![R, C]⟩, x8⟩] h (ix2 q k) 6 (by simp) ⟨2, ![R, C]⟩ x6 rfl rfl (6 * C) (by simp <;> omega) (ix2 q c)
      (fun b hb => match b with | ⟨0, _⟩ => rfl | ⟨1, _⟩ => absurd rfl hb)
      (by show 6 * C + c.val = k.val; dsimp only at hk; omega)
  | ⟨7, _⟩, hk =>
    exact concatenate_apply_piece (t := ⟨2, ![R, K]⟩) 1 [⟨⟨2, ![R, C]⟩, x0⟩, ⟨⟨2, ![R, C]⟩, x1⟩, ⟨⟨2, ![R, C]⟩, x2⟩, ⟨⟨2, ![R, C]⟩, x3⟩, ⟨⟨2, ![R, C]⟩, x4⟩, ⟨⟨2, ![R, C]⟩, x5⟩, ⟨⟨2, ![R, C]⟩, x6⟩, ⟨⟨2, ![R, C]⟩, x7⟩, ⟨⟨2, ![R, C]⟩, x8⟩] h (ix2 q k) 7 (by simp) ⟨2, ![R, C]⟩ x7 rfl rfl (7 * C) (by simp <;> omega) (ix2 q c)
      (fun b hb => match b with | ⟨0, _⟩ => rfl | ⟨1, _⟩ => absurd rfl hb)
      (by show 7 * C + c.val = k.val; dsimp only at hk; omega)
  | ⟨8, _⟩, hk =>
    exact concatenate_apply_piece (t := ⟨2, ![R, K]⟩) 1 [⟨⟨2, ![R, C]⟩, x0⟩, ⟨⟨2, ![R, C]⟩, x1⟩, ⟨⟨2, ![R, C]⟩, x2⟩, ⟨⟨2, ![R, C]⟩, x3⟩, ⟨⟨2, ![R, C]⟩, x4⟩, ⟨⟨2, ![R, C]⟩, x5⟩, ⟨⟨2, ![R, C]⟩, x6⟩, ⟨⟨2, ![R, C]⟩, x7⟩, ⟨⟨2, ![R, C]⟩, x8⟩] h (ix2 q k) 8 (by simp) ⟨2, ![R, C]⟩ x8 rfl rfl (8 * C) (by simp <;> omega) (ix2 q c)
      (fun b hb => match b with | ⟨0, _⟩ => rfl | ⟨1, _⟩ => absurd rfl hb)
      (by show 8 * C + c.val = k.val; dsimp only at hk; omega)

end Layout

/-! ## § 1  The input, channels last; the shortcut's patch matrix -/

/-- The input [32, 64, 56, 56] moved to channels-last [32, 56, 56, 64]. -/
noncomputable def xNHWC (x : FVec Ideal S32x64x56x56 .f32) : FVec Ideal S32x56x56x64 .f32 :=
  transpose S32x56x56x64 [0, 2, 3, 1] x Gen.transposes_S32x64x56x56_S32x56x56x64_0_2_3_1

/-- The channels-last input with its pixels flattened, narrowed: the 1×1 convolution's patch matrix. -/
noncomputable def patches0 (x : FVec Ideal S32x64x56x56 .f32) : FVec Ideal S100352x64 .bf16 :=
  truncf .bf16 (shapeCast S100352x64 (xNHWC x) Gen.shapeCasts_S32x56x56x64_S100352x64) Gen.bitsLt_bf16_f32

/-- Image n, pixel (h, w), channel c of the channels-last input is the input at (n, c, h, w). -/
theorem xNHWC_apply (x : FVec Ideal S32x64x56x56 .f32) (n : Fin 32) (h w : Fin 56) (c : Fin 64) :
    xNHWC x (ix4 n h w c) = x (ix4 n c h w) := by
  unfold xNHWC
  exact transpose_apply _ x _ (ix4 n h w c) (ix4 n c h w) fun b => match b with
    | ⟨0, _⟩ => rfl | ⟨1, _⟩ => rfl | ⟨2, _⟩ => rfl | ⟨3, _⟩ => rfl

/-- Row (n·56 + h)·56 + w, column c of the shortcut's patch matrix is the input at (n, c, h, w). -/
theorem patches0_apply (x : FVec Ideal S32x64x56x56 .f32) (r : Fin 100352) (c : Fin 64) (n : Fin 32) (h w : Fin 56)
    (hr : r.val = (n.val * 56 + h.val) * 56 + w.val) : patches0 x (ix2 r c) = x (ix4 n c h w) := by
  unfold patches0
  show shapeCast S100352x64 (xNHWC x) Gen.shapeCasts_S32x56x56x64_S100352x64 (ix2 r c) = _
  exact (shapeCast_nhwc_mc_apply _ _ r c n h w hr).trans (xNHWC_apply x n h w c)

/-! ## § 2  A folded batch normalization, as [1, 128] rows -/

/-- The variance offset ε, the f32 word 0x3727C5AC, as a [128] vector. -/
noncomputable def epsRow : FVec Ideal S128 .f32 :=
  broadcastInDim S128 ![] Gen.bcast_S_S128 (constant (F := Ideal) S_ .f32 0x3727C5AC#32)

/-- The folded scale g / √(v + ε). -/
noncomputable def foldScale (g v : FVec Ideal S128 .f32) : FVec Ideal S128 .f32 :=
  Host.divf g (Host.sqrt (addf v epsRow))

/-- The folded bias b − μ · scale. -/
noncomputable def foldBias (g b mu v : FVec Ideal S128 .f32) : FVec Ideal S128 .f32 :=
  subf b (mulf mu (foldScale g v))

/-- A [128] vector as a [1, 128] row. -/
noncomputable def row (v : FVec Ideal S128 .f32) : FVec Ideal S1x128 .f32 :=
  broadcastInDim S1x128 ![1] Gen.bcast_S128_S1x128_1 v

/-- The scale row a product stage reads. -/
noncomputable def scaleRow (g v : FVec Ideal S128 .f32) : FVec Ideal S1x128 .f32 := row (foldScale g v)

/-- The bias row a product stage reads. -/
noncomputable def biasRow (g b mu v : FVec Ideal S128 .f32) : FVec Ideal S1x128 .f32 := row (foldBias g b mu v)

/-- ε at every channel is the extended real its word encodes. -/
theorem epsRow_apply (i : S128.Idx) : epsRow i = Ideal.ofBits .f32 0x3727C5AC#32 := by
  unfold epsRow
  exact broadcastInDim_scalar_apply _ _ i

/-- The folded scale at a channel: g / √(v + ε), with the ideal values' quotient and square root. -/
theorem foldScale_apply (g v : FVec Ideal S128 .f32) (i : S128.Idx) :
    foldScale g v i = Ideal.div (g i) (Ideal.sqrt (v i + Ideal.ofBits .f32 0x3727C5AC#32)) := by
  unfold foldScale
  show Ideal.div (g i) (Ideal.sqrt (v i + epsRow i)) = _
  rw [epsRow_apply]

/-- The folded bias at a channel: b − μ · scale. -/
theorem foldBias_apply (g b mu v : FVec Ideal S128 .f32) (i : S128.Idx) :
    foldBias g b mu v i = b i - mu i * Ideal.div (g i) (Ideal.sqrt (v i + Ideal.ofBits .f32 0x3727C5AC#32)) := by
  unfold foldBias
  show b i - mu i * foldScale g v i = _
  rw [foldScale_apply]

/-- A row reads the vector. -/
theorem row_apply (v : FVec Ideal S128 .f32) (u : Fin 1) (o : Fin 128) : row v (ix2 u o) = v (ix1 o) := by
  unfold row
  exact broadcastInDim_apply _ _ v (ix2 u o) (ix1 o) fun a => match a with
    | ⟨0, _⟩ => by show o.val = if (128 : ℕ) = 1 then 0 else o.val; rfl

/-- The scale row at channel o, in closed form. -/
theorem scaleRow_apply (g v : FVec Ideal S128 .f32) (u : Fin 1) (o : Fin 128) :
    scaleRow g v (ix2 u o) = Ideal.div (g (ix1 o)) (Ideal.sqrt (v (ix1 o) + Ideal.ofBits .f32 0x3727C5AC#32)) := by
  unfold scaleRow
  rw [row_apply, foldScale_apply]

/-- The bias row at channel o, in closed form. -/
theorem biasRow_apply (g b mu v : FVec Ideal S128 .f32) (u : Fin 1) (o : Fin 128) :
    biasRow g b mu v (ix2 u o)
      = b (ix1 o) - mu (ix1 o) * Ideal.div (g (ix1 o)) (Ideal.sqrt (v (ix1 o) + Ideal.ofBits .f32 0x3727C5AC#32)) := by
  unfold biasRow
  rw [row_apply, foldBias_apply]

/-! ## § 3  The weights laid out for the products -/

/-- The shortcut's weights [o, c, 1, 1] moved to [1, 1, c, o], viewed [64, 128] and narrowed. -/
noncomputable def weights0 (wsc : FVec Ideal S128x64x1x1 .f32) : FVec Ideal S64x128 .bf16 :=
  truncf .bf16
    (shapeCast S64x128 (transpose S1x1x64x128 [2, 3, 1, 0] wsc Gen.transposes_S128x64x1x1_S1x1x64x128_2_3_1_0)
      Gen.shapeCasts_S1x1x64x128_S64x128)
    Gen.bitsLt_bf16_f32

/-- The first convolution's weights [o, c, ky, kx] moved to [ky, kx, c, o], viewed [576, 128] and narrowed. -/
noncomputable def weights1 (w1 : FVec Ideal S128x64x3x3 .f32) : FVec Ideal S576x128 .bf16 :=
  truncf .bf16
    (shapeCast S576x128 (transpose S3x3x64x128 [2, 3, 1, 0] w1 Gen.transposes_S128x64x3x3_S3x3x64x128_2_3_1_0)
      Gen.shapeCasts_S3x3x64x128_S576x128)
    Gen.bitsLt_bf16_f32

/-- The second convolution's weights [o, c, ky, kx] moved to [ky, kx, c, o], viewed [1152, 128] and narrowed. -/
noncomputable def weights2 (w2 : FVec Ideal S128x128x3x3 .f32) : FVec Ideal S1152x128 .bf16 :=
  truncf .bf16
    (shapeCast S1152x128 (transpose S3x3x128x128 [2, 3, 1, 0] w2 Gen.transposes_S128x128x3x3_S3x3x128x128_2_3_1_0)
      Gen.shapeCasts_S3x3x128x128_S1152x128)
    Gen.bitsLt_bf16_f32

/-- Row c, column o of the shortcut's laid-out weights is the weight (o, c, 0, 0). -/
theorem weights0_apply (wsc : FVec Ideal S128x64x1x1 .f32) (c : Fin 64) (o : Fin 128) :
    weights0 wsc (ix2 c o) = wsc (ix4 o c (0 : Fin 1) (0 : Fin 1)) := by
  unfold weights0
  show shapeCast S64x128 (transpose S1x1x64x128 [2, 3, 1, 0] wsc Gen.transposes_S128x64x1x1_S1x1x64x128_2_3_1_0)
      Gen.shapeCasts_S1x1x64x128_S64x128 (ix2 c o) = _
  refine (shapeCast_nhwc_mc_apply _ _ c o (0 : Fin 1) (0 : Fin 1) c (by
    show c.val = (0 * 1 + 0) * 64 + c.val; omega)).trans ?_
  exact transpose_apply _ wsc _ (ix4 (0 : Fin 1) (0 : Fin 1) c o) (ix4 o c (0 : Fin 1) (0 : Fin 1)) fun b => match b with
    | ⟨0, _⟩ => rfl | ⟨1, _⟩ => rfl | ⟨2, _⟩ => rfl | ⟨3, _⟩ => rfl

/-- Row (ky·3 + kx)·64 + c, column o of the first convolution's laid-out weights is the weight (o, c, ky, kx). -/
theorem weights1_apply (w1 : FVec Ideal S128x64x3x3 .f32) (k : Fin 576) (o : Fin 128) (c : Fin 64) (ky kx : Fin 3)
    (hk : k.val = (ky.val * 3 + kx.val) * 64 + c.val) : weights1 w1 (ix2 k o) = w1 (ix4 o c ky kx) := by
  unfold weights1
  show shapeCast S576x128 (transpose S3x3x64x128 [2, 3, 1, 0] w1 Gen.transposes_S128x64x3x3_S3x3x64x128_2_3_1_0)
      Gen.shapeCasts_S3x3x64x128_S576x128 (ix2 k o) = _
  refine (shapeCast_nhwc_mc_apply _ _ k o ky kx c hk).trans ?_
  exact transpose_apply _ w1 _ (ix4 ky kx c o) (ix4 o c ky kx) fun b => match b with
    | ⟨0, _⟩ => rfl | ⟨1, _⟩ => rfl | ⟨2, _⟩ => rfl | ⟨3, _⟩ => rfl

/-- Row (ky·3 + kx)·128 + c, column o of the second convolution's laid-out weights is the weight (o, c, ky, kx). -/
theorem weights2_apply (w2 : FVec Ideal S128x128x3x3 .f32) (k : Fin 1152) (o c : Fin 128) (ky kx : Fin 3)
    (hk : k.val = (ky.val * 3 + kx.val) * 128 + c.val) : weights2 w2 (ix2 k o) = w2 (ix4 o c ky kx) := by
  unfold weights2
  show shapeCast S1152x128 (transpose S3x3x128x128 [2, 3, 1, 0] w2 Gen.transposes_S128x128x3x3_S3x3x128x128_2_3_1_0)
      Gen.shapeCasts_S3x3x128x128_S1152x128 (ix2 k o) = _
  refine (shapeCast_nhwc_mc_apply _ _ k o ky kx c hk).trans ?_
  exact transpose_apply _ w2 _ (ix4 ky kx c o) (ix4 o c ky kx) fun b => match b with
    | ⟨0, _⟩ => rfl | ⟨1, _⟩ => rfl | ⟨2, _⟩ => rfl | ⟨3, _⟩ => rfl

/-! ## § 4  The result, rows split and channels first -/

/-- The last product's result [100352, 128] viewed [32, 56, 56, 128] and moved to [32, 128, 56, 56]. -/
noncomputable def outNCHW (y2 : FVec Ideal S100352x128 .f32) : FVec Ideal S32x128x56x56 .f32 :=
  transpose S32x128x56x56 [0, 3, 1, 2] (shapeCast S32x56x56x128 y2 Gen.shapeCasts_S100352x128_S32x56x56x128)
    Gen.transposes_S32x56x56x128_S32x128x56x56_0_3_1_2

/-- Image n, channel o, pixel (h, w) of the result is the product's row (n·56 + h)·56 + w, column o. -/
theorem outNCHW_apply (y2 : FVec Ideal S100352x128 .f32) (n : Fin 32) (o : Fin 128) (h w : Fin 56) (r : Fin 100352)
    (hr : r.val = (n.val * 56 + h.val) * 56 + w.val) : outNCHW y2 (ix4 n o h w) = y2 (ix2 r o) := by
  unfold outNCHW
  refine (transpose_apply _ _ _ (ix4 n o h w) (ix4 n h w o) fun b => match b with
    | ⟨0, _⟩ => rfl | ⟨1, _⟩ => rfl | ⟨2, _⟩ => rfl | ⟨3, _⟩ => rfl).trans ?_
  exact shapeCast_mc_nhwc_apply y2 _ r o n h w hr

/-! ## § 5  The padded input and the first convolution's patch matrix -/

/-- The integer 0 converted to a float is 0: the padding value. -/
theorem padValue_apply (φ : FTy) (i : S_.Idx) : (sitofp φ (constantI S_ 32 0#32) : FVec Ideal S_ φ) i = 0 :=
  sitofp_zero

/-- The channels-last input with a border of one zero pixel on each side of the image: [32, 58, 58, 64]. -/
noncomputable def xpad (x : FVec Ideal S32x64x56x56 .f32) : FVec Ideal S32x58x58x64 .f32 :=
  pad S32x58x58x64 ![0, 1, 1, 0] ![0, 1, 1, 0] ![0, 0, 0, 0] (xNHWC x) (sitofp (F := Ideal) .f32 (constantI S_ 32 0#32))
    Gen.pads_S32x56x56x64_S32x58x58x64_000_110_110_000 Gen.h_S_

/-- Inside the border: padded position (h + 1, w + 1) is the input's pixel (h, w). -/
theorem xpad_inside (x : FVec Ideal S32x64x56x56 .f32) (n : Fin 32) (a b : Fin 58) (c : Fin 64) (h w : Fin 56)
    (ha : a.val = h.val + 1) (hb : b.val = w.val + 1) : xpad x (ix4 n a b c) = x (ix4 n c h w) := by
  unfold xpad
  exact (pad_hw_inside _ _ _ _ n a b c h w ha hb).trans (xNHWC_apply x n h w c)

/-- On the border — row or column 0 or 57 — the padded input is 0. -/
theorem xpad_border (x : FVec Ideal S32x64x56x56 .f32) (n : Fin 32) (a b : Fin 58) (c : Fin 64)
    (hab : (a.val = 0 ∨ 56 < a.val) ∨ (b.val = 0 ∨ 56 < b.val)) : xpad x (ix4 n a b c) = 0 := by
  unfold xpad
  rcases hab with ha | hb
  · exact (pad_hw_border_h _ _ _ _ n a b c ha).trans (padValue_apply .f32 _)
  · exact (pad_hw_border_w _ _ _ _ n a b c hb).trans (padValue_apply .f32 _)

/-- THE PADDED INPUT AT A POSITION: the input's pixel (a − 1, b − 1) when 1 ≤ a, b ≤ 56, and 0 otherwise. -/
theorem xpad_apply (x : FVec Ideal S32x64x56x56 .f32) (n : Fin 32) (a b : Fin 58) (c : Fin 64) :
    xpad x (ix4 n a b c)
      = if hin : (1 ≤ a.val ∧ a.val ≤ 56) ∧ (1 ≤ b.val ∧ b.val ≤ 56) then
          x (ix4 n c (⟨a.val - 1, by omega⟩ : Fin 56) (⟨b.val - 1, by omega⟩ : Fin 56))
        else 0 := by
  by_cases hin : (1 ≤ a.val ∧ a.val ≤ 56) ∧ (1 ≤ b.val ∧ b.val ≤ 56)
  · rw [dif_pos hin]
    exact xpad_inside x n a b c ⟨a.val - 1, by omega⟩ ⟨b.val - 1, by omega⟩
      (by show a.val = a.val - 1 + 1; omega) (by show b.val = b.val - 1 + 1; omega)
  · rw [dif_neg hin]
    exact xpad_border x n a b c (by omega)

/-- The nine shifted windows of the padded input, each with its pixels flattened, side by side in the order
    (ky, kx) = (0, 0), (0, 1), …, (2, 2): the first convolution's patch matrix [100352, 576], before narrowing. -/
noncomputable def patches1f (x : FVec Ideal S32x64x56x56 .f32) : FVec Ideal S100352x576 .f32 :=
  concatenate S100352x576 1
      [⟨S100352x64, shapeCast S100352x64 (extractStridedSlice S32x56x56x64 ![0, 0, 0, 0] (xpad x) Gen.slices_S32x58x58x64_S32x56x56x64_0_0_0_0) Gen.shapeCasts_S32x56x56x64_S100352x64⟩,
       ⟨S100352x64, shapeCast S100352x64 (extractStridedSlice S32x56x56x64 ![0, 0, 1, 0] (xpad x) Gen.slices_S32x58x58x64_S32x56x56x64_0_0_1_0) Gen.shapeCasts_S32x56x56x64_S100352x64⟩,
       ⟨S100352x64, shapeCast S100352x64 (extractStridedSlice S32x56x56x64 ![0, 0, 2, 0] (xpad x) Gen.slices_S32x58x58x64_S32x56x56x64_0_0_2_0) Gen.shapeCasts_S32x56x56x64_S100352x64⟩,
       ⟨S100352x64, shapeCast S100352x64 (extractStridedSlice S32x56x56x64 ![0, 1, 0, 0] (xpad x) Gen.slices_S32x58x58x64_S32x56x56x64_0_1_0_0) Gen.shapeCasts_S32x56x56x64_S100352x64⟩,
       ⟨S100352x64, shapeCast S100352x64 (extractStridedSlice S32x56x56x64 ![0, 1, 1, 0] (xpad x) Gen.slices_S32x58x58x64_S32x56x56x64_0_1_1_0) Gen.shapeCasts_S32x56x56x64_S100352x64⟩,
       ⟨S100352x64, shapeCast S100352x64 (extractStridedSlice S32x56x56x64 ![0, 1, 2, 0] (xpad x) Gen.slices_S32x58x58x64_S32x56x56x64_0_1_2_0) Gen.shapeCasts_S32x56x56x64_S100352x64⟩,
       ⟨S100352x64, shapeCast S100352x64 (extractStridedSlice S32x56x56x64 ![0, 2, 0, 0] (xpad x) Gen.slices_S32x58x58x64_S32x56x56x64_0_2_0_0) Gen.shapeCasts_S32x56x56x64_S100352x64⟩,
       ⟨S100352x64, shapeCast S100352x64 (extractStridedSlice S32x56x56x64 ![0, 2, 1, 0] (xpad x) Gen.slices_S32x58x58x64_S32x56x56x64_0_2_1_0) Gen.shapeCasts_S32x56x56x64_S100352x64⟩,
       ⟨S100352x64, shapeCast S100352x64 (extractStridedSlice S32x56x56x64 ![0, 2, 2, 0] (xpad x) Gen.slices_S32x58x58x64_S32x56x56x64_0_2_2_0) Gen.shapeCasts_S32x56x56x64_S100352x64⟩]
      Gen.concatenates_S100352x64_S100352x64_S100352x64_S100352x64_S100352x64_S100352x64_S100352x64_S100352x64_S100352x64_S100352x576_d1

/-- The first convolution's patch matrix, narrowed. -/
noncomputable def patches1 (x : FVec Ideal S32x64x56x56 .f32) : FVec Ideal S100352x576 .bf16 :=
  truncf .bf16 (patches1f x) Gen.bitsLt_bf16_f32

/-- Row (n·56 + h)·56 + w, column (ky·3 + kx)·64 + c of the first patch matrix is the padded input at
    (n, h + ky, w + kx, c). -/
theorem patches1_apply_pad (x : FVec Ideal S32x64x56x56 .f32) (r : Fin 100352) (k : Fin 576) (n : Fin 32) (h w : Fin 56)
    (ky kx : Fin 3) (c : Fin 64) (a b : Fin 58) (hr : r.val = (n.val * 56 + h.val) * 56 + w.val)
    (hk : k.val = (ky.val * 3 + kx.val) * 64 + c.val) (ha : a.val = h.val + ky.val) (hb : b.val = w.val + kx.val) :
    patches1 x (ix2 r k) = xpad x (ix4 n a b c) := by
  unfold patches1
  show patches1f x (ix2 r k) = _
  unfold patches1f
  match ky, kx, hk, ha, hb with
  | ⟨0, _⟩, ⟨0, _⟩, hk, ha, hb =>
    refine (concat9_cols _ _ _ _ _ _ _ _ _ _ r k (0 : Fin 9) c (by dsimp only at hk; show k.val = 0 * 64 + c.val; omega)).trans ?_
    exact tap_apply (xpad x) ![0, 0, 0, 0] Gen.slices_S32x58x58x64_S32x56x56x64_0_0_0_0 Gen.shapeCasts_S32x56x56x64_S100352x64 r c n h w a b hr rfl rfl
      (by dsimp only at ha; show a.val = 0 + h.val; omega) (by dsimp only at hb; show b.val = 0 + w.val; omega)
  | ⟨0, _⟩, ⟨1, _⟩, hk, ha, hb =>
    refine (concat9_cols _ _ _ _ _ _ _ _ _ _ r k (1 : Fin 9) c (by dsimp only at hk; show k.val = 1 * 64 + c.val; omega)).trans ?_
    exact tap_apply (xpad x) ![0, 0, 1, 0] Gen.slices_S32x58x58x64_S32x56x56x64_0_0_1_0 Gen.shapeCasts_S32x56x56x64_S100352x64 r c n h w a b hr rfl rfl
      (by dsimp only at ha; show a.val = 0 + h.val; omega) (by dsimp only at hb; show b.val = 1 + w.val; omega)
  | ⟨0, _⟩, ⟨2, _⟩, hk, ha, hb =>
    refine (concat9_cols _ _ _ _ _ _ _ _ _ _ r k (2 : Fin 9) c (by dsimp only at hk; show k.val = 2 * 64 + c.val; omega)).trans ?_
    exact tap_apply (xpad x) ![0, 0, 2, 0] Gen.slices_S32x58x58x64_S32x56x56x64_0_0_2_0 Gen.shapeCasts_S32x56x56x64_S100352x64 r c n h w a b hr rfl rfl
      (by dsimp only at ha; show a.val = 0 + h.val; omega) (by dsimp only at hb; show b.val = 2 + w.val; omega)
  | ⟨1, _⟩, ⟨0, _⟩, hk, ha, hb =>
    refine (concat9_cols _ _ _ _ _ _ _ _ _ _ r k (3 : Fin 9) c (by dsimp only at hk; show k.val = 3 * 64 + c.val; omega)).trans ?_
    exact tap_apply (xpad x) ![0, 1, 0, 0] Gen.slices_S32x58x58x64_S32x56x56x64_0_1_0_0 Gen.shapeCasts_S32x56x56x64_S100352x64 r c n h w a b hr rfl rfl
      (by dsimp only at ha; show a.val = 1 + h.val; omega) (by dsimp only at hb; show b.val = 0 + w.val; omega)
  | ⟨1, _⟩, ⟨1, _⟩, hk, ha, hb =>
    refine (concat9_cols _ _ _ _ _ _ _ _ _ _ r k (4 : Fin 9) c (by dsimp only at hk; show k.val = 4 * 64 + c.val; omega)).trans ?_
    exact tap_apply (xpad x) ![0, 1, 1, 0] Gen.slices_S32x58x58x64_S32x56x56x64_0_1_1_0 Gen.shapeCasts_S32x56x56x64_S100352x64 r c n h w a b hr rfl rfl
      (by dsimp only at ha; show a.val = 1 + h.val; omega) (by dsimp only at hb; show b.val = 1 + w.val; omega)
  | ⟨1, _⟩, ⟨2, _⟩, hk, ha, hb =>
    refine (concat9_cols _ _ _ _ _ _ _ _ _ _ r k (5 : Fin 9) c (by dsimp only at hk; show k.val = 5 * 64 + c.val; omega)).trans ?_
    exact tap_apply (xpad x) ![0, 1, 2, 0] Gen.slices_S32x58x58x64_S32x56x56x64_0_1_2_0 Gen.shapeCasts_S32x56x56x64_S100352x64 r c n h w a b hr rfl rfl
      (by dsimp only at ha; show a.val = 1 + h.val; omega) (by dsimp only at hb; show b.val = 2 + w.val; omega)
  | ⟨2, _⟩, ⟨0, _⟩, hk, ha, hb =>
    refine (concat9_cols _ _ _ _ _ _ _ _ _ _ r k (6 : Fin 9) c (by dsimp only at hk; show k.val = 6 * 64 + c.val; omega)).trans ?_
    exact tap_apply (xpad x) ![0, 2, 0, 0] Gen.slices_S32x58x58x64_S32x56x56x64_0_2_0_0 Gen.shapeCasts_S32x56x56x64_S100352x64 r c n h w a b hr rfl rfl
      (by dsimp only at ha; show a.val = 2 + h.val; omega) (by dsimp only at hb; show b.val = 0 + w.val; omega)
  | ⟨2, _⟩, ⟨1, _⟩, hk, ha, hb =>
    refine (concat9_cols _ _ _ _ _ _ _ _ _ _ r k (7 : Fin 9) c (by dsimp only at hk; show k.val = 7 * 64 + c.val; omega)).trans ?_
    exact tap_apply (xpad x) ![0, 2, 1, 0] Gen.slices_S32x58x58x64_S32x56x56x64_0_2_1_0 Gen.shapeCasts_S32x56x56x64_S100352x64 r c n h w a b hr rfl rfl
      (by dsimp only at ha; show a.val = 2 + h.val; omega) (by dsimp only at hb; show b.val = 1 + w.val; omega)
  | ⟨2, _⟩, ⟨2, _⟩, hk, ha, hb =>
    refine (concat9_cols _ _ _ _ _ _ _ _ _ _ r k (8 : Fin 9) c (by dsimp only at hk; show k.val = 8 * 64 + c.val; omega)).trans ?_
    exact tap_apply (xpad x) ![0, 2, 2, 0] Gen.slices_S32x58x58x64_S32x56x56x64_0_2_2_0 Gen.shapeCasts_S32x56x56x64_S100352x64 r c n h w a b hr rfl rfl
      (by dsimp only at ha; show a.val = 2 + h.val; omega) (by dsimp only at hb; show b.val = 2 + w.val; omega)

/-- THE FIRST PATCH MATRIX AT AN INDEX: row (n·56 + h)·56 + w, column (ky·3 + kx)·64 + c is the input's pixel
    (h + ky − 1, w + kx − 1) of image n, channel c, when that pixel exists, and 0 otherwise. -/
theorem patches1_apply (x : FVec Ideal S32x64x56x56 .f32) (r : Fin 100352) (k : Fin 576) (n : Fin 32) (h w : Fin 56)
    (ky kx : Fin 3) (c : Fin 64) (hr : r.val = (n.val * 56 + h.val) * 56 + w.val)
    (hk : k.val = (ky.val * 3 + kx.val) * 64 + c.val) :
    patches1 x (ix2 r k)
      = if hin : (1 ≤ h.val + ky.val ∧ h.val + ky.val ≤ 56) ∧ (1 ≤ w.val + kx.val ∧ w.val + kx.val ≤ 56) then
          x (ix4 n c (⟨h.val + ky.val - 1, by omega⟩ : Fin 56) (⟨w.val + kx.val - 1, by omega⟩ : Fin 56))
        else 0 := by
  have hky := ky.isLt
  have hkx := kx.isLt
  rw [patches1_apply_pad x r k n h w ky kx c ⟨h.val + ky.val, by omega⟩ ⟨w.val + kx.val, by omega⟩ hr hk rfl rfl]
  exact xpad_apply x n ⟨h.val + ky.val, by omega⟩ ⟨w.val + kx.val, by omega⟩ c

/-! ## § 6  The first product's result, padded, and the second convolution's patch matrix -/

/-- The first product's result [100352, 128] viewed as images [32, 56, 56, 128]. -/
noncomputable def h1 (y1 : FVec Ideal S100352x128 .bf16) : FVec Ideal S32x56x56x128 .bf16 :=
  shapeCast S32x56x56x128 y1 Gen.shapeCasts_S100352x128_S32x56x56x128

/-- Those images with a border of one zero pixel on each side: [32, 58, 58, 128]. -/
noncomputable def hpad (y1 : FVec Ideal S100352x128 .bf16) : FVec Ideal S32x58x58x128 .bf16 :=
  pad S32x58x58x128 ![0, 1, 1, 0] ![0, 1, 1, 0] ![0, 0, 0, 0] (h1 y1) (sitofp (F := Ideal) .bf16 (constantI S_ 32 0#32))
    Gen.pads_S32x56x56x128_S32x58x58x128_000_110_110_000 Gen.h_S_

/-- Image n, pixel (h, w), channel c of the first product's result is its row (n·56 + h)·56 + w, column c. -/
theorem h1_apply (y1 : FVec Ideal S100352x128 .bf16) (n : Fin 32) (h w : Fin 56) (c : Fin 128) (r : Fin 100352)
    (hr : r.val = (n.val * 56 + h.val) * 56 + w.val) : h1 y1 (ix4 n h w c) = y1 (ix2 r c) := by
  unfold h1
  exact shapeCast_mc_nhwc_apply y1 _ r c n h w hr

/-- Inside the border: padded position (h + 1, w + 1) is the result's pixel (h, w). -/
theorem hpad_inside (y1 : FVec Ideal S100352x128 .bf16) (n : Fin 32) (a b : Fin 58) (c : Fin 128) (h w : Fin 56)
    (r : Fin 100352) (ha : a.val = h.val + 1) (hb : b.val = w.val + 1) (hr : r.val = (n.val * 56 + h.val) * 56 + w.val) :
    hpad y1 (ix4 n a b c) = y1 (ix2 r c) := by
  unfold hpad
  exact (pad_hw_inside _ _ _ _ n a b c h w ha hb).trans (h1_apply y1 n h w c r hr)

/-- On the border — row or column 0 or 57 — the padded result is 0. -/
theorem hpad_border (y1 : FVec Ideal S100352x128 .bf16) (n : Fin 32) (a b : Fin 58) (c : Fin 128)
    (hab : (a.val = 0 ∨ 56 < a.val) ∨ (b.val = 0 ∨ 56 < b.val)) : hpad y1 (ix4 n a b c) = 0 := by
  unfold hpad
  rcases hab with ha | hb
  · exact (pad_hw_border_h _ _ _ _ n a b c ha).trans (padValue_apply .bf16 _)
  · exact (pad_hw_border_w _ _ _ _ n a b c hb).trans (padValue_apply .bf16 _)

/-- THE PADDED RESULT AT A POSITION: the result's pixel (a − 1, b − 1) when 1 ≤ a, b ≤ 56, and 0 otherwise. -/
theorem hpad_apply (y1 : FVec Ideal S100352x128 .bf16) (n : Fin 32) (a b : Fin 58) (c : Fin 128) :
    hpad y1 (ix4 n a b c)
      = if hin : (1 ≤ a.val ∧ a.val ≤ 56) ∧ (1 ≤ b.val ∧ b.val ≤ 56) then
          y1 (ix2 (⟨(n.val * 56 + (a.val - 1)) * 56 + (b.val - 1), by have := n.isLt; omega⟩ : Fin 100352) c)
        else 0 := by
  by_cases hin : (1 ≤ a.val ∧ a.val ≤ 56) ∧ (1 ≤ b.val ∧ b.val ≤ 56)
  · rw [dif_pos hin]
    exact hpad_inside y1 n a b c ⟨a.val - 1, by omega⟩ ⟨b.val - 1, by omega⟩ _
      (by show a.val = a.val - 1 + 1; omega) (by show b.val = b.val - 1 + 1; omega) rfl
  · rw [dif_neg hin]
    exact hpad_border y1 n a b c (by omega)

/-- The nine shifted windows of the padded result, each with its pixels flattened, side by side in the order
    (ky, kx) = (0, 0), (0, 1), …, (2, 2): the second convolution's patch matrix [100352, 1152]. -/
noncomputable def patches2 (y1 : FVec Ideal S100352x128 .bf16) : FVec Ideal S100352x1152 .bf16 :=
  concatenate S100352x1152 1
      [⟨S100352x128, shapeCast S100352x128 (extractStridedSlice S32x56x56x128 ![0, 0, 0, 0] (hpad y1) Gen.slices_S32x58x58x128_S32x56x56x128_0_0_0_0) Gen.shapeCasts_S32x56x56x128_S100352x128⟩,
       ⟨S100352x128, shapeCast S100352x128 (extractStridedSlice S32x56x56x128 ![0, 0, 1, 0] (hpad y1) Gen.slices_S32x58x58x128_S32x56x56x128_0_0_1_0) Gen.shapeCasts_S32x56x56x128_S100352x128⟩,
       ⟨S100352x128, shapeCast S100352x128 (extractStridedSlice S32x56x56x128 ![0, 0, 2, 0] (hpad y1) Gen.slices_S32x58x58x128_S32x56x56x128_0_0_2_0) Gen.shapeCasts_S32x56x56x128_S100352x128⟩,
       ⟨S100352x128, shapeCast S100352x128 (extractStridedSlice S32x56x56x128 ![0, 1, 0, 0] (hpad y1) Gen.slices_S32x58x58x128_S32x56x56x128_0_1_0_0) Gen.shapeCasts_S32x56x56x128_S100352x128⟩,
       ⟨S100352x128, shapeCast S100352x128 (extractStridedSlice S32x56x56x128 ![0, 1, 1, 0] (hpad y1) Gen.slices_S32x58x58x128_S32x56x56x128_0_1_1_0) Gen.shapeCasts_S32x56x56x128_S100352x128⟩,
       ⟨S100352x128, shapeCast S100352x128 (extractStridedSlice S32x56x56x128 ![0, 1, 2, 0] (hpad y1) Gen.slices_S32x58x58x128_S32x56x56x128_0_1_2_0) Gen.shapeCasts_S32x56x56x128_S100352x128⟩,
       ⟨S100352x128, shapeCast S100352x128 (extractStridedSlice S32x56x56x128 ![0, 2, 0, 0] (hpad y1) Gen.slices_S32x58x58x128_S32x56x56x128_0_2_0_0) Gen.shapeCasts_S32x56x56x128_S100352x128⟩,
       ⟨S100352x128, shapeCast S100352x128 (extractStridedSlice S32x56x56x128 ![0, 2, 1, 0] (hpad y1) Gen.slices_S32x58x58x128_S32x56x56x128_0_2_1_0) Gen.shapeCasts_S32x56x56x128_S100352x128⟩,
       ⟨S100352x128, shapeCast S100352x128 (extractStridedSlice S32x56x56x128 ![0, 2, 2, 0] (hpad y1) Gen.slices_S32x58x58x128_S32x56x56x128_0_2_2_0) Gen.shapeCasts_S32x56x56x128_S100352x128⟩]
      Gen.concatenates_S100352x128_S100352x128_S100352x128_S100352x128_S100352x128_S100352x128_S100352x128_S100352x128_S100352x128_S100352x1152_d1

/-- Row (n·56 + h)·56 + w, column (ky·3 + kx)·128 + c of the second patch matrix is the padded result at
    (n, h + ky, w + kx, c). -/
theorem patches2_apply_pad (y1 : FVec Ideal S100352x128 .bf16) (r : Fin 100352) (k : Fin 1152) (n : Fin 32) (h w : Fin 56)
    (ky kx : Fin 3) (c : Fin 128) (a b : Fin 58) (hr : r.val = (n.val * 56 + h.val) * 56 + w.val)
    (hk : k.val = (ky.val * 3 + kx.val) * 128 + c.val) (ha : a.val = h.val + ky.val) (hb : b.val = w.val + kx.val) :
    patches2 y1 (ix2 r k) = hpad y1 (ix4 n a b c) := by
  unfold patches2
  match ky, kx, hk, ha, hb with
  | ⟨0, _⟩, ⟨0, _⟩, hk, ha, hb =>
    refine (concat9_cols _ _ _ _ _ _ _ _ _ _ r k (0 : Fin 9) c (by dsimp only at hk; show k.val = 0 * 128 + c.val; omega)).trans ?_
    exact tap_apply (hpad y1) ![0, 0, 0, 0] Gen.slices_S32x58x58x128_S32x56x56x128_0_0_0_0 Gen.shapeCasts_S32x56x56x128_S100352x128 r c n h w a b hr rfl rfl
      (by dsimp only at ha; show a.val = 0 + h.val; omega) (by dsimp only at hb; show b.val = 0 + w.val; omega)
  | ⟨0, _⟩, ⟨1, _⟩, hk, ha, hb =>
    refine (concat9_cols _ _ _ _ _ _ _ _ _ _ r k (1 : Fin 9) c (by dsimp only at hk; show k.val = 1 * 128 + c.val; omega)).trans ?_
    exact tap_apply (hpad y1) ![0, 0, 1, 0] Gen.slices_S32x58x58x128_S32x56x56x128_0_0_1_0 Gen.shapeCasts_S32x56x56x128_S100352x128 r c n h w a b hr rfl rfl
      (by dsimp only at ha; show a.val = 0 + h.val; omega) (by dsimp only at hb; show b.val = 1 + w.val; omega)
  | ⟨0, _⟩, ⟨2, _⟩, hk, ha, hb =>
    refine (concat9_cols _ _ _ _ _ _ _ _ _ _ r k (2 : Fin 9) c (by dsimp only at hk; show k.val = 2 * 128 + c.val; omega)).trans ?_
    exact tap_apply (hpad y1) ![0, 0, 2, 0] Gen.slices_S32x58x58x128_S32x56x56x128_0_0_2_0 Gen.shapeCasts_S32x56x56x128_S100352x128 r c n h w a b hr rfl rfl
      (by dsimp only at ha; show a.val = 0 + h.val; omega) (by dsimp only at hb; show b.val = 2 + w.val; omega)
  | ⟨1, _⟩, ⟨0, _⟩, hk, ha, hb =>
    refine (concat9_cols _ _ _ _ _ _ _ _ _ _ r k (3 : Fin 9) c (by dsimp only at hk; show k.val = 3 * 128 + c.val; omega)).trans ?_
    exact tap_apply (hpad y1) ![0, 1, 0, 0] Gen.slices_S32x58x58x128_S32x56x56x128_0_1_0_0 Gen.shapeCasts_S32x56x56x128_S100352x128 r c n h w a b hr rfl rfl
      (by dsimp only at ha; show a.val = 1 + h.val; omega) (by dsimp only at hb; show b.val = 0 + w.val; omega)
  | ⟨1, _⟩, ⟨1, _⟩, hk, ha, hb =>
    refine (concat9_cols _ _ _ _ _ _ _ _ _ _ r k (4 : Fin 9) c (by dsimp only at hk; show k.val = 4 * 128 + c.val; omega)).trans ?_
    exact tap_apply (hpad y1) ![0, 1, 1, 0] Gen.slices_S32x58x58x128_S32x56x56x128_0_1_1_0 Gen.shapeCasts_S32x56x56x128_S100352x128 r c n h w a b hr rfl rfl
      (by dsimp only at ha; show a.val = 1 + h.val; omega) (by dsimp only at hb; show b.val = 1 + w.val; omega)
  | ⟨1, _⟩, ⟨2, _⟩, hk, ha, hb =>
    refine (concat9_cols _ _ _ _ _ _ _ _ _ _ r k (5 : Fin 9) c (by dsimp only at hk; show k.val = 5 * 128 + c.val; omega)).trans ?_
    exact tap_apply (hpad y1) ![0, 1, 2, 0] Gen.slices_S32x58x58x128_S32x56x56x128_0_1_2_0 Gen.shapeCasts_S32x56x56x128_S100352x128 r c n h w a b hr rfl rfl
      (by dsimp only at ha; show a.val = 1 + h.val; omega) (by dsimp only at hb; show b.val = 2 + w.val; omega)
  | ⟨2, _⟩, ⟨0, _⟩, hk, ha, hb =>
    refine (concat9_cols _ _ _ _ _ _ _ _ _ _ r k (6 : Fin 9) c (by dsimp only at hk; show k.val = 6 * 128 + c.val; omega)).trans ?_
    exact tap_apply (hpad y1) ![0, 2, 0, 0] Gen.slices_S32x58x58x128_S32x56x56x128_0_2_0_0 Gen.shapeCasts_S32x56x56x128_S100352x128 r c n h w a b hr rfl rfl
      (by dsimp only at ha; show a.val = 2 + h.val; omega) (by dsimp only at hb; show b.val = 0 + w.val; omega)
  | ⟨2, _⟩, ⟨1, _⟩, hk, ha, hb =>
    refine (concat9_cols _ _ _ _ _ _ _ _ _ _ r k (7 : Fin 9) c (by dsimp only at hk; show k.val = 7 * 128 + c.val; omega)).trans ?_
    exact tap_apply (hpad y1) ![0, 2, 1, 0] Gen.slices_S32x58x58x128_S32x56x56x128_0_2_1_0 Gen.shapeCasts_S32x56x56x128_S100352x128 r c n h w a b hr rfl rfl
      (by dsimp only at ha; show a.val = 2 + h.val; omega) (by dsimp only at hb; show b.val = 1 + w.val; omega)
  | ⟨2, _⟩, ⟨2, _⟩, hk, ha, hb =>
    refine (concat9_cols _ _ _ _ _ _ _ _ _ _ r k (8 : Fin 9) c (by dsimp only at hk; show k.val = 8 * 128 + c.val; omega)).trans ?_
    exact tap_apply (hpad y1) ![0, 2, 2, 0] Gen.slices_S32x58x58x128_S32x56x56x128_0_2_2_0 Gen.shapeCasts_S32x56x56x128_S100352x128 r c n h w a b hr rfl rfl
      (by dsimp only at ha; show a.val = 2 + h.val; omega) (by dsimp only at hb; show b.val = 2 + w.val; omega)

/-- THE SECOND PATCH MATRIX AT AN INDEX: row (n·56 + h)·56 + w, column (ky·3 + kx)·128 + c is the first product's
    result at pixel (h + ky − 1, w + kx − 1) of image n, channel c, when that pixel exists, and 0 otherwise. -/
theorem patches2_apply (y1 : FVec Ideal S100352x128 .bf16) (r : Fin 100352) (k : Fin 1152) (n : Fin 32) (h w : Fin 56)
    (ky kx : Fin 3) (c : Fin 128) (hr : r.val = (n.val * 56 + h.val) * 56 + w.val)
    (hk : k.val = (ky.val * 3 + kx.val) * 128 + c.val) :
    patches2 y1 (ix2 r k)
      = if hin : (1 ≤ h.val + ky.val ∧ h.val + ky.val ≤ 56) ∧ (1 ≤ w.val + kx.val ∧ w.val + kx.val ≤ 56) then
          y1 (ix2 (⟨(n.val * 56 + (h.val + ky.val - 1)) * 56 + (w.val + kx.val - 1), by have := n.isLt; omega⟩ : Fin 100352) c)
        else 0 := by
  have hky := ky.isLt
  have hkx := kx.isLt
  rw [patches2_apply_pad y1 r k n h w ky kx c ⟨h.val + ky.val, by omega⟩ ⟨w.val + kx.val, by omega⟩ hr hk rfl rfl]
  exact hpad_apply y1 n ⟨h.val + ky.val, by omega⟩ ⟨w.val + kx.val, by omega⟩ c

/-! ## § 7  The patch matrices at an interior tap and at a border tap, separately -/

/-- An interior tap of the first patch matrix: when (h + ky, w + kx) = (h' + 1, w' + 1), the entry is the input's pixel (h', w'). -/
theorem patches1_apply_inside (x : FVec Ideal S32x64x56x56 .f32) (r : Fin 100352) (k : Fin 576) (n : Fin 32) (h w : Fin 56)
    (ky kx : Fin 3) (c : Fin 64) (h' w' : Fin 56) (hr : r.val = (n.val * 56 + h.val) * 56 + w.val)
    (hk : k.val = (ky.val * 3 + kx.val) * 64 + c.val) (hh : h.val + ky.val = h'.val + 1) (hw : w.val + kx.val = w'.val + 1) :
    patches1 x (ix2 r k) = x (ix4 n c h' w') := by
  have hky := ky.isLt
  have hkx := kx.isLt
  rw [patches1_apply_pad x r k n h w ky kx c ⟨h.val + ky.val, by omega⟩ ⟨w.val + kx.val, by omega⟩ hr hk rfl rfl]
  exact xpad_inside x n _ _ c h' w' hh hw

/-- A border tap of the first patch matrix: when h + ky or w + kx is 0 or 57, the entry is 0. -/
theorem patches1_apply_border (x : FVec Ideal S32x64x56x56 .f32) (r : Fin 100352) (k : Fin 576) (n : Fin 32) (h w : Fin 56)
    (ky kx : Fin 3) (c : Fin 64) (hr : r.val = (n.val * 56 + h.val) * 56 + w.val)
    (hk : k.val = (ky.val * 3 + kx.val) * 64 + c.val)
    (hout : (h.val + ky.val = 0 ∨ 56 < h.val + ky.val) ∨ (w.val + kx.val = 0 ∨ 56 < w.val + kx.val)) :
    patches1 x (ix2 r k) = 0 := by
  have hky := ky.isLt
  have hkx := kx.isLt
  rw [patches1_apply_pad x r k n h w ky kx c ⟨h.val + ky.val, by omega⟩ ⟨w.val + kx.val, by omega⟩ hr hk rfl rfl]
  exact xpad_border x n _ _ c hout

/-- An interior tap of the second patch matrix: when (h + ky, w + kx) = (h' + 1, w' + 1), the entry is the first
    product's result at row (n·56 + h')·56 + w', column c. -/
theorem patches2_apply_inside (y1 : FVec Ideal S100352x128 .bf16) (r : Fin 100352) (k : Fin 1152) (n : Fin 32) (h w : Fin 56)
    (ky kx : Fin 3) (c : Fin 128) (h' w' : Fin 56) (r' : Fin 100352) (hr : r.val = (n.val * 56 + h.val) * 56 + w.val)
    (hk : k.val = (ky.val * 3 + kx.val) * 128 + c.val) (hh : h.val + ky.val = h'.val + 1) (hw : w.val + kx.val = w'.val + 1)
    (hr' : r'.val = (n.val * 56 + h'.val) * 56 + w'.val) :
    patches2 y1 (ix2 r k) = y1 (ix2 r' c) := by
  have hky := ky.isLt
  have hkx := kx.isLt
  rw [patches2_apply_pad y1 r k n h w ky kx c ⟨h.val + ky.val, by omega⟩ ⟨w.val + kx.val, by omega⟩ hr hk rfl rfl]
  exact hpad_inside y1 n _ _ c h' w' r' hh hw hr'

/-- A border tap of the second patch matrix: when h + ky or w + kx is 0 or 57, the entry is 0. -/
theorem patches2_apply_border (y1 : FVec Ideal S100352x128 .bf16) (r : Fin 100352) (k : Fin 1152) (n : Fin 32) (h w : Fin 56)
    (ky kx : Fin 3) (c : Fin 128) (hr : r.val = (n.val * 56 + h.val) * 56 + w.val)
    (hk : k.val = (ky.val * 3 + kx.val) * 128 + c.val)
    (hout : (h.val + ky.val = 0 ∨ 56 < h.val + ky.val) ∨ (w.val + kx.val = 0 ∨ 56 < w.val + kx.val)) :
    patches2 y1 (ix2 r k) = 0 := by
  have hky := ky.isLt
  have hkx := kx.isLt
  rw [patches2_apply_pad y1 r k n h w ky kx c ⟨h.val + ky.val, by omega⟩ ⟨w.val + kx.val, by omega⟩ hr hk rfl rfl]
  exact hpad_border y1 n _ _ c hout

end Cert.ReferenceIdeal.HostStages
-- ==== Proof.RefTieBase.lean ====
import proofs.«173333_g2000300637041083_pallasbulk_292_30_alg».proof.Proof.RefFrame
import proofs.«173333_g2000300637041083_pallasbulk_292_30_alg».proof.Proof.RHostStages
import Idealize.ShloMosaic.Lib.ValueIdx
import Idealize.ShloMosaic.Lib.Tactic
import Idealize.ShloMosaic.Lib.StableHlo.Run

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.ValueIdx Idealize.SL.Sem
open Idealize.ShloMosaic.Pipeline (Dat)

open Cert.ReferenceIdeal.HostStages

/-! # The arrays the regions read, as functions of the arguments

Each host stretch is a line of tensor operations; what a buffer holds after it is the operations' functions applied
to what the buffers held before. Read back to the launch memory, the arrays each region's windows read are the pure
functions of the argument arrays (and of the earlier regions' results) named in `HostStages`. -/

/-- The result lemmas of the host operations, applied until none applies (what is left after the first pass of
    `after_results` once a many-operand operation's operand list has been evaluated). -/
macro "more_results" : tactic =>
  `(tactic| repeat (first
      | rw [StableHlo.nullary_result] | rw [StableHlo.unary_result] | rw [StableHlo.binary_result] | rw [StableHlo.ternary_result]
      | rw [StableHlo.quaternary_result] | rw [StableHlo.reshape_result] | rw [StableHlo.nary_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.quaternary_result_ne]; rotate_left; decide)
      | (rw [StableHlo.reshape_result_ne]; rotate_left; decide)
      | (rw [StableHlo.nary_result_ne]; rotate_left; decide)))

section Ties

variable (m : (ℓ : Loc nD τ sig) → Buf (Elt Ideal) ℓ)

/-! ## A buffer no earlier item writes holds its launch contents -/

theorem V4_launch (o : Outs (F := Ideal)) (c : Dev nD) (r : Ref sig .tc) (h4 : r ∉ hostOps1_1_W) (h3 : r ∉ hostOps1_W)
    (h2 : r ∉ ([main_v14] : List (Ref sig .tc))) (h1 : r ∉ hostOps0_W) : V4 m o c r = V0 m c r :=
  (V4_of m o c r h4).trans <| (V3_of m o c r h3).trans <| (V2_of m o c r h2).trans (V1_of m c r h1)

theorem V8_launch (o : Outs (F := Ideal)) (c : Dev nD) (r : Ref sig .tc) (h8 : r ∉ hostOps2_1_W) (h7 : r ∉ hostOps2_W)
    (h6 : r ∉ ([main_v47] : List (Ref sig .tc))) (h5 : r ∉ hostOps1_2_W)
    (h4 : r ∉ hostOps1_1_W) (h3 : r ∉ hostOps1_W) (h2 : r ∉ ([main_v14] : List (Ref sig .tc))) (h1 : r ∉ hostOps0_W) :
    V8 m o c r = V0 m c r :=
  (V8_of m o c r h8).trans <| (V7_of m o c r h7).trans <| (V6_of m o c r h6).trans <| (V5_of m o c r h5).trans
    (V4_launch m o c r h4 h3 h2 h1)

end Ties

end Cert.ReferenceIdeal.Hand

end
-- ==== Proof.RefTie1.lean ====
import proofs.«173333_g2000300637041083_pallasbulk_292_30_alg».proof.Proof.RefTieBase

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.ValueIdx Idealize.SL.Sem
open Idealize.ShloMosaic.Pipeline (Dat)

open Cert.ReferenceIdeal.HostStages

/-! # What regions 0 and 1 read, as functions of the arguments -/

section Ties

variable (m : (ℓ : Loc nD τ sig) → Buf (Elt Ideal) ℓ)

/-! ## What region 0 reads -/

/-- The channels-last input, after the first stretch. -/
theorem V1_v0 (c : Dev nD) :
    (V1 m c (Proc.devRef .tc main_v0) : FVec Ideal S32x56x56x64 .f32) = xNHWC (m ((c : Thread nD τ).loc main_arg0)) := by
  show StableHlo.after hostOps0 (V0 m c) (Proc.devRef .tc main_v0) = _
  after_results
  rfl

/-- The shortcut's patch matrix. -/
theorem V1_patches (c : Dev nD) :
    (V1 m c (Proc.devRef .tc main_v12) : FVec Ideal S100352x64 .bf16) = patches0 (m ((c : Thread nD τ).loc main_arg0)) := by
  show StableHlo.after hostOps0 (V0 m c) (Proc.devRef .tc main_v12) = _
  after_results
  rfl

/-- The shortcut's weights. -/
theorem V1_weights (c : Dev nD) :
    (V1 m c (Proc.devRef .tc main_v13) : FVec Ideal S64x128 .bf16) = weights0 (m ((c : Thread nD τ).loc main_arg11)) := by
  show StableHlo.after hostOps0 (V0 m c) (Proc.devRef .tc main_v13) = _
  after_results
  rfl

/-- The shortcut's scale row. -/
theorem V1_scale (c : Dev nD) :
    (V1 m c (Proc.devRef .tc main_v8) : FVec Ideal S1x128 .f32)
      = scaleRow (m ((c : Thread nD τ).loc main_arg12)) (m ((c : Thread nD τ).loc main_arg15)) := by
  show StableHlo.after hostOps0 (V0 m c) (Proc.devRef .tc main_v8) = _
  after_results
  rfl

/-- The shortcut's bias row. -/
theorem V1_bias (c : Dev nD) :
    (V1 m c (Proc.devRef .tc main_v9) : FVec Ideal S1x128 .f32)
      = biasRow (m ((c : Thread nD τ).loc main_arg12)) (m ((c : Thread nD τ).loc main_arg13))
          (m ((c : Thread nD τ).loc main_arg14)) (m ((c : Thread nD τ).loc main_arg15)) := by
  show StableHlo.after hostOps0 (V0 m c) (Proc.devRef .tc main_v9) = _
  after_results
  rfl

/-! ## What region 1 reads -/

/-- The integer zero the padding value is made from. -/
theorem V3_zero (o : Outs (F := Ideal)) (c : Dev nD) : V3 m o c (Proc.devRef .tc main_c) = constantI S_ 32 0#32 := by
  show StableHlo.after hostOps1 (V2 m o c) (Proc.devRef .tc main_c) = _
  after_results

/-- The channels-last input is still there. -/
theorem V3_v0 (o : Outs (F := Ideal)) (c : Dev nD) :
    V3 m o c (Proc.devRef .tc main_v0) = xNHWC (m ((c : Thread nD τ).loc main_arg0)) :=
  (V3_of m o c main_v0 (by decide)).trans ((V2_of m o c main_v0 (by decide)).trans (V1_v0 m c))

/-- The padded input. -/
theorem V4_xpad (o : Outs (F := Ideal)) (c : Dev nD) :
    (V4 m o c (Proc.devRef .tc main_v15) : FVec Ideal S32x58x58x64 .f32) = xpad (m ((c : Thread nD τ).loc main_arg0)) := by
  have h0 := V3_v0 m o c
  have hz := V3_zero m o c
  show StableHlo.after hostOps1_1 (V3 m o c) (Proc.devRef .tc main_v15) = _
  generalize V3 m o c = W at h0 hz ⊢
  after_results
  rw [h0, hz]
  rfl

set_option maxHeartbeats 4000000 in
/-- The first convolution's patch matrix. -/
theorem V5_patches (c : Dev nD) :
    (V5 m (outs m) c (Proc.devRef .tc main_v45) : FVec Ideal S100352x576 .bf16) = patches1 (m ((c : Thread nD τ).loc main_arg0)) := by
  have hp := V4_xpad m (outs m) c
  show StableHlo.after hostOps1_2 (V4 m (outs m) c) (Proc.devRef .tc main_v45) = _
  generalize V4 m (outs m) c = W at hp ⊢
  after_results
  simp only [Matrix.cons_val]
  more_results
  rw [hp]
  rfl

set_option maxHeartbeats 4000000 in
/-- The first convolution's weights. -/
theorem V5_weights (c : Dev nD) :
    (V5 m (outs m) c (Proc.devRef .tc main_v46) : FVec Ideal S576x128 .bf16) = weights1 (m ((c : Thread nD τ).loc main_arg1)) := by
  have h1 := V4_launch m (outs m) c main_arg1 (by decide) (by decide) (by decide) (by decide)
  show StableHlo.after hostOps1_2 (V4 m (outs m) c) (Proc.devRef .tc main_v46) = _
  generalize V4 m (outs m) c = W at h1 ⊢
  after_results
  rw [h1]
  rfl

set_option maxHeartbeats 4000000 in
/-- The first batch norm's scale row. -/
theorem V5_scale (c : Dev nD) :
    (V5 m (outs m) c (Proc.devRef .tc main_v41) : FVec Ideal S1x128 .f32) = scaleRow (m ((c : Thread nD τ).loc main_arg2)) (m ((c : Thread nD τ).loc main_arg5)) := by
  have h2 := V4_launch m (outs m) c main_arg2 (by decide) (by decide) (by decide) (by decide)
  have h5 := V4_launch m (outs m) c main_arg5 (by decide) (by decide) (by decide) (by decide)
  show StableHlo.after hostOps1_2 (V4 m (outs m) c) (Proc.devRef .tc main_v41) = _
  generalize V4 m (outs m) c = W at h2 h5 ⊢
  after_results
  rw [h2, h5]
  rfl

set_option maxHeartbeats 4000000 in
/-- The first batch norm's bias row. -/
theorem V5_bias (c : Dev nD) :
    (V5 m (outs m) c (Proc.devRef .tc main_v42) : FVec Ideal S1x128 .f32)
      = biasRow (m ((c : Thread nD τ).loc main_arg2)) (m ((c : Thread nD τ).loc main_arg3)) (m ((c : Thread nD τ).loc main_arg4)) (m ((c : Thread nD τ).loc main_arg5)) := by
  have h2 := V4_launch m (outs m) c main_arg2 (by decide) (by decide) (by decide) (by decide)
  have h3 := V4_launch m (outs m) c main_arg3 (by decide) (by decide) (by decide) (by decide)
  have h4 := V4_launch m (outs m) c main_arg4 (by decide) (by decide) (by decide) (by decide)
  have h5 := V4_launch m (outs m) c main_arg5 (by decide) (by decide) (by decide) (by decide)
  show StableHlo.after hostOps1_2 (V4 m (outs m) c) (Proc.devRef .tc main_v42) = _
  generalize V4 m (outs m) c = W at h2 h3 h4 h5 ⊢
  after_results
  rw [h2, h3, h4, h5]
  rfl

end Ties

end Cert.ReferenceIdeal.Hand

end
-- ==== Proof.RefTie2.lean ====
import proofs.«173333_g2000300637041083_pallasbulk_292_30_alg».proof.Proof.RefTieBase

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.ValueIdx Idealize.SL.Sem
open Idealize.ShloMosaic.Pipeline (Dat)

open Cert.ReferenceIdeal.HostStages

/-! # What region 2 reads, as functions of the arguments and of region 1's result -/

section Ties

variable (m : (ℓ : Loc nD τ sig) → Buf (Elt Ideal) ℓ)

/-! ## What region 2 reads -/

/-- Region 1's result viewed as images. -/
theorem V7_h1 (c : Dev nD) :
    (V7 m (outs m) c (Proc.devRef .tc main_v48) : FVec Ideal S32x56x56x128 .bf16) = h1 (left1 m c) := by
  have hl := V6_result m c
  show StableHlo.after hostOps2 (V6 m (outs m) c) (Proc.devRef .tc main_v48) = _
  generalize V6 m (outs m) c = W at hl ⊢
  after_results
  rw [hl]
  rfl

/-- The integer zero the second padding value is made from. -/
theorem V7_zero (c : Dev nD) : V7 m (outs m) c (Proc.devRef .tc main_c_1) = constantI S_ 32 0#32 := by
  show StableHlo.after hostOps2 (V6 m (outs m) c) (Proc.devRef .tc main_c_1) = _
  after_results

/-- Region 1's result, padded. -/
theorem V8_hpad (c : Dev nD) :
    (V8 m (outs m) c (Proc.devRef .tc main_v49) : FVec Ideal S32x58x58x128 .bf16) = hpad (left1 m c) := by
  have h0 := V7_h1 m c
  have hz := V7_zero m c
  show StableHlo.after hostOps2_1 (V7 m (outs m) c) (Proc.devRef .tc main_v49) = _
  generalize V7 m (outs m) c = W at h0 hz ⊢
  after_results
  rw [h0, hz]
  rfl

set_option maxHeartbeats 4000000 in
/-- The second convolution's patch matrix. -/
theorem V9_patches (c : Dev nD) :
    (V9 m (outs m) c (Proc.devRef .tc main_v68) : FVec Ideal S100352x1152 .bf16) = patches2 (left1 m c) := by
  have hp := V8_hpad m c
  show StableHlo.after hostOps2_2 (V8 m (outs m) c) (Proc.devRef .tc main_v68) = _
  generalize V8 m (outs m) c = W at hp ⊢
  after_results
  simp only [Matrix.cons_val]
  more_results
  rw [hp]
  rfl

set_option maxHeartbeats 4000000 in
/-- The second convolution's weights. -/
theorem V9_weights (c : Dev nD) :
    (V9 m (outs m) c (Proc.devRef .tc main_v79) : FVec Ideal S1152x128 .bf16) = weights2 (m ((c : Thread nD τ).loc main_arg6)) := by
  have h6 := V8_launch m (outs m) c main_arg6 (by decide) (by decide) (by decide) (by decide) (by decide) (by decide) (by decide) (by decide)
  show StableHlo.after hostOps2_2 (V8 m (outs m) c) (Proc.devRef .tc main_v79) = _
  generalize V8 m (outs m) c = W at h6 ⊢
  after_results
  rw [h6]
  rfl

set_option maxHeartbeats 4000000 in
/-- The second batch norm's scale row. -/
theorem V9_scale (c : Dev nD) :
    (V9 m (outs m) c (Proc.devRef .tc main_v75) : FVec Ideal S1x128 .f32) = scaleRow (m ((c : Thread nD τ).loc main_arg7)) (m ((c : Thread nD τ).loc main_arg10)) := by
  have h7 := V8_launch m (outs m) c main_arg7 (by decide) (by decide) (by decide) (by decide) (by decide) (by decide) (by decide) (by decide)
  have h10 := V8_launch m (outs m) c main_arg10 (by decide) (by decide) (by decide) (by decide) (by decide) (by decide) (by decide) (by decide)
  show StableHlo.after hostOps2_2 (V8 m (outs m) c) (Proc.devRef .tc main_v75) = _
  generalize V8 m (outs m) c = W at h7 h10 ⊢
  after_results
  rw [h7, h10]
  rfl

set_option maxHeartbeats 4000000 in
/-- The second batch norm's bias row. -/
theorem V9_bias (c : Dev nD) :
    (V9 m (outs m) c (Proc.devRef .tc main_v76) : FVec Ideal S1x128 .f32)
      = biasRow (m ((c : Thread nD τ).loc main_arg7)) (m ((c : Thread nD τ).loc main_arg8)) (m ((c : Thread nD τ).loc main_arg9)) (m ((c : Thread nD τ).loc main_arg10)) := by
  have h7 := V8_launch m (outs m) c main_arg7 (by decide) (by decide) (by decide) (by decide) (by decide) (by decide) (by decide) (by decide)
  have h8 := V8_launch m (outs m) c main_arg8 (by decide) (by decide) (by decide) (by decide) (by decide) (by decide) (by decide) (by decide)
  have h9 := V8_launch m (outs m) c main_arg9 (by decide) (by decide) (by decide) (by decide) (by decide) (by decide) (by decide) (by decide)
  have h10 := V8_launch m (outs m) c main_arg10 (by decide) (by decide) (by decide) (by decide) (by decide) (by decide) (by decide) (by decide)
  show StableHlo.after hostOps2_2 (V8 m (outs m) c) (Proc.devRef .tc main_v76) = _
  generalize V8 m (outs m) c = W at h7 h8 h9 h10 ⊢
  after_results
  rw [h7, h8, h9, h10]
  rfl

end Ties

end Cert.ReferenceIdeal.Hand

end
-- ==== Proof.RSpecReads.lean ====
/-
  THE REFERENCE PROGRAM'S HOST STAGES IN THE TERMS OF THE BLOCK'S MATHEMATICAL STATEMENT.

  The patch matrices of the two 3×3 convolutions read the padded activation; the mathematical statement of the block
  reads it through padAt, the activation behind a zero border of width 1. Here each patch matrix entry is that padded
  read, at padded position (h + ky, w + kx), and each folded row is the statement's scale or bias.
-/
import proofs.«173333_g2000300637041083_pallasbulk_292_30_alg».proof.Proof.RHostStages
import proofs.«173333_g2000300637041083_pallasbulk_292_30_alg».proof.Proof.Spec

open scoped BigOperators

namespace Cert.ReferenceIdeal.HostStages

open Idealize.ShloMosaic Idealize.ShloMosaic.ValueIdx

/-- The scale row at channel o is the statement's folded scale. -/
theorem scaleRow_apply_spec (g v : FVec Ideal S128 .f32) (u : Fin 1) (o : Fin 128) :
    scaleRow g v (ix2 u o) = Cert.ResBlock.scale g v o :=
  scaleRow_apply g v u o

/-- The bias row at channel o is the statement's folded bias. -/
theorem biasRow_apply_spec (g b mu v : FVec Ideal S128 .f32) (u : Fin 1) (o : Fin 128) :
    biasRow g b mu v (ix2 u o) = Cert.ResBlock.bias g b mu v o :=
  biasRow_apply g b mu v u o

/-- THE FIRST PATCH MATRIX AS A PADDED READ: row (n·56 + h)·56 + w, column (ky·3 + kx)·64 + c is image n's input,
    channel c, behind its zero border, at padded position (h + ky, w + kx). -/
theorem patches1_apply_padAt (x : FVec Ideal S32x64x56x56 .f32) (r : Fin 100352) (k : Fin 576) (n : Fin 32) (h w : Fin 56)
    (ky kx : Fin 3) (c : Fin 64) (hr : r.val = (n.val * 56 + h.val) * 56 + w.val)
    (hk : k.val = (ky.val * 3 + kx.val) * 64 + c.val) :
    patches1 x (ix2 r k) = Cert.ResBlock.padAt (fun a b c => x (ix4 n c a b)) (h.val + ky.val) (w.val + kx.val) c :=
  patches1_apply x r k n h w ky kx c hr hk

/-- THE SECOND PATCH MATRIX AS A PADDED READ: when the first product's result at row (n·56 + a)·56 + b, column c is
    X a b c, row (n·56 + h)·56 + w, column (ky·3 + kx)·128 + c of the second patch matrix is X behind its zero border
    at padded position (h + ky, w + kx). -/
theorem patches2_apply_padAt (y1 : FVec Ideal S100352x128 .bf16) (X : Fin 56 → Fin 56 → Fin 128 → Ideal .f32)
    (r : Fin 100352) (k : Fin 1152) (n : Fin 32) (h w : Fin 56) (ky kx : Fin 3) (c : Fin 128)
    (hX : ∀ (a b : Fin 56) (c : Fin 128) (r' : Fin 100352), r'.val = (n.val * 56 + a.val) * 56 + b.val → y1 (ix2 r' c) = X a b c)
    (hr : r.val = (n.val * 56 + h.val) * 56 + w.val) (hk : k.val = (ky.val * 3 + kx.val) * 128 + c.val) :
    patches2 y1 (ix2 r k) = Cert.ResBlock.padAt X (h.val + ky.val) (w.val + kx.val) c := by
  unfold Cert.ResBlock.padAt
  by_cases hin : (1 ≤ h.val + ky.val ∧ h.val + ky.val ≤ 56) ∧ (1 ≤ w.val + kx.val ∧ w.val + kx.val ≤ 56)
  · rw [dif_pos hin]
    exact (patches2_apply_inside y1 r k n h w ky kx c ⟨h.val + ky.val - 1, by omega⟩ ⟨w.val + kx.val - 1, by omega⟩
      ⟨(n.val * 56 + (h.val + ky.val - 1)) * 56 + (w.val + kx.val - 1), by have := n.isLt; omega⟩ hr hk
      (by show h.val + ky.val = h.val + ky.val - 1 + 1; omega) (by show w.val + kx.val = w.val + kx.val - 1 + 1; omega) rfl).trans
      (hX _ _ c _ rfl)
  · rw [dif_neg hin]
    exact patches2_apply_border y1 r k n h w ky kx c hr hk (by omega)

/-- The same with the first product's result itself as the map: X a b c = y1 ((n·56 + a)·56 + b, c). -/
theorem patches2_apply_padAt_self (y1 : FVec Ideal S100352x128 .bf16) (r : Fin 100352) (k : Fin 1152) (n : Fin 32)
    (h w : Fin 56) (ky kx : Fin 3) (c : Fin 128) (hr : r.val = (n.val * 56 + h.val) * 56 + w.val)
    (hk : k.val = (ky.val * 3 + kx.val) * 128 + c.val) :
    patches2 y1 (ix2 r k)
      = Cert.ResBlock.padAt (fun (a b : Fin 56) (c : Fin 128) =>
          (y1 (ix2 (⟨(n.val * 56 + a.val) * 56 + b.val, by have := n.isLt; omega⟩ : Fin 100352) c) : Ideal .f32))
        (h.val + ky.val) (w.val + kx.val) c :=
  patches2_apply_padAt y1 _ r k n h w ky kx c
    (fun a b c r' hr' => congrArg (fun q => y1 (ix2 q c)) (Fin.ext hr')) hr hk

end Cert.ReferenceIdeal.HostStages
-- ==== Proof.RSpec.lean ====
/-
  THE REFERENCE PROGRAM'S THREE STAGES COMPOSED ARE THE BLOCK'S MATHEMATICAL STATEMENT.

  Each stage of the reference is a matrix product followed by a folded batch normalization: stage0, the 1×1 shortcut,
  (P · W) · s + b; stage1, the first 3×3 convolution with its rectifier, max((P · W) · s + b, 0); stage2, the second
  3×3 convolution with the shortcut added before the rectifier, max(((P · W) · s + b) + R, 0). Fed the patch matrices,
  laid-out weights and folded rows the host stages build, and read back in channels-first order, their composition
  is, at every index, the residual block as the statement writes it. Only the order of the additions inside each
  product's finite sum is changed (one sum over (ky·3 + kx)·C + c becomes the triple sum over ky, kx, c); no product is
  distributed over a sum, and the outer additions keep their grouping.
-/
import proofs.«173333_g2000300637041083_pallasbulk_292_30_alg».proof.Proof.RSpecReads
import proofs.«173333_g2000300637041083_pallasbulk_292_30_alg».proof.Proof.LibConvSums

open scoped BigOperators

namespace Cert.ReferenceIdeal.HostStages

open Idealize.ShloMosaic Idealize.ShloMosaic.ValueIdx Cert.ConvSums

/-! ## § 1  The three stages as functions of the arrays they read -/

/-- The shortcut stage: row r, column o is (∑ₖ P(r, k) · W(k, o)) · s(o) + b(o). -/
noncomputable def stage0 (P : FVec Ideal S100352x64 .bf16) (W : FVec Ideal S64x128 .bf16) (s b : FVec Ideal S1x128 .f32) :
    FVec Ideal S100352x128 .f32 :=
  fun i => (∑ k : Fin 64, P (ix2 (i 0) k) * W (ix2 k (i 1))) * s (ix2 (0 : Fin 1) (i 1)) + b (ix2 (0 : Fin 1) (i 1))

/-- The first convolution's stage: max((∑ₖ P(r, k) · W(k, o)) · s(o) + b(o), 0). -/
noncomputable def stage1 (P : FVec Ideal S100352x576 .bf16) (W : FVec Ideal S576x128 .bf16) (s b : FVec Ideal S1x128 .f32) :
    FVec Ideal S100352x128 .bf16 :=
  fun i => max ((∑ k : Fin 576, P (ix2 (i 0) k) * W (ix2 k (i 1))) * s (ix2 (0 : Fin 1) (i 1)) + b (ix2 (0 : Fin 1) (i 1))) 0

/-- The second convolution's stage with the residual: max(((∑ₖ P(r, k) · W(k, o)) · s(o) + b(o)) + R(r, o), 0). -/
noncomputable def stage2 (P : FVec Ideal S100352x1152 .bf16) (W : FVec Ideal S1152x128 .bf16) (s b : FVec Ideal S1x128 .f32)
    (R : FVec Ideal S100352x128 .f32) : FVec Ideal S100352x128 .f32 :=
  fun i => max (((∑ k : Fin 1152, P (ix2 (i 0) k) * W (ix2 k (i 1))) * s (ix2 (0 : Fin 1) (i 1)) + b (ix2 (0 : Fin 1) (i 1))) + R i) 0

/-- The shortcut stage at row r, column o. -/
theorem stage0_apply (P : FVec Ideal S100352x64 .bf16) (W : FVec Ideal S64x128 .bf16) (s b : FVec Ideal S1x128 .f32)
    (r : Fin 100352) (o : Fin 128) :
    stage0 P W s b (ix2 r o) = (∑ k : Fin 64, P (ix2 r k) * W (ix2 k o)) * s (ix2 (0 : Fin 1) o) + b (ix2 (0 : Fin 1) o) := rfl

/-- The first convolution's stage at row r, column o. -/
theorem stage1_apply (P : FVec Ideal S100352x576 .bf16) (W : FVec Ideal S576x128 .bf16) (s b : FVec Ideal S1x128 .f32)
    (r : Fin 100352) (o : Fin 128) :
    stage1 P W s b (ix2 r o)
      = max ((∑ k : Fin 576, P (ix2 r k) * W (ix2 k o)) * s (ix2 (0 : Fin 1) o) + b (ix2 (0 : Fin 1) o)) 0 := rfl

/-- The second convolution's stage at row r, column o. -/
theorem stage2_apply (P : FVec Ideal S100352x1152 .bf16) (W : FVec Ideal S1152x128 .bf16) (s b : FVec Ideal S1x128 .f32)
    (R : FVec Ideal S100352x128 .f32) (r : Fin 100352) (o : Fin 128) :
    stage2 P W s b R (ix2 r o)
      = max (((∑ k : Fin 1152, P (ix2 r k) * W (ix2 k o)) * s (ix2 (0 : Fin 1) o) + b (ix2 (0 : Fin 1) o)) + R (ix2 r o)) 0 := rfl

/-- The second convolution's stage at any index, the residual read at the index's two coordinates. -/
theorem stage2_apply_idx (P : FVec Ideal S100352x1152 .bf16) (W : FVec Ideal S1152x128 .bf16) (s b : FVec Ideal S1x128 .f32)
    (R : FVec Ideal S100352x128 .f32) (i : S100352x128.Idx) :
    stage2 P W s b R i
      = max (((∑ k : Fin 1152, P (ix2 (i 0) k) * W (ix2 k (i 1))) * s (ix2 (0 : Fin 1) (i 1)) + b (ix2 (0 : Fin 1) (i 1)))
          + R (ix2 (i 0) (i 1))) 0 := by
  have hR : R i = R (ix2 (i 0) (i 1)) := congrArg R (eq_ix2 i)
  show max (_ + R i) 0 = max (_ + R (ix2 (i 0) (i 1))) 0
  rw [hR]

/-! ## § 2  Each stage on the host stages' arrays is the statement's term -/

section Block

variable (x : FVec Ideal S32x64x56x56 .f32) (w1 : FVec Ideal S128x64x3x3 .f32) (g1 b1 m1 v1 : FVec Ideal S128 .f32)
  (w2 : FVec Ideal S128x128x3x3 .f32) (g2 b2 m2 v2 : FVec Ideal S128 .f32)
  (wsc : FVec Ideal S128x64x1x1 .f32) (gsc bsc msc vsc : FVec Ideal S128 .f32)

/-- The first product's sum along its 576 columns is the statement's 3×3 convolution of the input. -/
theorem sum1_conv3 (n : Fin 32) (a b : Fin 56) (o : Fin 128) (r : Fin 100352)
    (hr : r.val = (n.val * 56 + a.val) * 56 + b.val) :
    (∑ k : Fin 576, patches1 x (ix2 r k) * weights1 w1 (ix2 k o))
      = Cert.ResBlock.conv3 (fun a b c => x (ix4 n c a b)) (fun ky kx c => w1 (ix4 o c ky kx)) a b := by
  unfold Cert.ResBlock.conv3
  rw [sum_tap9 (C := 64) (show 576 = 9 * 64 from rfl)]
  refine Finset.sum_congr rfl fun ky _ => Finset.sum_congr rfl fun kx _ => Finset.sum_congr rfl fun c _ => ?_
  rw [patches1_apply_padAt x r _ n a b ky kx c hr (tap9_val _ ky kx c), weights1_apply w1 _ o c ky kx (tap9_val _ ky kx c)]

/-- THE FIRST STAGE IS THE HIDDEN ACTIVATION: row (n·56 + a)·56 + b, column o. -/
theorem stage1_hidden (n : Fin 32) (a b : Fin 56) (o : Fin 128) (r : Fin 100352)
    (hr : r.val = (n.val * 56 + a.val) * 56 + b.val) :
    stage1 (patches1 x) (weights1 w1) (scaleRow g1 v1) (biasRow g1 b1 m1 v1) (ix2 r o)
      = Cert.ResBlock.hidden x w1 g1 b1 m1 v1 n a b o := by
  rw [stage1_apply, sum1_conv3 x w1 n a b o r hr, scaleRow_apply_spec, biasRow_apply_spec]
  rfl

/-- THE SHORTCUT STAGE IS THE STATEMENT'S SHORTCUT: row (n·56 + h)·56 + w, column o. -/
theorem stage0_shortcut (n : Fin 32) (h w : Fin 56) (o : Fin 128) (r : Fin 100352)
    (hr : r.val = (n.val * 56 + h.val) * 56 + w.val) :
    stage0 (patches0 x) (weights0 wsc) (scaleRow gsc vsc) (biasRow gsc bsc msc vsc) (ix2 r o)
      = Cert.ResBlock.shortcut x wsc gsc bsc msc vsc n h w o := by
  have hsum : (∑ k : Fin 64, patches0 x (ix2 r k) * weights0 wsc (ix2 k o))
      = ∑ c : Fin 64, x (ix4 n c h w) * wsc (ix4 o c (0 : Fin 1) (0 : Fin 1)) :=
    Finset.sum_congr rfl fun c _ => by rw [patches0_apply x r c n h w hr, weights0_apply]
  rw [stage0_apply, hsum, scaleRow_apply_spec, biasRow_apply_spec]
  rfl

/-- The second product's sum along its 1152 columns, on the first stage's result, is the statement's 3×3 convolution
    of the hidden activation. -/
theorem sum2_conv3 (n : Fin 32) (h w : Fin 56) (o : Fin 128) (r : Fin 100352)
    (hr : r.val = (n.val * 56 + h.val) * 56 + w.val) :
    (∑ k : Fin 1152,
        patches2 (stage1 (patches1 x) (weights1 w1) (scaleRow g1 v1) (biasRow g1 b1 m1 v1)) (ix2 r k) * weights2 w2 (ix2 k o))
      = Cert.ResBlock.conv3 (fun a b c => Cert.ResBlock.hidden x w1 g1 b1 m1 v1 n a b c)
          (fun ky kx c => w2 (ix4 o c ky kx)) h w := by
  unfold Cert.ResBlock.conv3
  rw [sum_tap9 (C := 128) (show 1152 = 9 * 128 from rfl)]
  refine Finset.sum_congr rfl fun ky _ => Finset.sum_congr rfl fun kx _ => Finset.sum_congr rfl fun c _ => ?_
  rw [patches2_apply_padAt _ (fun a b c => Cert.ResBlock.hidden x w1 g1 b1 m1 v1 n a b c) r _ n h w ky kx c
      (fun a b c r' hr' => stage1_hidden x w1 g1 b1 m1 v1 n a b c r' hr') hr (tap9_val _ ky kx c),
    weights2_apply w2 _ o c ky kx (tap9_val _ ky kx c)]

/-- THE REFERENCE'S STAGES COMPOSED ARE THE BLOCK. The three stages on the host stages' arrays, the last one's result
    read in channels-first order, are at every index (n, o, h, w) the residual block of the statement. -/
theorem reference_spec (n : Fin 32) (o : Fin 128) (h w : Fin 56) :
    outNCHW
        (stage2 (patches2 (stage1 (patches1 x) (weights1 w1) (scaleRow g1 v1) (biasRow g1 b1 m1 v1))) (weights2 w2)
          (scaleRow g2 v2) (biasRow g2 b2 m2 v2)
          (stage0 (patches0 x) (weights0 wsc) (scaleRow gsc vsc) (biasRow gsc bsc msc vsc)))
        (ix4 n o h w)
      = Cert.ResBlock.result x w1 g1 b1 m1 v1 w2 g2 b2 m2 v2 wsc gsc bsc msc vsc n o h w := by
  have hn := n.isLt
  have hh := h.isLt
  have hw := w.isLt
  rw [outNCHW_apply _ n o h w ⟨(n.val * 56 + h.val) * 56 + w.val, by omega⟩ rfl, stage2_apply,
    sum2_conv3 x w1 g1 b1 m1 v1 w2 n h w o _ rfl, scaleRow_apply_spec, biasRow_apply_spec,
    stage0_shortcut x wsc gsc bsc msc vsc n h w o _ rfl]
  rfl

end Block

end Cert.ReferenceIdeal.HostStages
-- ==== Proof.RefSpec.lean ====
import proofs.«173333_g2000300637041083_pallasbulk_292_30_alg».proof.Proof.RefResult
import proofs.«173333_g2000300637041083_pallasbulk_292_30_alg».proof.Proof.RefTie1
import proofs.«173333_g2000300637041083_pallasbulk_292_30_alg».proof.Proof.RefTie2
import proofs.«173333_g2000300637041083_pallasbulk_292_30_alg».proof.Proof.RSpec

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.ValueIdx Idealize.SL.Sem
open Idealize.ShloMosaic.Pipeline (Dat)

open Cert.ReferenceIdeal.HostStages

/-! # The reference's result at an index is the residual block of its arguments

The result `main_v82` at the end of @main is the last region's result reshaped and its axes permuted; each region's
result is its closed form of the arrays it reads; those arrays are the host stretches' functions of the arguments and
of the earlier regions' results; and that composition of functions, read at an index, is the residual block. -/

/-- The regions' closed forms are the product stages of the host-side description. -/
theorem conv0A_eq (P : S100352x64.Idx → Ideal .bf16) (W : S64x128.Idx → Ideal .bf16) (s b : S1x128.Idx → Ideal .f32) :
    conv0A P W s b = stage0 P W s b := rfl
theorem conv1A_eq (P : S100352x576.Idx → Ideal .bf16) (W : S576x128.Idx → Ideal .bf16) (s b : S1x128.Idx → Ideal .f32) :
    conv1A P W s b = stage1 P W s b := rfl
theorem conv2A_eq (P : S100352x1152.Idx → Ideal .bf16) (W : S1152x128.Idx → Ideal .bf16) (s b : S1x128.Idx → Ideal .f32)
    (R : S100352x128.Idx → Ideal .f32) : conv2A P W s b R = stage2 P W s b R :=
  funext fun i => (stage2_apply_idx P W s b R i).symm

section Spec

variable (m : (ℓ : Loc nD τ sig) → Buf (Elt Ideal) ℓ)

/-- Region 0's result: the shortcut's product stage of the arguments. -/
theorem left0_stage (c : Dev nD) :
    left0 m c = stage0 (patches0 (m ((c : Thread nD τ).loc main_arg0))) (weights0 (m ((c : Thread nD τ).loc main_arg11))) (scaleRow (m ((c : Thread nD τ).loc main_arg12)) (m ((c : Thread nD τ).loc main_arg15)))
      (biasRow (m ((c : Thread nD τ).loc main_arg12)) (m ((c : Thread nD τ).loc main_arg13)) (m ((c : Thread nD τ).loc main_arg14)) (m ((c : Thread nD τ).loc main_arg15))) := by
  rw [left0_closed, conv0A_eq]
  dsimp only [atRefs]
  rw [V1_patches, V1_weights, V1_scale, V1_bias]

/-- Region 1's result: the first convolution's product stage of the arguments. -/
theorem left1_stage (c : Dev nD) :
    left1 m c = stage1 (patches1 (m ((c : Thread nD τ).loc main_arg0))) (weights1 (m ((c : Thread nD τ).loc main_arg1))) (scaleRow (m ((c : Thread nD τ).loc main_arg2)) (m ((c : Thread nD τ).loc main_arg5)))
      (biasRow (m ((c : Thread nD τ).loc main_arg2)) (m ((c : Thread nD τ).loc main_arg3)) (m ((c : Thread nD τ).loc main_arg4)) (m ((c : Thread nD τ).loc main_arg5))) := by
  rw [left1_closed, conv1A_eq]
  dsimp only [atRefs]
  rw [V5_patches, V5_weights, V5_scale, V5_bias]

/-- Region 2's result: the second convolution's product stage of region 1's result, the arguments and region 0's
    result. -/
theorem left2_stage (c : Dev nD) :
    left2 m c = stage2 (patches2 (left1 m c)) (weights2 (m ((c : Thread nD τ).loc main_arg6))) (scaleRow (m ((c : Thread nD τ).loc main_arg7)) (m ((c : Thread nD τ).loc main_arg10)))
      (biasRow (m ((c : Thread nD τ).loc main_arg7)) (m ((c : Thread nD τ).loc main_arg8)) (m ((c : Thread nD τ).loc main_arg9)) (m ((c : Thread nD τ).loc main_arg10))) (left0 m c) := by
  rw [left2_closed, conv2A_eq]
  dsimp only [atRefs]
  rw [V9_patches, V9_weights, V9_scale, V9_bias, V9_v14]

/-- THE REFERENCE'S RESULT at image `n`, channel `o`, position `(h, w)`. -/
theorem reference_at (c : Dev nD) (n : Fin 32) (o : Fin 128) (h w : Fin 56) :
    (V11 m (outs m) c main_v82 : S32x128x56x56.Idx → Elt Ideal .f32) (ix4 n o h w)
      = Cert.ResBlock.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) n o h w := by
  rw [V11_result]
  show outNCHW (left2 m c) (ix4 n o h w) = _
  rw [left2_stage, left1_stage, left0_stage]
  exact reference_spec _ _ _ _ _ _ _ _ _ _ _ _ _ _ _ _ n o h w

end Spec

end Cert.ReferenceIdeal.Hand

end
-- ==== Proof.Algebraic.lean ====
/-
  The two ideal programs end with equal results.

  The fused kernel's result array, before its closing transpose, is at every index (image n, row h, column w, channel o)
  the block function of the four blocks the point n / 2 reads, at place n mod 2 of the pair: three of those blocks are
  the whole weight and scale arrays, the fourth is the pair of images 2 (n / 2) and 2 (n / 2) + 1 of the activation in
  rows of channels; and the block function of such blocks is the residual block of Spec at image n. The reference's result
  is, through its three regions and the host stretches between them, the same residual block of its own arguments. The
  two programs are run from memories that agree on the arguments, so the results agree index by index.
-/
import proofs.«173333_g2000300637041083_pallasbulk_292_30_alg».proof.Defs
import proofs.«173333_g2000300637041083_pallasbulk_292_30_alg».proof.Proof.KIBlocks
import proofs.«173333_g2000300637041083_pallasbulk_292_30_alg».proof.Proof.KBlockOut
import proofs.«173333_g2000300637041083_pallasbulk_292_30_alg».proof.Proof.KBlockSpec
import proofs.«173333_g2000300637041083_pallasbulk_292_30_alg».proof.Proof.RefValueRun
import proofs.«173333_g2000300637041083_pallasbulk_292_30_alg».proof.Proof.RefSpec
import proofs.«173333_g2000300637041083_pallasbulk_292_30_alg».proof.Proof.Spec
import proofs.«173333_g2000300637041083_pallasbulk_292_30_alg».proof.Proof.Gen.Pre_finite_inputs

set_option maxRecDepth 16384

noncomputable section

namespace Cert.Proof

open Idealize.ShloMosaic Idealize.ShloMosaic.TcCoe Idealize.ShloMosaic.ValueIdx Idealize.SL.Sem

/-- The kernel's result at an index is the residual block of the kernel's arguments. -/
theorem kernel_at (m : (ℓ : Loc Cert.KernelIdeal.nD Cert.KernelIdeal.τ Cert.KernelIdeal.sig) → Buf (Elt Ideal) ℓ) (c : Dev Cert.KernelIdeal.nD)
    (n : Fin 32) (o : Fin 128) (h w : Fin 56) :
    transpose Cert.KernelIdeal.S32x128x56x56 [0, 3, 1, 2] (Cert.KernelIdeal.Block.wholeOut m Cert.KernelIdeal.BlockOut.blockOut c)
        Cert.KernelIdeal.Facts₀.transposes_S32x56x56x128_S32x128x56x56_0_3_1_2 (ix4 n o h w)
      = Cert.ResBlock.result (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) n o h w := by
  show Cert.KernelIdeal.HostStages.outNCHW (Cert.KernelIdeal.Block.wholeOut m Cert.KernelIdeal.BlockOut.blockOut c) (ix4 n o h w) = _
  rw [Cert.KernelIdeal.HostStages.outNCHW_apply]
  have hn : n.val < 32 := n.isLt
  -- the point that handles image n, and n's place in its pair
  let t : Fin Cert.KernelIdeal.cfg0.N := Cert.KernelIdeal.Block.pointOfImage (ix4 n h w o)
  have ht : t.val = n.val / 2 := rfl
  let j : Fin 2 := ⟨n.val % 2, Nat.mod_lt _ (by decide)⟩
  show Cert.KernelIdeal.BlockOut.blockOut (Cert.KernelIdeal.Block.blockAt m c 0 t) (Cert.KernelIdeal.Block.blockAt m c 1 t) (Cert.KernelIdeal.Block.blockAt m c 2 t)
      (Cert.KernelIdeal.Block.blockAt m c 3 t) (ix4 j h w o) = _
  rw [Cert.KernelIdeal.Block.block1_whole, Cert.KernelIdeal.Block.block2_whole, Cert.KernelIdeal.Block.block3_whole,
    Cert.KernelIdeal.Block.entry_w1, Cert.KernelIdeal.Block.entry_w2, Cert.KernelIdeal.Block.entry_sb]
  have key := Cert.KernelIdeal.BlockSpec.kernel_block_spec
    (m ((c : Thread Cert.KernelIdeal.nD Cert.KernelIdeal.τ).loc Cert.KernelIdeal.main_arg0)) (m ((c : Thread Cert.KernelIdeal.nD Cert.KernelIdeal.τ).loc Cert.KernelIdeal.main_arg1))
    (m ((c : Thread Cert.KernelIdeal.nD Cert.KernelIdeal.τ).loc Cert.KernelIdeal.main_arg2)) (m ((c : Thread Cert.KernelIdeal.nD Cert.KernelIdeal.τ).loc Cert.KernelIdeal.main_arg3))
    (m ((c : Thread Cert.KernelIdeal.nD Cert.KernelIdeal.τ).loc Cert.KernelIdeal.main_arg4)) (m ((c : Thread Cert.KernelIdeal.nD Cert.KernelIdeal.τ).loc Cert.KernelIdeal.main_arg5))
    (m ((c : Thread Cert.KernelIdeal.nD Cert.KernelIdeal.τ).loc Cert.KernelIdeal.main_arg6)) (m ((c : Thread Cert.KernelIdeal.nD Cert.KernelIdeal.τ).loc Cert.KernelIdeal.main_arg7))
    (m ((c : Thread Cert.KernelIdeal.nD Cert.KernelIdeal.τ).loc Cert.KernelIdeal.main_arg8)) (m ((c : Thread Cert.KernelIdeal.nD Cert.KernelIdeal.τ).loc Cert.KernelIdeal.main_arg9))
    (m ((c : Thread Cert.KernelIdeal.nD Cert.KernelIdeal.τ).loc Cert.KernelIdeal.main_arg10)) (m ((c : Thread Cert.KernelIdeal.nD Cert.KernelIdeal.τ).loc Cert.KernelIdeal.main_arg11))
    (m ((c : Thread Cert.KernelIdeal.nD Cert.KernelIdeal.τ).loc Cert.KernelIdeal.main_arg12)) (m ((c : Thread Cert.KernelIdeal.nD Cert.KernelIdeal.τ).loc Cert.KernelIdeal.main_arg13))
    (m ((c : Thread Cert.KernelIdeal.nD Cert.KernelIdeal.τ).loc Cert.KernelIdeal.main_arg14)) (m ((c : Thread Cert.KernelIdeal.nD Cert.KernelIdeal.τ).loc Cert.KernelIdeal.main_arg15))
    (Cert.KernelIdeal.Block.blockAt m c 0 t) (fun j' => (⟨2 * t.val + j'.val, by have := j'.isLt; omega⟩ : Fin 32))
    (fun j' q ch => by
      rw [Cert.KernelIdeal.Block.block0_apply m c t j' q ch ⟨2 * t.val + j'.val, by have := j'.isLt; omega⟩ rfl, Cert.KernelIdeal.Block.entry_x])
    j h w o
  have hnj : (⟨2 * t.val + j.val, by have := j.isLt; omega⟩ : Fin 32) = n := Fin.ext (by show 2 * t.val + n.val % 2 = n.val; omega)
  rw [hnj] at key
  exact key

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => transpose Cert.KernelIdeal.S32x128x56x56 [0, 3, 1, 2] (Cert.KernelIdeal.Block.wholeOut m Cert.KernelIdeal.BlockOut.blockOut c)
        Cert.KernelIdeal.Facts₀.transposes_S32x56x56x128_S32x128x56x56_0_3_1_2, ?_, ?_⟩
  · exact Cert.KernelIdeal.Block.run_value m ρ Cert.KernelIdeal.BlockOut.blockOut Cert.KernelIdeal.BlockOut.pointStore_eq
  · refine (θ_run Cert.ReferenceIdeal.defs _ _).mono (fun r h c => ⟨(h c).1.trans ?_, (h c).2⟩)
      (Cert.ReferenceIdeal.Hand.run_value (F := Ideal) m' ρ')
    funext i
    obtain ⟨n, o, hh, w, rfl⟩ : ∃ (n : Fin 32) (o : Fin 128) (hh w : Fin 56), i = ix4 n o hh w := ⟨i 0, i 1, i 2, i 3, eq_ix4 i⟩
    have hk := kernel_at m c n o hh w
    have hr := Cert.ReferenceIdeal.Hand.reference_at m' c n o hh w
    obtain ⟨a0, a1, a2, a3, a4, a5, a6, a7, a8, a9, a10, a11, a12, a13, a14, a15⟩ := hagree c
    rw [a0, a1, a2, a3, a4, a5, a6, a7, a8, a9, a10, a11, a12, a13, a14, a15] at hr
    exact hr.trans hk.symm

end Cert.Proof

end
-- ==== Proof.lean ====
/-
  A fused residual block against its layer-by-layer reference.

  Both programs compute, for an activation x of 32 images, 64 channels and 56 by 56 positions,
      out = max( bn2(conv3(h1)) + bn_sc(conv1(x)), 0 ),     h1 = max( bn1(conv3(x)), 0 ),
  where conv3 is a 3 by 3 convolution with zero padding 1, conv1 a 1 by 1 convolution, and each bn is the folded
  batch normalisation  y * s + (b - mu * s)  with  s = g / sqrt(v + eps).  The reference runs three small matrix
  kernels over explicit patch matrices (one row per output position, one column per tap and input channel); the
  fused kernel keeps two images at a time on chip, builds the patches by whole-row shifts of a zero-haloed copy,
  contracts the three row taps inside one matrix product and adds the three column taps afterwards, and obtains the
  1 by 1 shortcut from the same product through a weight block that is zero outside the centre row tap.

  What is proved here: each of the three programs runs to the end without fault and leaves its sixteen argument
  arrays as launched (the three frame claims); the ideal reading of the kernel rewrote nothing (the ledger is empty);
  and the value claim: run from memories that agree on the arguments, both ideal programs end holding, at every index
  (image, channel, row, column), the residual block of the module Spec applied to the arguments. The two sides differ
  only in how the convolution's sum over taps and channels is arranged, in terms multiplied by a zero weight, and in
  changes of float format, which are the identity on the extended reals; sums over finite index sets may be
  rearranged there, while products and the outer additions, which may not be regrouped at infinities, are grouped
  alike in both programs. No finiteness of the inputs is used.
-/
import proofs.«173333_g2000300637041083_pallasbulk_292_30_alg».proof.Defs
import proofs.«173333_g2000300637041083_pallasbulk_292_30_alg».proof.Proof.Gen.Kernel
import proofs.«173333_g2000300637041083_pallasbulk_292_30_alg».proof.Proof.Gen.Kernel.Skeleton
import proofs.«173333_g2000300637041083_pallasbulk_292_30_alg».proof.Proof.Gen.Kernel.Launch
import proofs.«173333_g2000300637041083_pallasbulk_292_30_alg».proof.Proof.Gen.Kernel.Points
import proofs.«173333_g2000300637041083_pallasbulk_292_30_alg».proof.Proof.Gen.KernelIdeal
import proofs.«173333_g2000300637041083_pallasbulk_292_30_alg».proof.Proof.Gen.KernelIdeal.Skeleton
import proofs.«173333_g2000300637041083_pallasbulk_292_30_alg».proof.Proof.Gen.KernelIdeal.Launch
import proofs.«173333_g2000300637041083_pallasbulk_292_30_alg».proof.Proof.Gen.KernelIdeal.Points
import proofs.«173333_g2000300637041083_pallasbulk_292_30_alg».proof.Proof.Gen.ReferenceIdeal
import proofs.«173333_g2000300637041083_pallasbulk_292_30_alg».proof.Proof.Gen.ReferenceIdeal.Skeleton
import proofs.«173333_g2000300637041083_pallasbulk_292_30_alg».proof.Proof.Gen.ReferenceIdeal.Launch
import proofs.«173333_g2000300637041083_pallasbulk_292_30_alg».proof.Proof.Gen.ReferenceIdeal.Regions
import proofs.«173333_g2000300637041083_pallasbulk_292_30_alg».proof.Proof.Gen.ReferenceIdeal.Points
import proofs.«173333_g2000300637041083_pallasbulk_292_30_alg».proof.Proof.Gen.Pre_finite_inputs
import proofs.«173333_g2000300637041083_pallasbulk_292_30_alg».proof.Proof.KFrame
import proofs.«173333_g2000300637041083_pallasbulk_292_30_alg».proof.Proof.KIFrame
import proofs.«173333_g2000300637041083_pallasbulk_292_30_alg».proof.Proof.RefFrame
import proofs.«173333_g2000300637041083_pallasbulk_292_30_alg».proof.Proof.Algebraic
import Idealize.ShloMosaic.Adequacy
import Idealize.ShloMosaic.Init

noncomputable section

namespace Cert.Proof

open Idealize.ShloMosaic Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.Block.frame (F := Bits) m ρ

/-- The idealized kernel runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Block.frame (F := Ideal) m ρ

theorem claim : Cert.Claim := ⟨Cert.Kernel.Gen.facts, Cert.KernelIdeal.Gen.facts, Cert.ReferenceIdeal.Gen.facts, Cert.Pre_finite_inputs.Gen.facts,
  frame_k, frame_ki, Cert.ReferenceIdeal.Hand.frame_ri, trivial, algebraic⟩

end Cert.Proof

end
